-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S4x512 : Shape := ⟨2, ![4, 512]⟩
abbrev S2048x512 : Shape := ⟨2, ![2048, 512]⟩
abbrev S512 : Shape := ⟨1, ![512]⟩
abbrev S2x512x512 : Shape := ⟨3, ![2, 512, 512]⟩
abbrev S2x512 : Shape := ⟨2, ![2, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part5 {F : FTy → Type} [FloatOps F] (main_arg18 : FVec F S2x512 .f32) (main_v83 : IVec S_ 1) (main_v84 : FVec F S2x512 .f32) (main_cst_32 : FVec F S_ .f32) : IVec S_ 1 :=
  let main_v85 : FVec F S2x512 .f32 := broadcastInDim S2x512 ![] bcast_S_S2x512 main_cst_32
  let main_v86 : IVec S2x512 1 := cmpf .olt main_v84 main_v85
  let main_c_33 : IVec S_ 1 := constantI S_ 1 1#1
  let main_v87 : IVec S_ 1 := (fun x v => Host.reduce IntOp.andi x v reducesTo_S2x512_S_d0_1 h_S_) main_v86 main_c_33
  let main_v88 : IVec S_ 1 := andi main_v83 main_v87
  let main_v89 : FVec F S2x512 .f32 := Host.absf main_arg18
  let main_cst_34 : FVec F S_ .f32 := constant S_ .f32 0x7F800000#32
  let main_v90 : FVec F S2x512 .f32 := broadcastInDim S2x512 ![] bcast_S_S2x512 main_cst_34
  let main_v91 : IVec S2x512 1 := cmpf .olt main_v89 main_v90
  let main_c_35 : IVec S_ 1 := constantI S_ 1 1#1
  let main_v92 : IVec S_ 1 := (fun x v => Host.reduce IntOp.andi x v reducesTo_S2x512_S_d0_1 h_S_) main_v91 main_c_35
  let main_v93 : IVec S_ 1 := andi main_v88 main_v92
  main_v93

def fn_part4 {F : FTy → Type} [FloatOps F] (main_arg14 : FVec F S2x512 .f32) (main_arg15 : FVec F S2x512x512 .f32) (main_arg16 : FVec F S2x512 .f32) (main_arg17 : FVec F S2x512 .f32) (main_arg18 : FVec F S2x512 .f32) (main_v63 : IVec S_ 1) (main_v67 : IVec S_ 1) : IVec S_ 1 :=
  let main_v68 : IVec S_ 1 := andi main_v63 main_v67
  let main_v69 : FVec F S2x512 .f32 := Host.absf main_arg14
  let main_cst_26 : FVec F S_ .f32 := constant S_ .f32 0x7F800000#32
  let main_v70 : FVec F S2x512 .f32 := broadcastInDim S2x512 ![] bcast_S_S2x512 main_cst_26
  let main_v71 : IVec S2x512 1 := cmpf .olt main_v69 main_v70
  let main_c_27 : IVec S_ 1 := constantI S_ 1 1#1
  let main_v72 : IVec S_ 1 := (fun x v => Host.reduce IntOp.andi x v reducesTo_S2x512_S_d0_1 h_S_) main_v71 main_c_27
  let main_v73 : IVec S_ 1 := andi main_v68 main_v72
  let main_v74 : FVec F S2x512x512 .f32 := Host.absf main_arg15
  let main_cst_28 : FVec F S_ .f32 := constant S_ .f32 0x7F800000#32
  let main_v75 : FVec F S2x512x512 .f32 := broadcastInDim S2x512x512 ![] bcast_S_S2x512x512 main_cst_28
  let main_v76 : IVec S2x512x512 1 := cmpf .olt main_v74 main_v75
  let main_c_29 : IVec S_ 1 := constantI S_ 1 1#1
  let main_v77 : IVec S_ 1 := (fun x v => Host.reduce IntOp.andi x v reducesTo_S2x512x512_S_d0_1_2 h_S_) main_v76 main_c_29
  let main_v78 : IVec S_ 1 := andi main_v73 main_v77
  let main_v79 : FVec F S2x512 .f32 := Host.absf main_arg16
  let main_cst_30 : FVec F S_ .f32 := constant S_ .f32 0x7F800000#32
  let main_v80 : FVec F S2x512 .f32 := broadcastInDim S2x512 ![] bcast_S_S2x512 main_cst_30
  let main_v81 : IVec S2x512 1 := cmpf .olt main_v79 main_v80
  let main_c_31 : IVec S_ 1 := constantI S_ 1 1#1
  let main_v82 : IVec S_ 1 := (fun x v => Host.reduce IntOp.andi x v reducesTo_S2x512_S_d0_1 h_S_) main_v81 main_c_31
  let main_v83 : IVec S_ 1 := andi main_v78 main_v82
  let main_v84 : FVec F S2x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2x512 .f32) (main_arg12 : FVec F S2x512 .f32) (main_arg13 : FVec F S2x512x512 .f32) (main_arg14 : FVec F S2x512 .f32) (main_arg15 : FVec F S2x512x512 .f32) (main_arg16 : FVec F S2x512 .f32) (main_arg17 : FVec F S2x512 .f32) (main_arg18 : FVec F S2x512 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S2x512 .f32 := Host.absf main_arg11
  let main_cst_20 : FVec F S_ .f32 := constant S_ .f32 0x7F800000#32
  let main_v55 : FVec F S2x512 .f32 := broadcastInDim S2x512 ![] bcast_S_S2x512 main_cst_20
  let main_v56 : IVec S2x512 1 := cmpf .olt main_v54 main_v55
  let main_c_21 : IVec S_ 1 := constantI S_ 1 1#1
  let main_v57 : IVec S_ 1 := (fun x v => Host.reduce IntOp.andi x v reducesTo_S2x512_S_d0_1 h_S_) main_v56 main_c_21
  let main_v58 : IVec S_ 1 := andi main_v53 main_v57
  let main_v59 : FVec F S2x512 .f32 := Host.absf main_arg12
  let main_cst_22 : FVec F S_ .f32 := constant S_ .f32 0x7F800000#32
  let main_v60 : FVec F S2x512 .f32 := broadcastInDim S2x512 ![] bcast_S_S2x512 main_cst_22
  let main_v61 : IVec S2x512 1 := cmpf .olt main_v59 main_v60
  let main_c_23 : IVec S_ 1 := constantI S_ 1 1#1
  let main_v62 : IVec S_ 1 := (fun x v => Host.reduce IntOp.andi x v reducesTo_S2x512_S_d0_1 h_S_) main_v61 main_c_23
  let main_v63 : IVec S_ 1 := andi main_v58 main_v62
  let main_v64 : FVec F S2x512x512 .f32 := Host.absf main_arg13
  let main_cst_24 : FVec F S_ .f32 := constant S_ .f32 0x7F800000#32
  let main_v65 : FVec F S2x512x512 .f32 := broadcastInDim S2x512x512 ![] bcast_S_S2x512x512 main_cst_24
  let main_v66 : IVec S2x512x512 1 := cmpf .olt main_v64 main_v65
  let main_c_25 : IVec S_ 1 := constantI S_ 1 1#1
  let main_v67 : IVec S_ 1 := (fun x v => Host.reduce IntOp.andi x v reducesTo_S2x512x512_S_d0_1_2 h_S_) main_v66 main_c_25
  fn_part4 (F := F) main_arg14 main_arg15 main_arg16 main_arg17 main_arg18 main_v63 main_v67

def fn_part2 {F : FTy → Type} [FloatOps F] (main_arg7 : FVec F S2x512x512 .f32) (main_arg8 : FVec F S2x512 .f32) (main_arg9 : FVec F S2x512x512 .f32) (main_arg10 : FVec F S2x512 .f32) (main_arg11 : FVec F S2x512 .f32) (main_arg12 : FVec F S2x512 .f32) (main_arg13 : FVec F S2x512x512 .f32) (main_arg14 : FVec F S2x512 .f32) (main_arg15 : FVec F S2x512x512 .f32) (main_arg16 : FVec F S2x512 .f32) (main_arg17 : FVec F S2x512 .f32) (main_arg18 : FVec F S2x512 .f32) (main_v33 : IVec S_ 1) : IVec S_ 1 :=
  let main_v34 : FVec F S2x512x512 .f32 := Host.absf main_arg7
  let main_cst_12 : FVec F S_ .f32 := constant S_ .f32 0x7F800000#32
  let main_v35 : FVec F S2x512x512 .f32 := broadcastInDim S2x512x512 ![] bcast_S_S2x512x512 main_cst_12
  let main_v36 : IVec S2x512x512 1 := cmpf .olt main_v34 main_v35
  let main_c_13 : IVec S_ 1 := constantI S_ 1 1#1
  let main_v37 : IVec S_ 1 := (fun x v => Host.reduce IntOp.andi x v reducesTo_S2x512x512_S_d0_1_2 h_S_) main_v36 main_c_13
  let main_v38 : IVec S_ 1 := andi main_v33 main_v37
  let main_v39 : FVec F S2x512 .f32 := Host.absf main_arg8
  let main_cst_14 : FVec F S_ .f32 := constant S_ .f32 0x7F800000#32
  let main_v40 : FVec F S2x512 .f32 := broadcastInDim S2x512 ![] bcast_S_S2x512 main_cst_14
  let main_v41 : IVec S2x512 1 := cmpf .olt main_v39 main_v40
  let main_c_15 : IVec S_ 1 := constantI S_ 1 1#1
  let main_v42 : IVec S_ 1 := (fun x v => Host.reduce IntOp.andi x v reducesTo_S2x512_S_d0_1 h_S_) main_v41 main_c_15
  let main_v43 : IVec S_ 1 := andi main_v38 main_v42
  let main_v44 : FVec F S2x512x512 .f32 := Host.absf main_arg9
  let main_cst_16 : FVec F S_ .f32 := constant S_ .f32 0x7F800000#32
  let main_v45 : FVec F S2x512x512 .f32 := broadcastInDim S2x512x512 ![] bcast_S_S2x512x512 main_cst_16
  let main_v46 : IVec S2x512x512 1 := cmpf .olt main_v44 main_v45
  let main_c_17 : IVec S_ 1 := constantI S_ 1 1#1
  let main_v47 : IVec S_ 1 := (fun x v => Host.reduce IntOp.andi x v reducesTo_S2x512x512_S_d0_1_2 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S2048x512 .f32) (main_arg6 : FVec F S512 .f32) (main_arg7 : FVec F S2x512x512 .f32) (main_arg8 : FVec F S2x512 .f32) (main_arg9 : FVec F S2x512x512 .f32) (main_arg10 : FVec F S2x512 .f32) (main_arg11 : FVec F S2x512 .f32) (main_arg12 : FVec F S2x512 .f32) (main_arg13 : FVec F S2x512x512 .f32) (main_arg14 : FVec F S2x512 .f32) (main_arg15 : FVec F S2x512x512 .f32) (main_arg16 : FVec F S2x512 .f32) (main_arg17 : FVec F S2x512 .f32) (main_arg18 : FVec F S2x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16x2048x512 .f32) (main_arg1 : FVec F S4x512 .f32) (main_arg2 : FVec F S4x512 .f32) (main_arg3 : FVec F S2048x512 .f32) (main_arg4 : FVec F S512 .f32) (main_arg5 : FVec F S2048x512 .f32) (main_arg6 : FVec F S512 .f32) (main_arg7 : FVec F S2x512x512 .f32) (main_arg8 : FVec F S2x512 .f32) (main_arg9 : FVec F S2x512x512 .f32) (main_arg10 : FVec F S2x512 .f32) (main_arg11 : FVec F S2x512 .f32) (main_arg12 : FVec F S2x512 .f32) (main_arg13 : FVec F S2x512x512 .f32) (main_arg14 : FVec F S2x512 .f32) (main_arg15 : FVec F S2x512x512 .f32) (main_arg16 : FVec F S2x512 .f32) (main_arg17 : FVec F S2x512 .f32) (main_arg18 : FVec F S2x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16x2048x512 : Shape := ⟨3, ![16, 2048, 512]⟩
abbrev S4x512 : Shape := ⟨2, ![4, 512]⟩
abbrev S2048x512 : Shape := ⟨2, ![2048, 512]⟩
abbrev S512 : Shape := ⟨1, ![512]⟩
abbrev S2x512x512 : Shape := ⟨3, ![2, 512, 512]⟩
abbrev S2x512 : Shape := ⟨2, ![2, 512]⟩
abbrev S16x4x512 : Shape := ⟨3, ![16, 4, 512]⟩
abbrev S16x2056x512 : Shape := ⟨3, ![16, 2056, 512]⟩
abbrev S1x512 : Shape := ⟨2, ![1, 512]⟩
abbrev S2x2048x16x1024 : Shape := ⟨4, ![2, 2048, 16, 1024]⟩
abbrev S16x2048x1024 : Shape := ⟨3, ![16, 2048, 1024]⟩
abbrev S16x32x512 : Shape := ⟨3, ![16, 32, 512]⟩
abbrev S16x8x512 : Shape := ⟨3, ![16, 8, 512]⟩
abbrev S2x32x16x1024 : Shape := ⟨4, ![2, 32, 16, 1024]⟩
abbrev S16x32x1024 : Shape := ⟨3, ![16, 32, 1024]⟩
abbrev S16x40x512 : Shape := ⟨3, ![16, 40, 512]⟩
abbrev S512x512 : Shape := ⟨2, ![512, 512]⟩
abbrev S512x1 : Shape := ⟨2, ![512, 1]⟩
abbrev S1x512x512 : Shape := ⟨3, ![1, 512, 512]⟩
abbrev S32x16x512 : Shape := ⟨3, ![32, 16, 512]⟩
abbrev S32x16x1024 : Shape := ⟨3, ![32, 16, 1024]⟩
abbrev S1x32x16x1024 : Shape := ⟨4, ![1, 32, 16, 1024]⟩

abbrev nBuf : Space → Nat
  | .hbm => 32
  | .vmem => 24
  | .smem => 0
  | _ => 0

abbrev bufTy : (tb : Table) → Fin (tcTables nBuf tb) → BufTy
  | .hbm, ⟨0, _⟩ => ⟨S16x2048x512, .f32⟩
  | .hbm, ⟨1, _⟩ => ⟨S4x512, .f32⟩
  | .hbm, ⟨2, _⟩ => ⟨S4x512, .f32⟩
  | .hbm, ⟨3, _⟩ => ⟨S2048x512, .f32⟩
  | .hbm, ⟨4, _⟩ => ⟨S512, .f32⟩
  | .hbm, ⟨5, _⟩ => ⟨S2048x512, .f32⟩
  | .hbm, ⟨6, _⟩ => ⟨S512, .f32⟩
  | .hbm, ⟨7, _⟩ => ⟨S2x512x512, .f32⟩
  | .hbm, ⟨8, _⟩ => ⟨S2x512, .f32⟩
  | .hbm, ⟨9, _⟩ => ⟨S2x512x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S2x512x512, .f32⟩
  | .hbm, ⟨14, _⟩ => ⟨S2x512, .f32⟩
  | .hbm, ⟨15, _⟩ => ⟨S2x512x512, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S16x4x512, .f32⟩
  | .hbm, ⟨20, _⟩ => ⟨S16x4x512, .f32⟩
  | .hbm, ⟨21, _⟩ => ⟨S16x2056x512, .f32⟩
  | .hbm, ⟨22, _⟩ => ⟨S1x512, .f32⟩
  | .hbm, ⟨23, _⟩ => ⟨S1x512, .f32⟩
  | .hbm, ⟨24, _⟩ => ⟨S2048x512, .bf16⟩
  | .hbm, ⟨25, _⟩ => ⟨S2048x512, .bf16⟩
  | .hbm, ⟨26, _⟩ => ⟨S2x512x512, .bf16⟩
  | .hbm, ⟨27, _⟩ => ⟨S2x512x512, .bf16⟩
  | .hbm, ⟨28, _⟩ => ⟨S2x512x512, .bf16⟩
  | .hbm, ⟨29, _⟩ => ⟨S2x512x512, .bf16⟩
  | .hbm, ⟨30, _⟩ => ⟨S2x2048x16x1024, .f32⟩
  | .hbm, ⟨31, _⟩ => ⟨S16x2048x1024, .f32⟩
  | .local _ .vmem, ⟨0, _⟩ => ⟨S16x32x512, .f32⟩
  | .local _ .vmem, ⟨1, _⟩ => ⟨S16x32x512, .f32⟩
  | .local _ .vmem, ⟨2, _⟩ => ⟨S16x8x512, .f32⟩
  | .local _ .vmem, ⟨3, _⟩ => ⟨S16x8x512, .f32⟩
  | .local _ .vmem, ⟨4, _⟩ => ⟨S2048x512, .bf16⟩
  | .local _ .vmem, ⟨5, _⟩ => ⟨S1x512, .f32⟩
  | .local _ .vmem, ⟨6, _⟩ => ⟨S2048x512, .bf16⟩
  | .local _ .vmem, ⟨7, _⟩ => ⟨S1x512, .f32⟩
  | .local _ .vmem, ⟨8, _⟩ => ⟨S2x512x512, .bf16⟩
  | .local _ .vmem, ⟨9, _⟩ => ⟨S2x512, .f32⟩
  | .local _ .vmem, ⟨10, _⟩ => ⟨S2x512x512, .bf16⟩
  | .local _ .vmem, ⟨11, _⟩ => ⟨S2x512, .f32⟩
  | .local _ .vmem, ⟨12, _⟩ => ⟨S2x512, .f32⟩
  | .local _ .vmem, ⟨13, _⟩ => ⟨S2x512, .f32⟩
  | .local _ .vmem, ⟨14, _⟩ => ⟨S2x512x512, .bf16⟩
  | .local _ .vmem, ⟨15, _⟩ => ⟨S2x512, .f32⟩
  | .local _ .vmem, ⟨16, _⟩ => ⟨S2x512x512, .bf16⟩
  | .local _ .vmem, ⟨17, _⟩ => ⟨S2x512, .f32⟩
  | .local _ .vmem, ⟨18, _⟩ => ⟨S2x512, .f32⟩
  | .local _ .vmem, ⟨19, _⟩ => ⟨S2x512, .f32⟩
  | .local _ .vmem, ⟨20, _⟩ => ⟨S2x32x16x1024, .f32⟩
  | .local _ .vmem, ⟨21, _⟩ => ⟨S2x32x16x1024, .f32⟩
  | .local _ .vmem, ⟨22, _⟩ => ⟨S16x32x1024, .f32⟩
  | .local _ .vmem, ⟨23, _⟩ => ⟨S16x32x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x32x16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S4x512_S16x4x512_1_2 : S4x512.BroadcastsInDim S16x4x512 (![1, 2] : Fin 2 → Fin S16x4x512.rank)
  concatenates_S16x4x512_S16x2048x512_S16x4x512_S16x2056x512_d1 : Shape.Concatenates [S16x4x512, S16x2048x512, S16x4x512] S16x2056x512 1
  shapeCasts_S512_S1x512 : S512.ShapeCasts S1x512
  bitsLt_bf16_f32 : FTy.bits .bf16 < FTy.bits .f32
  inb_S16x32x512_S16x32x512_0_0_0 : ∀ a, (![0, 0, 0] : Fin 3 → Nat) a + S16x32x512.size a ≤ S16x32x512.size a
  h_S16x32x512 : 0 < S16x32x512.numel
  shapeCasts_S16x32x512_S16x32x512 : S16x32x512.ShapeCasts S16x32x512
  inb_S16x8x512_S16x8x512_0_0_0 : ∀ a, (![0, 0, 0] : Fin 3 → Nat) a + S16x8x512.size a ≤ S16x8x512.size a
  h_S16x8x512 : 0 < S16x8x512.numel
  shapeCasts_S16x8x512_S16x8x512 : S16x8x512.ShapeCasts S16x8x512
  concatenates_S16x32x512_S16x8x512_S16x40x512_d1 : Shape.Concatenates [S16x32x512, S16x8x512] S16x40x512 1
  slices_S16x40x512_o0_0_0_S16x32x512 : S16x40x512.Slices ![0, 0, 0] S16x32x512
  shapeCasts_S16x32x512_S512x512 : S16x32x512.ShapeCasts S512x512
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  slices_S16x40x512_o0_1_0_S16x32x512 : S16x40x512.Slices ![0, 1, 0] S16x32x512
  inb_S2048x512_S512x512_512_0 : ∀ a, (![512, 0] : Fin 2 → Nat) a + S512x512.size a ≤ S2048x512.size a
  slices_S16x40x512_o0_2_0_S16x32x512 : S16x40x512.Slices ![0, 2, 0] S16x32x512
  inb_S2048x512_S512x512_1024_0 : ∀ a, (![1024, 0] : Fin 2 → Nat) a + S512x512.size a ≤ S2048x512.size a
  slices_S16x40x512_o0_3_0_S16x32x512 : S16x40x512.Slices ![0, 3, 0] S16x32x512
  inb_S2048x512_S512x512_1536_0 : ∀ a, (![1536, 0] : Fin 2 → Nat) a + S512x512.size a ≤ S2048x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S16x40x512_o0_5_0_S16x32x512 : S16x40x512.Slices ![0, 5, 0] S16x32x512
  slices_S16x40x512_o0_6_0_S16x32x512 : S16x40x512.Slices ![0, 6, 0] S16x32x512
  slices_S16x40x512_o0_7_0_S16x32x512 : S16x40x512.Slices ![0, 7, 0] S16x32x512
  slices_S16x40x512_o0_8_0_S16x32x512 : S16x40x512.Slices ![0, 8, 0] S16x32x512
  inb_S2x512_S1x512_0_0 : ∀ a, (![0, 0] : Fin 2 → Nat) a + S1x512.size a ≤ S2x512.size a
  shapeCasts_S1x512_S512 : S1x512.ShapeCasts S512
  reduces_S512x512_S512 : S512x512.Reduces [1] S512
  shapeCasts_S512_S512x1 : S512.ShapeCasts S512x1
  broadcasts_S512x1_S512x512 : S512x1.Broadcasts S512x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  shapeCasts_S512x512_S16x32x512 : S512x512.ShapeCasts S16x32x512
  transposes_S16x32x512_p1_0_2_S32x16x512 : S16x32x512.Transposes [1, 0, 2] S32x16x512
  concatenates_S32x16x512_S32x16x512_S32x16x1024_d2 : Shape.Concatenates [S32x16x512, S32x16x512] S32x16x1024 2
  inb_S2x32x16x1024_S1x32x16x1024_0_0_0_0 : ∀ a, (![0, 0, 0, 0] : Fin 4 → Nat) a + S1x32x16x1024.size a ≤ S2x32x16x1024.size a
  h_S1x32x16x1024 : 0 < S1x32x16x1024.numel
  shapeCasts_S1x32x16x1024_S32x16x1024 : S1x32x16x1024.ShapeCasts S32x16x1024
  shapeCasts_S32x16x1024_S1x32x16x1024 : S32x16x1024.ShapeCasts S1x32x16x1024
  inb_S2x512_S1x512_1_0 : ∀ a, (![1, 0] : Fin 2 → Nat) a + S1x512.size a ≤ S2x512.size a
  inb_S2x512x512_S1x512x512_1_0_0 : ∀ a, (![1, 0, 0] : Fin 3 → Nat) a + S1x512x512.size a ≤ S2x512x512.size a
  concatenates_S16x32x512_S16x32x512_S16x32x1024_d2 : Shape.Concatenates [S16x32x512, S16x32x512] S16x32x1024 2
  inb_S16x32x1024_S16x32x1024_0_0_0 : ∀ a, (![0, 0, 0] : Fin 3 → Nat) a + S16x32x1024.size a ≤ S16x32x1024.size a
  h_S16x32x1024 : 0 < S16x32x1024.numel
  inb_S2x32x16x1024_S1x32x16x1024_1_0_0_0 : ∀ a, (![1, 0, 0, 0] : Fin 4 → Nat) a + S1x32x16x1024.size a ≤ S2x32x16x1024.size a
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x32x512.size a < S16x2056x512.size a
  hwx0_0 : ∀ i : grid0.Coords, EltTy.bits .f32 = 32 ∨ (Rect.unit (s := S16x2056x512) (fun a => cc0_transform_0 i a * S16x32x512.size a) (fun a => (Pipeline.Clip.of (cc0_transform_0 i a) (S16x32x512.size a) (S16x2056x512.size a)).extent (S16x32x512.size a)) fun a => Pipeline.Clip.inb (Pipeline.Clip.ok_of (hstart0_0 i a))).WholeWords (EltTy.packing .f32)
  hwxs0_0 : ∀ i : grid0.Coords, EltTy.bits .f32 = 32 ∨ (Rect.unit (s := S16x32x512) (fun _ => 0) (fun a => (Pipeline.Clip.of (cc0_transform_0 i a) (S16x32x512.size a) (S16x2056x512.size a)).extent (S16x32x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x512.size a ≤ S16x2056x512.size a
  hwx0_1 : ∀ i : grid0.Coords, EltTy.bits .f32 = 32 ∨ (Rect.block (s := S16x2056x512) S16x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x512x512.size a ≤ S2x512x512.size a
  hwx0_6 : ∀ i : grid0.Coords, EltTy.bits .bf16 = 32 ∨ (Rect.block (s := S2x512x512) S2x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x512.size a ≤ S2x512.size a
  hwx0_7 : ∀ i : grid0.Coords, EltTy.bits .f32 = 32 ∨ (Rect.block (s := S2x512) S2x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x512x512.size a ≤ S2x512x512.size a
  hwx0_8 : ∀ i : grid0.Coords, EltTy.bits .bf16 = 32 ∨ (Rect.block (s := S2x512x512) S2x512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x512.size a ≤ S2x512.size a
  hwx0_9 : ∀ i : grid0.Coords, EltTy.bits .f32 = 32 ∨ (Rect.block (s := S2x512) S2x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x512.size a ≤ S2x512.size a
  hwx0_10 : ∀ i : grid0.Coords, EltTy.bits .f32 = 32 ∨ (Rect.block (s := S2x512) S2x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x512.size a ≤ S2x512.size a
  hwx0_11 : ∀ i : grid0.Coords, EltTy.bits .f32 = 32 ∨ (Rect.block (s := S2x512) S2x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x512x512.size a ≤ S2x512x512.size a
  hwx0_12 : ∀ i : grid0.Coords, EltTy.bits .bf16 = 32 ∨ (Rect.block (s := S2x512x512) S2x512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x512.size a ≤ S2x512.size a
  hwx0_13 : ∀ i : grid0.Coords, EltTy.bits .f32 = 32 ∨ (Rect.block (s := S2x512) S2x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x512x512.size a ≤ S2x512x512.size a
  hwx0_14 : ∀ i : grid0.Coords, EltTy.bits .bf16 = 32 ∨ (Rect.block (s := S2x512x512) S2x512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x512.size a ≤ S2x512.size a
  hwx0_15 : ∀ i : grid0.Coords, EltTy.bits .f32 = 32 ∨ (Rect.block (s := S2x512) S2x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2x512.size a ≤ S2x512.size a
  hwx0_16 : ∀ i : grid0.Coords, EltTy.bits .f32 = 32 ∨ (Rect.block (s := S2x512) S2x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2x512.size a ≤ S2x512.size a
  hwx0_17 : ∀ i : grid0.Coords, EltTy.bits .f32 = 32 ∨ (Rect.block (s := S2x512) S2x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x32x16x1024.size a ≤ S2x2048x16x1024.size a
  hwx0_18 : ∀ i : grid0.Coords, EltTy.bits .f32 = 32 ∨ (Rect.block (s := S2x2048x16x1024) S2x32x16x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S16x32x1024.size a ≤ S16x2048x1024.size a
  hwx0_19 : ∀ i : grid0.Coords, EltTy.bits .f32 = 32 ∨ (Rect.block (s := S16x2048x1024) S16x32x1024.size (cc0_transform_19 i) (hinb0_19 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpecClip (Memref.whole main_v2) S16x32x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S16x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2x512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S2x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S2x512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S2x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S2x512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S2x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S2x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S2x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11_0) S2x32x16x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v11_1) S16x32x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S4x512 : Shape := ⟨2, ![4, 512]⟩
abbrev S2048x512 : Shape := ⟨2, ![2048, 512]⟩
abbrev S512 : Shape := ⟨1, ![512]⟩
abbrev S2x512x512 : Shape := ⟨3, ![2, 512, 512]⟩
abbrev S2x512 : Shape := ⟨2, ![2, 512]⟩
abbrev S16x4x512 : Shape := ⟨3, ![16, 4, 512]⟩
abbrev S16x2056x512 : Shape := ⟨3, ![16, 2056, 512]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S_ : Shape := ⟨0, ![]⟩
abbrev S2048x4x1 : Shape := ⟨3, ![2048, 4, 1]⟩
abbrev S16x2048x4x512 : Shape := ⟨4, ![16, 2048, 4, 512]⟩
abbrev S16x2048x2048 : Shape := ⟨3, ![16, 2048, 2048]⟩
abbrev S1x1x512 : Shape := ⟨3, ![1, 1, 512]⟩
abbrev S1x512 : Shape := ⟨2, ![1, 512]⟩
abbrev S16x2048 : Shape := ⟨2, ![16, 2048]⟩
abbrev S16x2048x1 : Shape := ⟨3, ![16, 2048, 1]⟩
abbrev S1x512x512 : Shape := ⟨3, ![1, 512, 512]⟩
abbrev S512x512 : Shape := ⟨2, ![512, 512]⟩
abbrev S16x2048x1024 : Shape := ⟨3, ![16, 2048, 1024]⟩
abbrev S1x16x2048x1024 : Shape := ⟨4, ![1, 16, 2048, 1024]⟩
abbrev S2x16x2048x1024 : Shape := ⟨4, ![2, 16, 2048, 1024]⟩
abbrev S2x2048x16x1024 : Shape := ⟨4, ![2, 2048, 16, 1024]⟩

abbrev nBuf : Space → Nat
  | .hbm => 287
  | .vmem => 0
  | .smem => 0
  | _ => 0

abbrev hbmTy0_0 (i : Nat) : BufTy := match i % 128 with
  | 0 => ⟨S16x2048x512, .f32⟩
  | 1 => ⟨S4x512, .f32⟩
  | 2 => ⟨S4x512, .f32⟩
  | 3 => ⟨S2048x512, .f32⟩
  | 4 => ⟨S512, .f32⟩
  | 5 => ⟨S2048x512, .f32⟩
  | 6 => ⟨S512, .f32⟩
  | 7 => ⟨S2x512x512, .f32⟩
  | 8 => ⟨S2x512, .f32⟩
  | 9 => ⟨S2x512x512, .f32⟩
  | 10 => ⟨S2x512, .f32⟩
  | 11 => ⟨S2x512, .f32⟩
  | 12 => ⟨S2x512, .f32⟩
  | 13 => ⟨S2x512x512, .f32⟩
  | 14 => ⟨S2x512, .f32⟩
  | 15 => ⟨S2x512x512, .f32⟩
  | 16 => ⟨S2x512, .f32⟩
  | 17 => ⟨S2x512, .f32⟩
  | 18 => ⟨S2x512, .f32⟩
  | 19 => ⟨S16x4x512, .f32⟩
  | 20 => ⟨S16x4x512, .f32⟩
  | 21 => ⟨S16x2056x512, .f32⟩
  | 22 => ⟨S2048, .i32⟩
  | 23 => ⟨S2048x1, .i32⟩
  | 24 => ⟨S4, .i32⟩
  | 25 => ⟨S1x4, .i32⟩
  | 26 => ⟨S2048x4, .i32⟩
  | 27 => ⟨S2048x4, .i32⟩
  | 28 => ⟨S2048x4, .i32⟩
  | 29 => ⟨S_, .i32⟩
  | 30 => ⟨S2048x4, .i32⟩
  | 31 => ⟨S2048x4, .i1⟩
  | 32 => ⟨S_, .i32⟩
  | 33 => ⟨S2048x4, .i32⟩
  | 34 => ⟨S2048x4, .i32⟩
  | 35 => ⟨S2048x4, .i32⟩
  | 36 => ⟨S2048x4x1, .i32⟩
  | 37 => ⟨S16x2048x4x512, .f32⟩
  | 38 => ⟨S16x2048x2048, .f32⟩
  | 39 => ⟨S_, .i32⟩
  | 40 => ⟨S2048x1, .i32⟩
  | 41 => ⟨S2048x1, .i32⟩
  | 42 => ⟨S2048x4, .i32⟩
  | 43 => ⟨S2048x4, .i32⟩
  | 44 => ⟨S2048x4, .i32⟩
  | 45 => ⟨S_, .i32⟩
  | 46 => ⟨S2048x4, .i32⟩
  | 47 => ⟨S2048x4, .i1⟩
  | 48 => ⟨S_, .i32⟩
  | 49 => ⟨S2048x4, .i32⟩
  | 50 => ⟨S2048x4, .i32⟩
  | 51 => ⟨S2048x4, .i32⟩
  | 52 => ⟨S2048x4x1, .i32⟩
  | 53 => ⟨S16x2048x4x512, .f32⟩
  | 54 => ⟨S16x2048x2048, .f32⟩
  | 55 => ⟨S16x2048x512, .f32⟩
  | 56 => ⟨S1x1x512, .f32⟩
  | 57 => ⟨S16x2048x512, .f32⟩
  | 58 => ⟨S16x2048x512, .f32⟩
  | 59 => ⟨S_, .f32⟩
  | 60 => ⟨S16x2048x512, .f32⟩
  | 61 => ⟨S16x2048x512, .f32⟩
  | 62 => ⟨S16x2048x512, .f32⟩
  | 63 => ⟨S1x1x512, .f32⟩
  | 64 => ⟨S16x2048x512, .f32⟩
  | 65 => ⟨S16x2048x512, .f32⟩
  | 66 => ⟨S_, .f32⟩
  | 67 => ⟨S16x2048x512, .f32⟩
  | 68 => ⟨S16x2048x512, .f32⟩
  | 69 => ⟨S1x512, .f32⟩
  | 70 => ⟨S512, .f32⟩
  | 71 => ⟨S1x512, .f32⟩
  | 72 => ⟨S512, .f32⟩
  | 73 => ⟨S_, .f32⟩
  | 74 => ⟨S16x2048, .f32⟩
  | 75 => ⟨S16x2048x1, .f32⟩
  | 76 => ⟨S_, .f32⟩
  | 77 => ⟨S16x2048x1, .f32⟩
  | 78 => ⟨S16x2048x1, .f32⟩
  | 79 => ⟨S16x2048x512, .f32⟩
  | 80 => ⟨S16x2048x512, .f32⟩
  | 81 => ⟨S16x2048x512, .f32⟩
  | 82 => ⟨S_, .f32⟩
  | 83 => ⟨S16x2048, .f32⟩
  | 84 => ⟨S16x2048x1, .f32⟩
  | 85 => ⟨S_, .f32⟩
  | 86 => ⟨S16x2048x1, .f32⟩
  | 87 => ⟨S16x2048x1, .f32⟩
  | 88 => ⟨S16x2048x512, .f32⟩
  | 89 => ⟨S16x2048x512, .f32⟩
  | 90 => ⟨S1x1x512, .f32⟩
  | 91 => ⟨S16x2048x512, .f32⟩
  | 92 => ⟨S16x2048x512, .f32⟩
  | 93 => ⟨S_, .f32⟩
  | 94 => ⟨S16x2048x1, .f32⟩
  | 95 => ⟨S16x2048x1, .f32⟩
  | 96 => ⟨S16x2048x1, .f32⟩
  | 97 => ⟨S16x2048x512, .f32⟩
  | 98 => ⟨S16x2048x512, .f32⟩
  | 99 => ⟨S1x1x512, .f32⟩
  | 100 => ⟨S16x2048x512, .f32⟩
  | 101 => ⟨S16x2048x512, .f32⟩
  | 102 => ⟨S1x512x512, .f32⟩
  | 103 => ⟨S512x512, .f32⟩
  | 104 => ⟨S16x2048x512, .f32⟩
  | 105 => ⟨S1x512, .f32⟩
  | 106 => ⟨S512, .f32⟩
  | 107 => ⟨S1x1x512, .f32⟩
  | 108 => ⟨S16x2048x512, .f32⟩
  | 109 => ⟨S16x2048x512, .f32⟩
  | 110 => ⟨S_, .f32⟩
  | 111 => ⟨S16x2048x512, .f32⟩
  | 112 => ⟨S16x2048x512, .f32⟩
  | 113 => ⟨S1x512x512, .f32⟩
  | 114 => ⟨S512x512, .f32⟩
  | 115 => ⟨S16x2048x512, .f32⟩
  | 116 => ⟨S16x2048x512, .f32⟩
  | 117 => ⟨S1x512, .f32⟩
  | 118 => ⟨S512, .f32⟩
  | 119 => ⟨S1x1x512, .f32⟩
  | 120 => ⟨S16x2048x512, .f32⟩
  | 121 => ⟨S16x2048x512, .f32⟩
  | 122 => ⟨S1x512, .f32⟩
  | 123 => ⟨S512, .f32⟩
  | 124 => ⟨S1x512, .f32⟩
  | 125 => ⟨S512, .f32⟩
  | 126 => ⟨S_, .f32⟩
  | 127 => ⟨S16x2048, .f32⟩
  | _ => ⟨S16x2048x512, .f32⟩

abbrev hbmTy0_1 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x512, .f32⟩
  | 5 => ⟨S16x2048x512, .f32⟩
  | 6 => ⟨S16x2048x512, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S16x2048x512, .f32⟩
  | 14 => ⟨S16x2048x512, .f32⟩
  | 15 => ⟨S1x1x512, .f32⟩
  | 16 => ⟨S16x2048x512, .f32⟩
  | 17 => ⟨S16x2048x512, .f32⟩
  | 18 => ⟨S_, .f32⟩
  | 19 => ⟨S16x2048x1, .f32⟩
  | 20 => ⟨S16x2048x1, .f32⟩
  | 21 => ⟨S16x2048x1, .f32⟩
  | 22 => ⟨S16x2048x512, .f32⟩
  | 23 => ⟨S16x2048x512, .f32⟩
  | 24 => ⟨S1x1x512, .f32⟩
  | 25 => ⟨S16x2048x512, .f32⟩
  | 26 => ⟨S16x2048x512, .f32⟩
  | 27 => ⟨S1x512x512, .f32⟩
  | 28 => ⟨S512x512, .f32⟩
  | 29 => ⟨S16x2048x512, .f32⟩
  | 30 => ⟨S1x512, .f32⟩
  | 31 => ⟨S512, .f32⟩
  | 32 => ⟨S1x1x512, .f32⟩
  | 33 => ⟨S16x2048x512, .f32⟩
  | 34 => ⟨S16x2048x512, .f32⟩
  | 35 => ⟨S_, .f32⟩
  | 36 => ⟨S16x2048x512, .f32⟩
  | 37 => ⟨S16x2048x512, .f32⟩
  | 38 => ⟨S1x512x512, .f32⟩
  | 39 => ⟨S512x512, .f32⟩
  | 40 => ⟨S16x2048x512, .f32⟩
  | 41 => ⟨S16x2048x512, .f32⟩
  | 42 => ⟨S1x512, .f32⟩
  | 43 => ⟨S512, .f32⟩
  | 44 => ⟨S1x1x512, .f32⟩
  | 45 => ⟨S16x2048x512, .f32⟩
  | 46 => ⟨S16x2048x512, .f32⟩
  | 47 => ⟨S16x2048x1024, .f32⟩
  | 48 => ⟨S1x512, .f32⟩
  | 49 => ⟨S512, .f32⟩
  | 50 => ⟨S1x512, .f32⟩
  | 51 => ⟨S512, .f32⟩
  | 52 => ⟨S_, .f32⟩
  | 53 => ⟨S16x2048, .f32⟩
  | 54 => ⟨S16x2048x1, .f32⟩
  | 55 => ⟨S_, .f32⟩
  | 56 => ⟨S16x2048x1, .f32⟩
  | 57 => ⟨S16x2048x1, .f32⟩
  | 58 => ⟨S16x2048x512, .f32⟩
  | 59 => ⟨S16x2048x512, .f32⟩
  | 60 => ⟨S16x2048x512, .f32⟩
  | 61 => ⟨S_, .f32⟩
  | 62 => ⟨S16x2048, .f32⟩
  | 63 => ⟨S16x2048x1, .f32⟩
  | 64 => ⟨S_, .f32⟩
  | 65 => ⟨S16x2048x1, .f32⟩
  | 66 => ⟨S16x2048x1, .f32⟩
  | 67 => ⟨S16x2048x512, .f32⟩
  | 68 => ⟨S16x2048x512, .f32⟩
  | 69 => ⟨S1x1x512, .f32⟩
  | 70 => ⟨S16x2048x512, .f32⟩
  | 71 => ⟨S16x2048x512, .f32⟩
  | 72 => ⟨S_, .f32⟩
  | 73 => ⟨S16x2048x1, .f32⟩
  | 74 => ⟨S16x2048x1, .f32⟩
  | 75 => ⟨S16x2048x1, .f32⟩
  | 76 => ⟨S16x2048x512, .f32⟩
  | 77 => ⟨S16x2048x512, .f32⟩
  | 78 => ⟨S1x1x512, .f32⟩
  | 79 => ⟨S16x2048x512, .f32⟩
  | 80 => ⟨S16x2048x512, .f32⟩
  | 81 => ⟨S1x512x512, .f32⟩
  | 82 => ⟨S512x512, .f32⟩
  | 83 => ⟨S16x2048x512, .f32⟩
  | 84 => ⟨S1x512, .f32⟩
  | 85 => ⟨S512, .f32⟩
  | 86 => ⟨S1x1x512, .f32⟩
  | 87 => ⟨S16x2048x512, .f32⟩
  | 88 => ⟨S16x2048x512, .f32⟩
  | 89 => ⟨S_, .f32⟩
  | 90 => ⟨S16x2048x512, .f32⟩
  | 91 => ⟨S16x2048x512, .f32⟩
  | 92 => ⟨S1x512x512, .f32⟩
  | 93 => ⟨S512x512, .f32⟩
  | 94 => ⟨S16x2048x512, .f32⟩
  | 95 => ⟨S16x2048x512, .f32⟩
  | 96 => ⟨S1x512, .f32⟩
  | 97 => ⟨S512, .f32⟩
  | 98 => ⟨S1x1x512, .f32⟩
  | 99 => ⟨S16x2048x512, .f32⟩
  | 100 => ⟨S16x2048x512, .f32⟩
  | 101 => ⟨S1x512, .f32⟩
  | 102 => ⟨S512, .f32⟩
  | 103 => ⟨S1x512, .f32⟩
  | 104 => ⟨S512, .f32⟩
  | 105 => ⟨S_, .f32⟩
  | 106 => ⟨S16x2048, .f32⟩
  | 107 => ⟨S16x2048x1, .f32⟩
  | 108 => ⟨S_, .f32⟩
  | 109 => ⟨S16x2048x1, .f32⟩
  | 110 => ⟨S16x2048x1, .f32⟩
  | 111 => ⟨S16x2048x512, .f32⟩
  | 112 => ⟨S16x2048x512, .f32⟩
  | 113 => ⟨S16x2048x512, .f32⟩
  | 114 => ⟨S_, .f32⟩
  | 115 => ⟨S16x2048, .f32⟩
  | 116 => ⟨S16x2048x1, .f32⟩
  | 117 => ⟨S_, .f32⟩
  | 118 => ⟨S16x2048x1, .f32⟩
  | 119 => ⟨S16x2048x1, .f32⟩
  | 120 => ⟨S16x2048x512, .f32⟩
  | 121 => ⟨S16x2048x512, .f32⟩
  | 122 => ⟨S1x1x512, .f32⟩
  | 123 => ⟨S16x2048x512, .f32⟩
  | 124 => ⟨S16x2048x512, .f32⟩
  | 125 => ⟨S_, .f32⟩
  | 126 => ⟨S16x2048x1, .f32⟩
  | 127 => ⟨S16x2048x1, .f32⟩
  | _ => ⟨S16x2048x512, .f32⟩

abbrev hbmTy0_2 (i : Nat) : BufTy := match i % 128 with
  | 0 => ⟨S16x2048x1, .f32⟩
  | 1 => ⟨S16x2048x512, .f32⟩
  | 2 => ⟨S16x2048x512, .f32⟩
  | 3 => ⟨S1x1x512, .f32⟩
  | 4 => ⟨S16x2048x512, .f32⟩
  | 5 => ⟨S16x2048x512, .f32⟩
  | 6 => ⟨S1x512x512, .f32⟩
  | 7 => ⟨S512x512, .f32⟩
  | 8 => ⟨S16x2048x512, .f32⟩
  | 9 => ⟨S1x512, .f32⟩
  | 10 => ⟨S512, .f32⟩
  | 11 => ⟨S1x1x512, .f32⟩
  | 12 => ⟨S16x2048x512, .f32⟩
  | 13 => ⟨S16x2048x512, .f32⟩
  | 14 => ⟨S_, .f32⟩
  | 15 => ⟨S16x2048x512, .f32⟩
  | 16 => ⟨S16x2048x512, .f32⟩
  | 17 => ⟨S1x512x512, .f32⟩
  | 18 => ⟨S512x512, .f32⟩
  | 19 => ⟨S16x2048x512, .f32⟩
  | 20 => ⟨S16x2048x512, .f32⟩
  | 21 => ⟨S1x512, .f32⟩
  | 22 => ⟨S512, .f32⟩
  | 23 => ⟨S1x1x512, .f32⟩
  | 24 => ⟨S16x2048x512, .f32⟩
  | 25 => ⟨S16x2048x512, .f32⟩
  | 26 => ⟨S16x2048x1024, .f32⟩
  | 27 => ⟨S1x16x2048x1024, .f32⟩
  | 28 => ⟨S1x16x2048x1024, .f32⟩
  | 29 => ⟨S2x16x2048x1024, .f32⟩
  | 30 => ⟨S2x2048x16x1024, .f32⟩
  | _ => ⟨S16x2048x512, .f32⟩

abbrev hbmTy (i : Nat) : BufTy := match i / 128 with
  | 0 => hbmTy0_0 i
  | 1 => hbmTy0_1 i
  | 2 => hbmTy0_2 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call0_cst : Ref sig .tc := ⟨.hbm, 59, rfl⟩
abbrev main_call0_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_5 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call2_cst : Ref sig .tc := ⟨.hbm, 110, rfl⟩
abbrev main_call2_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_8 : Ref sig .tc := ⟨.hbm, 126, rfl⟩
abbrev main_v91 : Ref sig .tc := ⟨.hbm, 127, rfl⟩
abbrev main_v92 : Ref sig .tc := ⟨.hbm, 128, rfl⟩
abbrev main_cst_9 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_10 : Ref sig .tc := ⟨.hbm, 135, rfl⟩
abbrev main_v98 : Ref sig .tc := ⟨.hbm, 136, rfl⟩
abbrev main_v99 : Ref sig .tc := ⟨.hbm, 137, rfl⟩
abbrev main_cst_11 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_12 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_call3_cst : Ref sig .tc := ⟨.hbm, 163, rfl⟩
abbrev main_call3_v0 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_13 : Ref sig .tc := ⟨.hbm, 180, rfl⟩
abbrev main_v138 : Ref sig .tc := ⟨.hbm, 181, rfl⟩
abbrev main_v139 : Ref sig .tc := ⟨.hbm, 182, rfl⟩
abbrev main_cst_14 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_15 : Ref sig .tc := ⟨.hbm, 189, rfl⟩
abbrev main_v145 : Ref sig .tc := ⟨.hbm, 190, rfl⟩
abbrev main_v146 : Ref sig .tc := ⟨.hbm, 191, rfl⟩
abbrev main_cst_16 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_17 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_call4_cst : Ref sig .tc := ⟨.hbm, 217, rfl⟩
abbrev main_call4_v0 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_18 : Ref sig .tc := ⟨.hbm, 233, rfl⟩
abbrev main_v184 : Ref sig .tc := ⟨.hbm, 234, rfl⟩
abbrev main_v185 : Ref sig .tc := ⟨.hbm, 235, rfl⟩
abbrev main_cst_19 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_20 : Ref sig .tc := ⟨.hbm, 242, rfl⟩
abbrev main_v191 : Ref sig .tc := ⟨.hbm, 243, rfl⟩
abbrev main_v192 : Ref sig .tc := ⟨.hbm, 244, rfl⟩
abbrev main_cst_21 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_22 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_call5_cst : Ref sig .tc := ⟨.hbm, 270, rfl⟩
abbrev main_call5_v0 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩

abbrev nD : Nat := 1
abbrev τ : Topo := Topo.v7x

variable {F : FTy → Type} [FloatOps F]

class Facts₀ : Prop where
  bcast_S4x512_S16x4x512_1_2 : S4x512.BroadcastsInDim S16x4x512 (![1, 2] : Fin 2 → Fin S16x4x512.rank)
  concatenates_S16x4x512_S16x2048x512_S16x4x512_S16x2056x512_d1 : Shape.Concatenates [S16x4x512, S16x2048x512, S16x4x512] S16x2056x512 1
  bcast_S2048_S2048x1_0 : S2048.BroadcastsInDim S2048x1 (![0] : Fin 1 → Fin S2048x1.rank)
  bcast_S4_S1x4_1 : S4.BroadcastsInDim S1x4 (![1] : Fin 1 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  shapeCasts_S16x2048x4x512_S16x2048x2048 : S16x2048x4x512.ShapeCasts S16x2048x2048
  bcast_S_S2048x1 : S_.BroadcastsInDim S2048x1 (![] : Fin 0 → Fin S2048x1.rank)
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  slices_S2x512_S1x512_0_0 : S2x512.Slices ![0, 0] S1x512
  shapeCasts_S1x512_S512 : S1x512.ShapeCasts S512
  reducesTo_S16x2048x512_S16x2048_d2 : S16x2048x512.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x512_0_1_2 : S16x2048x1.BroadcastsInDim S16x2048x512 (![0, 1, 2] : Fin 3 → Fin S16x2048x512.rank)
  slices_S2x512x512_S1x512x512_0_0_0 : S2x512x512.Slices ![0, 0, 0] S1x512x512
  shapeCasts_S1x512x512_S512x512 : S1x512x512.ShapeCasts S512x512
  concatenates_S16x2048x512_S16x2048x512_S16x2048x1024_d2 : Shape.Concatenates [S16x2048x512, S16x2048x512] S16x2048x1024 2
  slices_S2x512_S1x512_1_0 : S2x512.Slices ![1, 0] S1x512
  slices_S2x512x512_S1x512x512_1_0_0 : S2x512x512.Slices ![1, 0, 0] S1x512x512
  bcast_S16x2048x1024_S1x16x2048x1024_1_2_3 : S16x2048x1024.BroadcastsInDim S1x16x2048x1024 (![1, 2, 3] : Fin 3 → Fin S1x16x2048x1024.rank)
  concatenates_S1x16x2048x1024_S1x16x2048x1024_S2x16x2048x1024_d0 : Shape.Concatenates [S1x16x2048x1024, S1x16x2048x1024] S2x16x2048x1024 0
  transposes_S2x16x2048x1024_S2x2048x16x1024_0_2_1_3 : S2x16x2048x1024.Transposes [0, 2, 1, 3] S2x2048x16x1024
  gather_S16x2056x512_S2048x4x1_S16x2048x4x512_03_1_n_n_1_2_161512_wf : GatherDims.WF S16x2056x512 S2048x4x1 S16x2048x4x512 [0, 3] [1] [] [1] [] 2 ![16, 1, 512]
  dot_S16x2048x2048_S2048x512_S16x2048x512_2_0_01_1_n_n_wf : DotDims.WF S16x2048x2048 S2048x512 S16x2048x512 [2] [0] [0, 1] [1] [] []
  dot_S16x2048x512_S512x512_S16x2048x512_2_0_01_1_n_n_wf : DotDims.WF S16x2048x512 S512x512 S16x2048x512 [2] [0] [0, 1] [1] [] []

variable [Facts₀]

def gather_S16x2056x512_S2048x4x1_S16x2048x4x512_03_1_n_n_1_2_161512 : GatherDims S16x2056x512 S2048x4x1 S16x2048x4x512 where
  offsetDims := [0, 3]
  collapsedSliceDims := [1]
  operandBatchingDims := []
  startIndicesBatchingDims := []
  startIndexMap := [1]
  indexVectorDim := 2
  sliceSizes := ![16, 1, 512]
  wf := gather_S16x2056x512_S2048x4x1_S16x2048x4x512_03_1_n_n_1_2_161512_wf
def dot_S16x2048x2048_S2048x512_S16x2048x512_2_0_01_1_n_n : DotDims S16x2048x2048 S2048x512 S16x2048x512 where
  lhsContracting := [2]
  rhsContracting := [0]
  lhsNonContracting := [0, 1]
  rhsNonContracting := [1]
  lhsBatch := []
  rhsBatch := []
  wf := dot_S16x2048x2048_S2048x512_S16x2048x512_2_0_01_1_n_n_wf
def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf

class Facts : Prop extends Facts₀ where

variable [Facts]
-- ==== Proof.BlocksBits.lean ====
/-
  What one grid point computes, as pure terms of its eighteen input blocks.

  The body reads a 32-position block of the padded sequence (all 16 batches) and the 8 positions after it,
  the two projection matrices with their biases, and per tower the two blocks' matrices, biases, gains and
  shifts; it stores three values: the towers after the first block into layer 0 of the first result's block,
  the towers after the second block into layer 1 of it, and the latter again, batch-major, as the second
  result's block.  Each stored value is named here as a function of the input blocks, through the generated
  payload terms, in the order the body computes them.
-/
import proofs.«134143_j43731357007884_2_alg».proof.Proof.Gen.Kernel.Skeleton
import Idealize.ShloMosaic.Lib.Pipeline.FrameBody

noncomputable section

namespace Cert.Kernel.Blocks

open Idealize.ShloMosaic Idealize.SL.Sem Cert.Kernel Cert.Kernel.Gen

variable {F : FTy → Type} [FloatOps F]

/-- The input blocks of one grid point, in the order of the kernel's operands. -/
structure Ins (F : FTy → Type) [FloatOps F] where
  seq : Vec F S16x32x512 .f32
  halo : Vec F S16x8x512 .f32
  wl : Vec F S2048x512 .bf16
  bl : Vec F S1x512 .f32
  wr : Vec F S2048x512 .bf16
  br : Vec F S1x512 .f32
  lw1 : Vec F S2x512x512 .bf16
  lb1 : Vec F S2x512 .f32
  lw2 : Vec F S2x512x512 .bf16
  lb2 : Vec F S2x512 .f32
  lg : Vec F S2x512 .f32
  lbeta : Vec F S2x512 .f32
  rw1 : Vec F S2x512x512 .bf16
  rb1 : Vec F S2x512 .f32
  rw2 : Vec F S2x512x512 .bf16
  rb2 : Vec F S2x512 .f32
  rg : Vec F S2x512 .f32
  rbeta : Vec F S2x512 .f32

/-! ## The rectangles the body loads and stores through -/

abbrev rSeq : Rect S16x32x512 := Rect.unit (s := S16x32x512) ![0, 0, 0] S16x32x512.size inb_S16x32x512_S16x32x512_0_0_0
abbrev rHalo : Rect S16x8x512 := Rect.unit (s := S16x8x512) ![0, 0, 0] S16x8x512.size inb_S16x8x512_S16x8x512_0_0_0
abbrev rBand0 : Rect S2048x512 := Rect.unit (s := S2048x512) ![0, 0] S512x512.size inb_S2048x512_S512x512_0_0
abbrev rBand1 : Rect S2048x512 := Rect.unit (s := S2048x512) ![512, 0] S512x512.size inb_S2048x512_S512x512_512_0
abbrev rBand2 : Rect S2048x512 := Rect.unit (s := S2048x512) ![1024, 0] S512x512.size inb_S2048x512_S512x512_1024_0
abbrev rBand3 : Rect S2048x512 := Rect.unit (s := S2048x512) ![1536, 0] S512x512.size inb_S2048x512_S512x512_1536_0
abbrev rBias : Rect S1x512 := Rect.unit (s := S1x512) ![0, 0] S1x512.size inb_S1x512_S1x512_0_0
abbrev rRow0 : Rect S2x512 := Rect.unit (s := S2x512) ![0, 0] S1x512.size inb_S2x512_S1x512_0_0
abbrev rRow1 : Rect S2x512 := Rect.unit (s := S2x512) ![1, 0] S1x512.size inb_S2x512_S1x512_1_0
abbrev rMat0 : Rect S2x512x512 := Rect.unit (s := S2x512x512) ![0, 0, 0] S1x512x512.size inb_S2x512x512_S1x512x512_0_0_0
abbrev rMat1 : Rect S2x512x512 := Rect.unit (s := S2x512x512) ![1, 0, 0] S1x512x512.size inb_S2x512x512_S1x512x512_1_0_0
abbrev rLayer0 : Rect S2x32x16x1024 := Rect.unit (s := S2x32x16x1024) ![0, 0, 0, 0] S1x32x16x1024.size inb_S2x32x16x1024_S1x32x16x1024_0_0_0_0
abbrev rLayer1 : Rect S2x32x16x1024 := Rect.unit (s := S2x32x16x1024) ![1, 0, 0, 0] S1x32x16x1024.size inb_S2x32x16x1024_S1x32x16x1024_1_0_0_0
abbrev rLast : Rect S16x32x1024 := Rect.unit (s := S16x32x1024) ![0, 0, 0] S16x32x1024.size inb_S16x32x1024_S16x32x1024_0_0_0

/-! ## The values along the body, in its order -/

variable (I : Ins F)

/-- The 40 positions the point reads (block and the 8 after it), in the matrix unit's format. -/
def window : FVec F S16x40x512 .bf16 := k0_pay2 (View.ld I.seq rSeq) (View.ld I.halo rHalo)
/-- The left projection (512 rows: batch-major positions). -/
def left0 : FVec F S512x512 .f32 :=
  k0_pay3 (View.ld I.seq rSeq) (View.ld I.halo rHalo) (View.ld I.wl rBand0) (View.ld I.wl rBand1) (View.ld I.wl rBand2)
    (View.ld I.wl rBand3) (View.ld I.bl rBias)
/-- The right projection. -/
def right0 : FVec F S512x512 .f32 :=
  k0_pay4 (window I) (View.ld I.wr rBand0) (View.ld I.wr rBand1) (View.ld I.wr rBand2) (View.ld I.wr rBand3) (View.ld I.br rBias)
/-- The left tower after its first block. -/
def left1 : FVec F S512x512 .f32 :=
  k0_pay9 (left0 I) (k0_pay5 (View.ld I.lg rRow0)) (k0_pay6 (View.ld I.lbeta rRow0)) (k0_pay7 (left0 I)) (k0_pay8 (F := F))
    (View.ld I.lw1 rMat0) (View.ld I.lb1 rRow0) (View.ld I.lw2 rMat0) (View.ld I.lb2 rRow0)
/-- The zero accumulator the body names. -/
def zeros : FVec F S512x512 .f32 := constant S512x512 .f32 0x00000000#32
/-- The right tower's second matrix of the first block, and its hidden layer. -/
def rMat : FVec F S512x512 .bf16 := k0_pay10 (View.ld I.rw2 rMat0)
def rHidden : FVec F S512x512 .bf16 :=
  k0_pay11 (right0 I) (View.ld I.rg rRow0) (View.ld I.rbeta rRow0) (View.ld I.rw1 rMat0) (View.ld I.rb1 rRow0)
/-- What is stored into layer 0 of the first result's block: both towers after the first block. -/
def layer0 : FVec F S1x32x16x1024 .f32 :=
  k0_pay13 (right0 I) (left1 I) (rMat I) (rHidden I) (zeros (F := F)) (View.ld I.rb2 rRow0)
/-- The right tower after its first block. -/
def right1 : FVec F S512x512 .f32 := k0_pay12 (right0 I) (rMat I) (rHidden I) (zeros (F := F)) (View.ld I.rb2 rRow0)
/-- The left tower's normalised rows of the second block. -/
def leftN : FVec F S512x512 .f32 := k0_pay14 (left1 I) (View.ld I.lg rRow1) (View.ld I.lbeta rRow1)
/-- The left tower after its second block. -/
def left2 : FVec F S512x512 .f32 :=
  k0_pay15 (left1 I) (leftN I) (View.ld I.lw1 rMat1) (View.ld I.lb1 rRow1) (View.ld I.lw2 rMat1) (View.ld I.lb2 rRow1)
/-- The ten values the last two stores are computed from. -/
def lastPay : FVec F S16x32x1024 .f32 :=
  k0_pay23 (right1 I) (left2 I) (k0_pay16 (View.ld I.rbeta rRow1)) (k0_pay18 (right1 I)) (k0_pay19 (right1 I))
    (k0_pay20 (View.ld I.rg rRow1)) (View.ld I.rw1 rMat1) (View.ld I.rb1 rRow1) (View.ld I.rw2 rMat1) (View.ld I.rb2 rRow1)
/-- What is stored into layer 1 of the first result's block. -/
def layer1 : FVec F S1x32x16x1024 .f32 :=
  k0_pay1 (k0_pay24 (right1 I) (left2 I) (k0_pay16 (View.ld I.rbeta rRow1)) (k0_pay18 (right1 I)) (k0_pay19 (right1 I))
    (k0_pay20 (View.ld I.rg rRow1)) (View.ld I.rw1 rMat1) (View.ld I.rb1 rRow1) (View.ld I.rw2 rMat1) (View.ld I.rb2 rRow1))

/-- The first result's block after the body: layer 1 stored last, layer 0 before it. -/
def outAll : Vec F S2x32x16x1024 .f32 := View.canon [⟨rLayer1, layer1 I⟩, ⟨rLayer0, layer0 I⟩]
/-- The second result's block after the body: one whole store. -/
def outLast : Vec F S16x32x1024 .f32 := View.canon [⟨rLast, lastPay I⟩]

end Cert.Kernel.Blocks

end
-- ==== Proof.EntryBits.lean ====
/-
  The region's entry: what each buffer holds when the kernel is launched (the host operations before it have padded
  the sequence, laid the two projection biases as rows and re-formatted the six matrices), that the nineteen
  arguments are untouched by those operations, each window's block at a grid point read off its array, and that an
  input window's staging buffer holds that block at every point, fetched there or not.
-/
import proofs.«134143_j43731357007884_2_alg».proof.Proof.Gen.Kernel.Launch
import proofs.«134143_j43731357007884_2_alg».proof.Proof.Gen.Kernel.Skeleton
import proofs.«134143_j43731357007884_2_alg».proof.Proof.Gen.Kernel.Points
import proofs.«134143_j43731357007884_2_alg».proof.Proof.BlocksBits
import Idealize.ShloMosaic.Lib.Pipeline.FrameBody

set_option maxRecDepth 16384

noncomputable section

namespace Cert.Kernel.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No grid point's block of the sequence window reaches past the array (the last block ends at position 2048 of 2056):
    its transfers are never cut. -/
theorem clip0_none : ∀ t : Fin cfg0.N, ∀ a, (cfg0.win 0).clip (cfg0.grid.coords t) a = none :=
  (by decide +kernel : ∀ t : Fin grid0.N, ∀ a, win0_0.clip (grid0.coords t) a = none)

/-- The sequence window's block at point `t` over the whole staging buffer (the fetch fills all of it). -/
def iblk0 (c : Dev nD) (t : Fin cfg0.N) : S16x32x512.Idx → Elt F .f32 :=
  win0_0.fill (grid0.coords t) (fun _ => Scalar.ofBits .f32 0#32) (iblk m c 0 t)

/-- The eighteen input blocks of point `t`. -/
def ins (c : Dev nD) (t : Fin cfg0.N) : Blocks.Ins F :=
  ⟨iblk0 m c t, iblk m c 1 t, iblk m c 2 t, iblk m c 3 t, iblk m c 4 t, iblk m c 5 t, iblk m c 6 t, iblk m c 7 t, iblk m c 8 t,
   iblk m c 9 t, iblk m c 10 t, iblk m c 11 t, iblk m c 12 t, iblk m c 13 t, iblk m c 14 t, iblk m c 15 t, iblk m c 16 t, iblk m c 17 t⟩

/-- The sequence window's staging buffer holds its block at every point: fetched at every point, never cut. -/
theorem before0_of {c : Dev nD} (dat : Dat τ (Elt F) Unit ℕ (UR sig nD τ) ℕ cfg0 c) (hA : dat.A 0 = V m c (Pipeline.arrRef spec0 0))
    (hafter : ∀ t, dat.after 0 t = iblk0 m c t) (t : Fin cfg0.N) (d) : dat.before 0 t d = iblk0 m c t :=
  (dat.before_in_eq_fetched 0 rfl (fun _ => rfl)
    (fun t t' _ => funext fun a => by rw [clip0_none t a, clip0_none t' a])
    (fun t => by
      rw [hafter]; unfold iblk0
      refine ((cfg0.win 0).cut_fill _ _ _).trans ?_
      unfold Dat.blockOf iblk; rw [hA]) t d).trans
    ((dat.fetched_of_clip_none 0 t (clip0_none t) d _).trans (by unfold Dat.fetched Dat.blockOf iblk0 iblk; rw [hA]))
/-- Input window 1's staging buffer holds its block at every point, for any proof data on the entry arrays that leave it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data on the entry arrays that leave it in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data on the entry arrays that leave it in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data on the entry arrays that leave it in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data on the entry arrays that leave it in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data on the entry arrays that leave it in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data on the entry arrays that leave it in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data on the entry arrays that leave it in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, for any proof data on the entry arrays that leave it in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, for any proof data on the entry arrays that leave it in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, for any proof data on the entry arrays that leave it in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, for any proof data on the entry arrays that leave it in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, for any proof data on the entry arrays that leave it in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, for any proof data on the entry arrays that leave it in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, for any proof data on the entry arrays that leave it in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, for any proof data on the entry arrays that leave it in place. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, for any proof data on the entry arrays that leave it in place. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.BodyBits.lean ====
/-
  The kernel body at one grid point.  From the eighteen input staging buffers held whole at contents `x0 … x17` and
  the two output staging buffers at anything, the body runs to its end, nothing faulting, leaving the inputs as they
  were and the outputs at the blocks computed from the inputs: the first result's block with both layers stored,
  the second result's block stored whole.  (The body also loads from its output buffers; nothing it computes
  depends on what it finds there.)
-/
import proofs.«134143_j43731357007884_2_alg».proof.Proof.Gen.Kernel.Skeleton
import proofs.«134143_j43731357007884_2_alg».proof.Proof.BlocksBits
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The two stores into the first result's block tile it: one per layer. -/
theorem coverAll (p1 p0 : Vec F S1x32x16x1024 .f32) (y : S2x32x16x1024.Idx) :
    ∃ pc ∈ ([⟨Blocks.rLayer1, p1⟩, ⟨Blocks.rLayer0, p0⟩] : List (View.Piece (Elt F) S2x32x16x1024 .f32)), y ∈ pc.1.set :=
  View.cover_of_tiled [⟨Blocks.rLayer1, p1⟩, ⟨Blocks.rLayer0, p0⟩] S1x32x16x1024.size (by rfl) y

/-- The one store into the second result's block covers it. -/
theorem coverLast (p0 : Vec F S16x32x1024 .f32) (y : S16x32x1024.Idx) :
    ∃ pc ∈ ([⟨Blocks.rLast, p0⟩] : List (View.Piece (Elt F) S16x32x1024 .f32)), y ∈ pc.1.set :=
  View.cover_of_tiled [⟨Blocks.rLast, p0⟩] S16x32x1024.size (by rfl) y

set_option maxHeartbeats 4000000 in
/-- The body's triple. -/
theorem sound_kernel (c : Dev nD) (E : Set ℕ) (i : grid0.Coords)
    (arg1 : Memref sig .tc .vmem S16x32x512 .f32) (harg1 : arg1.IsWhole) (arg2 : Memref sig .tc .vmem S16x8x512 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2x512x512 .bf16) (harg7 : arg7.IsWhole) (arg8 : Memref sig .tc .vmem S2x512 .f32) (harg8 : arg8.IsWhole) (arg9 : Memref sig .tc .vmem S2x512x512 .bf16) (harg9 : arg9.IsWhole) (arg10 : Memref sig .tc .vmem S2x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512x512 .bf16) (harg13 : arg13.IsWhole) (arg14 : Memref sig .tc .vmem S2x512 .f32) (harg14 : arg14.IsWhole) (arg15 : Memref sig .tc .vmem S2x512x512 .bf16) (harg15 : arg15.IsWhole) (arg16 : Memref sig .tc .vmem S2x512 .f32) (harg16 : arg16.IsWhole) (arg17 : Memref sig .tc .vmem S2x512 .f32) (harg17 : arg17.IsWhole) (arg18 : Memref sig .tc .vmem S2x512 .f32) (harg18 : arg18.IsWhole) (arg19 : Memref sig .tc .vmem S2x32x16x1024 .f32) (harg19 : arg19.IsWhole) (arg20 : Memref sig .tc .vmem S16x32x1024 .f32) (harg20 : arg20.IsWhole)
    (x0 : Vec F S16x32x512 .f32) (x1 : Vec F S16x8x512 .f32) (x2 : Vec F S2048x512 .bf16) (x3 : Vec F S1x512 .f32) (x4 : Vec F S2048x512 .bf16) (x5 : Vec F S1x512 .f32) (x6 : Vec F S2x512x512 .bf16) (x7 : Vec F S2x512 .f32) (x8 : Vec F S2x512x512 .bf16) (x9 : Vec F S2x512 .f32) (x10 : Vec F S2x512 .f32) (x11 : Vec F S2x512 .f32) (x12 : Vec F S2x512x512 .bf16) (x13 : Vec F S2x512 .f32) (x14 : Vec F S2x512x512 .bf16) (x15 : Vec F S2x512 .f32) (x16 : Vec F S2x512 .f32) (x17 : Vec F S2x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (Blocks.outAll ⟨x0, x1, x2, x3, x4, x5, x6, x7, x8, x9, x10, x11, x12, x13, x14, x15, x16, x17⟩)
            ∗ owns (c : Thread nD τ) arg20 fullShare (Blocks.outLast ⟨x0, x1, x2, x3, x4, x5, x6, x7, x8, x9, x10, x11, x12, x13, x14, x15, x16, x17⟩)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (coverAll _ _)
  iexists _; isplitr
  swap; · iexact H19
  ipureintro
  exact View.read_writes_eq_canon _ _ _ (coverLast _)

end Cert.Kernel.Region

end
-- ==== Proof.LibSharedFrame.lean ====
/-
  THE FRAME RUN, WITH ITS FULL POST, OF A KERNEL WHOSE INPUT WINDOWS SHARE AN ARRAY. One array handed to a pipelined
  kernel through several input windows is held by those windows together, each at a positive share of its own, the
  shares dealt from the array's full share.  From the proof data, the body obligation and that dealing, every weakly
  fair execution terminates; every window's array ends at what the proof data compute for it, and every unscoped
  buffer that is no window's array ends as the region found it: the same post as the frame run of a kernel whose
  windows' arrays are distinct.

  Also: a buffer held at the full share is held twice over at its two half shares.
-/
import Idealize.ShloMosaic.Lib.Pipeline.Frame
import Idealize.ShloMosaic.Lib.Pipeline.Kit

noncomputable section

namespace Cert.Lib.SharedFrame

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run with shared input arrays, to the frame post: the invariant between points is the core's scoped
    buffers that are no staging buffer, nothing is owed, `hsplit` deals the buffers behind the windows' arrays among the
    windows at the proof data's shares; the unscoped buffers no window stages bypass the region and are read back. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (Entails.of_eq (ownU_emb₁ _)) V hmain hsplit
    (X := fun _ => (BI.emp : sProp 𝕄)) (Y := fun _ => (BI.emp : sProp 𝕄))
    (Z := fun c => unscopedRest (Ix := Unit) (Name := ℕ) (U := UR sig nD τ) (Lvl := ℕ) (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨fun w => (h c).1 w, (h c).2⟩)

/-- The windows' arrays, each a whole buffer, are held buffer by buffer: window `w`'s buffer whole, at the window's share. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.spec w).arr.view.loc (c.tc : Thread nD τ))) :
    (dat.arrays F : sProp 𝕄)
      = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

/-- A buffer's elements `I` held at the full share are held twice over, at its left and right halves. -/
theorem pointsTo_halves (ℓ : Loc nD τ sig) (I : Finset (Idx ℓ)) (f : Buf Val ℓ) :
    (ℓ ↦[I]{fullShare} f : sProp 𝕄) ⊢ iprop((ℓ ↦[I]{fullShare.left} f) ∗ (ℓ ↦[I]{fullShare.right} f)) :=
  (pointsTo_share (PosShare.mem_left_op_right fullShare)).1

end Cert.Lib.SharedFrame

end
-- ==== Proof.RunBits.lean ====
/-
  The launch.  The proof data of the one pipeline: the arrays as the region finds them; after the body each input's
  staging buffer at its block and each output's at the block computed from the point's input blocks; the invariant
  the core's scoped buffers that are no staging buffer; nothing owed.  The padded sequence is read through two
  windows (a 32-position block and the 8 positions after it): its buffer is held by the two windows together, each
  at half of the full share; every other array is held whole.  From these: the body obligation at every point, the
  run of @main to the frame post, and the frame — the nineteen arguments end as they began.
-/
import proofs.«134143_j43731357007884_2_alg».proof.Proof.EntryBits
import proofs.«134143_j43731357007884_2_alg».proof.Proof.BodyBits
import proofs.«134143_j43731357007884_2_alg».proof.Proof.LibSharedFrame

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Lib

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => Blocks.outAll (ins m c t)
    | ⟨19, _⟩ => Blocks.outLast (ins m c t)
    | ⟨_ + 20, h⟩ => absurd h (Nat.not_lt.2 (Nat.le_add_left _ _))
  Φ _ := Pipeline.scopedRest (Ix := Unit) (Name := ℕ) (U := UR sig nD τ) (Lvl := ℕ) (Val := Elt F) spec0 c
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = Blocks.outAll (ins m c t) := by dsimp only [dats]
theorem after19 (c : Dev nD) (t : Fin cfg0.N) : (dats m 0 c).after 19 t = Blocks.outLast (ins m c t) := by dsimp only [dats]

theorem before0 (c : Dev nD) (t : Fin cfg0.N) (d) : (dats m 0 c).before 0 t d = iblk0 m c t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  unfold ins
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl
theorem share15 (c : Dev nD) : (dats m 0 c).share 15 = fullShare := rfl
theorem share16 (c : Dev nD) : (dats m 0 c).share 16 = fullShare := rfl
theorem share17 (c : Dev nD) : (dats m 0 c).share 17 = fullShare := rfl
theorem share18 (c : Dev nD) : (dats m 0 c).share 18 = fullShare := rfl
theorem share19 (c : Dev nD) : (dats m 0 c).share 19 = fullShare := rfl

set_option maxHeartbeats 2000000 in
/-- The nineteen buffers behind the windows' arrays, each whole at the full share, are the twenty windows' arrays at
    the proof data's shares: the padded sequence's buffer split in halves between its two windows. -/
theorem hsplit (c : Dev nD) :
    (Pipeline.arrBufs spec0 c (V m c) : sProp 𝕄) ⊢ (dats m 0 c).arrays ((dats m 0 c).arrAt · 0) := by
  rw [SharedFrame.arrays_eq_shares (dats m 0 c) arr_whole0, bigSep_W0]
  unfold Pipeline.arrBufs
  rw [Idealize.SL.BI.bigSep_eq_bigSepL_of_eq [main_v2, main_v5, main_v3, main_v6, main_v4, main_v7, main_arg8, main_v8, main_arg10, main_arg11, main_arg12, main_v9, main_arg14, main_v10, main_arg16, main_arg17, main_arg18, main_v11_0, main_v11_1] (by decide +kernel) (by decide +kernel)]
  rw [share0, share1, share2, share3, share4, share5, share6, share7, share8, share9, share10, share11, share12, share13, share14, share15, share16, share17, share18, share19]
  refine (show iprop((((c.tc : Thread nD τ).loc main_v2) ↦{fullShare} V m c main_v2) ∗ (((c.tc : Thread nD τ).loc main_v5) ↦{fullShare} V m c main_v5) ∗ (((c.tc : Thread nD τ).loc main_v3) ↦{fullShare} V m c main_v3) ∗ (((c.tc : Thread nD τ).loc main_v6) ↦{fullShare} V m c main_v6) ∗ (((c.tc : Thread nD τ).loc main_v4) ↦{fullShare} V m c main_v4) ∗ (((c.tc : Thread nD τ).loc main_v7) ↦{fullShare} V m c main_v7) ∗ (((c.tc : Thread nD τ).loc main_arg8) ↦{fullShare} V m c main_arg8) ∗ (((c.tc : Thread nD τ).loc main_v8) ↦{fullShare} V m c main_v8) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v9) ↦{fullShare} V m c main_v9) ∗ (((c.tc : Thread nD τ).loc main_arg14) ↦{fullShare} V m c main_arg14) ∗ (((c.tc : Thread nD τ).loc main_v10) ↦{fullShare} V m c main_v10) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_v11_0) ↦{fullShare} V m c main_v11_0) ∗ (((c.tc : Thread nD τ).loc main_v11_1) ↦{fullShare} V m c main_v11_1))
    ⊢ (iprop((((c.tc : Thread nD τ).loc main_v2) ↦{fullShare.left} V m c main_v2) ∗ (((c.tc : Thread nD τ).loc main_v2) ↦{fullShare.right} V m c main_v2) ∗ (((c.tc : Thread nD τ).loc main_v5) ↦{fullShare} V m c main_v5) ∗ (((c.tc : Thread nD τ).loc main_v3) ↦{fullShare} V m c main_v3) ∗ (((c.tc : Thread nD τ).loc main_v6) ↦{fullShare} V m c main_v6) ∗ (((c.tc : Thread nD τ).loc main_v4) ↦{fullShare} V m c main_v4) ∗ (((c.tc : Thread nD τ).loc main_v7) ↦{fullShare} V m c main_v7) ∗ (((c.tc : Thread nD τ).loc main_arg8) ↦{fullShare} V m c main_arg8) ∗ (((c.tc : Thread nD τ).loc main_v8) ↦{fullShare} V m c main_v8) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v9) ↦{fullShare} V m c main_v9) ∗ (((c.tc : Thread nD τ).loc main_arg14) ↦{fullShare} V m c main_arg14) ∗ (((c.tc : Thread nD τ).loc main_v10) ↦{fullShare} V m c main_v10) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_v11_0) ↦{fullShare} V m c main_v11_0) ∗ (((c.tc : Thread nD τ).loc main_v11_1) ↦{fullShare} V m c main_v11_1)) : sProp 𝕄) from ?_)
  iintro ⟨G0, G1, G2, G3, G4, G5, G6, G7, G8, G9, G10, G11, G12, G13, G14, G15, G16, G17, G18⟩
  ihave Hs := (SharedFrame.pointsTo_halves _ _ _) $$ G0
  icases Hs with ⟨Hl, Hr⟩
  isplitl [Hl]; · iexact Hl
  isplitl [Hr]; · iexact Hr
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  iexact G18

/-! ## The run and the frame -/

set_option backward.isDefEq.respectTransparency.types false in
/-- Every weakly fair execution of @main terminates; every array of the pipeline ends at what the proof data compute
    for it, every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- THE FRAME, at any `F`: the nineteen arguments end as they began — a staged one because an input array is never
    written, one no window stages because it bypasses the region, and none is written by the host operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).2 main_arg13 (Pipeline.mem_restRefs_of main_arg13 (by decide) (by decide))).trans (V_main_arg13 m c),
      ((h c).1 13).trans (((dats m 0 c).arrAt_in 13 rfl _).trans ((A_eq m c 13).trans (V_main_arg14 m c))),
      ((h c).2 main_arg15 (Pipeline.mem_restRefs_of main_arg15 (by decide) (by decide))).trans (V_main_arg15 m c),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c))),
      ((h c).1 17).trans (((dats m 0 c).arrAt_in 17 rfl _).trans ((A_eq m c 17).trans (V_main_arg18 m c)))⟩) (run_main m ρ)

end Cert.Kernel.Region

end
-- ==== Proof.BlocksIdeal.lean ====
/-
  What one grid point computes, as pure terms of its eighteen input blocks.

  The body reads a 32-position block of the padded sequence (all 16 batches) and the 8 positions after it,
  the two projection matrices with their biases, and per tower the two blocks' matrices, biases, gains and
  shifts; it stores three values: the towers after the first block into layer 0 of the first result's block,
  the towers after the second block into layer 1 of it, and the latter again, batch-major, as the second
  result's block.  Each stored value is named here as a function of the input blocks, through the generated
  payload terms, in the order the body computes them.
-/
import proofs.«134143_j43731357007884_2_alg».proof.Proof.Gen.KernelIdeal.Skeleton
import Idealize.ShloMosaic.Lib.Pipeline.FrameBody

noncomputable section

namespace Cert.KernelIdeal.Blocks

open Idealize.ShloMosaic Idealize.SL.Sem Cert.KernelIdeal Cert.KernelIdeal.Gen

variable {F : FTy → Type} [FloatOps F]

/-- The input blocks of one grid point, in the order of the kernel's operands. -/
structure Ins (F : FTy → Type) [FloatOps F] where
  seq : Vec F S16x32x512 .f32
  halo : Vec F S16x8x512 .f32
  wl : Vec F S2048x512 .bf16
  bl : Vec F S1x512 .f32
  wr : Vec F S2048x512 .bf16
  br : Vec F S1x512 .f32
  lw1 : Vec F S2x512x512 .bf16
  lb1 : Vec F S2x512 .f32
  lw2 : Vec F S2x512x512 .bf16
  lb2 : Vec F S2x512 .f32
  lg : Vec F S2x512 .f32
  lbeta : Vec F S2x512 .f32
  rw1 : Vec F S2x512x512 .bf16
  rb1 : Vec F S2x512 .f32
  rw2 : Vec F S2x512x512 .bf16
  rb2 : Vec F S2x512 .f32
  rg : Vec F S2x512 .f32
  rbeta : Vec F S2x512 .f32

/-! ## The rectangles the body loads and stores through -/

abbrev rSeq : Rect S16x32x512 := Rect.unit (s := S16x32x512) ![0, 0, 0] S16x32x512.size inb_S16x32x512_S16x32x512_0_0_0
abbrev rHalo : Rect S16x8x512 := Rect.unit (s := S16x8x512) ![0, 0, 0] S16x8x512.size inb_S16x8x512_S16x8x512_0_0_0
abbrev rBand0 : Rect S2048x512 := Rect.unit (s := S2048x512) ![0, 0] S512x512.size inb_S2048x512_S512x512_0_0
abbrev rBand1 : Rect S2048x512 := Rect.unit (s := S2048x512) ![512, 0] S512x512.size inb_S2048x512_S512x512_512_0
abbrev rBand2 : Rect S2048x512 := Rect.unit (s := S2048x512) ![1024, 0] S512x512.size inb_S2048x512_S512x512_1024_0
abbrev rBand3 : Rect S2048x512 := Rect.unit (s := S2048x512) ![1536, 0] S512x512.size inb_S2048x512_S512x512_1536_0
abbrev rBias : Rect S1x512 := Rect.unit (s := S1x512) ![0, 0] S1x512.size inb_S1x512_S1x512_0_0
abbrev rRow0 : Rect S2x512 := Rect.unit (s := S2x512) ![0, 0] S1x512.size inb_S2x512_S1x512_0_0
abbrev rRow1 : Rect S2x512 := Rect.unit (s := S2x512) ![1, 0] S1x512.size inb_S2x512_S1x512_1_0
abbrev rMat0 : Rect S2x512x512 := Rect.unit (s := S2x512x512) ![0, 0, 0] S1x512x512.size inb_S2x512x512_S1x512x512_0_0_0
abbrev rMat1 : Rect S2x512x512 := Rect.unit (s := S2x512x512) ![1, 0, 0] S1x512x512.size inb_S2x512x512_S1x512x512_1_0_0
abbrev rLayer0 : Rect S2x32x16x1024 := Rect.unit (s := S2x32x16x1024) ![0, 0, 0, 0] S1x32x16x1024.size inb_S2x32x16x1024_S1x32x16x1024_0_0_0_0
abbrev rLayer1 : Rect S2x32x16x1024 := Rect.unit (s := S2x32x16x1024) ![1, 0, 0, 0] S1x32x16x1024.size inb_S2x32x16x1024_S1x32x16x1024_1_0_0_0
abbrev rLast : Rect S16x32x1024 := Rect.unit (s := S16x32x1024) ![0, 0, 0] S16x32x1024.size inb_S16x32x1024_S16x32x1024_0_0_0

/-! ## The values along the body, in its order -/

variable (I : Ins F)

/-- The 40 positions the point reads (block and the 8 after it), in the matrix unit's format. -/
def window : FVec F S16x40x512 .bf16 := k0_pay2 (View.ld I.seq rSeq) (View.ld I.halo rHalo)
/-- The left projection (512 rows: batch-major positions). -/
def left0 : FVec F S512x512 .f32 :=
  k0_pay3 (View.ld I.seq rSeq) (View.ld I.halo rHalo) (View.ld I.wl rBand0) (View.ld I.wl rBand1) (View.ld I.wl rBand2)
    (View.ld I.wl rBand3) (View.ld I.bl rBias)
/-- The right projection. -/
def right0 : FVec F S512x512 .f32 :=
  k0_pay4 (window I) (View.ld I.wr rBand0) (View.ld I.wr rBand1) (View.ld I.wr rBand2) (View.ld I.wr rBand3) (View.ld I.br rBias)
/-- The left tower after its first block. -/
def left1 : FVec F S512x512 .f32 :=
  k0_pay9 (left0 I) (k0_pay5 (View.ld I.lg rRow0)) (k0_pay6 (View.ld I.lbeta rRow0)) (k0_pay7 (left0 I)) (k0_pay8 (F := F))
    (View.ld I.lw1 rMat0) (View.ld I.lb1 rRow0) (View.ld I.lw2 rMat0) (View.ld I.lb2 rRow0)
/-- The zero accumulator the body names. -/
def zeros : FVec F S512x512 .f32 := constant S512x512 .f32 0x00000000#32
/-- The right tower's second matrix of the first block, and its hidden layer. -/
def rMat : FVec F S512x512 .bf16 := k0_pay10 (View.ld I.rw2 rMat0)
def rHidden : FVec F S512x512 .bf16 :=
  k0_pay11 (right0 I) (View.ld I.rg rRow0) (View.ld I.rbeta rRow0) (View.ld I.rw1 rMat0) (View.ld I.rb1 rRow0)
/-- What is stored into layer 0 of the first result's block: both towers after the first block. -/
def layer0 : FVec F S1x32x16x1024 .f32 :=
  k0_pay13 (right0 I) (left1 I) (rMat I) (rHidden I) (zeros (F := F)) (View.ld I.rb2 rRow0)
/-- The right tower after its first block. -/
def right1 : FVec F S512x512 .f32 := k0_pay12 (right0 I) (rMat I) (rHidden I) (zeros (F := F)) (View.ld I.rb2 rRow0)
/-- The left tower's normalised rows of the second block. -/
def leftN : FVec F S512x512 .f32 := k0_pay14 (left1 I) (View.ld I.lg rRow1) (View.ld I.lbeta rRow1)
/-- The left tower after its second block. -/
def left2 : FVec F S512x512 .f32 :=
  k0_pay15 (left1 I) (leftN I) (View.ld I.lw1 rMat1) (View.ld I.lb1 rRow1) (View.ld I.lw2 rMat1) (View.ld I.lb2 rRow1)
/-- The ten values the last two stores are computed from. -/
def lastPay : FVec F S16x32x1024 .f32 :=
  k0_pay23 (right1 I) (left2 I) (k0_pay16 (View.ld I.rbeta rRow1)) (k0_pay18 (right1 I)) (k0_pay19 (right1 I))
    (k0_pay20 (View.ld I.rg rRow1)) (View.ld I.rw1 rMat1) (View.ld I.rb1 rRow1) (View.ld I.rw2 rMat1) (View.ld I.rb2 rRow1)
/-- What is stored into layer 1 of the first result's block. -/
def layer1 : FVec F S1x32x16x1024 .f32 :=
  k0_pay1 (k0_pay24 (right1 I) (left2 I) (k0_pay16 (View.ld I.rbeta rRow1)) (k0_pay18 (right1 I)) (k0_pay19 (right1 I))
    (k0_pay20 (View.ld I.rg rRow1)) (View.ld I.rw1 rMat1) (View.ld I.rb1 rRow1) (View.ld I.rw2 rMat1) (View.ld I.rb2 rRow1))

/-- The first result's block after the body: layer 1 stored last, layer 0 before it. -/
def outAll : Vec F S2x32x16x1024 .f32 := View.canon [⟨rLayer1, layer1 I⟩, ⟨rLayer0, layer0 I⟩]
/-- The second result's block after the body: one whole store. -/
def outLast : Vec F S16x32x1024 .f32 := View.canon [⟨rLast, lastPay I⟩]

end Cert.KernelIdeal.Blocks

end
-- ==== Proof.EntryIdeal.lean ====
/-
  The region's entry: what each buffer holds when the kernel is launched (the host operations before it have padded
  the sequence, laid the two projection biases as rows and re-formatted the six matrices), that the nineteen
  arguments are untouched by those operations, each window's block at a grid point read off its array, and that an
  input window's staging buffer holds that block at every point, fetched there or not.
-/
import proofs.«134143_j43731357007884_2_alg».proof.Proof.Gen.KernelIdeal.Launch
import proofs.«134143_j43731357007884_2_alg».proof.Proof.Gen.KernelIdeal.Skeleton
import proofs.«134143_j43731357007884_2_alg».proof.Proof.Gen.KernelIdeal.Points
import proofs.«134143_j43731357007884_2_alg».proof.Proof.BlocksIdeal
import Idealize.ShloMosaic.Lib.Pipeline.FrameBody

set_option maxRecDepth 16384

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- No host operation before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- No grid point's block of the sequence window reaches past the array (the last block ends at position 2048 of 2056):
    its transfers are never cut. -/
theorem clip0_none : ∀ t : Fin cfg0.N, ∀ a, (cfg0.win 0).clip (cfg0.grid.coords t) a = none :=
  (by decide +kernel : ∀ t : Fin grid0.N, ∀ a, win0_0.clip (grid0.coords t) a = none)

/-- The sequence window's block at point `t` over the whole staging buffer (the fetch fills all of it). -/
def iblk0 (c : Dev nD) (t : Fin cfg0.N) : S16x32x512.Idx → Elt F .f32 :=
  win0_0.fill (grid0.coords t) (fun _ => Scalar.ofBits .f32 0#32) (iblk m c 0 t)

/-- The eighteen input blocks of point `t`. -/
def ins (c : Dev nD) (t : Fin cfg0.N) : Blocks.Ins F :=
  ⟨iblk0 m c t, iblk m c 1 t, iblk m c 2 t, iblk m c 3 t, iblk m c 4 t, iblk m c 5 t, iblk m c 6 t, iblk m c 7 t, iblk m c 8 t,
   iblk m c 9 t, iblk m c 10 t, iblk m c 11 t, iblk m c 12 t, iblk m c 13 t, iblk m c 14 t, iblk m c 15 t, iblk m c 16 t, iblk m c 17 t⟩

/-- The sequence window's staging buffer holds its block at every point: fetched at every point, never cut. -/
theorem before0_of {c : Dev nD} (dat : Dat τ (Elt F) Unit ℕ (UR sig nD τ) ℕ cfg0 c) (hA : dat.A 0 = V m c (Pipeline.arrRef spec0 0))
    (hafter : ∀ t, dat.after 0 t = iblk0 m c t) (t : Fin cfg0.N) (d) : dat.before 0 t d = iblk0 m c t :=
  (dat.before_in_eq_fetched 0 rfl (fun _ => rfl)
    (fun t t' _ => funext fun a => by rw [clip0_none t a, clip0_none t' a])
    (fun t => by
      rw [hafter]; unfold iblk0
      refine ((cfg0.win 0).cut_fill _ _ _).trans ?_
      unfold Dat.blockOf iblk; rw [hA]) t d).trans
    ((dat.fetched_of_clip_none 0 t (clip0_none t) d _).trans (by unfold Dat.fetched Dat.blockOf iblk0 iblk; rw [hA]))
/-- Input window 1's staging buffer holds its block at every point, for any proof data on the entry arrays that leave it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data on the entry arrays that leave it in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data on the entry arrays that leave it in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data on the entry arrays that leave it in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data on the entry arrays that leave it in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data on the entry arrays that leave it in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data on the entry arrays that leave it in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data on the entry arrays that leave it in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, for any proof data on the entry arrays that leave it in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, for any proof data on the entry arrays that leave it in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, for any proof data on the entry arrays that leave it in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, for any proof data on the entry arrays that leave it in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, for any proof data on the entry arrays that leave it in place. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, for any proof data on the entry arrays that leave it in place. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, for any proof data on the entry arrays that leave it in place. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, for any proof data on the entry arrays that leave it in place. -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, for any proof data on the entry arrays that leave it in place. -/
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.BodyIdeal.lean ====
/-
  The kernel body at one grid point.  From the eighteen input staging buffers held whole at contents `x0 … x17` and
  the two output staging buffers at anything, the body runs to its end, nothing faulting, leaving the inputs as they
  were and the outputs at the blocks computed from the inputs: the first result's block with both layers stored,
  the second result's block stored whole.  (The body also loads from its output buffers; nothing it computes
  depends on what it finds there.)
-/
import proofs.«134143_j43731357007884_2_alg».proof.Proof.Gen.KernelIdeal.Skeleton
import proofs.«134143_j43731357007884_2_alg».proof.Proof.BlocksIdeal
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The two stores into the first result's block tile it: one per layer. -/
theorem coverAll (p1 p0 : Vec F S1x32x16x1024 .f32) (y : S2x32x16x1024.Idx) :
    ∃ pc ∈ ([⟨Blocks.rLayer1, p1⟩, ⟨Blocks.rLayer0, p0⟩] : List (View.Piece (Elt F) S2x32x16x1024 .f32)), y ∈ pc.1.set :=
  View.cover_of_tiled [⟨Blocks.rLayer1, p1⟩, ⟨Blocks.rLayer0, p0⟩] S1x32x16x1024.size (by rfl) y

/-- The one store into the second result's block covers it. -/
theorem coverLast (p0 : Vec F S16x32x1024 .f32) (y : S16x32x1024.Idx) :
    ∃ pc ∈ ([⟨Blocks.rLast, p0⟩] : List (View.Piece (Elt F) S16x32x1024 .f32)), y ∈ pc.1.set :=
  View.cover_of_tiled [⟨Blocks.rLast, p0⟩] S16x32x1024.size (by rfl) y

set_option maxHeartbeats 4000000 in
/-- The body's triple. -/
theorem sound_kernel (c : Dev nD) (E : Set ℕ) (i : grid0.Coords)
    (arg1 : Memref sig .tc .vmem S16x32x512 .f32) (harg1 : arg1.IsWhole) (arg2 : Memref sig .tc .vmem S16x8x512 .f32) (harg2 : arg2.IsWhole) (arg3 : Memref sig .tc .vmem S2048x512 .bf16) (harg3 : arg3.IsWhole) (arg4 : Memref sig .tc .vmem S1x512 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S2x512x512 .bf16) (harg7 : arg7.IsWhole) (arg8 : Memref sig .tc .vmem S2x512 .f32) (harg8 : arg8.IsWhole) (arg9 : Memref sig .tc .vmem S2x512x512 .bf16) (harg9 : arg9.IsWhole) (arg10 : Memref sig .tc .vmem S2x512 .f32) (harg10 : arg10.IsWhole) (arg11 : Memref sig .tc .vmem S2x512 .f32) (harg11 : arg11.IsWhole) (arg12 : Memref sig .tc .vmem S2x512 .f32) (harg12 : arg12.IsWhole) (arg13 : Memref sig .tc .vmem S2x512x512 .bf16) (harg13 : arg13.IsWhole) (arg14 : Memref sig .tc .vmem S2x512 .f32) (harg14 : arg14.IsWhole) (arg15 : Memref sig .tc .vmem S2x512x512 .bf16) (harg15 : arg15.IsWhole) (arg16 : Memref sig .tc .vmem S2x512 .f32) (harg16 : arg16.IsWhole) (arg17 : Memref sig .tc .vmem S2x512 .f32) (harg17 : arg17.IsWhole) (arg18 : Memref sig .tc .vmem S2x512 .f32) (harg18 : arg18.IsWhole) (arg19 : Memref sig .tc .vmem S2x32x16x1024 .f32) (harg19 : arg19.IsWhole) (arg20 : Memref sig .tc .vmem S16x32x1024 .f32) (harg20 : arg20.IsWhole)
    (x0 : Vec F S16x32x512 .f32) (x1 : Vec F S16x8x512 .f32) (x2 : Vec F S2048x512 .bf16) (x3 : Vec F S1x512 .f32) (x4 : Vec F S2048x512 .bf16) (x5 : Vec F S1x512 .f32) (x6 : Vec F S2x512x512 .bf16) (x7 : Vec F S2x512 .f32) (x8 : Vec F S2x512x512 .bf16) (x9 : Vec F S2x512 .f32) (x10 : Vec F S2x512 .f32) (x11 : Vec F S2x512 .f32) (x12 : Vec F S2x512x512 .bf16) (x13 : Vec F S2x512 .f32) (x14 : Vec F S2x512x512 .bf16) (x15 : Vec F S2x512 .f32) (x16 : Vec F S2x512 .f32) (x17 : Vec F S2x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
        ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ owns (c : Thread nD τ) arg19 fullShare (Blocks.outAll ⟨x0, x1, x2, x3, x4, x5, x6, x7, x8, x9, x10, x11, x12, x13, x14, x15, x16, x17⟩)
            ∗ owns (c : Thread nD τ) arg20 fullShare (Blocks.outLast ⟨x0, x1, x2, x3, x4, x5, x6, x7, x8, x9, x10, x11, x12, x13, x14, x15, x16, x17⟩)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (coverAll _ _)
  iexists _; isplitr
  swap; · iexact H19
  ipureintro
  exact View.read_writes_eq_canon _ _ _ (coverLast _)

end Cert.KernelIdeal.Region

end
-- ==== Proof.RunIdeal.lean ====
/-
  The launch.  The proof data of the one pipeline: the arrays as the region finds them; after the body each input's
  staging buffer at its block and each output's at the block computed from the point's input blocks; the invariant
  the core's scoped buffers that are no staging buffer; nothing owed.  The padded sequence is read through two
  windows (a 32-position block and the 8 positions after it): its buffer is held by the two windows together, each
  at half of the full share; every other array is held whole.  From these: the body obligation at every point, the
  run of @main to the frame post, and the frame — the nineteen arguments end as they began.
-/
import proofs.«134143_j43731357007884_2_alg».proof.Proof.EntryIdeal
import proofs.«134143_j43731357007884_2_alg».proof.Proof.BodyIdeal
import proofs.«134143_j43731357007884_2_alg».proof.Proof.LibSharedFrame

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Lib

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => Blocks.outAll (ins m c t)
    | ⟨19, _⟩ => Blocks.outLast (ins m c t)
    | ⟨_ + 20, h⟩ => absurd h (Nat.not_lt.2 (Nat.le_add_left _ _))
  Φ _ := Pipeline.scopedRest (Ix := Unit) (Name := ℕ) (U := UR sig nD τ) (Lvl := ℕ) (Val := Elt F) spec0 c
  q w := if w.val = 0 then fullShare.left else if w.val = 1 then fullShare.right else fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = Blocks.outAll (ins m c t) := by dsimp only [dats]
theorem after19 (c : Dev nD) (t : Fin cfg0.N) : (dats m 0 c).after 19 t = Blocks.outLast (ins m c t) := by dsimp only [dats]

theorem before0 (c : Dev nD) (t : Fin cfg0.N) (d) : (dats m 0 c).before 0 t d = iblk0 m c t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 2000000 in
/-- The body at any point: the inputs' staging buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19]
  unfold ins
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl
theorem share8 (c : Dev nD) : (dats m 0 c).share 8 = fullShare := rfl
theorem share9 (c : Dev nD) : (dats m 0 c).share 9 = fullShare := rfl
theorem share10 (c : Dev nD) : (dats m 0 c).share 10 = fullShare := rfl
theorem share11 (c : Dev nD) : (dats m 0 c).share 11 = fullShare := rfl
theorem share12 (c : Dev nD) : (dats m 0 c).share 12 = fullShare := rfl
theorem share13 (c : Dev nD) : (dats m 0 c).share 13 = fullShare := rfl
theorem share14 (c : Dev nD) : (dats m 0 c).share 14 = fullShare := rfl
theorem share15 (c : Dev nD) : (dats m 0 c).share 15 = fullShare := rfl
theorem share16 (c : Dev nD) : (dats m 0 c).share 16 = fullShare := rfl
theorem share17 (c : Dev nD) : (dats m 0 c).share 17 = fullShare := rfl
theorem share18 (c : Dev nD) : (dats m 0 c).share 18 = fullShare := rfl
theorem share19 (c : Dev nD) : (dats m 0 c).share 19 = fullShare := rfl

set_option maxHeartbeats 2000000 in
/-- The nineteen buffers behind the windows' arrays, each whole at the full share, are the twenty windows' arrays at
    the proof data's shares: the padded sequence's buffer split in halves between its two windows. -/
theorem hsplit (c : Dev nD) :
    (Pipeline.arrBufs spec0 c (V m c) : sProp 𝕄) ⊢ (dats m 0 c).arrays ((dats m 0 c).arrAt · 0) := by
  rw [SharedFrame.arrays_eq_shares (dats m 0 c) arr_whole0, bigSep_W0]
  unfold Pipeline.arrBufs
  rw [Idealize.SL.BI.bigSep_eq_bigSepL_of_eq [main_v2, main_v5, main_v3, main_v6, main_v4, main_v7, main_arg8, main_v8, main_arg10, main_arg11, main_arg12, main_v9, main_arg14, main_v10, main_arg16, main_arg17, main_arg18, main_v11_0, main_v11_1] (by decide +kernel) (by decide +kernel)]
  rw [share0, share1, share2, share3, share4, share5, share6, share7, share8, share9, share10, share11, share12, share13, share14, share15, share16, share17, share18, share19]
  refine (show iprop((((c.tc : Thread nD τ).loc main_v2) ↦{fullShare} V m c main_v2) ∗ (((c.tc : Thread nD τ).loc main_v5) ↦{fullShare} V m c main_v5) ∗ (((c.tc : Thread nD τ).loc main_v3) ↦{fullShare} V m c main_v3) ∗ (((c.tc : Thread nD τ).loc main_v6) ↦{fullShare} V m c main_v6) ∗ (((c.tc : Thread nD τ).loc main_v4) ↦{fullShare} V m c main_v4) ∗ (((c.tc : Thread nD τ).loc main_v7) ↦{fullShare} V m c main_v7) ∗ (((c.tc : Thread nD τ).loc main_arg8) ↦{fullShare} V m c main_arg8) ∗ (((c.tc : Thread nD τ).loc main_v8) ↦{fullShare} V m c main_v8) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v9) ↦{fullShare} V m c main_v9) ∗ (((c.tc : Thread nD τ).loc main_arg14) ↦{fullShare} V m c main_arg14) ∗ (((c.tc : Thread nD τ).loc main_v10) ↦{fullShare} V m c main_v10) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_v11_0) ↦{fullShare} V m c main_v11_0) ∗ (((c.tc : Thread nD τ).loc main_v11_1) ↦{fullShare} V m c main_v11_1))
    ⊢ (iprop((((c.tc : Thread nD τ).loc main_v2) ↦{fullShare.left} V m c main_v2) ∗ (((c.tc : Thread nD τ).loc main_v2) ↦{fullShare.right} V m c main_v2) ∗ (((c.tc : Thread nD τ).loc main_v5) ↦{fullShare} V m c main_v5) ∗ (((c.tc : Thread nD τ).loc main_v3) ↦{fullShare} V m c main_v3) ∗ (((c.tc : Thread nD τ).loc main_v6) ↦{fullShare} V m c main_v6) ∗ (((c.tc : Thread nD τ).loc main_v4) ↦{fullShare} V m c main_v4) ∗ (((c.tc : Thread nD τ).loc main_v7) ↦{fullShare} V m c main_v7) ∗ (((c.tc : Thread nD τ).loc main_arg8) ↦{fullShare} V m c main_arg8) ∗ (((c.tc : Thread nD τ).loc main_v8) ↦{fullShare} V m c main_v8) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_v9) ↦{fullShare} V m c main_v9) ∗ (((c.tc : Thread nD τ).loc main_arg14) ↦{fullShare} V m c main_arg14) ∗ (((c.tc : Thread nD τ).loc main_v10) ↦{fullShare} V m c main_v10) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_v11_0) ↦{fullShare} V m c main_v11_0) ∗ (((c.tc : Thread nD τ).loc main_v11_1) ↦{fullShare} V m c main_v11_1)) : sProp 𝕄) from ?_)
  iintro ⟨G0, G1, G2, G3, G4, G5, G6, G7, G8, G9, G10, G11, G12, G13, G14, G15, G16, G17, G18⟩
  ihave Hs := (SharedFrame.pointsTo_halves _ _ _) $$ G0
  icases Hs with ⟨Hl, Hr⟩
  isplitl [Hl]; · iexact Hl
  isplitl [Hr]; · iexact Hr
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  iexact G18

/-! ## The run and the frame -/

set_option backward.isDefEq.respectTransparency.types false in
/-- Every weakly fair execution of @main terminates; every array of the pipeline ends at what the proof data compute
    for it, every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- THE FRAME, at any `F`: the nineteen arguments end as they began — a staged one because an input array is never
    written, one no window stages because it bypasses the region, and none is written by the host operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).2 main_arg13 (Pipeline.mem_restRefs_of main_arg13 (by decide) (by decide))).trans (V_main_arg13 m c),
      ((h c).1 13).trans (((dats m 0 c).arrAt_in 13 rfl _).trans ((A_eq m c 13).trans (V_main_arg14 m c))),
      ((h c).2 main_arg15 (Pipeline.mem_restRefs_of main_arg15 (by decide) (by decide))).trans (V_main_arg15 m c),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c))),
      ((h c).1 17).trans (((dats m 0 c).arrAt_in 17 rfl _).trans ((A_eq m c 17).trans (V_main_arg18 m c)))⟩) (run_main m ρ)

end Cert.KernelIdeal.Region

end
-- ==== Proof.Towers.lean ====
/-
  The two-tower window network, row by row, on the extended reals.

  A padded sequence P (16 batches, 2056 positions, 512 features) is read nine positions at a time: for the
  position s of batch b the rows P[b, s], …, P[b, s+8].  The LEFT tower projects rows 0–3 and the RIGHT tower
  rows 5–8 through a matrix of four 512-row bands (band i meets row i of the window), adds a bias and clamps at
  zero; each tower then passes through two residual blocks x ↦ x + W₂ᵀ·relu(W₁ᵀ·norm(x) + b₁) + b₂, where norm is
  the layer normalisation  g · (x − mean x) · rsqrt(mean((x − mean x)²) + ε) + β  over the 512 features (mean =
  sum / 512).  The result after block l of both towers, side by side (left in columns 0–511, right in 512–1023),
  is entry [l, s, b, ·] of the first result and, for l = 1, entry [b, s, ·] of the second.

  Everything is stated on EReal with the operations the idealized programs use (+, −, ·, max, Ideal.div,
  Ideal.rsqrt) in the programs' own association, so that no law needing finiteness is called for.
-/
import Idealize.ShloMosaic.PureOps.Ideal
import Idealize.ShloMosaic.Lib.ValueIdx

noncomputable section

namespace Cert.Towers

open Idealize.ShloMosaic Idealize.ShloMosaic.ValueIdx
open scoped BigOperators

/-- One row of 512 features. -/
abbrev Row := Fin 512 → EReal
/-- A 512 × 512 matrix, `W k c`: row `k` (the contracted feature), column `c`. -/
abbrev Mat := Fin 512 → Fin 512 → EReal

/-- The words the programs spell: 0.0, 512.0 and the ε of the normalisation (the f32 nearest 1e-5). -/
def zeroW : EReal := Ideal.ofBits .f32 0x00000000#32
def width : EReal := Ideal.ofBits .f32 0x44000000#32
def eps : EReal := Ideal.ofBits .f32 0x3727C5AC#32

/-- The mean of a row: its sum divided by 512. -/
def mean (x : Row) : EReal := Ideal.div (∑ c, x c) width
/-- A row less its mean. -/
def centred (x : Row) : Row := fun c => x c - mean x
/-- Layer normalisation with gain `g` and shift `β`. -/
def norm (g β x : Row) : Row :=
  fun c => g c * centred x c * Ideal.rsqrt (mean (fun k => centred x k * centred x k) + eps) + β c
/-- A row times a matrix. -/
def apply (W : Mat) (x : Row) : Row := fun c => ∑ k, x k * W k c
/-- Clamp at zero. -/
def relu (x : Row) : Row := fun c => max (x c) zeroW
/-- One residual block. -/
def block (g β : Row) (W₁ : Mat) (b₁ : Row) (W₂ : Mat) (b₂ : Row) (x : Row) : Row :=
  fun c => x c + apply W₂ (relu fun k => apply W₁ (norm g β x) k + b₁ k) c + b₂ c
/-- The window projection: four rows, each through its band, summed, plus bias, clamped. -/
def project (W : Fin 4 → Mat) (b : Row) (R : Fin 4 → Row) : Row :=
  relu fun c => (∑ i, apply (W i) (R i) c) + b c

/-- One tower after block `l` (`l = 0`: one block, `l = 1`: two), from the four window rows. -/
def tower (W : Fin 4 → Mat) (b : Row) (g β : Fin 2 → Row) (W₁ : Fin 2 → Mat) (b₁ : Fin 2 → Row)
    (W₂ : Fin 2 → Mat) (b₂ : Fin 2 → Row) (R : Fin 4 → Row) : Fin 2 → Row
  | ⟨0, _⟩ => block (g 0) (β 0) (W₁ 0) (b₁ 0) (W₂ 0) (b₂ 0) (project W b R)
  | ⟨1, _⟩ => block (g 1) (β 1) (W₁ 1) (b₁ 1) (W₂ 1) (b₂ 1)
                (block (g 0) (β 0) (W₁ 0) (b₁ 0) (W₂ 0) (b₂ 0) (project W b R))

/-- Two rows side by side: the left one in columns 0–511, the right one in 512–1023. -/
def joined (lo ro : Row) (col : Fin 1024) : EReal :=
  if h : col.val < 512 then lo ⟨col.val, h⟩ else ro ⟨col.val - 512, by omega⟩

/-! ## The arrays read as rows and matrices -/

/-- Row `s + j` of batch `b` of the padded sequence. -/
def rowAt (P : (⟨3, ![16, 2056, 512]⟩ : Shape).Idx → EReal) (b : Fin 16) (s : Fin 2048) (j : Fin 9) : Row :=
  fun h => P (ix3 b (⟨s.val + j.val, by omega⟩ : Fin 2056) h)
/-- Band `i` (rows 512·i … 512·i + 511) of a 2048 × 512 matrix. -/
def band (Wm : (⟨2, ![2048, 512]⟩ : Shape).Idx → EReal) (i : Fin 4) : Mat :=
  fun k c => Wm (ix2 (⟨512 * i.val + k.val, by omega⟩ : Fin 2048) c)
/-- A vector of 512 as a row. -/
def vec (v : (⟨1, ![512]⟩ : Shape).Idx → EReal) : Row := fun c => v (ix1 c)
/-- Row `l` of a 2 × 512 array. -/
def rowOf (v : (⟨2, ![2, 512]⟩ : Shape).Idx → EReal) (l : Fin 2) : Row := fun c => v (ix2 l c)
/-- Matrix `l` of a 2 × 512 × 512 array. -/
def matOf (w : (⟨3, ![2, 512, 512]⟩ : Shape).Idx → EReal) (l : Fin 2) : Mat := fun k c => w (ix3 l k c)

/-- The parameters of one tower, as arrays. -/
structure Params where
  Wm : (⟨2, ![2048, 512]⟩ : Shape).Idx → EReal
  bm : (⟨1, ![512]⟩ : Shape).Idx → EReal
  w1 : (⟨3, ![2, 512, 512]⟩ : Shape).Idx → EReal
  b1 : (⟨2, ![2, 512]⟩ : Shape).Idx → EReal
  w2 : (⟨3, ![2, 512, 512]⟩ : Shape).Idx → EReal
  b2 : (⟨2, ![2, 512]⟩ : Shape).Idx → EReal
  g : (⟨2, ![2, 512]⟩ : Shape).Idx → EReal
  beta : (⟨2, ![2, 512]⟩ : Shape).Idx → EReal

/-- A tower on the arrays' parameters. -/
def Params.run (θ : Params) (R : Fin 4 → Row) (l : Fin 2) : Row :=
  tower (band θ.Wm) (vec θ.bm) (rowOf θ.g) (rowOf θ.beta) (matOf θ.w1) (rowOf θ.b1) (matOf θ.w2) (rowOf θ.b2) R l

/-- The left tower reads window rows 0–3, the right tower rows 5–8. -/
def leftRows (W : Fin 9 → Row) (i : Fin 4) : Row := W ⟨i.val, by omega⟩
def rightRows (W : Fin 9 → Row) (i : Fin 4) : Row := W ⟨5 + i.val, by omega⟩

/-- Both towers after block `l` at the nine rows `W`, side by side. -/
def outRow (L R : Params) (W : Fin 9 → Row) (l : Fin 2) (col : Fin 1024) : EReal :=
  joined (L.run (leftRows W) l) (R.run (rightRows W) l) col

/-- The first result: [layer, position, batch, column]. -/
def allLayers (P : (⟨3, ![16, 2056, 512]⟩ : Shape).Idx → EReal) (L R : Params) :
    (⟨4, ![2, 2048, 16, 1024]⟩ : Shape).Idx → EReal :=
  fun i => outRow L R (rowAt P (i 2) (i 1)) (i 0) (i 3)

/-- The second result: [batch, position, column], after the last block. -/
def lastLayer (P : (⟨3, ![16, 2056, 512]⟩ : Shape).Idx → EReal) (L R : Params) :
    (⟨3, ![16, 2048, 1024]⟩ : Shape).Idx → EReal :=
  fun i => outRow L R (rowAt P (i 0) (i 1)) 1 (i 2)

theorem allLayers_apply (P : (⟨3, ![16, 2056, 512]⟩ : Shape).Idx → EReal) (L R : Params)
    (l : Fin 2) (s : Fin 2048) (b : Fin 16) (col : Fin 1024) :
    allLayers P L R (ix4 l s b col) = outRow L R (rowAt P b s) l col := rfl

theorem lastLayer_apply (P : (⟨3, ![16, 2056, 512]⟩ : Shape).Idx → EReal) (L R : Params)
    (b : Fin 16) (s : Fin 2048) (col : Fin 1024) :
    lastLayer P L R (ix3 b s col) = outRow L R (rowAt P b s) 1 col := rfl

end Cert.Towers

end
-- ==== Proof.PointRows.lean ====
/-
  The nine window rows of a position inside one grid point's blocks, and the towers' parameters as the point
  holds them.  Position `t` (0–31) of batch `b` reads rows `t`, …, `t + 8` of the 40 positions the point has: the
  first 32 are the sequence block, the last 8 the block after it.
-/
import proofs.«134143_j43731357007884_2_alg».proof.Proof.BlocksIdeal
import proofs.«134143_j43731357007884_2_alg».proof.Proof.Towers

noncomputable section

namespace Cert.KernelIdeal.Point

open Idealize.ShloMosaic Idealize.ShloMosaic.ValueIdx Cert.KernelIdeal Cert.KernelIdeal.Blocks

/-- Row `t + j` of batch `b` among the point's 40 positions. -/
def rows (I : Ins Ideal) (b : Fin 16) (t : Fin 32) (j : Fin 9) : Towers.Row :=
  fun h => if hlt : t.val + j.val < 32 then I.seq (ix3 b (⟨t.val + j.val, hlt⟩ : Fin 32) h)
    else I.halo (ix3 b (⟨t.val + j.val - 32, by omega⟩ : Fin 8) h)

/-- The left tower's parameters as the point's blocks hold them (the bias block is 1 × 512). -/
def leftParams (I : Ins Ideal) : Towers.Params where
  Wm := I.wl
  bm := fun i => I.bl (ix2 0 (i 0))
  w1 := I.lw1
  b1 := I.lb1
  w2 := I.lw2
  b2 := I.lb2
  g := I.lg
  beta := I.lbeta

/-- The right tower's. -/
def rightParams (I : Ins Ideal) : Towers.Params where
  Wm := I.wr
  bm := fun i => I.br (ix2 0 (i 0))
  w1 := I.rw1
  b1 := I.rb1
  w2 := I.rw2
  b2 := I.rb2
  g := I.rg
  beta := I.rbeta

end Cert.KernelIdeal.Point

end
-- ==== Proof.WindowsIdeal.lean ====
/-
  The point's input blocks read at an index, off the arrays as the region finds them.  The sequence block of point `t`
  is positions 32·t … 32·t + 31 of the padded sequence, the block after it positions 32·t + 32 … 32·t + 39 (its
  index map is 4·(t + 1) in blocks of 8); every other input window is its whole array at every point.  So the nine
  window rows of position `s` of point `t` are rows 32·t + s, …, 32·t + s + 8 of the padded sequence.
-/
import proofs.«134143_j43731357007884_2_alg».proof.Proof.RunIdeal
import proofs.«134143_j43731357007884_2_alg».proof.Proof.PointRows

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Region

variable (m : (ℓ : Loc nD τ sig) → Buf (Elt Ideal) ℓ)

/-- The printed index maps over the grid: the sequence window and the two results' move with the point, the window
    after the sequence block is four blocks of 8 ahead, every other window stays at its array's origin. -/
theorem idx_seq : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_halo : ∀ t : Fin cfg0.N, win0_1.index t (0 : Fin 3) = 0 ∧ win0_1.index t (1 : Fin 3) = 4 * (t.val + 1) ∧ win0_1.index t (2 : Fin 3) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 3) = 0 ∧ win0_12.index t (1 : Fin 3) = 0 ∧ win0_12.index t (2 : Fin 3) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 3) = 0 ∧ win0_14.index t (1 : Fin 3) = 0 ∧ win0_14.index t (2 : Fin 3) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_all : ∀ t : Fin cfg0.N, win0_18.index t (0 : Fin 4) = 0 ∧ win0_18.index t (1 : Fin 4) = t.val ∧ win0_18.index t (2 : Fin 4) = 0 ∧ win0_18.index t (3 : Fin 4) = 0 :=
  (by decide +kernel : ∀ t : Fin grid0.N, _)
theorem idx_last : ∀ t : Fin cfg0.N, win0_19.index t (0 : Fin 3) = 0 ∧ win0_19.index t (1 : Fin 3) = t.val ∧ win0_19.index t (2 : Fin 3) = 0 :=
  (by decide +kernel : ∀ t : Fin grid0.N, _)

theorem t_lt (t : Fin cfg0.N) : t.val < 64 := Nat.lt_of_lt_of_eq t.isLt N_0

/-- The sequence block at an index: position `32·t + p` of the padded sequence. -/
theorem seq_apply (c : Dev nD) (t : Fin cfg0.N) (b : Fin 16) (p : Fin 32) (h : Fin 512) :
    iblk0 m c t (ix3 b p h) = V m c main_v2 (ix3 b (⟨32 * t.val + p.val, by have := t_lt t; omega⟩ : Fin 2056) h) := by
  have hm : win0_0.moved (grid0.coords t) (ix3 b p h) = true := (win0_0.moved_iff _ _).mpr fun a => by
    show ((ix3 b p h : S16x32x512.Idx) a).val < (win0_0.clip (grid0.coords t) a).extent (win0_0.size a)
    rw [clip0_none t a]; exact ((ix3 b p h : S16x32x512.Idx) a).isLt
  obtain ⟨e0, e1, e2⟩ := idx_seq t
  unfold iblk0 Window.fill
  rw [dif_pos hm]
  unfold iblk
  show V m c main_v2 (((cfg0.win 0).blk t).view.emb _) = _
  congr 1
  funext a; apply Fin.ext
  match a with
  | ⟨0, _⟩ => show win0_0.index t (0 : Fin 3) * 16 + 1 * b.val = b.val; omega
  | ⟨1, _⟩ => show win0_0.index t (1 : Fin 3) * 32 + 1 * p.val = 32 * t.val + p.val; omega
  | ⟨2, _⟩ => show win0_0.index t (2 : Fin 3) * 512 + 1 * h.val = h.val; omega

/-- The block after it at an index: position `32·t + 32 + j`. -/
theorem halo_apply (c : Dev nD) (t : Fin cfg0.N) (b : Fin 16) (j : Fin 8) (h : Fin 512) :
    iblk m c 1 t (ix3 b j h) = V m c main_v2 (ix3 b (⟨32 * t.val + 32 + j.val, by have := t_lt t; omega⟩ : Fin 2056) h) := by
  obtain ⟨e0, e1, e2⟩ := idx_halo t
  unfold iblk
  show V m c main_v2 (((cfg0.win 1).blk t).view.emb (ix3 b j h)) = _
  congr 1
  funext a; apply Fin.ext
  match a with
  | ⟨0, _⟩ => show win0_1.index t (0 : Fin 3) * 16 + 1 * b.val = b.val; omega
  | ⟨1, _⟩ => show win0_1.index t (1 : Fin 3) * 8 + 1 * j.val = 32 * t.val + 32 + j.val; omega
  | ⟨2, _⟩ => show win0_1.index t (2 : Fin 3) * 512 + 1 * h.val = h.val; omega

/-- Window 2's block is its whole array. -/
theorem whole_2 (c : Dev nD) (t : Fin cfg0.N) : iblk m c 2 t = V m c main_v5 := by
  obtain ⟨e0, e1⟩ := idx_2 t
  funext j
  unfold iblk
  show V m c main_v5 (((cfg0.win 2).blk t).view.emb j) = V m c main_v5 j
  congr 1
  funext a; apply Fin.ext
  match a with
  | ⟨0, _⟩ => show win0_2.index t (0 : Fin 2) * 2048 + 1 * (j 0).val = (j 0).val; omega
  | ⟨1, _⟩ => show win0_2.index t (1 : Fin 2) * 512 + 1 * (j 1).val = (j 1).val; omega
/-- Window 3's block is its whole array. -/
theorem whole_3 (c : Dev nD) (t : Fin cfg0.N) : iblk m c 3 t = V m c main_v3 := by
  obtain ⟨e0, e1⟩ := idx_3 t
  funext j
  unfold iblk
  show V m c main_v3 (((cfg0.win 3).blk t).view.emb j) = V m c main_v3 j
  congr 1
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega
/-- Window 4's block is its whole array. -/
theorem whole_4 (c : Dev nD) (t : Fin cfg0.N) : iblk m c 4 t = V m c main_v6 := by
  obtain ⟨e0, e1⟩ := idx_4 t
  funext j
  unfold iblk
  show V m c main_v6 (((cfg0.win 4).blk t).view.emb j) = V m c main_v6 j
  congr 1
  funext a; apply Fin.ext
  match a with
  | ⟨0, _⟩ => show win0_4.index t (0 : Fin 2) * 2048 + 1 * (j 0).val = (j 0).val; omega
  | ⟨1, _⟩ => show win0_4.index t (1 : Fin 2) * 512 + 1 * (j 1).val = (j 1).val; omega
/-- Window 5's block is its whole array. -/
theorem whole_5 (c : Dev nD) (t : Fin cfg0.N) : iblk m c 5 t = V m c main_v4 := by
  obtain ⟨e0, e1⟩ := idx_5 t
  funext j
  unfold iblk
  show V m c main_v4 (((cfg0.win 5).blk t).view.emb j) = V m c main_v4 j
  congr 1
  funext a; apply Fin.ext
  match a with
  | ⟨0, _⟩ => show win0_5.index t (0 : Fin 2) * 1 + 1 * (j 0).val = (j 0).val; omega
  | ⟨1, _⟩ => show win0_5.index t (1 : Fin 2) * 512 + 1 * (j 1).val = (j 1).val; omega
/-- Window 6's block is its whole array. -/
theorem whole_6 (c : Dev nD) (t : Fin cfg0.N) : iblk m c 6 t = V m c main_v7 := by
  obtain ⟨e0, e1, e2⟩ := idx_6 t
  funext j
  unfold iblk
  show V m c main_v7 (((cfg0.win 6).blk t).view.emb j) = V m c main_v7 j
  congr 1
  funext a; apply Fin.ext
  match a with
  | ⟨0, _⟩ => show win0_6.index t (0 : Fin 3) * 2 + 1 * (j 0).val = (j 0).val; omega
  | ⟨1, _⟩ => show win0_6.index t (1 : Fin 3) * 512 + 1 * (j 1).val = (j 1).val; omega
  | ⟨2, _⟩ => show win0_6.index t (2 : Fin 3) * 512 + 1 * (j 2).val = (j 2).val; omega
/-- Window 7's block is its whole array. -/
theorem whole_7 (c : Dev nD) (t : Fin cfg0.N) : iblk m c 7 t = V m c main_arg8 := by
  obtain ⟨e0, e1⟩ := idx_7 t
  funext j
  unfold iblk
  show V m c main_arg8 (((cfg0.win 7).blk t).view.emb j) = V m c main_arg8 j
  congr 1
  funext a; apply Fin.ext
  match a with
  | ⟨0, _⟩ => show win0_7.index t (0 : Fin 2) * 2 + 1 * (j 0).val = (j 0).val; omega
  | ⟨1, _⟩ => show win0_7.index t (1 : Fin 2) * 512 + 1 * (j 1).val = (j 1).val; omega
/-- Window 8's block is its whole array. -/
theorem whole_8 (c : Dev nD) (t : Fin cfg0.N) : iblk m c 8 t = V m c main_v8 := by
  obtain ⟨e0, e1, e2⟩ := idx_8 t
  funext j
  unfold iblk
  show V m c main_v8 (((cfg0.win 8).blk t).view.emb j) = V m c main_v8 j
  congr 1
  funext a; apply Fin.ext
  match a with
  | ⟨0, _⟩ => show win0_8.index t (0 : Fin 3) * 2 + 1 * (j 0).val = (j 0).val; omega
  | ⟨1, _⟩ => show win0_8.index t (1 : Fin 3) * 512 + 1 * (j 1).val = (j 1).val; omega
  | ⟨2, _⟩ => show win0_8.index t (2 : Fin 3) * 512 + 1 * (j 2).val = (j 2).val; omega
/-- Window 9's block is its whole array. -/
theorem whole_9 (c : Dev nD) (t : Fin cfg0.N) : iblk m c 9 t = V m c main_arg10 := by
  obtain ⟨e0, e1⟩ := idx_9 t
  funext j
  unfold iblk
  show V m c main_arg10 (((cfg0.win 9).blk t).view.emb j) = V m c main_arg10 j
  congr 1
  funext a; apply Fin.ext
  match a with
  | ⟨0, _⟩ => show win0_9.index t (0 : Fin 2) * 2 + 1 * (j 0).val = (j 0).val; omega
  | ⟨1, _⟩ => show win0_9.index t (1 : Fin 2) * 512 + 1 * (j 1).val = (j 1).val; omega
/-- Window 10's block is its whole array. -/
theorem whole_10 (c : Dev nD) (t : Fin cfg0.N) : iblk m c 10 t = V m c main_arg11 := by
  obtain ⟨e0, e1⟩ := idx_10 t
  funext j
  unfold iblk
  show V m c main_arg11 (((cfg0.win 10).blk t).view.emb j) = V m c main_arg11 j
  congr 1
  funext a; apply Fin.ext
  match a with
  | ⟨0, _⟩ => show win0_10.index t (0 : Fin 2) * 2 + 1 * (j 0).val = (j 0).val; omega
  | ⟨1, _⟩ => show win0_10.index t (1 : Fin 2) * 512 + 1 * (j 1).val = (j 1).val; omega
/-- Window 11's block is its whole array. -/
theorem whole_11 (c : Dev nD) (t : Fin cfg0.N) : iblk m c 11 t = V m c main_arg12 := by
  obtain ⟨e0, e1⟩ := idx_11 t
  funext j
  unfold iblk
  show V m c main_arg12 (((cfg0.win 11).blk t).view.emb j) = V m c main_arg12 j
  congr 1
  funext a; apply Fin.ext
  match a with
  | ⟨0, _⟩ => show win0_11.index t (0 : Fin 2) * 2 + 1 * (j 0).val = (j 0).val; omega
  | ⟨1, _⟩ => show win0_11.index t (1 : Fin 2) * 512 + 1 * (j 1).val = (j 1).val; omega
/-- Window 12's block is its whole array. -/
theorem whole_12 (c : Dev nD) (t : Fin cfg0.N) : iblk m c 12 t = V m c main_v9 := by
  obtain ⟨e0, e1, e2⟩ := idx_12 t
  funext j
  unfold iblk
  show V m c main_v9 (((cfg0.win 12).blk t).view.emb j) = V m c main_v9 j
  congr 1
  funext a; apply Fin.ext
  match a with
  | ⟨0, _⟩ => show win0_12.index t (0 : Fin 3) * 2 + 1 * (j 0).val = (j 0).val; omega
  | ⟨1, _⟩ => show win0_12.index t (1 : Fin 3) * 512 + 1 * (j 1).val = (j 1).val; omega
  | ⟨2, _⟩ => show win0_12.index t (2 : Fin 3) * 512 + 1 * (j 2).val = (j 2).val; omega
/-- Window 13's block is its whole array. -/
theorem whole_13 (c : Dev nD) (t : Fin cfg0.N) : iblk m c 13 t = V m c main_arg14 := by
  obtain ⟨e0, e1⟩ := idx_13 t
  funext j
  unfold iblk
  show V m c main_arg14 (((cfg0.win 13).blk t).view.emb j) = V m c main_arg14 j
  congr 1
  funext a; apply Fin.ext
  match a with
  | ⟨0, _⟩ => show win0_13.index t (0 : Fin 2) * 2 + 1 * (j 0).val = (j 0).val; omega
  | ⟨1, _⟩ => show win0_13.index t (1 : Fin 2) * 512 + 1 * (j 1).val = (j 1).val; omega
/-- Window 14's block is its whole array. -/
theorem whole_14 (c : Dev nD) (t : Fin cfg0.N) : iblk m c 14 t = V m c main_v10 := by
  obtain ⟨e0, e1, e2⟩ := idx_14 t
  funext j
  unfold iblk
  show V m c main_v10 (((cfg0.win 14).blk t).view.emb j) = V m c main_v10 j
  congr 1
  funext a; apply Fin.ext
  match a with
  | ⟨0, _⟩ => show win0_14.index t (0 : Fin 3) * 2 + 1 * (j 0).val = (j 0).val; omega
  | ⟨1, _⟩ => show win0_14.index t (1 : Fin 3) * 512 + 1 * (j 1).val = (j 1).val; omega
  | ⟨2, _⟩ => show win0_14.index t (2 : Fin 3) * 512 + 1 * (j 2).val = (j 2).val; omega
/-- Window 15's block is its whole array. -/
theorem whole_15 (c : Dev nD) (t : Fin cfg0.N) : iblk m c 15 t = V m c main_arg16 := by
  obtain ⟨e0, e1⟩ := idx_15 t
  funext j
  unfold iblk
  show V m c main_arg16 (((cfg0.win 15).blk t).view.emb j) = V m c main_arg16 j
  congr 1
  funext a; apply Fin.ext
  match a with
  | ⟨0, _⟩ => show win0_15.index t (0 : Fin 2) * 2 + 1 * (j 0).val = (j 0).val; omega
  | ⟨1, _⟩ => show win0_15.index t (1 : Fin 2) * 512 + 1 * (j 1).val = (j 1).val; omega
/-- Window 16's block is its whole array. -/
theorem whole_16 (c : Dev nD) (t : Fin cfg0.N) : iblk m c 16 t = V m c main_arg17 := by
  obtain ⟨e0, e1⟩ := idx_16 t
  funext j
  unfold iblk
  show V m c main_arg17 (((cfg0.win 16).blk t).view.emb j) = V m c main_arg17 j
  congr 1
  funext a; apply Fin.ext
  match a with
  | ⟨0, _⟩ => show win0_16.index t (0 : Fin 2) * 2 + 1 * (j 0).val = (j 0).val; omega
  | ⟨1, _⟩ => show win0_16.index t (1 : Fin 2) * 512 + 1 * (j 1).val = (j 1).val; omega
/-- Window 17's block is its whole array. -/
theorem whole_17 (c : Dev nD) (t : Fin cfg0.N) : iblk m c 17 t = V m c main_arg18 := by
  obtain ⟨e0, e1⟩ := idx_17 t
  funext j
  unfold iblk
  show V m c main_arg18 (((cfg0.win 17).blk t).view.emb j) = V m c main_arg18 j
  congr 1
  funext a; apply Fin.ext
  match a with
  | ⟨0, _⟩ => show win0_17.index t (0 : Fin 2) * 2 + 1 * (j 0).val = (j 0).val; omega
  | ⟨1, _⟩ => show win0_17.index t (1 : Fin 2) * 512 + 1 * (j 1).val = (j 1).val; omega

/-- The nine window rows of position `p` of point `t` are rows `32·t + p`, … of the padded sequence. -/
theorem rows_eq (c : Dev nD) (t : Fin cfg0.N) (b : Fin 16) (p : Fin 32) :
    Point.rows (ins m c t) b p = Towers.rowAt (V m c main_v2) b (⟨32 * t.val + p.val, by have := t_lt t; omega⟩ : Fin 2048) := by
  funext j h
  unfold Point.rows Towers.rowAt
  by_cases hlt : p.val + j.val < 32
  · rw [dif_pos hlt]
    show iblk0 m c t (ix3 b (⟨p.val + j.val, hlt⟩ : Fin 32) h) = _
    rw [seq_apply]
    congr 1
    funext a; apply Fin.ext
    match a with
    | ⟨0, _⟩ => rfl
    | ⟨1, _⟩ => show 32 * t.val + (p.val + j.val) = 32 * t.val + p.val + j.val; omega
    | ⟨2, _⟩ => rfl
  · rw [dif_neg hlt]
    show iblk m c 1 t (ix3 b (⟨p.val + j.val - 32, by omega⟩ : Fin 8) h) = _
    rw [halo_apply]
    congr 1
    funext a; apply Fin.ext
    match a with
    | ⟨0, _⟩ => rfl
    | ⟨1, _⟩ => show 32 * t.val + 32 + (p.val + j.val - 32) = 32 * t.val + p.val + j.val; omega
    | ⟨2, _⟩ => rfl

/-- The towers' parameters as the region's arrays hold them. -/
def leftV (c : Dev nD) : Towers.Params where
  Wm := V m c main_v5
  bm := fun i => V m c main_v3 (ix2 0 (i 0))
  w1 := V m c main_v7
  b1 := V m c main_arg8
  w2 := V m c main_v8
  b2 := V m c main_arg10
  g := V m c main_arg11
  beta := V m c main_arg12
def rightV (c : Dev nD) : Towers.Params where
  Wm := V m c main_v6
  bm := fun i => V m c main_v4 (ix2 0 (i 0))
  w1 := V m c main_v9
  b1 := V m c main_arg14
  w2 := V m c main_v10
  b2 := V m c main_arg16
  g := V m c main_arg17
  beta := V m c main_arg18

theorem leftParams_eq (c : Dev nD) (t : Fin cfg0.N) : Point.leftParams (ins m c t) = leftV m c := by
  unfold Point.leftParams leftV ins
  simp only [whole_2, whole_3, whole_6, whole_7, whole_8, whole_9, whole_10, whole_11]
theorem rightParams_eq (c : Dev nD) (t : Fin cfg0.N) : Point.rightParams (ins m c t) = rightV m c := by
  unfold Point.rightParams rightV ins
  simp only [whole_4, whole_5, whole_12, whole_13, whole_14, whole_15, whole_16, whole_17]

end Cert.KernelIdeal.Whole

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.PointOps.lean ====
/-
  The operations of the body on 512 × 512 matrices, read at a row and a column on the extended reals: each is local
  to a row.  A product into zeros is the sum over the contracted coordinate, a lane sum the sum over the row, a
  512 × 1 column and its broadcast read the row's entry, a 1 × 512 row and its broadcast the column's entry.
-/
import proofs.«134143_j43731357007884_2_alg».proof.Proof.BlocksIdeal
import proofs.«134143_j43731357007884_2_alg».proof.Proof.Towers
import proofs.«134143_j43731357007884_2_alg».proof.Proof.LibBlockReads
import proofs.«134143_j43731357007884_2_alg».proof.Proof.LibRowReductions
import Idealize.ShloMosaic.Lib.ValueLayout

open scoped BigOperators

noncomputable section

namespace Cert.KernelIdeal.Point

open Idealize.ShloMosaic Idealize.ShloMosaic.ValueIdx Cert.KernelIdeal Cert.KernelIdeal.Gen

/-- A product of two 512 × 512 matrices into zeros, at (r, c): the sum over k of A(r, k) · B(k, c). -/
theorem mm_apply {φ₁ φ₂ : FTy} (A : FVec Ideal S512x512 φ₁) (B : FVec Ideal S512x512 φ₂) (r c : Fin 512) :
    matmul dot_S512x512_S512x512_S512x512_1_0_0_1_n_n none A B (constant S512x512 .f32 0x00000000#32) (ix2 r c)
      = ∑ k : Fin 512, A (ix2 r k) * B (ix2 k c) :=
  Cert.Lib.BlockReads.matmul_zero_rows_apply _ rfl rfl rfl rfl rfl rfl none A B r c

/-- The lane sum of a 512 × 512 matrix at row r: the sum over the row. -/
theorem lanesum_apply (v : FVec Ideal S512x512 .f32) (h : S512x512.Reduces [1] S512) (hφ : FTy.f32 = FTy.f32 ∨ FTy.f32 = FTy.bf16)
    (hacc : (0x00000000#32 : BitVec 32) = 0x00000000#32) (r : Fin 512) :
    multiReduction .add [1] S512 v 0x00000000#32 h hφ hacc (ix1 r) = ∑ k : Fin 512, v (ix2 r k) :=
  Cert.Lib.RowReductions.rowsum_apply v _ h hφ hacc r

/-- A vector of 512 as a 512 × 1 column. -/
theorem col_apply {α : Type} (x : S512.Idx → α) (h : S512.ShapeCasts S512x1) (r : Fin 512) :
    shapeCast S512x1 x h (ix2 r 0) = x (ix1 r) :=
  Cert.Lib.RowReductions.shapeCast_col_apply x h r

/-- A 512 × 1 column broadcast across the columns. -/
theorem bcol_apply {α : Type} (x : S512x1.Idx → α) (h : S512x1.Broadcasts S512x512) (r c : Fin 512) :
    broadcastTo S512x512 x h (ix2 r c) = x (ix2 r 0) :=
  Cert.Lib.RowReductions.broadcast_col_apply x h r c

/-- A 1 × 512 row broadcast down the rows. -/
theorem brow_apply {α : Type} (x : S1x512.Idx → α) (h : S1x512.Broadcasts S512x512) (r c : Fin 512) :
    broadcastTo S512x512 x h (ix2 r c) = x (ix2 0 c) :=
  Cert.Lib.BlockReads.broadcast_row_apply x h r c

/-- A 1 × 512 row as a vector of 512. -/
theorem vec_apply {α : Type} (x : S1x512.Idx → α) (h : S1x512.ShapeCasts S512) (c : Fin 512) :
    shapeCast S512 x h (ix1 c) = x (ix2 0 c) :=
  shapeCast_1a_a_apply x h c

/-- A vector of 512 as a 1 × 512 row. -/
theorem row_apply {α : Type} (x : S512.Idx → α) (h : S512.ShapeCasts S1x512) (c : Fin 512) :
    shapeCast S1x512 x h (ix2 0 c) = x (ix1 c) :=
  shapeCast_a_1a_apply x h 0 c

/-- A 1 × 512 × 512 slab as a matrix. -/
theorem mat_apply {α : Type} (x : S1x512x512.Idx → α) (h : S1x512x512.ShapeCasts S512x512) (k c : Fin 512) :
    shapeCast S512x512 x h (ix2 k c) = x (ix3 0 k c) :=
  shapeCast_1ab_ab_apply x h k c

/-- The reciprocal square root is taken entry by entry. -/
theorem rsqrt_apply {s : Shape} {φ : FTy} (v : FVec Ideal s φ) (i : s.Idx) : rsqrt v i = Ideal.rsqrt (v i) := rfl

end Cert.KernelIdeal.Point

end
-- ==== Proof.PointLayout.lean ====
/-
  The re-layings of the body, read at an index given by coordinates.  A 16 × 32 × 512 block viewed as a 512 × 512
  matrix puts (batch b, position t) in row 32·b + t; the swap of the two leading axes reads (t, b) at (b, t); two
  blocks side by side along the last axis read the left one in columns 0–511 and the right one in 512–1023; the
  40-position window is the 32-position block followed by the 8 positions after it.
-/
import proofs.«134143_j43731357007884_2_alg».proof.Proof.BlocksIdeal
import proofs.«134143_j43731357007884_2_alg».proof.Proof.Towers
import Idealize.ShloMosaic.Lib.ValueLayout

noncomputable section

namespace Cert.KernelIdeal.Point

open Idealize.ShloMosaic Idealize.ShloMosaic.ValueIdx Cert.KernelIdeal Cert.KernelIdeal.Gen

variable {α : Type}

/-- The matrix row that holds position t of batch b. -/
def rowIdx (b : Fin 16) (t : Fin 32) : Fin 512 := ⟨32 * b.val + t.val, by omega⟩

/-- A 16 × 32 × 512 block as a 512 × 512 matrix: row 32·b + t is (b, t). -/
theorem rows_apply (X : S16x32x512.Idx → α) (h : S16x32x512.ShapeCasts S512x512) (b : Fin 16) (t : Fin 32) (c : Fin 512) :
    shapeCast S512x512 X h (ix2 (rowIdx b t) c) = X (ix3 b t c) :=
  shapeCast_apply X h _ _ (by
    rw [Shape.rowMajor_val_three, Shape.rowMajor_val_two]
    show (b.val * 32 + t.val) * 512 + c.val = (32 * b.val + t.val) * 512 + c.val
    omega)

/-- A 512 × 512 matrix as a 16 × 32 × 512 block: (b, t) is row 32·b + t. -/
theorem unrows_apply (X : S512x512.Idx → α) (h : S512x512.ShapeCasts S16x32x512) (b : Fin 16) (t : Fin 32) (c : Fin 512) :
    shapeCast S16x32x512 X h (ix3 b t c) = X (ix2 (rowIdx b t) c) :=
  shapeCast_apply X h _ _ (by
    rw [Shape.rowMajor_val_three, Shape.rowMajor_val_two]
    show (32 * b.val + t.val) * 512 + c.val = (b.val * 32 + t.val) * 512 + c.val
    omega)

/-- The swap of the two leading axes reads (t, b) at (b, t). -/
theorem swap_apply (X : S16x32x512.Idx → α) (h : S16x32x512.Transposes [1, 0, 2] S32x16x512) (t : Fin 32) (b : Fin 16)
    (c : Fin 512) : transpose S32x16x512 [1, 0, 2] X h (ix3 t b c) = X (ix3 b t c) :=
  transpose_apply _ X h _ _ fun a => match a with | ⟨0, _⟩ => rfl | ⟨1, _⟩ => rfl | ⟨2, _⟩ => rfl

/-- A leading unit axis added to a 32 × 16 × 1024 block. -/
theorem unit_apply (X : S32x16x1024.Idx → α) (h : S32x16x1024.ShapeCasts S1x32x16x1024) (t : Fin 32) (b : Fin 16)
    (col : Fin 1024) : shapeCast S1x32x16x1024 X h (ix4 0 t b col) = X (ix3 t b col) :=
  shapeCast_abc_1abc_apply X h 0 t b col

/-- Two 16 × 32 × 512 blocks side by side along the last axis. -/
theorem join_bt_apply (x y : S16x32x512.Idx → EReal) (h : Shape.Concatenates [S16x32x512, S16x32x512] S16x32x1024 2)
    (b : Fin 16) (t : Fin 32) (col : Fin 1024) :
    concatenate S16x32x1024 2 [⟨S16x32x512, x⟩, ⟨S16x32x512, y⟩] h (ix3 b t col)
      = Towers.joined (fun k => x (ix3 b t k)) (fun k => y (ix3 b t k)) col := by
  unfold Towers.joined
  by_cases hc : col.val < 512
  · rw [dif_pos hc]
    exact concatenate_pair_apply_left _ x y h _ rfl (ix3 b t ⟨col.val, hc⟩) fun a =>
      match a with | ⟨0, _⟩ => rfl | ⟨1, _⟩ => rfl | ⟨2, _⟩ => rfl
  · rw [dif_neg hc]
    refine concatenate_pair_apply_right _ x y h _ rfl rfl (ix3 b t ⟨col.val - 512, by omega⟩) (fun a ha => ?_) ?_
    · match a with
      | ⟨0, _⟩ => rfl
      | ⟨1, _⟩ => rfl
      | ⟨2, _⟩ => exact absurd rfl ha
    · show col.val - 512 + 512 = col.val
      omega

/-- Two 32 × 16 × 512 blocks side by side along the last axis. -/
theorem join_tb_apply (x y : S32x16x512.Idx → EReal) (h : Shape.Concatenates [S32x16x512, S32x16x512] S32x16x1024 2)
    (t : Fin 32) (b : Fin 16) (col : Fin 1024) :
    concatenate S32x16x1024 2 [⟨S32x16x512, x⟩, ⟨S32x16x512, y⟩] h (ix3 t b col)
      = Towers.joined (fun k => x (ix3 t b k)) (fun k => y (ix3 t b k)) col := by
  unfold Towers.joined
  by_cases hc : col.val < 512
  · rw [dif_pos hc]
    exact concatenate_pair_apply_left _ x y h _ rfl (ix3 t b ⟨col.val, hc⟩) fun a =>
      match a with | ⟨0, _⟩ => rfl | ⟨1, _⟩ => rfl | ⟨2, _⟩ => rfl
  · rw [dif_neg hc]
    refine concatenate_pair_apply_right _ x y h _ rfl rfl (ix3 t b ⟨col.val - 512, by omega⟩) (fun a ha => ?_) ?_
    · match a with
      | ⟨0, _⟩ => rfl
      | ⟨1, _⟩ => rfl
      | ⟨2, _⟩ => exact absurd rfl ha
    · show col.val - 512 + 512 = col.val
      omega

/-- The 32-position block followed by the 8 positions after it: position p of the 40. -/
theorem window_apply (x : S16x32x512.Idx → α) (y : S16x8x512.Idx → α)
    (h : Shape.Concatenates [S16x32x512, S16x8x512] S16x40x512 1) (b : Fin 16) (p : Fin 40) (c : Fin 512) :
    concatenate S16x40x512 1 [⟨S16x32x512, x⟩, ⟨S16x8x512, y⟩] h (ix3 b p c)
      = if hlt : p.val < 32 then x (ix3 b (⟨p.val, hlt⟩ : Fin 32) c)
        else y (ix3 b (⟨p.val - 32, by omega⟩ : Fin 8) c) := by
  by_cases hc : p.val < 32
  · rw [dif_pos hc]
    exact concatenate_pair_apply_left _ x y h _ rfl (ix3 b ⟨p.val, hc⟩ c) fun a =>
      match a with | ⟨0, _⟩ => rfl | ⟨1, _⟩ => rfl | ⟨2, _⟩ => rfl
  · rw [dif_neg hc]
    refine concatenate_pair_apply_right _ x y h _ rfl rfl (ix3 b ⟨p.val - 32, by omega⟩ c) (fun a ha => ?_) ?_
    · match a with
      | ⟨0, _⟩ => rfl
      | ⟨1, _⟩ => exact absurd rfl ha
      | ⟨2, _⟩ => rfl
    · show p.val - 32 + 32 = p.val
      omega

/-- Thirty-two positions of the window from position o on. -/
theorem shift_apply (o : Nat) (W : S16x40x512.Idx → α) (h : S16x40x512.Slices ![0, o, 0] S16x32x512) (b : Fin 16)
    (t : Fin 32) (c : Fin 512) (p : Fin 40) (hp : p.val = o + t.val) :
    extractStridedSlice S16x32x512 ![0, o, 0] W h (ix3 b t c) = W (ix3 b p c) :=
  slice3_axis1_apply o W h b t c p hp

end Cert.KernelIdeal.Point

end
-- ==== Proof.PointBlock.lean ====
/-
  One residual block of a tower, as the body computes it on 512 × 512 matrices, read at a row: row r of the result is
  the block of the row-by-row network applied to row r of the operand.  The body spells the block four ways (the
  column of row sums, the gain and shift rows and the centred matrix are sometimes computed beforehand and handed
  in); each spelling is read here with the same per-operation lemmas.
-/
import proofs.«134143_j43731357007884_2_alg».proof.Proof.PointOps
import proofs.«134143_j43731357007884_2_alg».proof.Proof.PointLayout

open scoped BigOperators

noncomputable section

namespace Cert.KernelIdeal.Point

open Idealize.ShloMosaic Idealize.ShloMosaic.ValueIdx Cert.KernelIdeal Cert.KernelIdeal.Gen

/-- The single row of a 1 × 512 block. -/
abbrev rowv (x : Vec Ideal S1x512 .f32) : Towers.Row := fun k => x (ix2 0 k)
/-- The single matrix of a 1 × 512 × 512 slab. -/
abbrev matv (w : Vec Ideal S1x512x512 .bf16) : Towers.Mat := fun k c => w (ix3 0 k c)
/-- Row r of a 512 × 512 matrix. -/
abbrev mrow (X : FVec Ideal S512x512 .f32) (r : Fin 512) : Towers.Row := fun k => X (ix2 r k)

/-- The left tower's first block: the column of row sums and the gain and shift vectors are handed in. -/
theorem block_left1_apply (x : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (r c : Fin 512) :
    k0_pay9 x (k0_pay5 g) (k0_pay6 β) (k0_pay7 x) (k0_pay8 (F := Ideal)) w1 b1 w2 b2 (ix2 r c)
      = Towers.block (rowv g) (rowv β) (matv w1) (rowv b1) (matv w2) (rowv b2) (mrow x r) c := by
  unfold k0_pay9 k0_pay5 k0_pay6 k0_pay7 k0_pay8
  simp only [addf_apply, mulf_apply, subf_apply, divf_apply, maximumf_apply, truncf_apply, broadcast_apply, rsqrt_apply,
    mm_apply, col_apply, bcol_apply, brow_apply, vec_apply, row_apply, mat_apply, Ideal.ofBits_def]
  repeat (rewrite [lanesum_apply]; try simp only [addf_apply, mulf_apply, subf_apply, divf_apply, maximumf_apply, truncf_apply, broadcast_apply, rsqrt_apply,
    mm_apply, col_apply, bcol_apply, brow_apply, vec_apply, row_apply, mat_apply, Ideal.ofBits_def])
  unfold Towers.block Towers.apply Towers.relu Towers.norm Towers.centred Towers.mean Towers.width Towers.eps Towers.zeroW
  rfl

/-- The hidden layer of the right tower's first block: the clamped first product of the normalised rows. -/
theorem hidden_right1_apply (x : FVec Ideal S512x512 .f32) (g β : Vec Ideal S1x512 .f32) (w1 : Vec Ideal S1x512x512 .bf16)
    (b1 : Vec Ideal S1x512 .f32) (r k : Fin 512) :
    k0_pay11 x g β w1 b1 (ix2 r k)
      = Towers.relu (fun j => Towers.apply (matv w1) (Towers.norm (rowv g) (rowv β) (mrow x r)) j + rowv b1 j) k := by
  unfold k0_pay11
  simp only [addf_apply, mulf_apply, subf_apply, divf_apply, maximumf_apply, truncf_apply, broadcast_apply, rsqrt_apply,
    mm_apply, col_apply, bcol_apply, brow_apply, vec_apply, row_apply, mat_apply, Ideal.ofBits_def]
  repeat (rewrite [lanesum_apply]; try simp only [addf_apply, mulf_apply, subf_apply, divf_apply, maximumf_apply, truncf_apply, broadcast_apply, rsqrt_apply,
    mm_apply, col_apply, bcol_apply, brow_apply, vec_apply, row_apply, mat_apply, Ideal.ofBits_def])
  unfold Towers.apply Towers.relu Towers.norm Towers.centred Towers.mean Towers.width Towers.eps Towers.zeroW
  rfl

/-- The right tower's first block, from its hidden layer. -/
theorem block_right1_apply (x : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (r c : Fin 512) :
    k0_pay12 x (k0_pay10 w2) (k0_pay11 x g β w1 b1) (constant (F := Ideal) S512x512 .f32 0x00000000#32) b2 (ix2 r c)
      = Towers.block (rowv g) (rowv β) (matv w1) (rowv b1) (matv w2) (rowv b2) (mrow x r) c := by
  unfold k0_pay12 k0_pay10
  simp only [addf_apply, mulf_apply, subf_apply, divf_apply, maximumf_apply, truncf_apply, broadcast_apply, rsqrt_apply,
    mm_apply, col_apply, bcol_apply, brow_apply, vec_apply, row_apply, mat_apply, Ideal.ofBits_def, hidden_right1_apply]
  unfold Towers.block Towers.apply
  rfl

/-- The left tower's normalised rows of the second block. -/
theorem norm_left2_apply (x : FVec Ideal S512x512 .f32) (g β : Vec Ideal S1x512 .f32) (r c : Fin 512) :
    k0_pay14 x g β (ix2 r c) = Towers.norm (rowv g) (rowv β) (mrow x r) c := by
  unfold k0_pay14
  simp only [addf_apply, mulf_apply, subf_apply, divf_apply, maximumf_apply, truncf_apply, broadcast_apply, rsqrt_apply,
    mm_apply, col_apply, bcol_apply, brow_apply, vec_apply, row_apply, mat_apply, Ideal.ofBits_def]
  repeat (rewrite [lanesum_apply]; try simp only [addf_apply, mulf_apply, subf_apply, divf_apply, maximumf_apply, truncf_apply, broadcast_apply, rsqrt_apply,
    mm_apply, col_apply, bcol_apply, brow_apply, vec_apply, row_apply, mat_apply, Ideal.ofBits_def])
  unfold Towers.norm Towers.centred Towers.mean Towers.width Towers.eps
  rfl

/-- The left tower's second block, from its normalised rows. -/
theorem block_left2_apply (x : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (r c : Fin 512) :
    k0_pay15 x (k0_pay14 x g β) w1 b1 w2 b2 (ix2 r c)
      = Towers.block (rowv g) (rowv β) (matv w1) (rowv b1) (matv w2) (rowv b2) (mrow x r) c := by
  unfold k0_pay15
  simp only [addf_apply, mulf_apply, subf_apply, divf_apply, maximumf_apply, truncf_apply, broadcast_apply, rsqrt_apply,
    mm_apply, col_apply, bcol_apply, brow_apply, vec_apply, row_apply, mat_apply, Ideal.ofBits_def, norm_left2_apply]
  unfold Towers.block Towers.apply Towers.relu Towers.zeroW
  rfl

/-- The right tower's second block, as a 16 × 32 × 512 block: the variance column, the centred matrix and the gain
    matrix are handed in. -/
theorem block_right2_apply (x : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (b : Fin 16) (t : Fin 32)
    (c : Fin 512) :
    k0_pay22 x (k0_pay16 β) (k0_pay18 x) (k0_pay19 x) (k0_pay20 g) w1 b1 w2 b2 (ix3 b t c)
      = Towers.block (rowv g) (rowv β) (matv w1) (rowv b1) (matv w2) (rowv b2) (mrow x (rowIdx b t)) c := by
  unfold k0_pay22 k0_pay16 k0_pay18 k0_pay19 k0_pay20 k0_pay17
  rewrite [unrows_apply]
  simp only [addf_apply, mulf_apply, subf_apply, divf_apply, maximumf_apply, truncf_apply, broadcast_apply, rsqrt_apply,
    mm_apply, col_apply, bcol_apply, brow_apply, vec_apply, row_apply, mat_apply, Ideal.ofBits_def]
  repeat (rewrite [lanesum_apply]; try simp only [addf_apply, mulf_apply, subf_apply, divf_apply, maximumf_apply, truncf_apply, broadcast_apply, rsqrt_apply,
    mm_apply, col_apply, bcol_apply, brow_apply, vec_apply, row_apply, mat_apply, Ideal.ofBits_def])
  unfold Towers.block Towers.apply Towers.relu Towers.norm Towers.centred Towers.mean Towers.width Towers.eps Towers.zeroW
  rfl

end Cert.KernelIdeal.Point

end
-- ==== Proof.PointProject.lean ====
/-
  The window projection of a tower, as the body computes it, read at row 32·b + t: four shifted 32-position views of
  the 40-position window, each as a 512 × 512 matrix times its band of the projection matrix, summed from zero, plus
  the bias, clamped at zero.  Row 32·b + t of the view shifted by o is position o + t of batch b.
-/
import proofs.«134143_j43731357007884_2_alg».proof.Proof.PointOps
import proofs.«134143_j43731357007884_2_alg».proof.Proof.PointLayout
import proofs.«134143_j43731357007884_2_alg».proof.Proof.PointBlock

open scoped BigOperators

noncomputable section

namespace Cert.KernelIdeal.Point

open Idealize.ShloMosaic Idealize.ShloMosaic.ValueIdx Cert.KernelIdeal Cert.KernelIdeal.Gen

/-- The 40 positions in the matrix unit's format: the block, then the 8 positions after it. -/
theorem window_apply' (x : Vec Ideal S16x32x512 .f32) (y : Vec Ideal S16x8x512 .f32) (b : Fin 16) (p : Fin 40) (c : Fin 512) :
    k0_pay2 x y (ix3 b p c)
      = if hlt : p.val < 32 then x (ix3 b (⟨p.val, hlt⟩ : Fin 32) c) else y (ix3 b (⟨p.val - 32, by omega⟩ : Fin 8) c) := by
  unfold k0_pay2
  simp only [truncf_apply, shapeCast_self]
  exact window_apply x y _ b p c

/-- The sum of the four banded products from zero, plus the bias, clamped: the projection of the four rows. -/
theorem project_sum (Wb : Fin 4 → Towers.Mat) (bias : Towers.Row) (R : Fin 4 → Towers.Row) (c : Fin 512) :
    max (Ideal.ofBits .f32 0x00000000#32 + (∑ k, R 0 k * Wb 0 k c) + (∑ k, R 1 k * Wb 1 k c) + (∑ k, R 2 k * Wb 2 k c)
        + (∑ k, R 3 k * Wb 3 k c) + bias c) (Ideal.ofBits .f32 0x00000000#32)
      = Towers.project Wb bias R c := by
  unfold Towers.project Towers.relu Towers.apply Towers.zeroW
  dsimp only
  rw [Fin.sum_univ_four, Ideal.ofBits_zero_f32, zero_add]

/-- The right tower's projection: the window's positions 5 + t, …, 8 + t. -/
theorem project_right_apply (W : FVec Ideal S16x40x512 .bf16) (w0 w1 w2 w3 : Vec Ideal S512x512 .bf16)
    (bias : Vec Ideal S1x512 .f32) (Wb : Fin 4 → Towers.Mat) (R : Fin 4 → Towers.Row) (b : Fin 16) (t : Fin 32)
    (h0 : ∀ k j, w0 (ix2 k j) = Wb 0 k j) (h1 : ∀ k j, w1 (ix2 k j) = Wb 1 k j)
    (h2 : ∀ k j, w2 (ix2 k j) = Wb 2 k j) (h3 : ∀ k j, w3 (ix2 k j) = Wb 3 k j)
    (r0 : ∀ k, W (ix3 b (⟨5 + t.val, by omega⟩ : Fin 40) k) = R 0 k)
    (r1 : ∀ k, W (ix3 b (⟨6 + t.val, by omega⟩ : Fin 40) k) = R 1 k)
    (r2 : ∀ k, W (ix3 b (⟨7 + t.val, by omega⟩ : Fin 40) k) = R 2 k)
    (r3 : ∀ k, W (ix3 b (⟨8 + t.val, by omega⟩ : Fin 40) k) = R 3 k) (c : Fin 512) :
    k0_pay4 W w0 w1 w2 w3 bias (ix2 (rowIdx b t) c) = Towers.project Wb (rowv bias) R c := by
  unfold k0_pay4
  simp only [maximumf_apply, addf_apply, broadcast_apply, mm_apply, brow_apply, shapeCast_self, rows_apply,
    slice3_axis1_eq, r0, r1, r2, r3, h0, h1, h2, h3]
  exact project_sum Wb (rowv bias) R c

/-- The left tower's projection: the window's positions t, …, 3 + t. -/
theorem project_left_apply (x : Vec Ideal S16x32x512 .f32) (y : Vec Ideal S16x8x512 .f32)
    (w0 w1 w2 w3 : Vec Ideal S512x512 .bf16)
    (bias : Vec Ideal S1x512 .f32) (Wb : Fin 4 → Towers.Mat) (R : Fin 4 → Towers.Row) (b : Fin 16) (t : Fin 32)
    (h0 : ∀ k j, w0 (ix2 k j) = Wb 0 k j) (h1 : ∀ k j, w1 (ix2 k j) = Wb 1 k j)
    (h2 : ∀ k j, w2 (ix2 k j) = Wb 2 k j) (h3 : ∀ k j, w3 (ix2 k j) = Wb 3 k j)
    (r0 : ∀ k, k0_pay2 x y (ix3 b (⟨0 + t.val, by omega⟩ : Fin 40) k) = R 0 k)
    (r1 : ∀ k, k0_pay2 x y (ix3 b (⟨1 + t.val, by omega⟩ : Fin 40) k) = R 1 k)
    (r2 : ∀ k, k0_pay2 x y (ix3 b (⟨2 + t.val, by omega⟩ : Fin 40) k) = R 2 k)
    (r3 : ∀ k, k0_pay2 x y (ix3 b (⟨3 + t.val, by omega⟩ : Fin 40) k) = R 3 k) (c : Fin 512) :
    k0_pay3 x y w0 w1 w2 w3 bias (ix2 (rowIdx b t) c) = Towers.project Wb (rowv bias) R c := by
  unfold k0_pay3
  simp only [maximumf_apply, addf_apply, broadcast_apply, mm_apply, brow_apply, shapeCast_self, rows_apply,
    slice3_axis1_eq, r0, r1, r2, r3, h0, h1, h2, h3]
  exact project_sum Wb (rowv bias) R c

end Cert.KernelIdeal.Point

end
-- ==== Proof.PointParams.lean ====
/-
  The point's parameter blocks read through the rectangles the body loads them by: row l of a 2 × 512 block, matrix l
  of a 2 × 512 × 512 block, band i (rows 512·i … 512·i + 511) of a 2048 × 512 matrix, the 1 × 512 bias, and the two
  sequence blocks whole.  Each rectangle has unit strides, so entry x of the load is the block at offset + x.
-/
import proofs.«134143_j43731357007884_2_alg».proof.Proof.PointRows
import proofs.«134143_j43731357007884_2_alg».proof.Proof.PointBlock

noncomputable section

namespace Cert.KernelIdeal.Point

open Idealize.ShloMosaic Idealize.ShloMosaic.ValueIdx Cert.KernelIdeal Cert.KernelIdeal.Gen Cert.KernelIdeal.Blocks

theorem zeros3 : (![0, 0, 0] : Fin 3 → Nat) = fun _ => 0 := by
  funext a; match a with | ⟨0, _⟩ => rfl | ⟨1, _⟩ => rfl | ⟨2, _⟩ => rfl

/-- The two sequence blocks are loaded whole. -/
theorem ld_seq (x : Vec Ideal S16x32x512 .f32) : View.ld x rSeq = x := View.ld_unit_zero zeros3 _ x
theorem ld_halo (y : Vec Ideal S16x8x512 .f32) : View.ld y rHalo = y := View.ld_unit_zero zeros3 _ y

/-- Rows 0 and 1 of a 2 × 512 block. -/
theorem ld_row0 (v : Vec Ideal S2x512 .f32) : rowv (View.ld v rRow0) = Towers.rowOf v 0 :=
  funext fun k => congrArg v (funext fun a => Fin.ext (by
    match a with
    | ⟨0, _⟩ => rfl
    | ⟨1, _⟩ => show 0 + 1 * k.val = k.val; omega))

theorem ld_row1 (v : Vec Ideal S2x512 .f32) : rowv (View.ld v rRow1) = Towers.rowOf v 1 :=
  funext fun k => congrArg v (funext fun a => Fin.ext (by
    match a with
    | ⟨0, _⟩ => rfl
    | ⟨1, _⟩ => show 0 + 1 * k.val = k.val; omega))

/-- Matrices 0 and 1 of a 2 × 512 × 512 block. -/
theorem ld_mat0 (w : Vec Ideal S2x512x512 .bf16) : matv (View.ld w rMat0) = Towers.matOf w 0 :=
  funext fun k => funext fun c => congrArg w (funext fun a => Fin.ext (by
    match a with
    | ⟨0, _⟩ => rfl
    | ⟨1, _⟩ => show 0 + 1 * k.val = k.val; omega
    | ⟨2, _⟩ => show 0 + 1 * c.val = c.val; omega))

theorem ld_mat1 (w : Vec Ideal S2x512x512 .bf16) : matv (View.ld w rMat1) = Towers.matOf w 1 :=
  funext fun k => funext fun c => congrArg w (funext fun a => Fin.ext (by
    match a with
    | ⟨0, _⟩ => rfl
    | ⟨1, _⟩ => show 0 + 1 * k.val = k.val; omega
    | ⟨2, _⟩ => show 0 + 1 * c.val = c.val; omega))

/-- The four bands of a 2048 × 512 matrix. -/
theorem ld_band0 (W : Vec Ideal S2048x512 .bf16) (k j : Fin 512) : View.ld W rBand0 (ix2 k j) = Towers.band W 0 k j :=
  congrArg W (funext fun a => Fin.ext (by
    match a with
    | ⟨0, _⟩ => show 0 + 1 * k.val = 512 * 0 + k.val; omega
    | ⟨1, _⟩ => show 0 + 1 * j.val = j.val; omega))

theorem ld_band1 (W : Vec Ideal S2048x512 .bf16) (k j : Fin 512) : View.ld W rBand1 (ix2 k j) = Towers.band W 1 k j :=
  congrArg W (funext fun a => Fin.ext (by
    match a with
    | ⟨0, _⟩ => show 512 + 1 * k.val = 512 * 1 + k.val; omega
    | ⟨1, _⟩ => show 0 + 1 * j.val = j.val; omega))

theorem ld_band2 (W : Vec Ideal S2048x512 .bf16) (k j : Fin 512) : View.ld W rBand2 (ix2 k j) = Towers.band W 2 k j :=
  congrArg W (funext fun a => Fin.ext (by
    match a with
    | ⟨0, _⟩ => show 1024 + 1 * k.val = 512 * 2 + k.val; omega
    | ⟨1, _⟩ => show 0 + 1 * j.val = j.val; omega))

theorem ld_band3 (W : Vec Ideal S2048x512 .bf16) (k j : Fin 512) : View.ld W rBand3 (ix2 k j) = Towers.band W 3 k j :=
  congrArg W (funext fun a => Fin.ext (by
    match a with
    | ⟨0, _⟩ => show 1536 + 1 * k.val = 512 * 3 + k.val; omega
    | ⟨1, _⟩ => show 0 + 1 * j.val = j.val; omega))

/-- The 1 × 512 bias block as the bias vector of the tower's parameters. -/
theorem ld_bias (v : Vec Ideal S1x512 .f32) : rowv (View.ld v rBias) = Towers.vec (fun i => v (ix2 0 (i 0))) :=
  funext fun k => congrArg v (funext fun a => Fin.ext (by
    match a with
    | ⟨0, _⟩ => rfl
    | ⟨1, _⟩ => show 0 + 1 * k.val = k.val; omega))

end Cert.KernelIdeal.Point

end
-- ==== Proof.PointTowers.lean ====
/-
  The two towers along the body, row by row.  Row 32·b + t of each 512 × 512 matrix the body computes is the
  corresponding stage of the row-by-row network at the nine window rows of position t of batch b: the projections,
  then each tower after its first block and after its second.
-/
import proofs.«134143_j43731357007884_2_alg».proof.Proof.PointRows
import proofs.«134143_j43731357007884_2_alg».proof.Proof.PointBlock
import proofs.«134143_j43731357007884_2_alg».proof.Proof.PointProject
import proofs.«134143_j43731357007884_2_alg».proof.Proof.PointParams

noncomputable section

namespace Cert.KernelIdeal.Point

open Idealize.ShloMosaic Idealize.ShloMosaic.ValueIdx Cert.KernelIdeal Cert.KernelIdeal.Gen Cert.KernelIdeal.Blocks

/-- Position p = t + j of the point's 40 positions is window row j of position t. -/
theorem window_rows (I : Ins Ideal) (b : Fin 16) (t : Fin 32) (j : Fin 9) (p : Fin 40) (hp : p.val = t.val + j.val)
    (k : Fin 512) : window I (ix3 b p k) = rows I b t j k := by
  unfold window rows
  rw [window_apply', ld_seq, ld_halo]
  by_cases h : p.val < 32
  · rw [dif_pos h, dif_pos (show t.val + j.val < 32 by omega)]
    exact congrArg (fun q : Fin 32 => I.seq (ix3 b q k)) (Fin.ext hp)
  · rw [dif_neg h, dif_neg (show ¬ t.val + j.val < 32 by omega)]
    exact congrArg (fun q : Fin 8 => I.halo (ix3 b q k)) (Fin.ext (by show p.val - 32 = t.val + j.val - 32; omega))

variable (I : Ins Ideal) (b : Fin 16) (t : Fin 32)

/-- The left projection at row 32·b + t: window rows 0–3. -/
theorem left0_row (c : Fin 512) :
    left0 I (ix2 (rowIdx b t) c)
      = Towers.project (Towers.band (leftParams I).Wm) (Towers.vec (leftParams I).bm) (Towers.leftRows (rows I b t)) c := by
  unfold left0
  refine (project_left_apply _ _ _ _ _ _ _ (Towers.band I.wl) (Towers.leftRows (rows I b t)) b t
    (ld_band0 _) (ld_band1 _) (ld_band2 _) (ld_band3 _)
    (fun k => window_rows I b t ⟨0, by omega⟩ _ (by show 0 + t.val = t.val + 0; omega) k)
    (fun k => window_rows I b t ⟨1, by omega⟩ _ (by show 1 + t.val = t.val + 1; omega) k)
    (fun k => window_rows I b t ⟨2, by omega⟩ _ (by show 2 + t.val = t.val + 2; omega) k)
    (fun k => window_rows I b t ⟨3, by omega⟩ _ (by show 3 + t.val = t.val + 3; omega) k) c).trans ?_
  rw [ld_bias]
  rfl

/-- The right projection at row 32·b + t: window rows 5–8. -/
theorem right0_row (c : Fin 512) :
    right0 I (ix2 (rowIdx b t) c)
      = Towers.project (Towers.band (rightParams I).Wm) (Towers.vec (rightParams I).bm) (Towers.rightRows (rows I b t)) c := by
  unfold right0
  refine (project_right_apply _ _ _ _ _ _ (Towers.band I.wr) (Towers.rightRows (rows I b t)) b t
    (ld_band0 _) (ld_band1 _) (ld_band2 _) (ld_band3 _)
    (fun k => window_rows I b t ⟨5, by omega⟩ _ (by show 5 + t.val = t.val + 5; omega) k)
    (fun k => window_rows I b t ⟨6, by omega⟩ _ (by show 6 + t.val = t.val + 6; omega) k)
    (fun k => window_rows I b t ⟨7, by omega⟩ _ (by show 7 + t.val = t.val + 7; omega) k)
    (fun k => window_rows I b t ⟨8, by omega⟩ _ (by show 8 + t.val = t.val + 8; omega) k) c).trans ?_
  rw [ld_bias]
  rfl

/-- The left tower after its first block. -/
theorem left1_row (c : Fin 512) :
    left1 I (ix2 (rowIdx b t) c) = (leftParams I).run (Towers.leftRows (rows I b t)) 0 c := by
  unfold left1
  refine (block_left1_apply _ _ _ _ _ _ _ _ c).trans ?_
  rw [ld_row0, ld_row0, ld_row0, ld_row0, ld_mat0, ld_mat0,
    show mrow (left0 I) (rowIdx b t) = _ from funext (left0_row I b t)]
  rfl

/-- The right tower after its first block. -/
theorem right1_row (c : Fin 512) :
    right1 I (ix2 (rowIdx b t) c) = (rightParams I).run (Towers.rightRows (rows I b t)) 0 c := by
  unfold right1 rMat rHidden zeros
  refine (block_right1_apply _ _ _ _ _ _ _ _ c).trans ?_
  rw [ld_row0, ld_row0, ld_row0, ld_row0, ld_mat0, ld_mat0,
    show mrow (right0 I) (rowIdx b t) = _ from funext (right0_row I b t)]
  rfl

/-- The left tower after its second block. -/
theorem left2_row (c : Fin 512) :
    left2 I (ix2 (rowIdx b t) c) = (leftParams I).run (Towers.leftRows (rows I b t)) 1 c := by
  unfold left2 leftN
  refine (block_left2_apply _ _ _ _ _ _ _ _ c).trans ?_
  rw [ld_row1, ld_row1, ld_row1, ld_row1, ld_mat1, ld_mat1,
    show mrow (left1 I) (rowIdx b t) = _ from funext (left1_row I b t)]
  rfl

end Cert.KernelIdeal.Point

end
-- ==== Proof.PointStores.lean ====
/-
  The three values one grid point stores, entry by entry.  Each is the two towers side by side (left in columns 0–511,
  right in 512–1023): after the first block, position-major, into layer 0; after the second block, position-major, into
  layer 1; and after the second block, batch-major, as the second result's block.  Entry (b, t) — or (t, b) after the
  swap of the leading axes — reads row 32·b + t of the towers' 512 × 512 matrices.
-/
import proofs.«134143_j43731357007884_2_alg».proof.Proof.PointTowers

noncomputable section

namespace Cert.KernelIdeal.Point

open Idealize.ShloMosaic Idealize.ShloMosaic.ValueIdx Cert.KernelIdeal Cert.KernelIdeal.Gen Cert.KernelIdeal.Blocks

/-- Both towers side by side, batch-major, the right one passing through its second block on the way. -/
theorem last_gen (x y : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (b : Fin 16) (t : Fin 32)
    (col : Fin 1024) :
    k0_pay23 x y (k0_pay16 β) (k0_pay18 x) (k0_pay19 x) (k0_pay20 g) w1 b1 w2 b2 (ix3 b t col)
      = Towers.joined (mrow y (rowIdx b t))
          (Towers.block (rowv g) (rowv β) (matv w1) (rowv b1) (matv w2) (rowv b2) (mrow x (rowIdx b t))) col := by
  unfold k0_pay23 k0_pay21
  refine (join_bt_apply _ _ _ b t col).trans ?_
  exact congrArg₂ (fun l r => Towers.joined l r col) (funext fun k => unrows_apply _ _ b t k)
    (funext fun k => block_right2_apply x g β w1 b1 w2 b2 b t k)

/-- The same, position-major with a leading unit axis. -/
theorem layer1_gen (x y : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (t : Fin 32) (b : Fin 16)
    (col : Fin 1024) :
    k0_pay1 (k0_pay24 x y (k0_pay16 β) (k0_pay18 x) (k0_pay19 x) (k0_pay20 g) w1 b1 w2 b2) (ix4 0 t b col)
      = Towers.joined (mrow y (rowIdx b t))
          (Towers.block (rowv g) (rowv β) (matv w1) (rowv b1) (matv w2) (rowv b2) (mrow x (rowIdx b t))) col := by
  unfold k0_pay1 k0_pay24 k0_pay21
  refine (unit_apply _ _ t b col).trans ?_
  refine (join_tb_apply _ _ _ t b col).trans ?_
  exact congrArg₂ (fun l r => Towers.joined l r col)
    (funext fun k => (swap_apply _ _ t b k).trans (unrows_apply _ _ b t k))
    (funext fun k => (swap_apply _ _ t b k).trans (block_right2_apply x g β w1 b1 w2 b2 b t k))

/-- Both towers side by side after the first block, position-major with a leading unit axis, the right one passing
    through its first block's second product on the way. -/
theorem layer0_gen (x y : FVec Ideal S512x512 .f32) (g β : Vec Ideal S1x512 .f32) (w1 : Vec Ideal S1x512x512 .bf16)
    (b1 : Vec Ideal S1x512 .f32) (w2 : Vec Ideal S1x512x512 .bf16) (b2 : Vec Ideal S1x512 .f32) (t : Fin 32) (b : Fin 16)
    (col : Fin 1024) :
    k0_pay13 x y (k0_pay10 w2) (k0_pay11 x g β w1 b1) (constant (F := Ideal) S512x512 .f32 0x00000000#32) b2
        (ix4 0 t b col)
      = Towers.joined (mrow y (rowIdx b t))
          (Towers.block (rowv g) (rowv β) (matv w1) (rowv b1) (matv w2) (rowv b2) (mrow x (rowIdx b t))) col := by
  unfold k0_pay13
  refine (unit_apply _ _ t b col).trans ?_
  refine (join_tb_apply _ _ _ t b col).trans ?_
  exact congrArg₂ (fun l r => Towers.joined l r col)
    (funext fun k => (swap_apply _ _ t b k).trans (unrows_apply _ _ b t k))
    (funext fun k => (swap_apply _ _ t b k).trans
      ((unrows_apply _ _ b t k).trans (block_right1_apply x g β w1 b1 w2 b2 (rowIdx b t) k)))

/-- The second result's block: both towers after the last block, at batch b, position t. -/
theorem lastPay_apply (I : Blocks.Ins Ideal) (b : Fin 16) (t : Fin 32) (col : Fin 1024) :
    Blocks.lastPay I (ix3 b t col) = Towers.outRow (leftParams I) (rightParams I) (rows I b t) 1 col := by
  unfold lastPay
  refine (last_gen _ _ _ _ _ _ _ _ b t col).trans ?_
  rw [ld_row1, ld_row1, ld_row1, ld_row1, ld_mat1, ld_mat1,
    show mrow (left2 I) (rowIdx b t) = _ from funext (left2_row I b t),
    show mrow (right1 I) (rowIdx b t) = _ from funext (right1_row I b t)]
  rfl

/-- Layer 0 of the first result's block: both towers after the first block, at position t, batch b. -/
theorem layer0_apply (I : Blocks.Ins Ideal) (t : Fin 32) (b : Fin 16) (col : Fin 1024) :
    Blocks.layer0 I (ix4 0 t b col) = Towers.outRow (leftParams I) (rightParams I) (rows I b t) 0 col := by
  unfold layer0 rMat rHidden zeros
  refine (layer0_gen _ _ _ _ _ _ _ _ t b col).trans ?_
  rw [ld_row0, ld_row0, ld_row0, ld_row0, ld_mat0, ld_mat0,
    show mrow (left1 I) (rowIdx b t) = _ from funext (left1_row I b t),
    show mrow (right0 I) (rowIdx b t) = _ from funext (right0_row I b t)]
  rfl

/-- Layer 1 of the first result's block: both towers after the second block, at position t, batch b. -/
theorem layer1_apply (I : Blocks.Ins Ideal) (t : Fin 32) (b : Fin 16) (col : Fin 1024) :
    Blocks.layer1 I (ix4 0 t b col) = Towers.outRow (leftParams I) (rightParams I) (rows I b t) 1 col := by
  unfold layer1
  refine (layer1_gen _ _ _ _ _ _ _ _ t b col).trans ?_
  rw [ld_row1, ld_row1, ld_row1, ld_row1, ld_mat1, ld_mat1,
    show mrow (left2 I) (rowIdx b t) = _ from funext (left2_row I b t),
    show mrow (right1 I) (rowIdx b t) = _ from funext (right1_row I b t)]
  rfl

end Cert.KernelIdeal.Point

end
-- ==== Proof.ValueIdeal.lean ====
/-
  The idealized kernel's two result arrays after the run.  What point `t` writes back into the first result is
  layers 0 and 1 of positions 32·t … 32·t + 31 (all batches, all columns), and into the second result the same
  positions after the last block; by the point lemmas each entry is the towers' output row of the nine padded rows
  at that position.  The 64 points' blocks tile both results, so each ends as the specification's array of the
  arrays the region found.
-/
import proofs.«134143_j43731357007884_2_alg».proof.Proof.WindowsIdeal
import proofs.«134143_j43731357007884_2_alg».proof.Proof.PointStores
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Region

variable (m : (ℓ : Loc nD τ sig) → Buf (Elt Ideal) ℓ) (ρ : Dev nD → PrngReg)

/-- The two results as the region's arrays determine them. -/
def allV (c : Dev nD) : S2x2048x16x1024.Idx → EReal := Towers.allLayers (V m c main_v2) (leftV m c) (rightV m c)
def lastV (c : Dev nD) : S16x2048x1024.Idx → EReal := Towers.lastLayer (V m c main_v2) (leftV m c) (rightV m c)

/-- Layer 1 of the first result's block was stored last, through the rectangle at offset 1 of the layer axis. -/
theorem rLayer1_emb (p : Fin 32) (b : Fin 16) (col : Fin 1024) :
    Blocks.rLayer1.emb (ix4 (0 : Fin 1) p b col : S1x32x16x1024.Idx) = (ix4 (1 : Fin 2) p b col : S2x32x16x1024.Idx) := by
  funext a; apply Fin.ext; rw [Rect.emb_apply]
  match a with
  | ⟨0, _⟩ => show 1 + 1 * 0 = 1; omega
  | ⟨1, _⟩ => show 0 + 1 * p.val = p.val; omega
  | ⟨2, _⟩ => show 0 + 1 * b.val = b.val; omega
  | ⟨3, _⟩ => show 0 + 1 * col.val = col.val; omega
theorem rLayer0_emb (p : Fin 32) (b : Fin 16) (col : Fin 1024) :
    Blocks.rLayer0.emb (ix4 (0 : Fin 1) p b col : S1x32x16x1024.Idx) = (ix4 (0 : Fin 2) p b col : S2x32x16x1024.Idx) := by
  funext a; apply Fin.ext; rw [Rect.emb_apply]
  match a with
  | ⟨0, _⟩ => show 0 + 1 * 0 = 0; omega
  | ⟨1, _⟩ => show 0 + 1 * p.val = p.val; omega
  | ⟨2, _⟩ => show 0 + 1 * b.val = b.val; omega
  | ⟨3, _⟩ => show 0 + 1 * col.val = col.val; omega

/-- Two stores, the later first: at an index of the later one's rectangle the later payload, off it the earlier. -/
theorem canon_two_last {S : Shape} {e : EltTy} (r1 r0 : Rect S) (w1 : r1.shape.Idx → Elt Ideal e) (w0 : r0.shape.Idx → Elt Ideal e)
    (x : r1.shape.Idx) : View.canon [(⟨r1, w1⟩ : View.Piece (Elt Ideal) S e), ⟨r0, w0⟩] (r1.emb x) = w1 x :=
  View.canon_cons_emb r1 w1 _ x
theorem canon_two_first {S : Shape} {e : EltTy} (r1 r0 : Rect S) (w1 : r1.shape.Idx → Elt Ideal e) (w0 : r0.shape.Idx → Elt Ideal e)
    (x : r0.shape.Idx) (h : r0.emb x ∉ r1.set) : View.canon [(⟨r1, w1⟩ : View.Piece (Elt Ideal) S e), ⟨r0, w0⟩] (r0.emb x) = w0 x :=
  (View.canon_cons_of_not_mem _ _ h).trans (View.canon_cons_emb r0 w0 _ x)

set_option maxHeartbeats 2000000 in
theorem outAll_apply1 (I : Blocks.Ins Ideal) (p : Fin 32) (b : Fin 16) (col : Fin 1024) :
    Blocks.outAll I (ix4 (1 : Fin 2) p b col)
      = Towers.outRow (Point.leftParams I) (Point.rightParams I) (Point.rows I b p) 1 col := by
  have h := canon_two_last (S := S2x32x16x1024) (e := .f32) Blocks.rLayer1 Blocks.rLayer0 (Blocks.layer1 I) (Blocks.layer0 I) (ix4 (0 : Fin 1) p b col)
  rw [rLayer1_emb] at h
  exact h.trans (Point.layer1_apply I p b col)

set_option maxHeartbeats 2000000 in
theorem outAll_apply0 (I : Blocks.Ins Ideal) (p : Fin 32) (b : Fin 16) (col : Fin 1024) :
    Blocks.outAll I (ix4 (0 : Fin 2) p b col)
      = Towers.outRow (Point.leftParams I) (Point.rightParams I) (Point.rows I b p) 0 col := by
  have hn : Blocks.rLayer0.emb (ix4 (0 : Fin 1) p b col : S1x32x16x1024.Idx) ∉ Blocks.rLayer1.set := by
    rw [rLayer0_emb, Rect.mem_set_unit]; intro h
    exact Nat.not_succ_le_zero 0 (h (0 : Fin 4)).1
  have h := canon_two_first (S := S2x32x16x1024) (e := .f32) Blocks.rLayer1 Blocks.rLayer0 (Blocks.layer1 I) (Blocks.layer0 I) (ix4 (0 : Fin 1) p b col) hn
  rw [rLayer0_emb] at h
  exact h.trans (Point.layer0_apply I p b col)

/-- The first result's block of a point at an index. -/
theorem outAll_apply (I : Blocks.Ins Ideal) (l : Fin 2) (p : Fin 32) (b : Fin 16) (col : Fin 1024) :
    Blocks.outAll I (ix4 l p b col) = Towers.outRow (Point.leftParams I) (Point.rightParams I) (Point.rows I b p) l col := by
  match l with
  | ⟨0, _⟩ => exact outAll_apply0 I p b col
  | ⟨1, _⟩ => exact outAll_apply1 I p b col

theorem hz3 : (![0, 0, 0] : Fin 3 → Nat) = fun _ => 0 := funext fun a => by fin_cases a <;> rfl

/-- The second result's block of a point at an index. -/
theorem outLast_apply (I : Blocks.Ins Ideal) (b : Fin 16) (p : Fin 32) (col : Fin 1024) :
    Blocks.outLast I (ix3 b p col) = Towers.outRow (Point.leftParams I) (Point.rightParams I) (Point.rows I b p) 1 col := by
  unfold Blocks.outLast
  rw [View.canon_unit_zero hz3]
  exact Point.lastPay_apply I b p col

/-- WHAT POINT `t` WRITES BACK into the first result is block `t` of the specification's array. -/
theorem flushedAll_eq (c : Dev nD) (t : Fin cfg0.N) :
    (dats m 0 c).flushed 18 t = ((cfg0.win 18).blk t).view.read (Elt Ideal) (allV m c) := by
  show (cfg0.win 18).cut (grid0.coords t) ((dats m 0 c).after 18 t) = _
  rw [after18]
  obtain ⟨e0, e1, e2, e3⟩ := idx_all t
  have key : ∀ (l : Fin 2) (p : Fin 32) (b : Fin 16) (col : Fin 1024),
      Blocks.outAll (ins m c t) (ix4 l p b col) = allV m c (((cfg0.win 18).blk t).view.emb (ix4 l p b col : S2x32x16x1024.Idx)) := by
    intro l p b col
    rw [outAll_apply, rows_eq, leftParams_eq, rightParams_eq]
    have e : ((cfg0.win 18).blk t).view.emb (ix4 l p b col : S2x32x16x1024.Idx)
        = (ix4 l (⟨32 * t.val + p.val, by have := t_lt t; omega⟩ : Fin 2048) b col : S2x2048x16x1024.Idx) := by
      funext a; apply Fin.ext
      match a with
      | ⟨0, _⟩ => show win0_18.index t (0 : Fin 4) * 2 + 1 * l.val = l.val; omega
      | ⟨1, _⟩ => show win0_18.index t (1 : Fin 4) * 32 + 1 * p.val = 32 * t.val + p.val; omega
      | ⟨2, _⟩ => show win0_18.index t (2 : Fin 4) * 16 + 1 * b.val = b.val; omega
      | ⟨3, _⟩ => show win0_18.index t (3 : Fin 4) * 1024 + 1 * col.val = col.val; omega
    rw [e]
    rfl
  funext y
  obtain ⟨l, p, b, col, rfl⟩ : ∃ (l : Fin 2) (p : Fin 32) (b : Fin 16) (col : Fin 1024), (y : S2x32x16x1024.Idx) = ix4 l p b col :=
    ⟨y 0, y 1, y 2, y 3, eq_ix4 (y : S2x32x16x1024.Idx)⟩
  exact key l p b col

/-- and into the second result. -/
theorem flushedLast_eq (c : Dev nD) (t : Fin cfg0.N) :
    (dats m 0 c).flushed 19 t = ((cfg0.win 19).blk t).view.read (Elt Ideal) (lastV m c) := by
  show (cfg0.win 19).cut (grid0.coords t) ((dats m 0 c).after 19 t) = _
  rw [after19]
  obtain ⟨e0, e1, e2⟩ := idx_last t
  have key : ∀ (b : Fin 16) (p : Fin 32) (col : Fin 1024),
      Blocks.outLast (ins m c t) (ix3 b p col) = lastV m c (((cfg0.win 19).blk t).view.emb (ix3 b p col : S16x32x1024.Idx)) := by
    intro b p col
    rw [outLast_apply, rows_eq, leftParams_eq, rightParams_eq]
    have e : ((cfg0.win 19).blk t).view.emb (ix3 b p col : S16x32x1024.Idx)
        = (ix3 b (⟨32 * t.val + p.val, by have := t_lt t; omega⟩ : Fin 2048) col : S16x2048x1024.Idx) := by
      funext a; apply Fin.ext
      match a with
      | ⟨0, _⟩ => show win0_19.index t (0 : Fin 3) * 16 + 1 * b.val = b.val; omega
      | ⟨1, _⟩ => show win0_19.index t (1 : Fin 3) * 32 + 1 * p.val = 32 * t.val + p.val; omega
      | ⟨2, _⟩ => show win0_19.index t (2 : Fin 3) * 1024 + 1 * col.val = col.val; omega
    rw [e]
    rfl
  funext y
  obtain ⟨b, p, col, rfl⟩ : ∃ (b : Fin 16) (p : Fin 32) (col : Fin 1024), (y : S16x32x1024.Idx) = ix3 b p col :=
    ⟨y 0, y 1, y 2, eq_ix3 (y : S16x32x1024.Idx)⟩
  exact key b p col

/-- An index of the first result is in point `t`'s block iff each coordinate is in the block's range. -/
theorem mem_blkAll (t : Fin cfg0.N) (i : S2x2048x16x1024.Idx) :
    i ∈ ((cfg0.win 18).blk t).view.set ↔ ∀ a : Fin 4, win0_18.index t a * S2x32x16x1024.size a ≤ (i a).val ∧ (i a).val < win0_18.index t a * S2x32x16x1024.size a + S2x32x16x1024.size a := by
  show i ∈ ((View.whole main_v11_0).slice (win0_18.rect t)).set ↔ _
  rw [View.set_slice_whole, Rect.mem_set_unit]
  exact Iff.rfl
theorem mem_blkLast (t : Fin cfg0.N) (i : S16x2048x1024.Idx) :
    i ∈ ((cfg0.win 19).blk t).view.set ↔ ∀ a : Fin 3, win0_19.index t a * S16x32x1024.size a ≤ (i a).val ∧ (i a).val < win0_19.index t a * S16x32x1024.size a + S16x32x1024.size a := by
  show i ∈ ((View.whole main_v11_1).slice (win0_19.rect t)).set ↔ _
  rw [View.set_slice_whole, Rect.mem_set_unit]
  exact Iff.rfl

/-- Position `s` lies in the block of point `s / 32`. -/
theorem coverAllV (i : S2x2048x16x1024.Idx) :
    ∃ t : Fin cfg0.N, (cfg0.win 18).flush t = true ∧ i ∈ ((cfg0.win 18).blk t).view.set := by
  have h0 : (i 0).val < 2 := (i 0).isLt
  have h1 : (i 1).val < 2048 := (i 1).isLt
  have h2 : (i 2).val < 16 := (i 2).isLt
  have h3 : (i 3).val < 1024 := (i 3).isLt
  let t : Fin cfg0.N := ⟨(i 1).val / 32, Nat.lt_of_lt_of_eq (by omega : (i 1).val / 32 < 64) N_0.symm⟩
  have ht : t.val = (i 1).val / 32 := rfl
  obtain ⟨e0, e1, e2, e3⟩ := idx_all t
  refine ⟨t, flush0_18 t, ?_⟩
  rw [mem_blkAll]
  intro a
  match a with
  | ⟨0, _⟩ => show win0_18.index t (0 : Fin 4) * 2 ≤ (i 0).val ∧ (i 0).val < win0_18.index t (0 : Fin 4) * 2 + 2; omega
  | ⟨1, _⟩ => show win0_18.index t (1 : Fin 4) * 32 ≤ (i 1).val ∧ (i 1).val < win0_18.index t (1 : Fin 4) * 32 + 32; omega
  | ⟨2, _⟩ => show win0_18.index t (2 : Fin 4) * 16 ≤ (i 2).val ∧ (i 2).val < win0_18.index t (2 : Fin 4) * 16 + 16; omega
  | ⟨3, _⟩ => show win0_18.index t (3 : Fin 4) * 1024 ≤ (i 3).val ∧ (i 3).val < win0_18.index t (3 : Fin 4) * 1024 + 1024; omega
theorem coverLastV (i : S16x2048x1024.Idx) :
    ∃ t : Fin cfg0.N, (cfg0.win 19).flush t = true ∧ i ∈ ((cfg0.win 19).blk t).view.set := by
  have h0 : (i 0).val < 16 := (i 0).isLt
  have h1 : (i 1).val < 2048 := (i 1).isLt
  have h2 : (i 2).val < 1024 := (i 2).isLt
  let t : Fin cfg0.N := ⟨(i 1).val / 32, Nat.lt_of_lt_of_eq (by omega : (i 1).val / 32 < 64) N_0.symm⟩
  have ht : t.val = (i 1).val / 32 := rfl
  obtain ⟨e0, e1, e2⟩ := idx_last t
  refine ⟨t, flush0_19 t, ?_⟩
  rw [mem_blkLast]
  intro a
  match a with
  | ⟨0, _⟩ => show win0_19.index t (0 : Fin 3) * 16 ≤ (i 0).val ∧ (i 0).val < win0_19.index t (0 : Fin 3) * 16 + 16; omega
  | ⟨1, _⟩ => show win0_19.index t (1 : Fin 3) * 32 ≤ (i 1).val ∧ (i 1).val < win0_19.index t (1 : Fin 3) * 32 + 32; omega
  | ⟨2, _⟩ => show win0_19.index t (2 : Fin 3) * 1024 ≤ (i 2).val ∧ (i 2).val < win0_19.index t (2 : Fin 3) * 1024 + 1024; omega

/-- THE RESULT ARRAYS after the run. -/
theorem finalAll (c : Dev nD) : (dats m 0 c).arrAt 18 cfg0.N = allV m c :=
  (dats m 0 c).arrAt_eq_of_cover 18 (allV m c) (fun t _ => flushedAll_eq m c t) (coverAllV)
theorem finalLast (c : Dev nD) : (dats m 0 c).arrAt 19 cfg0.N = lastV m c :=
  (dats m 0 c).arrAt_eq_of_cover 19 (lastV m c) (fun t _ => flushedLast_eq m c t) (coverLastV)

end Cert.KernelIdeal.Whole

end
-- ==== Proof.KernelRunIdeal.lean ====
/-
  The idealized kernel's run with both results named by the specification of the ARGUMENTS.  The region finds the
  padded sequence as the concatenation of the left padding (broadcast over the batches), the inputs and the right
  padding; the six matrices unchanged (a change of float format is the identity on the extended reals); the two
  projection biases laid as 1 × 512 rows; the other parameters as launched.
-/
import proofs.«134143_j43731357007884_2_alg».proof.Proof.ValueIdeal
import proofs.«134143_j43731357007884_2_alg».proof.Proof.LibRowReductions
import Idealize.ShloMosaic.Lib.StableHlo.Run

set_option maxRecDepth 16384

noncomputable section

namespace Cert.KernelIdeal.Whole

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Region

variable (m : (ℓ : Loc nD τ sig) → Buf (Elt Ideal) ℓ) (ρ : Dev nD → PrngReg)

/-- The padded sequence of the arguments. -/
def padded (x : S16x2048x512.Idx → EReal) (lp rp : S4x512.Idx → EReal) : S16x2056x512.Idx → EReal :=
  concatenate S16x2056x512 1 [⟨S16x4x512, broadcastInDim S16x4x512 ![1, 2] bcast_S4x512_S16x4x512_1_2 lp⟩, ⟨S16x2048x512, x⟩,
    ⟨S16x4x512, broadcastInDim S16x4x512 ![1, 2] bcast_S4x512_S16x4x512_1_2 rp⟩] concatenates_S16x4x512_S16x2048x512_S16x4x512_S16x2056x512_d1

theorem entry_padded (c : Dev nD) : (V m c main_v2 : S16x2056x512.Idx → EReal)
    = padded (m ((c : Thread nD τ).loc main_arg0)) (m ((c : Thread nD τ).loc main_arg1)) (m ((c : Thread nD τ).loc main_arg2)) := by
  dsimp only [V, hostOps0]; after_results; rfl

theorem entry_v5 (c : Dev nD) : (V m c main_v5 : S2048x512.Idx → EReal) = m ((c : Thread nD τ).loc main_arg3) := by
  dsimp only [V, hostOps0]; after_results; rfl
theorem entry_v6 (c : Dev nD) : (V m c main_v6 : S2048x512.Idx → EReal) = m ((c : Thread nD τ).loc main_arg5) := by
  dsimp only [V, hostOps0]; after_results; rfl
theorem entry_v7 (c : Dev nD) : (V m c main_v7 : S2x512x512.Idx → EReal) = m ((c : Thread nD τ).loc main_arg7) := by
  dsimp only [V, hostOps0]; after_results; rfl
theorem entry_v8 (c : Dev nD) : (V m c main_v8 : S2x512x512.Idx → EReal) = m ((c : Thread nD τ).loc main_arg9) := by
  dsimp only [V, hostOps0]; after_results; rfl
theorem entry_v9 (c : Dev nD) : (V m c main_v9 : S2x512x512.Idx → EReal) = m ((c : Thread nD τ).loc main_arg13) := by
  dsimp only [V, hostOps0]; after_results; rfl
theorem entry_v10 (c : Dev nD) : (V m c main_v10 : S2x512x512.Idx → EReal) = m ((c : Thread nD τ).loc main_arg15) := by
  dsimp only [V, hostOps0]; after_results; rfl
theorem entry_v3 (c : Dev nD) : (V m c main_v3 : S1x512.Idx → EReal)
    = shapeCast S1x512 (m ((c : Thread nD τ).loc main_arg4)) shapeCasts_S512_S1x512 := by
  dsimp only [V, hostOps0]; after_results; rfl
theorem entry_v4 (c : Dev nD) : (V m c main_v4 : S1x512.Idx → EReal)
    = shapeCast S1x512 (m ((c : Thread nD τ).loc main_arg6)) shapeCasts_S512_S1x512 := by
  dsimp only [V, hostOps0]; after_results; rfl

/-- A bias laid as a 1 × 512 row by the host, read along the row, is the bias vector. -/
theorem bias_left (c : Dev nD) :
    (fun i : (⟨1, ![512]⟩ : Shape).Idx => V m c main_v3 (ix2 0 (i 0))) = m ((c : Thread nD τ).loc main_arg4) := by
  funext i
  obtain ⟨q, rfl⟩ : ∃ q : Fin 512, i = ix1 q := ⟨i 0, eq_ix1 i⟩
  show (V m c main_v3 : S1x512.Idx → EReal) (ix2 0 q) = _
  rw [entry_v3]
  exact Cert.Lib.RowReductions.shapeCast_rowvec_apply _ _ q
theorem bias_right (c : Dev nD) :
    (fun i : (⟨1, ![512]⟩ : Shape).Idx => V m c main_v4 (ix2 0 (i 0))) = m ((c : Thread nD τ).loc main_arg6) := by
  funext i
  obtain ⟨q, rfl⟩ : ∃ q : Fin 512, i = ix1 q := ⟨i 0, eq_ix1 i⟩
  show (V m c main_v4 : S1x512.Idx → EReal) (ix2 0 q) = _
  rw [entry_v4]
  exact Cert.Lib.RowReductions.shapeCast_rowvec_apply _ _ q

/-- The towers' parameters, as arrays of the arguments. -/
def leftArgs (c : Dev nD) : Towers.Params where
  Wm := m ((c : Thread nD τ).loc main_arg3)
  bm := m ((c : Thread nD τ).loc main_arg4)
  w1 := m ((c : Thread nD τ).loc main_arg7)
  b1 := m ((c : Thread nD τ).loc main_arg8)
  w2 := m ((c : Thread nD τ).loc main_arg9)
  b2 := m ((c : Thread nD τ).loc main_arg10)
  g := m ((c : Thread nD τ).loc main_arg11)
  beta := m ((c : Thread nD τ).loc main_arg12)
def rightArgs (c : Dev nD) : Towers.Params where
  Wm := m ((c : Thread nD τ).loc main_arg5)
  bm := m ((c : Thread nD τ).loc main_arg6)
  w1 := m ((c : Thread nD τ).loc main_arg13)
  b1 := m ((c : Thread nD τ).loc main_arg14)
  w2 := m ((c : Thread nD τ).loc main_arg15)
  b2 := m ((c : Thread nD τ).loc main_arg16)
  g := m ((c : Thread nD τ).loc main_arg17)
  beta := m ((c : Thread nD τ).loc main_arg18)

theorem leftV_eq (c : Dev nD) : leftV m c = leftArgs m c := by
  unfold leftV leftArgs
  congr 1
  exact bias_left m c
theorem rightV_eq (c : Dev nD) : rightV m c = rightArgs m c := by
  unfold rightV rightArgs
  congr 1
  exact bias_right m c

/-- THE RUN, READ: both results as the specification's arrays of the arguments, the arguments unchanged. -/
theorem run : θ_run defs (onTc (τ := τ) (main (F := Ideal))) ⟨m, fun _ => 0, ρ⟩ (fun r => ∀ c : Dev nD,
      r.2.mem ((c.tc : Thread nD τ).loc main_v11_0)
        = Towers.allLayers (padded (m ((c : Thread nD τ).loc main_arg0)) (m ((c : Thread nD τ).loc main_arg1)) (m ((c : Thread nD τ).loc main_arg2))) (leftArgs m c) (rightArgs m c)
      ∧ r.2.mem ((c.tc : Thread nD τ).loc main_v11_1)
        = Towers.lastLayer (padded (m ((c : Thread nD τ).loc main_arg0)) (m ((c : Thread nD τ).loc main_arg1)) (m ((c : Thread nD τ).loc main_arg2))) (leftArgs m c) (rightArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
      (((h c).1 18).trans (finalAll m c)).trans (by unfold allV; rw [entry_padded, leftV_eq, rightV_eq]),
      (((h c).1 19).trans (finalLast m c)).trans (by unfold lastV; rw [entry_padded, leftV_eq, rightV_eq]),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 7).trans (((dats m 0 c).arrAt_in 7 rfl _).trans ((A_eq m c 7).trans (V_main_arg8 m c))),
      ((h c).2 main_arg9 (Pipeline.mem_restRefs_of main_arg9 (by decide) (by decide))).trans (V_main_arg9 m c),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).2 main_arg13 (Pipeline.mem_restRefs_of main_arg13 (by decide) (by decide))).trans (V_main_arg13 m c),
      ((h c).1 13).trans (((dats m 0 c).arrAt_in 13 rfl _).trans ((A_eq m c 13).trans (V_main_arg14 m c))),
      ((h c).2 main_arg15 (Pipeline.mem_restRefs_of main_arg15 (by decide) (by decide))).trans (V_main_arg15 m c),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c))),
      ((h c).1 17).trans (((dats m 0 c).arrAt_in 17 rfl _).trans ((A_eq m c 17).trans (V_main_arg18 m c)))⟩) (run_main m ρ)

end Cert.KernelIdeal.Whole

end
-- ==== Proof.RefOps.lean ====
/-
  The reference's operations read at a position: each operation the two towers are made of, applied to an
  array of 16 batches × 2048 positions × 512 features, is read at (b, s, c) from its operand's row (b, s, ·).
-/
import proofs.«134143_j43731357007884_2_alg».proof.Proof.Gen.ReferenceIdeal
import proofs.«134143_j43731357007884_2_alg».proof.Proof.Towers
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.StableHlo
open Idealize.ShloMosaic.ValueIdx
open scoped BigOperators

variable {α : Type}

/-! ## Broadcasts -/

/-- A scalar broadcast to any shape reads the scalar. -/
theorem scalar_apply {t : Shape} (x : S_.Idx → α) (h : S_.BroadcastsInDim t ![]) (i : t.Idx) :
    broadcastInDim t ![] h x i = x ix0 :=
  broadcastInDim_apply _ h x _ _ fun ax => ax.elim0

/-- A vector of 512 features broadcast over batches and positions reads its feature. -/
theorem bias_apply (v : S512.Idx → α) (b : Fin 16) (s : Fin 2048) (c : Fin 512) :
    broadcastInDim S16x2048x512 ![0, 1, 2] bcast_S1x1x512_S16x2048x512_0_1_2
      (broadcastInDim S1x1x512 ![2] bcast_S512_S1x1x512_2 v) (ix3 b s c) = v (ix1 c) := by
  refine (broadcastInDim_apply _ bcast_S1x1x512_S16x2048x512_0_1_2 _ (ix3 b s c) (ix3 (0 : Fin 1) (0 : Fin 1) c) (fun a => match a with
    | ⟨0, _⟩ => by show (0 : Nat) = if (1 : Nat) = 1 then 0 else b.val; rw [if_pos rfl]
    | ⟨1, _⟩ => by show (0 : Nat) = if (1 : Nat) = 1 then 0 else s.val; rw [if_pos rfl]
    | ⟨2, _⟩ => by show c.val = if (512 : Nat) = 1 then 0 else c.val; rw [if_neg (by decide)])).trans ?_
  exact broadcastInDim_apply _ bcast_S512_S1x1x512_2 v _ (ix1 c) (fun a => match a with
    | ⟨0, _⟩ => by show c.val = if (512 : Nat) = 1 then 0 else c.val; rw [if_neg (by decide)])

/-- A per-position value broadcast along the features reads the position's value. -/
theorem col_apply (y : S16x2048x1.Idx → α) (b : Fin 16) (s : Fin 2048) (c : Fin 512) :
    broadcastInDim S16x2048x512 ![0, 1, 2] bcast_S16x2048x1_S16x2048x512_0_1_2 y (ix3 b s c) = y (ix3 b s (0 : Fin 1)) :=
  broadcastInDim_apply _ bcast_S16x2048x1_S16x2048x512_0_1_2 y _ _ (fun a => match a with
    | ⟨0, _⟩ => by show b.val = if (16 : Nat) = 1 then 0 else b.val; rw [if_neg (by decide)]
    | ⟨1, _⟩ => by show s.val = if (2048 : Nat) = 1 then 0 else s.val; rw [if_neg (by decide)]
    | ⟨2, _⟩ => by show (0 : Nat) = if (1 : Nat) = 1 then 0 else c.val; rw [if_pos rfl])

/-- A per-position value given a unit feature axis. -/
theorem keep_apply (z : S16x2048.Idx → α) (b : Fin 16) (s : Fin 2048) :
    broadcastInDim S16x2048x1 ![0, 1] bcast_S16x2048_S16x2048x1_0_1 z (ix3 b s (0 : Fin 1)) = z (ix2 b s) :=
  broadcastInDim_apply _ bcast_S16x2048_S16x2048x1_0_1 z _ _ (fun a => match a with
    | ⟨0, _⟩ => by show b.val = if (16 : Nat) = 1 then 0 else b.val; rw [if_neg (by decide)]
    | ⟨1, _⟩ => by show s.val = if (2048 : Nat) = 1 then 0 else s.val; rw [if_neg (by decide)])

/-! ## The sum of a row and the two contractions -/

/-- The sum over the features at a position: the initial value plus the sum of the row. -/
theorem rowsum_apply (X : FVec Ideal S16x2048x512 .f32) (init : FVec Ideal S_ .f32) (b : Fin 16) (s : Fin 2048) :
    Host.reduceAdd (F := Ideal) X init reducesTo_S16x2048x512_S16x2048_d2 h_S_ (ix2 b s)
      = init (Shape.Idx.first h_S_) + ∑ k : Fin 512, X (ix3 b s k) := by
  simp only [Host.reduceAdd, Ideal.hostReduceAdd_def]
  rw [Ideal.hostReduceAdd_single reducesTo_S16x2048x512_S16x2048_d2 (by decide)]
  refine congrArg (_ + ·) (Finset.sum_congr rfl fun k _ => ?_)
  exact congrArg X (funext fun a => Fin.ext (by match a with | ⟨0, _⟩ => rfl | ⟨1, _⟩ => rfl | ⟨2, _⟩ => rfl))

private theorem dot_l0 (i : S16x2048x512.Idx) (q : dot_S16x2048x512_S512x512_S16x2048x512_2_0_01_1_n_n.contr.Idx) : (dot_S16x2048x512_S512x512_S16x2048x512_2_0_01_1_n_n.lhsIdx i q 0).val = (i 0).val := by
  unfold DotDims.lhsIdx
  rw [dif_neg (show ¬(0 : Fin S16x2048x512.rank) ∈ dot_S16x2048x512_S512x512_S16x2048x512_2_0_01_1_n_n.lhsBatch by decide), dif_pos (show (0 : Fin S16x2048x512.rank) ∈ dot_S16x2048x512_S512x512_S16x2048x512_2_0_01_1_n_n.lhsNonContracting by decide)]
  rfl
private theorem dot_l1 (i : S16x2048x512.Idx) (q : dot_S16x2048x512_S512x512_S16x2048x512_2_0_01_1_n_n.contr.Idx) : (dot_S16x2048x512_S512x512_S16x2048x512_2_0_01_1_n_n.lhsIdx i q 1).val = (i 1).val := by
  unfold DotDims.lhsIdx
  rw [dif_neg (show ¬(1 : Fin S16x2048x512.rank) ∈ dot_S16x2048x512_S512x512_S16x2048x512_2_0_01_1_n_n.lhsBatch by decide), dif_pos (show (1 : Fin S16x2048x512.rank) ∈ dot_S16x2048x512_S512x512_S16x2048x512_2_0_01_1_n_n.lhsNonContracting by decide)]
  rfl
private theorem dot_l2 (i : S16x2048x512.Idx) (q : dot_S16x2048x512_S512x512_S16x2048x512_2_0_01_1_n_n.contr.Idx) : (dot_S16x2048x512_S512x512_S16x2048x512_2_0_01_1_n_n.lhsIdx i q 2).val = (q ⟨0, by decide⟩).val :=
  dot_S16x2048x512_S512x512_S16x2048x512_2_0_01_1_n_n.lhsIdx_val_of_single rfl i q
private theorem dot_r0 (i : S16x2048x512.Idx) (q : dot_S16x2048x512_S512x512_S16x2048x512_2_0_01_1_n_n.contr.Idx) : (dot_S16x2048x512_S512x512_S16x2048x512_2_0_01_1_n_n.rhsIdx i q 0).val = (q ⟨0, by decide⟩).val :=
  dot_S16x2048x512_S512x512_S16x2048x512_2_0_01_1_n_n.rhsIdx_val_of_single rfl i q
private theorem dot_r1 (i : S16x2048x512.Idx) (q : dot_S16x2048x512_S512x512_S16x2048x512_2_0_01_1_n_n.contr.Idx) : (dot_S16x2048x512_S512x512_S16x2048x512_2_0_01_1_n_n.rhsIdx i q 1).val = (i 2).val := by
  unfold DotDims.rhsIdx
  rw [dif_neg (show ¬(1 : Fin S512x512.rank) ∈ dot_S16x2048x512_S512x512_S16x2048x512_2_0_01_1_n_n.rhsBatch by decide), dif_pos (show (1 : Fin S512x512.rank) ∈ dot_S16x2048x512_S512x512_S16x2048x512_2_0_01_1_n_n.rhsNonContracting by decide)]
  rfl
/-- A row times a 512 × 512 matrix. -/
theorem dot_apply (X : FVec Ideal S16x2048x512 .f32) (W : FVec Ideal S512x512 .f32) (b : Fin 16) (s : Fin 2048) (c : Fin 512) :
    Host.dotGeneral (F := Ideal) dot_S16x2048x512_S512x512_S16x2048x512_2_0_01_1_n_n none X W (ix3 b s c)
      = ∑ k : Fin 512, X (ix3 b s k) * W (ix2 k c) := by
  simp only [Host.dotGeneral]
  rw [Ideal.dotGeneral_apply, ← Equiv.sum_comp (contrEquiv1 dot_S16x2048x512_S512x512_S16x2048x512_2_0_01_1_n_n 512 rfl rfl).symm]
  refine Finset.sum_congr rfl fun k _ => ?_
  have hk := contrEquiv1_symm_val dot_S16x2048x512_S512x512_S16x2048x512_2_0_01_1_n_n 512 rfl rfl k
  have el : dot_S16x2048x512_S512x512_S16x2048x512_2_0_01_1_n_n.lhsIdx (ix3 b s c) ((contrEquiv1 dot_S16x2048x512_S512x512_S16x2048x512_2_0_01_1_n_n 512 rfl rfl).symm k) = ix3 b s k :=
    funext fun a => Fin.ext (by
      match a with
      | ⟨0, _⟩ => exact dot_l0 _ _
      | ⟨1, _⟩ => exact dot_l1 _ _
      | ⟨2, _⟩ => exact (dot_l2 _ _).trans hk)
  have er : dot_S16x2048x512_S512x512_S16x2048x512_2_0_01_1_n_n.rhsIdx (ix3 b s c) ((contrEquiv1 dot_S16x2048x512_S512x512_S16x2048x512_2_0_01_1_n_n 512 rfl rfl).symm k) = ix2 k c :=
    funext fun a => Fin.ext (by
      match a with
      | ⟨0, _⟩ => exact (dot_r0 _ _).trans hk
      | ⟨1, _⟩ => exact dot_r1 _ _)
  rw [el, er]

private theorem dotWide_l0 (i : S16x2048x512.Idx) (q : dot_S16x2048x2048_S2048x512_S16x2048x512_2_0_01_1_n_n.contr.Idx) : (dot_S16x2048x2048_S2048x512_S16x2048x512_2_0_01_1_n_n.lhsIdx i q 0).val = (i 0).val := by
  unfold DotDims.lhsIdx
  rw [dif_neg (show ¬(0 : Fin S16x2048x2048.rank) ∈ dot_S16x2048x2048_S2048x512_S16x2048x512_2_0_01_1_n_n.lhsBatch by decide), dif_pos (show (0 : Fin S16x2048x2048.rank) ∈ dot_S16x2048x2048_S2048x512_S16x2048x512_2_0_01_1_n_n.lhsNonContracting by decide)]
  rfl
private theorem dotWide_l1 (i : S16x2048x512.Idx) (q : dot_S16x2048x2048_S2048x512_S16x2048x512_2_0_01_1_n_n.contr.Idx) : (dot_S16x2048x2048_S2048x512_S16x2048x512_2_0_01_1_n_n.lhsIdx i q 1).val = (i 1).val := by
  unfold DotDims.lhsIdx
  rw [dif_neg (show ¬(1 : Fin S16x2048x2048.rank) ∈ dot_S16x2048x2048_S2048x512_S16x2048x512_2_0_01_1_n_n.lhsBatch by decide), dif_pos (show (1 : Fin S16x2048x2048.rank) ∈ dot_S16x2048x2048_S2048x512_S16x2048x512_2_0_01_1_n_n.lhsNonContracting by decide)]
  rfl
private theorem dotWide_l2 (i : S16x2048x512.Idx) (q : dot_S16x2048x2048_S2048x512_S16x2048x512_2_0_01_1_n_n.contr.Idx) : (dot_S16x2048x2048_S2048x512_S16x2048x512_2_0_01_1_n_n.lhsIdx i q 2).val = (q ⟨0, by decide⟩).val :=
  dot_S16x2048x2048_S2048x512_S16x2048x512_2_0_01_1_n_n.lhsIdx_val_of_single rfl i q
private theorem dotWide_r0 (i : S16x2048x512.Idx) (q : dot_S16x2048x2048_S2048x512_S16x2048x512_2_0_01_1_n_n.contr.Idx) : (dot_S16x2048x2048_S2048x512_S16x2048x512_2_0_01_1_n_n.rhsIdx i q 0).val = (q ⟨0, by decide⟩).val :=
  dot_S16x2048x2048_S2048x512_S16x2048x512_2_0_01_1_n_n.rhsIdx_val_of_single rfl i q
private theorem dotWide_r1 (i : S16x2048x512.Idx) (q : dot_S16x2048x2048_S2048x512_S16x2048x512_2_0_01_1_n_n.contr.Idx) : (dot_S16x2048x2048_S2048x512_S16x2048x512_2_0_01_1_n_n.rhsIdx i q 1).val = (i 2).val := by
  unfold DotDims.rhsIdx
  rw [dif_neg (show ¬(1 : Fin S2048x512.rank) ∈ dot_S16x2048x2048_S2048x512_S16x2048x512_2_0_01_1_n_n.rhsBatch by decide), dif_pos (show (1 : Fin S2048x512.rank) ∈ dot_S16x2048x2048_S2048x512_S16x2048x512_2_0_01_1_n_n.rhsNonContracting by decide)]
  rfl
/-- A window of 2048 entries times a 2048 × 512 matrix. -/
theorem dotWide_apply (X : FVec Ideal S16x2048x2048 .f32) (W : FVec Ideal S2048x512 .f32) (b : Fin 16) (s : Fin 2048) (c : Fin 512) :
    Host.dotGeneral (F := Ideal) dot_S16x2048x2048_S2048x512_S16x2048x512_2_0_01_1_n_n none X W (ix3 b s c)
      = ∑ k : Fin 2048, X (ix3 b s k) * W (ix2 k c) := by
  simp only [Host.dotGeneral]
  rw [Ideal.dotGeneral_apply, ← Equiv.sum_comp (contrEquiv1 dot_S16x2048x2048_S2048x512_S16x2048x512_2_0_01_1_n_n 2048 rfl rfl).symm]
  refine Finset.sum_congr rfl fun k _ => ?_
  have hk := contrEquiv1_symm_val dot_S16x2048x2048_S2048x512_S16x2048x512_2_0_01_1_n_n 2048 rfl rfl k
  have el : dot_S16x2048x2048_S2048x512_S16x2048x512_2_0_01_1_n_n.lhsIdx (ix3 b s c) ((contrEquiv1 dot_S16x2048x2048_S2048x512_S16x2048x512_2_0_01_1_n_n 2048 rfl rfl).symm k) = ix3 b s k :=
    funext fun a => Fin.ext (by
      match a with
      | ⟨0, _⟩ => exact dotWide_l0 _ _
      | ⟨1, _⟩ => exact dotWide_l1 _ _
      | ⟨2, _⟩ => exact (dotWide_l2 _ _).trans hk)
  have er : dot_S16x2048x2048_S2048x512_S16x2048x512_2_0_01_1_n_n.rhsIdx (ix3 b s c) ((contrEquiv1 dot_S16x2048x2048_S2048x512_S16x2048x512_2_0_01_1_n_n 2048 rfl rfl).symm k) = ix2 k c :=
    funext fun a => Fin.ext (by
      match a with
      | ⟨0, _⟩ => exact (dotWide_r0 _ _).trans hk
      | ⟨1, _⟩ => exact dotWide_r1 _ _)
  rw [el, er]

/-! ## One layer's parameters: a slice of the stacked array, flattened -/

/-- Row 0 of a 2 × 512 array. -/
theorem sliceRow0_apply (x : S2x512.Idx → α) (c : Fin 512) :
    shapeCast S512 (extractStridedSlice S1x512 ![0, 0] x slices_S2x512_S1x512_0_0) shapeCasts_S1x512_S512 (ix1 c)
      = x (ix2 (0 : Fin 2) c) := by
  refine (shapeCast_apply _ shapeCasts_S1x512_S512 (ix1 c) (ix2 (0 : Fin 1) c) ?_).trans ?_
  · rw [Shape.rowMajor_val_one, Shape.rowMajor_val_two]; show 0 * 512 + c.val = c.val; omega
  · exact extractStridedSlice_apply ![0, 0] x slices_S2x512_S1x512_0_0 _ (ix2 (0 : Fin 2) c) (fun a => match a with
      | ⟨0, _⟩ => by show (0 : Nat) = 0 + 0; rfl
      | ⟨1, _⟩ => by show c.val = 0 + c.val; omega)

/-- Row 1 of a 2 × 512 array. -/
theorem sliceRow1_apply (x : S2x512.Idx → α) (c : Fin 512) :
    shapeCast S512 (extractStridedSlice S1x512 ![1, 0] x slices_S2x512_S1x512_1_0) shapeCasts_S1x512_S512 (ix1 c)
      = x (ix2 (1 : Fin 2) c) := by
  refine (shapeCast_apply _ shapeCasts_S1x512_S512 (ix1 c) (ix2 (0 : Fin 1) c) ?_).trans ?_
  · rw [Shape.rowMajor_val_one, Shape.rowMajor_val_two]; show 0 * 512 + c.val = c.val; omega
  · exact extractStridedSlice_apply ![1, 0] x slices_S2x512_S1x512_1_0 _ (ix2 (1 : Fin 2) c) (fun a => match a with
      | ⟨0, _⟩ => by show (1 : Nat) = 1 + 0; rfl
      | ⟨1, _⟩ => by show c.val = 0 + c.val; omega)

/-- Matrix 0 of a 2 × 512 × 512 array. -/
theorem sliceMat0_apply (x : S2x512x512.Idx → α) (k c : Fin 512) :
    shapeCast S512x512 (extractStridedSlice S1x512x512 ![0, 0, 0] x slices_S2x512x512_S1x512x512_0_0_0)
      shapeCasts_S1x512x512_S512x512 (ix2 k c) = x (ix3 (0 : Fin 2) k c) := by
  refine (shapeCast_apply _ shapeCasts_S1x512x512_S512x512 (ix2 k c) (ix3 (0 : Fin 1) k c) ?_).trans ?_
  · rw [Shape.rowMajor_val_two, Shape.rowMajor_val_three]; show (0 * 512 + k.val) * 512 + c.val = k.val * 512 + c.val; omega
  · exact extractStridedSlice_apply ![0, 0, 0] x slices_S2x512x512_S1x512x512_0_0_0 _ (ix3 (0 : Fin 2) k c) (fun a => match a with
      | ⟨0, _⟩ => by show (0 : Nat) = 0 + 0; rfl
      | ⟨1, _⟩ => by show k.val = 0 + k.val; omega
      | ⟨2, _⟩ => by show c.val = 0 + c.val; omega)

/-- Matrix 1 of a 2 × 512 × 512 array. -/
theorem sliceMat1_apply (x : S2x512x512.Idx → α) (k c : Fin 512) :
    shapeCast S512x512 (extractStridedSlice S1x512x512 ![1, 0, 0] x slices_S2x512x512_S1x512x512_1_0_0)
      shapeCasts_S1x512x512_S512x512 (ix2 k c) = x (ix3 (1 : Fin 2) k c) := by
  refine (shapeCast_apply _ shapeCasts_S1x512x512_S512x512 (ix2 k c) (ix3 (0 : Fin 1) k c) ?_).trans ?_
  · rw [Shape.rowMajor_val_two, Shape.rowMajor_val_three]; show (0 * 512 + k.val) * 512 + c.val = k.val * 512 + c.val; omega
  · exact extractStridedSlice_apply ![1, 0, 0] x slices_S2x512x512_S1x512x512_1_0_0 _ (ix3 (1 : Fin 2) k c) (fun a => match a with
      | ⟨0, _⟩ => by show (1 : Nat) = 1 + 0; rfl
      | ⟨1, _⟩ => by show k.val = 0 + k.val; omega
      | ⟨2, _⟩ => by show c.val = 0 + c.val; omega)

/-! ## The gather of four consecutive positions -/

/-- The reference's gather: rows of the padded sequence picked by a 2048 × 4 table of positions. -/
abbrev gd := gather_S16x2056x512_S2048x4x1_S16x2048x4x512_03_1_n_n_1_2_161512

private theorem gd_coord0 (j : S16x2048x4x512.Idx) (idx : IVec S2048x4x1 32) :
    gd.start j idx 0 + gd.batchCoord j 0 + gd.offCoord j 0 = (j 0).val := by
  rw [GatherDims.batchCoord_eq_zero _ _ _ List.not_mem_nil]
  unfold GatherDims.start GatherDims.offCoord
  rw [dif_neg (show ¬(0 : Fin S16x2056x512.rank) ∈ gd.startIndexMap by decide),
    dif_pos (show (0 : Fin S16x2056x512.rank) ∈ gd.sKept by decide)]
  show 0 + 0 + (j 0).val = (j 0).val
  omega

private theorem gd_coord2 (j : S16x2048x4x512.Idx) (idx : IVec S2048x4x1 32) :
    gd.start j idx 2 + gd.batchCoord j 2 + gd.offCoord j 2 = (j 3).val := by
  rw [GatherDims.batchCoord_eq_zero _ _ _ List.not_mem_nil]
  unfold GatherDims.start GatherDims.offCoord
  rw [dif_neg (show ¬(2 : Fin S16x2056x512.rank) ∈ gd.startIndexMap by decide),
    dif_pos (show (2 : Fin S16x2056x512.rank) ∈ gd.sKept by decide)]
  show 0 + 0 + (j 3).val = (j 3).val
  omega

private theorem gd_coord1 (j : S16x2048x4x512.Idx) (idx : IVec S2048x4x1 32) :
    gd.start j idx 1 + gd.batchCoord j 1 + gd.offCoord j 1
      = min (idx (ix3 (j 1) (j 2) (0 : Fin 1))).toInt.toNat 2055 := by
  rw [GatherDims.batchCoord_eq_zero _ _ _ List.not_mem_nil,
    GatherDims.offCoord_eq_zero _ _ _ (show ¬(1 : Fin S16x2056x512.rank) ∈ gd.sKept by decide)]
  unfold GatherDims.start
  rw [dif_pos (show (1 : Fin S16x2056x512.rank) ∈ gd.startIndexMap by decide)]
  have hsi : gd.siIdx j ⟨List.idxOf (1 : Fin S16x2056x512.rank) gd.startIndexMap,
      List.idxOf_lt_length_iff.2 (show (1 : Fin S16x2056x512.rank) ∈ gd.startIndexMap by decide)⟩
        = ix3 (j 1) (j 2) (0 : Fin 1) := by
    funext a; refine Fin.ext ?_
    match a with
    | ⟨0, _⟩ => rfl
    | ⟨1, _⟩ => rfl
    | ⟨2, _⟩ => rfl
  rw [hsi]
  rfl

/-- The gather read at (b, s, i, h): the padded sequence's row at the table's entry (s, i), read signed and
    clamped into the sequence. -/
theorem gather_apply (x : S16x2056x512.Idx → α) (idx : IVec S2048x4x1 32) (b : Fin 16) (s : Fin 2048) (i : Fin 4) (h : Fin 512) :
    Host.gather gd x idx (ix4 b s i h)
      = x (ix3 b ⟨min (idx (ix3 s i (0 : Fin 1))).toInt.toNat 2055, by omega⟩ h) := by
  unfold Host.gather
  congr 1
  funext a
  refine Fin.ext ?_
  show gd.start (ix4 b s i h) idx a + gd.batchCoord (ix4 b s i h) a + gd.offCoord (ix4 b s i h) a = _
  match a with
  | ⟨0, _⟩ => exact gd_coord0 _ _
  | ⟨1, _⟩ => exact gd_coord1 _ _
  | ⟨2, _⟩ => exact gd_coord2 _ _

/-- The gathered windows flattened: entry 512·i + h of the window at (b, s) is entry h of its row i. -/
theorem window_apply (y : S16x2048x4x512.Idx → α) (b : Fin 16) (s : Fin 2048) (i : Fin 4) (h : Fin 512) :
    shapeCast S16x2048x2048 y shapeCasts_S16x2048x4x512_S16x2048x2048
      (ix3 b s (⟨512 * i.val + h.val, by omega⟩ : Fin 2048)) = y (ix4 b s i h) := by
  refine shapeCast_apply _ shapeCasts_S16x2048x4x512_S16x2048x2048 _ (ix4 b s i h) ?_
  rw [Shape.rowMajor_val_three, Shape.rowMajor_val_four]
  show ((b.val * 2048 + s.val) * 4 + i.val) * 512 + h.val = (b.val * 2048 + s.val) * 2048 + (512 * i.val + h.val)
  omega

end Cert.ReferenceIdeal.RefValue

end
-- ==== Proof.RefBlock.lean ====
/-
  The reference's residual block and window projection as compositions of its operations, read at a position:
  row (b, s) of the result is the row-by-row term of the specification applied to row (b, s) of the operand.
-/
import proofs.«134143_j43731357007884_2_alg».proof.Proof.RefOps

noncomputable section

namespace Cert.ReferenceIdeal.RefValue

open Cert.ReferenceIdeal Cert.ReferenceIdeal.Gen Idealize.ShloMosaic Idealize.ShloMosaic.StableHlo
open Idealize.ShloMosaic.ValueIdx
open scoped BigOperators

variable {α : Type}

/-! ## The stages as compositions of operations -/

/-- A vector of 512 features broadcast over batches and positions. -/
def biasStage (v : FVec Ideal S512 .f32) : FVec Ideal S16x2048x512 .f32 :=
  broadcastInDim S16x2048x512 ![0, 1, 2] bcast_S1x1x512_S16x2048x512_0_1_2 (broadcastInDim S1x1x512 ![2] bcast_S512_S1x1x512_2 v)

/-- A per-position value broadcast along the features. -/
def colStage (y : FVec Ideal S16x2048x1 .f32) : FVec Ideal S16x2048x512 .f32 :=
  broadcastInDim S16x2048x512 ![0, 1, 2] bcast_S16x2048x1_S16x2048x512_0_1_2 y

/-- The mean over the features, per position. -/
def meanStage (X : FVec Ideal S16x2048x512 .f32) : FVec Ideal S16x2048x1 .f32 :=
  Host.divf (broadcastInDim S16x2048x1 ![0, 1] bcast_S16x2048_S16x2048x1_0_1
      (Host.reduceAdd X (constant (F := Ideal) S_ .f32 0x00000000#32) reducesTo_S16x2048x512_S16x2048_d2 h_S_))
    (broadcastInDim S16x2048x1 ![] bcast_S_S16x2048x1 (constant (F := Ideal) S_ .f32 0x44000000#32))

/-- An array less its per-position mean. -/
def centredStage (X : FVec Ideal S16x2048x512 .f32) : FVec Ideal S16x2048x512 .f32 :=
  subf X (colStage (meanStage X))

/-- The layer normalisation. -/
def normStage (X : FVec Ideal S16x2048x512 .f32) (g β : FVec Ideal S512 .f32) : FVec Ideal S16x2048x512 .f32 :=
  addf (mulf (mulf (biasStage g) (centredStage X))
      (colStage (Host.rsqrt (addf (meanStage (mulf (centredStage X) (centredStage X)))
        (broadcastInDim S16x2048x1 ![] bcast_S_S16x2048x1 (constant (F := Ideal) S_ .f32 0x3727C5AC#32))))))
    (biasStage β)

/-- The clamp at zero. -/
def reluStage (Y : FVec Ideal S16x2048x512 .f32) : FVec Ideal S16x2048x512 .f32 :=
  maximumf Y (broadcastInDim S16x2048x512 ![] bcast_S_S16x2048x512 (constant (F := Ideal) S_ .f32 0x00000000#32))

/-- One residual block. -/
def blockStage (X : FVec Ideal S16x2048x512 .f32) (g β : FVec Ideal S512 .f32) (W₁ : FVec Ideal S512x512 .f32)
    (b₁ : FVec Ideal S512 .f32) (W₂ : FVec Ideal S512x512 .f32) (b₂ : FVec Ideal S512 .f32) : FVec Ideal S16x2048x512 .f32 :=
  addf (addf X (Host.dotGeneral dot_S16x2048x512_S512x512_S16x2048x512_2_0_01_1_n_n none
      (reluStage (addf (Host.dotGeneral dot_S16x2048x512_S512x512_S16x2048x512_2_0_01_1_n_n none (normStage X g β) W₁) (biasStage b₁)))
      W₂)) (biasStage b₂)

/-- The window projection. -/
def projectStage (Win : FVec Ideal S16x2048x2048 .f32) (Wm : FVec Ideal S2048x512 .f32) (bm : FVec Ideal S512 .f32) :
    FVec Ideal S16x2048x512 .f32 :=
  reluStage (addf (Host.dotGeneral dot_S16x2048x2048_S2048x512_S16x2048x512_2_0_01_1_n_n none Win Wm) (biasStage bm))

/-! ## Rows -/

/-- Row (b, s) of an array of 16 × 2048 × 512. -/
def rowOf3 (X : FVec Ideal S16x2048x512 .f32) (b : Fin 16) (s : Fin 2048) : Towers.Row := fun k => X (ix3 b s k)

/-- A 512 × 512 array as a matrix. -/
def matOf2 (W : FVec Ideal S512x512 .f32) : Towers.Mat := fun k c => W (ix2 k c)

theorem biasStage_apply (v : FVec Ideal S512 .f32) (b : Fin 16) (s : Fin 2048) (c : Fin 512) :
    biasStage v (ix3 b s c) = Towers.vec v c := bias_apply v b s c

theorem colStage_apply (y : FVec Ideal S16x2048x1 .f32) (b : Fin 16) (s : Fin 2048) (c : Fin 512) :
    colStage y (ix3 b s c) = y (ix3 b s (0 : Fin 1)) := col_apply y b s c

theorem meanStage_apply (X : FVec Ideal S16x2048x512 .f32) (b : Fin 16) (s : Fin 2048) :
    meanStage X (ix3 b s (0 : Fin 1)) = Towers.mean (rowOf3 X b s) := by
  unfold meanStage Towers.mean Towers.width rowOf3
  show Ideal.div _ _ = _
  rw [keep_apply, rowsum_apply, scalar_apply]
  show Ideal.div (Ideal.ofBits .f32 0x00000000#32 + _) (Ideal.ofBits .f32 0x44000000#32) = _
  rw [Ideal.ofBits_zero_f32, zero_add]

theorem centredStage_apply (X : FVec Ideal S16x2048x512 .f32) (b : Fin 16) (s : Fin 2048) (c : Fin 512) :
    centredStage X (ix3 b s c) = Towers.centred (rowOf3 X b s) c := by
  unfold centredStage Towers.centred
  show X (ix3 b s c) - colStage (meanStage X) (ix3 b s c) = _
  rw [colStage_apply, meanStage_apply]
  rfl

theorem normStage_apply (X : FVec Ideal S16x2048x512 .f32) (g β : FVec Ideal S512 .f32) (b : Fin 16) (s : Fin 2048) (c : Fin 512) :
    normStage X g β (ix3 b s c) = Towers.norm (Towers.vec g) (Towers.vec β) (rowOf3 X b s) c := by
  unfold normStage Towers.norm Towers.eps
  show biasStage g (ix3 b s c) * centredStage X (ix3 b s c)
      * colStage (Host.rsqrt (addf (meanStage (mulf (centredStage X) (centredStage X))) _)) (ix3 b s c)
      + biasStage β (ix3 b s c) = _
  rw [biasStage_apply, biasStage_apply, centredStage_apply, colStage_apply]
  show _ * _ * Ideal.rsqrt (meanStage (mulf (centredStage X) (centredStage X)) (ix3 b s (0 : Fin 1))
      + broadcastInDim S16x2048x1 ![] bcast_S_S16x2048x1 (constant (F := Ideal) S_ .f32 0x3727C5AC#32) (ix3 b s (0 : Fin 1))) + _ = _
  rw [meanStage_apply, scalar_apply]
  have e : rowOf3 (mulf (centredStage X) (centredStage X)) b s
      = fun k => Towers.centred (rowOf3 X b s) k * Towers.centred (rowOf3 X b s) k := by
    funext k
    show centredStage X (ix3 b s k) * centredStage X (ix3 b s k) = _
    rw [centredStage_apply]
  rw [e]
  rfl

theorem reluStage_apply (Y : FVec Ideal S16x2048x512 .f32) (b : Fin 16) (s : Fin 2048) (c : Fin 512) :
    reluStage Y (ix3 b s c) = Towers.relu (rowOf3 Y b s) c := by
  unfold reluStage Towers.relu Towers.zeroW rowOf3
  show max (Y (ix3 b s c)) (broadcastInDim S16x2048x512 ![] bcast_S_S16x2048x512 (constant (F := Ideal) S_ .f32 0x00000000#32) (ix3 b s c)) = _
  rw [scalar_apply]
  rfl

/-- Row (b, s) of a residual block's result is the block of the specification on row (b, s) of its operand. -/
theorem blockStage_apply (X : FVec Ideal S16x2048x512 .f32) (g β : FVec Ideal S512 .f32) (W₁ : FVec Ideal S512x512 .f32)
    (b₁ : FVec Ideal S512 .f32) (W₂ : FVec Ideal S512x512 .f32) (b₂ : FVec Ideal S512 .f32) (b : Fin 16) (s : Fin 2048) :
    rowOf3 (blockStage X g β W₁ b₁ W₂ b₂) b s
      = Towers.block (Towers.vec g) (Towers.vec β) (matOf2 W₁) (Towers.vec b₁) (matOf2 W₂) (Towers.vec b₂) (rowOf3 X b s) := by
  funext c
  unfold blockStage Towers.block
  show X (ix3 b s c) + Host.dotGeneral (F := Ideal) dot_S16x2048x512_S512x512_S16x2048x512_2_0_01_1_n_n none _ W₂ (ix3 b s c)
      + biasStage b₂ (ix3 b s c) = _
  rw [dot_apply, biasStage_apply]
  have e : ∀ k : Fin 512, reluStage (addf (Host.dotGeneral (F := Ideal) dot_S16x2048x512_S512x512_S16x2048x512_2_0_01_1_n_n none
      (normStage X g β) W₁) (biasStage b₁)) (ix3 b s k)
      = Towers.relu (fun k => Towers.apply (matOf2 W₁) (Towers.norm (Towers.vec g) (Towers.vec β) (rowOf3 X b s)) k + Towers.vec b₁ k) k := by
    intro k
    rw [reluStage_apply]
    congr 1
    funext j
    show Host.dotGeneral (F := Ideal) dot_S16x2048x512_S512x512_S16x2048x512_2_0_01_1_n_n none (normStage X g β) W₁ (ix3 b s j)
      + biasStage b₁ (ix3 b s j) = _
    rw [dot_apply, biasStage_apply]
    unfold Towers.apply
    congr 1
    exact Finset.sum_congr rfl fun k' _ => by rw [normStage_apply]; rfl
  simp only [e]
  rfl

/-- Row (b, s) of the window projection's result: the sum over the window's 2048 entries, plus bias, clamped. -/
theorem projectStage_apply (Win : FVec Ideal S16x2048x2048 .f32) (Wm : FVec Ideal S2048x512 .f32) (bm : FVec Ideal S512 .f32)
    (b : Fin 16) (s : Fin 2048) :
    rowOf3 (projectStage Win Wm bm) b s
      = Towers.relu fun c => (∑ k : Fin 2048, Win (ix3 b s k) * Wm (ix2 k c)) + Towers.vec bm c := by
  funext c
  unfold projectStage
  show reluStage _ (ix3 b s c) = _
  rw [reluStage_apply]
  congr 1
  funext j
  show Host.dotGeneral (F := Ideal) dot_S16x2048x2048_S2048x512_S16x2048x512_2_0_01_1_n_n none Win Wm (ix3 b s j)
    + biasStage bm (ix3 b s j) = _
  rw [dotWide_apply, biasStage_apply]

end Cert.ReferenceIdeal.RefValue

end
-- ==== Proof.RefLayout.lean ====
/-
  The layout operations at the reference's tail (two towers side by side, the two layers stacked, positions before
  batches), small signed words, and the window's 2048 entries as four rows of 512.
-/
import proofs.«134143_j43731357007884_2_alg».proof.Proof.RefOps

noncomputable section

namespace Cert.ReferenceIdeal.RefValue

open Cert.ReferenceIdeal Cert.ReferenceIdeal.Gen Idealize.ShloMosaic Idealize.ShloMosaic.StableHlo
open Idealize.ShloMosaic.ValueIdx
open scoped BigOperators

variable {α : Type}

/-! ## Signed 32-bit words that hold small naturals -/

theorem word_toInt (n : Nat) (hn : n < 2 ^ 31) : (BitVec.ofNat 32 n).toInt = (n : Int) := by
  rw [BitVec.toInt_eq_toNat_of_lt (by rw [BitVec.toNat_ofNat]; omega), BitVec.toNat_ofNat]
  omega

theorem word_not_neg (n : Nat) (hn : n < 2 ^ 31) : IntOp.cmpi .slt (BitVec.ofNat 32 n) 0#32 = 0#1 := by
  have h : (BitVec.ofNat 32 n).slt 0#32 = false := by
    rw [BitVec.slt, word_toInt n hn]
    simp
  show BitVec.ofBool ((BitVec.ofNat 32 n).slt 0#32) = 0#1
  rw [h]
  rfl

/-! ## The window's 2048 entries as four rows of 512 -/

/-- Entry 512·i + h of a window is entry h of its row i. -/
def winEquiv : Fin 4 × Fin 512 ≃ Fin 2048 := (finProdFinEquiv : Fin 4 × Fin 512 ≃ Fin (4 * 512))

theorem winEquiv_val (i : Fin 4) (h : Fin 512) : (winEquiv (i, h)).val = 512 * i.val + h.val := by
  show (finProdFinEquiv (i, h) : Fin (4 * 512)).val = _
  rw [finProdFinEquiv_apply_val]
  show h.val + 512 * i.val = 512 * i.val + h.val
  omega

theorem winEquiv_eq (i : Fin 4) (h : Fin 512) : winEquiv (i, h) = (⟨512 * i.val + h.val, by omega⟩ : Fin 2048) :=
  Fin.ext (winEquiv_val i h)

/-- A sum over the window's entries is the sum over its rows of the sums over each row. -/
theorem sum_window {M : Type} [AddCommMonoid M] (f : Fin 2048 → M) :
    ∑ k : Fin 2048, f k = ∑ i : Fin 4, ∑ h : Fin 512, f (⟨512 * i.val + h.val, by omega⟩ : Fin 2048) := by
  rw [← Equiv.sum_comp winEquiv f, Fintype.sum_prod_type]
  exact Finset.sum_congr rfl fun i _ => Finset.sum_congr rfl fun h _ => by rw [winEquiv_eq]

/-! ## The tail: side by side, stacked, transposed -/

/-- Two arrays side by side along the features: columns 0–511 from the first, 512–1023 from the second. -/
theorem sideBySide_apply (X Y : S16x2048x512.Idx → α) (b : Fin 16) (s : Fin 2048) (col : Fin 1024) :
    concatenate S16x2048x1024 2 [⟨S16x2048x512, X⟩, ⟨S16x2048x512, Y⟩] concatenates_S16x2048x512_S16x2048x512_S16x2048x1024_d2
        (ix3 b s col)
      = if h : col.val < 512 then X (ix3 b s (⟨col.val, h⟩ : Fin 512)) else Y (ix3 b s (⟨col.val - 512, by omega⟩ : Fin 512)) := by
  split
  · next h =>
    exact concatenate_pair_apply_left 2 X Y _ (ix3 b s col) rfl (ix3 b s (⟨col.val, h⟩ : Fin 512)) (fun a => match a with
      | ⟨0, _⟩ => rfl
      | ⟨1, _⟩ => rfl
      | ⟨2, _⟩ => rfl)
  · next h =>
    exact concatenate_pair_apply_right 2 X Y _ (ix3 b s col) rfl rfl (ix3 b s (⟨col.val - 512, by omega⟩ : Fin 512))
      (fun a ha => match a, ha with
        | ⟨0, _⟩, _ => rfl
        | ⟨1, _⟩, _ => rfl
        | ⟨2, _⟩, ha => absurd rfl ha)
      (by show (col.val - 512) + 512 = col.val; omega)

/-- An array given a leading unit axis. -/
theorem lead_apply (A : S16x2048x1024.Idx → α) (b : Fin 16) (s : Fin 2048) (col : Fin 1024) :
    broadcastInDim S1x16x2048x1024 ![1, 2, 3] bcast_S16x2048x1024_S1x16x2048x1024_1_2_3 A (ix4 (0 : Fin 1) b s col)
      = A (ix3 b s col) :=
  broadcastInDim_apply _ bcast_S16x2048x1024_S1x16x2048x1024_1_2_3 A _ _ (fun a => match a with
    | ⟨0, _⟩ => by show b.val = if (16 : Nat) = 1 then 0 else b.val; rw [if_neg (by decide)]
    | ⟨1, _⟩ => by show s.val = if (2048 : Nat) = 1 then 0 else s.val; rw [if_neg (by decide)]
    | ⟨2, _⟩ => by show col.val = if (1024 : Nat) = 1 then 0 else col.val; rw [if_neg (by decide)])

/-- The two layers stacked and positions put before batches, read at layer 0. -/
theorem stacked0_apply (A B : S16x2048x1024.Idx → α) (s : Fin 2048) (b : Fin 16) (col : Fin 1024) :
    transpose S2x2048x16x1024 [0, 2, 1, 3]
      (concatenate S2x16x2048x1024 0
        [⟨S1x16x2048x1024, broadcastInDim S1x16x2048x1024 ![1, 2, 3] bcast_S16x2048x1024_S1x16x2048x1024_1_2_3 A⟩,
         ⟨S1x16x2048x1024, broadcastInDim S1x16x2048x1024 ![1, 2, 3] bcast_S16x2048x1024_S1x16x2048x1024_1_2_3 B⟩]
        concatenates_S1x16x2048x1024_S1x16x2048x1024_S2x16x2048x1024_d0)
      transposes_S2x16x2048x1024_S2x2048x16x1024_0_2_1_3 (ix4 (0 : Fin 2) s b col) = A (ix3 b s col) := by
  refine (transpose_apply [0, 2, 1, 3] _ transposes_S2x16x2048x1024_S2x2048x16x1024_0_2_1_3 _ (ix4 (0 : Fin 2) b s col)
    (fun a => match a with | ⟨0, _⟩ => rfl | ⟨1, _⟩ => rfl | ⟨2, _⟩ => rfl | ⟨3, _⟩ => rfl)).trans ?_
  refine (concatenate_pair_apply_left (s₁ := S1x16x2048x1024) (s₂ := S1x16x2048x1024) 0 _ _ _ (ix4 (0 : Fin 2) b s col) rfl (ix4 (0 : Fin 1) b s col) (fun a => match a with
    | ⟨0, _⟩ => rfl | ⟨1, _⟩ => rfl | ⟨2, _⟩ => rfl | ⟨3, _⟩ => rfl)).trans ?_
  exact lead_apply A b s col

/-- The two layers stacked and positions put before batches, read at layer 1. -/
theorem stacked1_apply (A B : S16x2048x1024.Idx → α) (s : Fin 2048) (b : Fin 16) (col : Fin 1024) :
    transpose S2x2048x16x1024 [0, 2, 1, 3]
      (concatenate S2x16x2048x1024 0
        [⟨S1x16x2048x1024, broadcastInDim S1x16x2048x1024 ![1, 2, 3] bcast_S16x2048x1024_S1x16x2048x1024_1_2_3 A⟩,
         ⟨S1x16x2048x1024, broadcastInDim S1x16x2048x1024 ![1, 2, 3] bcast_S16x2048x1024_S1x16x2048x1024_1_2_3 B⟩]
        concatenates_S1x16x2048x1024_S1x16x2048x1024_S2x16x2048x1024_d0)
      transposes_S2x16x2048x1024_S2x2048x16x1024_0_2_1_3 (ix4 (1 : Fin 2) s b col) = B (ix3 b s col) := by
  refine (transpose_apply [0, 2, 1, 3] _ transposes_S2x16x2048x1024_S2x2048x16x1024_0_2_1_3 _ (ix4 (1 : Fin 2) b s col)
    (fun a => match a with | ⟨0, _⟩ => rfl | ⟨1, _⟩ => rfl | ⟨2, _⟩ => rfl | ⟨3, _⟩ => rfl)).trans ?_
  refine (concatenate_pair_apply_right (s₁ := S1x16x2048x1024) (s₂ := S1x16x2048x1024) 0 _ _ _ (ix4 (1 : Fin 2) b s col) rfl rfl (ix4 (0 : Fin 1) b s col)
    (fun a ha => match a, ha with
      | ⟨0, _⟩, ha => absurd rfl ha
      | ⟨1, _⟩, _ => rfl
      | ⟨2, _⟩, _ => rfl
      | ⟨3, _⟩, _ => rfl)
    (by show 0 + 1 = 1; rfl)).trans ?_
  exact lead_apply B b s col

/-! ## The padded sequence -/

/-- The sequence with four rows of padding before and after each batch's 2048 positions. -/
def padded (x : FVec Ideal S16x2048x512 .f32) (lp rp : FVec Ideal S4x512 .f32) : FVec Ideal S16x2056x512 .f32 :=
  concatenate S16x2056x512 1 [⟨S16x4x512, broadcastInDim S16x4x512 ![1, 2] bcast_S4x512_S16x4x512_1_2 lp⟩, ⟨S16x2048x512, x⟩,
    ⟨S16x4x512, broadcastInDim S16x4x512 ![1, 2] bcast_S4x512_S16x4x512_1_2 rp⟩]
    concatenates_S16x4x512_S16x2048x512_S16x4x512_S16x2056x512_d1

end Cert.ReferenceIdeal.RefValue

end
-- ==== Proof.RefWindow.lean ====
/-
  The reference's two windows: the table of positions the gather reads holds s + i (left) and s + 5 + i (right),
  never negative and inside the padded sequence, so entry 512·i + h of the window at (b, s) is the padded
  sequence's row s + i (s + 5 + i) of batch b at feature h.
-/
import proofs.«134143_j43731357007884_2_alg».proof.Proof.RefStagesP
import proofs.«134143_j43731357007884_2_alg».proof.Proof.RefLayout

noncomputable section

namespace Cert.ReferenceIdeal.RefValue

open Cert.ReferenceIdeal Cert.ReferenceIdeal.Gen Idealize.ShloMosaic Idealize.ShloMosaic.StableHlo
open Idealize.ShloMosaic.ValueIdx Cert.ReferenceIdeal.ReadP
open scoped BigOperators

variable {α : Type}

variable {F : FTy → Type} [FloatOps F]

/-- The left window's table at (s, i) is the word of s + i. -/
theorem leftTable_apply (s : Fin 2048) (i : Fin 4) :
    val_main_v15 (F := F) (ix3 s i (0 : Fin 1)) = BitVec.ofNat 32 (s.val + i.val) := by
  rw [val_main_v15_apply, val_main_v14_apply, val_main_v11_apply, val_main_v9_apply, val_main_v10_apply, val_main_c_apply,
    val_main_v7_apply, val_main_v4_apply, val_main_v3_apply, val_main_v8_apply, val_main_v6_apply, val_main_v5_apply]
  show Scalar.select (IntOp.cmpi .slt (BitVec.ofNat 32 s.val + BitVec.ofNat 32 i.val) 0#32) _
    (BitVec.ofNat 32 s.val + BitVec.ofNat 32 i.val) = _
  rw [← BitVec.ofNat_add, word_not_neg _ (by omega), select_zero]

/-- The right window's table at (s, i) is the word of s + 5 + i. -/
theorem rightTable_apply (s : Fin 2048) (i : Fin 4) :
    val_main_v28 (F := F) (ix3 s i (0 : Fin 1)) = BitVec.ofNat 32 (s.val + 5 + i.val) := by
  rw [val_main_v28_apply, val_main_v27_apply, val_main_v24_apply, val_main_v22_apply, val_main_v23_apply, val_main_c_2_apply,
    val_main_v20_apply, val_main_v19_apply, val_main_v4_apply, val_main_v3_apply, val_main_v18_apply, val_main_c_1_apply,
    val_main_v21_apply, val_main_v6_apply, val_main_v5_apply]
  show Scalar.select (IntOp.cmpi .slt (BitVec.ofNat 32 s.val + BitVec.ofNat 32 5 + BitVec.ofNat 32 i.val) 0#32) _
    (BitVec.ofNat 32 s.val + BitVec.ofNat 32 5 + BitVec.ofNat 32 i.val) = _
  rw [← BitVec.ofNat_add, ← BitVec.ofNat_add, word_not_neg _ (by omega), select_zero]

/-- The left window at (b, s): entry 512·i + h is the padded sequence at (b, s + i, h). -/
theorem leftWindow_apply (x0 : FVec Ideal S16x2048x512 .f32) (x1 x2 : FVec Ideal S4x512 .f32)
    (b : Fin 16) (s : Fin 2048) (i : Fin 4) (h : Fin 512) :
    val_main_v17 (F := Ideal) x0 x1 x2 (ix3 b s (⟨512 * i.val + h.val, by omega⟩ : Fin 2048))
      = padded x0 x1 x2 (ix3 b (⟨s.val + i.val, by omega⟩ : Fin 2056) h) := by
  unfold val_main_v17 val_main_v16
  rw [window_apply, gather_apply]
  show val_main_v2 (F := Ideal) x0 x1 x2 _ = val_main_v2 (F := Ideal) x0 x1 x2 _
  congr 2
  refine Fin.ext ?_
  show min (val_main_v15 (F := Ideal) (ix3 s i (0 : Fin 1))).toInt.toNat 2055 = s.val + i.val
  rw [leftTable_apply, word_toInt _ (by omega), Int.toNat_natCast]
  omega

/-- The right window at (b, s): entry 512·i + h is the padded sequence at (b, s + 5 + i, h). -/
theorem rightWindow_apply (x0 : FVec Ideal S16x2048x512 .f32) (x1 x2 : FVec Ideal S4x512 .f32)
    (b : Fin 16) (s : Fin 2048) (i : Fin 4) (h : Fin 512) :
    val_main_v30 (F := Ideal) x0 x1 x2 (ix3 b s (⟨512 * i.val + h.val, by omega⟩ : Fin 2048))
      = padded x0 x1 x2 (ix3 b (⟨s.val + (5 + i.val), by omega⟩ : Fin 2056) h) := by
  unfold val_main_v30 val_main_v29
  rw [window_apply, gather_apply]
  show val_main_v2 (F := Ideal) x0 x1 x2 _ = val_main_v2 (F := Ideal) x0 x1 x2 _
  congr 2
  refine Fin.ext ?_
  show min (val_main_v28 (F := Ideal) (ix3 s i (0 : Fin 1))).toInt.toNat 2055 = s.val + (5 + i.val)
  rw [rightTable_apply, word_toInt _ (by omega), Int.toNat_natCast]
  omega

end Cert.ReferenceIdeal.RefValue

end
-- ==== Proof.RefValue.lean ====
/-
  The reference's two results named by the specification: every stage of 16 × 2048 × 512 read row by
  row is the specification's term on the previous stage's row, the windows are rows of the padded sequence, and
  the tail lays the two towers side by side, stacks the two layers and puts positions before batches.
-/
import proofs.«134143_j43731357007884_2_alg».proof.Proof.RefStagesP
import proofs.«134143_j43731357007884_2_alg».proof.Proof.RefBlock
import proofs.«134143_j43731357007884_2_alg».proof.Proof.RefWindow

noncomputable section

namespace Cert.ReferenceIdeal.RefValue

open Cert.ReferenceIdeal Cert.ReferenceIdeal.Gen Idealize.ShloMosaic Idealize.ShloMosaic.StableHlo
open Idealize.ShloMosaic.ValueIdx Cert.ReferenceIdeal.ReadP Idealize.ShloMosaic.TcCoe Idealize.SL.Sem
open scoped BigOperators

variable {α : Type}

/-- One tower's parameters from the argument arrays. -/
abbrev mkParams (Wm : FVec Ideal S2048x512 .f32) (bm : FVec Ideal S512 .f32) (w1 : FVec Ideal S2x512x512 .f32)
    (b1 : FVec Ideal S2x512 .f32) (w2 : FVec Ideal S2x512x512 .f32) (b2 g beta : FVec Ideal S2x512 .f32) : Towers.Params :=
  { Wm := Wm, bm := bm, w1 := w1, b1 := b1, w2 := w2, b2 := b2, g := g, beta := beta }

/-! ## The stages, row by row -/

/-- Row (b, s) of stage 35 is the left tower's window projection of the padded sequence's rows. -/
theorem row35 (x0 : FVec Ideal S16x2048x512 .f32) (x1 : FVec Ideal S4x512 .f32) (x2 : FVec Ideal S4x512 .f32) (x3 : FVec Ideal S2048x512 .f32) (x4 : FVec Ideal S512 .f32) (b : Fin 16) (s : Fin 2048) :
    rowOf3 (val_main_v35 (F := Ideal) x0 x1 x2 x3 x4) b s
      = Towers.project (Towers.band x3) (Towers.vec x4) (Towers.leftRows (Towers.rowAt (padded x0 x1 x2) b s)) := by
  refine (projectStage_apply (val_main_v17 (F := Ideal) x0 x1 x2) x3 x4 b s).trans ?_
  unfold Towers.project
  refine congrArg Towers.relu (funext fun c => congrArg (· + Towers.vec x4 c) ?_)
  rw [sum_window]
  refine Finset.sum_congr rfl fun i _ => ?_
  unfold Towers.apply
  refine Finset.sum_congr rfl fun h _ => ?_
  rw [leftWindow_apply]
  rfl

/-- Row (b, s) of stage 40 is the right tower's window projection of the padded sequence's rows. -/
theorem row40 (x0 : FVec Ideal S16x2048x512 .f32) (x1 : FVec Ideal S4x512 .f32) (x2 : FVec Ideal S4x512 .f32) (x5 : FVec Ideal S2048x512 .f32) (x6 : FVec Ideal S512 .f32) (b : Fin 16) (s : Fin 2048) :
    rowOf3 (val_main_v40 (F := Ideal) x0 x1 x2 x5 x6) b s
      = Towers.project (Towers.band x5) (Towers.vec x6) (Towers.rightRows (Towers.rowAt (padded x0 x1 x2) b s)) := by
  refine (projectStage_apply (val_main_v30 (F := Ideal) x0 x1 x2) x5 x6 b s).trans ?_
  unfold Towers.project
  refine congrArg Towers.relu (funext fun c => congrArg (· + Towers.vec x6 c) ?_)
  rw [sum_window]
  refine Finset.sum_congr rfl fun i _ => ?_
  unfold Towers.apply
  refine Finset.sum_congr rfl fun h _ => ?_
  rw [rightWindow_apply]
  rfl

/-- Row (b, s) of stage 86 is block 0 of the specification on row (b, s) of stage 35. -/
theorem row86 (x0 : FVec Ideal S16x2048x512 .f32) (x1 : FVec Ideal S4x512 .f32) (x2 : FVec Ideal S4x512 .f32) (x3 : FVec Ideal S2048x512 .f32) (x4 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (b : Fin 16) (s : Fin 2048) :
    rowOf3 (val_main_v86 (F := Ideal) x0 x1 x2 x3 x4 x7 x8 x9 x10 x11 x12) b s
      = Towers.block (Towers.rowOf x11 0) (Towers.rowOf x12 0) (Towers.matOf x7 0) (Towers.rowOf x8 0)
          (Towers.matOf x9 0) (Towers.rowOf x10 0) (rowOf3 (val_main_v35 (F := Ideal) x0 x1 x2 x3 x4) b s) := by
  have h := blockStage_apply (val_main_v35 (F := Ideal) x0 x1 x2 x3 x4) (val_main_v42 (F := Ideal) x11) (val_main_v44 (F := Ideal) x12) (val_main_v70 (F := Ideal) x7) (val_main_v73 (F := Ideal) x8) (val_main_v79 (F := Ideal) x9) (val_main_v83 (F := Ideal) x10) b s
  have e1 : Towers.vec (val_main_v42 (F := Ideal) x11) = Towers.rowOf x11 0 := funext fun c => sliceRow0_apply x11 c
  have e2 : Towers.vec (val_main_v44 (F := Ideal) x12) = Towers.rowOf x12 0 := funext fun c => sliceRow0_apply x12 c
  have e3 : matOf2 (val_main_v70 (F := Ideal) x7) = Towers.matOf x7 0 := funext fun k => funext fun c => sliceMat0_apply x7 k c
  have e4 : Towers.vec (val_main_v73 (F := Ideal) x8) = Towers.rowOf x8 0 := funext fun c => sliceRow0_apply x8 c
  have e5 : matOf2 (val_main_v79 (F := Ideal) x9) = Towers.matOf x9 0 := funext fun k => funext fun c => sliceMat0_apply x9 k c
  have e6 : Towers.vec (val_main_v83 (F := Ideal) x10) = Towers.rowOf x10 0 := funext fun c => sliceRow0_apply x10 c
  rw [e1, e2, e3, e4, e5, e6] at h
  exact h

/-- Row (b, s) of stage 132 is block 0 of the specification on row (b, s) of stage 40. -/
theorem row132 (x0 : FVec Ideal S16x2048x512 .f32) (x1 : FVec Ideal S4x512 .f32) (x2 : FVec Ideal S4x512 .f32) (x5 : FVec Ideal S2048x512 .f32) (x6 : FVec Ideal S512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) (b : Fin 16) (s : Fin 2048) :
    rowOf3 (val_main_v132 (F := Ideal) x0 x1 x2 x5 x6 x13 x14 x15 x16 x17 x18) b s
      = Towers.block (Towers.rowOf x17 0) (Towers.rowOf x18 0) (Towers.matOf x13 0) (Towers.rowOf x14 0)
          (Towers.matOf x15 0) (Towers.rowOf x16 0) (rowOf3 (val_main_v40 (F := Ideal) x0 x1 x2 x5 x6) b s) := by
  have h := blockStage_apply (val_main_v40 (F := Ideal) x0 x1 x2 x5 x6) (val_main_v88 (F := Ideal) x17) (val_main_v90 (F := Ideal) x18) (val_main_v116 (F := Ideal) x13) (val_main_v119 (F := Ideal) x14) (val_main_v125 (F := Ideal) x15) (val_main_v129 (F := Ideal) x16) b s
  have e1 : Towers.vec (val_main_v88 (F := Ideal) x17) = Towers.rowOf x17 0 := funext fun c => sliceRow0_apply x17 c
  have e2 : Towers.vec (val_main_v90 (F := Ideal) x18) = Towers.rowOf x18 0 := funext fun c => sliceRow0_apply x18 c
  have e3 : matOf2 (val_main_v116 (F := Ideal) x13) = Towers.matOf x13 0 := funext fun k => funext fun c => sliceMat0_apply x13 k c
  have e4 : Towers.vec (val_main_v119 (F := Ideal) x14) = Towers.rowOf x14 0 := funext fun c => sliceRow0_apply x14 c
  have e5 : matOf2 (val_main_v125 (F := Ideal) x15) = Towers.matOf x15 0 := funext fun k => funext fun c => sliceMat0_apply x15 k c
  have e6 : Towers.vec (val_main_v129 (F := Ideal) x16) = Towers.rowOf x16 0 := funext fun c => sliceRow0_apply x16 c
  rw [e1, e2, e3, e4, e5, e6] at h
  exact h

/-- Row (b, s) of stage 179 is block 1 of the specification on row (b, s) of stage 86. -/
theorem row179 (x0 : FVec Ideal S16x2048x512 .f32) (x1 : FVec Ideal S4x512 .f32) (x2 : FVec Ideal S4x512 .f32) (x3 : FVec Ideal S2048x512 .f32) (x4 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (b : Fin 16) (s : Fin 2048) :
    rowOf3 (val_main_v179 (F := Ideal) x0 x1 x2 x3 x4 x7 x8 x9 x10 x11 x12) b s
      = Towers.block (Towers.rowOf x11 1) (Towers.rowOf x12 1) (Towers.matOf x7 1) (Towers.rowOf x8 1)
          (Towers.matOf x9 1) (Towers.rowOf x10 1) (rowOf3 (val_main_v86 (F := Ideal) x0 x1 x2 x3 x4 x7 x8 x9 x10 x11 x12) b s) := by
  have h := blockStage_apply (val_main_v86 (F := Ideal) x0 x1 x2 x3 x4 x7 x8 x9 x10 x11 x12) (val_main_v135 (F := Ideal) x11) (val_main_v137 (F := Ideal) x12) (val_main_v163 (F := Ideal) x7) (val_main_v166 (F := Ideal) x8) (val_main_v172 (F := Ideal) x9) (val_main_v176 (F := Ideal) x10) b s
  have e1 : Towers.vec (val_main_v135 (F := Ideal) x11) = Towers.rowOf x11 1 := funext fun c => sliceRow1_apply x11 c
  have e2 : Towers.vec (val_main_v137 (F := Ideal) x12) = Towers.rowOf x12 1 := funext fun c => sliceRow1_apply x12 c
  have e3 : matOf2 (val_main_v163 (F := Ideal) x7) = Towers.matOf x7 1 := funext fun k => funext fun c => sliceMat1_apply x7 k c
  have e4 : Towers.vec (val_main_v166 (F := Ideal) x8) = Towers.rowOf x8 1 := funext fun c => sliceRow1_apply x8 c
  have e5 : matOf2 (val_main_v172 (F := Ideal) x9) = Towers.matOf x9 1 := funext fun k => funext fun c => sliceMat1_apply x9 k c
  have e6 : Towers.vec (val_main_v176 (F := Ideal) x10) = Towers.rowOf x10 1 := funext fun c => sliceRow1_apply x10 c
  rw [e1, e2, e3, e4, e5, e6] at h
  exact h

/-- Row (b, s) of stage 225 is block 1 of the specification on row (b, s) of stage 132. -/
theorem row225 (x0 : FVec Ideal S16x2048x512 .f32) (x1 : FVec Ideal S4x512 .f32) (x2 : FVec Ideal S4x512 .f32) (x5 : FVec Ideal S2048x512 .f32) (x6 : FVec Ideal S512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) (b : Fin 16) (s : Fin 2048) :
    rowOf3 (val_main_v225 (F := Ideal) x0 x1 x2 x5 x6 x13 x14 x15 x16 x17 x18) b s
      = Towers.block (Towers.rowOf x17 1) (Towers.rowOf x18 1) (Towers.matOf x13 1) (Towers.rowOf x14 1)
          (Towers.matOf x15 1) (Towers.rowOf x16 1) (rowOf3 (val_main_v132 (F := Ideal) x0 x1 x2 x5 x6 x13 x14 x15 x16 x17 x18) b s) := by
  have h := blockStage_apply (val_main_v132 (F := Ideal) x0 x1 x2 x5 x6 x13 x14 x15 x16 x17 x18) (val_main_v181 (F := Ideal) x17) (val_main_v183 (F := Ideal) x18) (val_main_v209 (F := Ideal) x13) (val_main_v212 (F := Ideal) x14) (val_main_v218 (F := Ideal) x15) (val_main_v222 (F := Ideal) x16) b s
  have e1 : Towers.vec (val_main_v181 (F := Ideal) x17) = Towers.rowOf x17 1 := funext fun c => sliceRow1_apply x17 c
  have e2 : Towers.vec (val_main_v183 (F := Ideal) x18) = Towers.rowOf x18 1 := funext fun c => sliceRow1_apply x18 c
  have e3 : matOf2 (val_main_v209 (F := Ideal) x13) = Towers.matOf x13 1 := funext fun k => funext fun c => sliceMat1_apply x13 k c
  have e4 : Towers.vec (val_main_v212 (F := Ideal) x14) = Towers.rowOf x14 1 := funext fun c => sliceRow1_apply x14 c
  have e5 : matOf2 (val_main_v218 (F := Ideal) x15) = Towers.matOf x15 1 := funext fun k => funext fun c => sliceMat1_apply x15 k c
  have e6 : Towers.vec (val_main_v222 (F := Ideal) x16) = Towers.rowOf x16 1 := funext fun c => sliceRow1_apply x16 c
  rw [e1, e2, e3, e4, e5, e6] at h
  exact h

/-! ## The two results -/

/-- After block 0, both towers side by side. -/
theorem joined133 (x0 : FVec Ideal S16x2048x512 .f32) (x1 : FVec Ideal S4x512 .f32) (x2 : FVec Ideal S4x512 .f32) (x3 : FVec Ideal S2048x512 .f32) (x4 : FVec Ideal S512 .f32) (x5 : FVec Ideal S2048x512 .f32) (x6 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) (b : Fin 16) (s : Fin 2048) (col : Fin 1024) :
    val_main_v133 (F := Ideal) x0 x1 x2 x3 x4 x5 x6 x7 x8 x9 x10 x11 x12 x13 x14 x15 x16 x17 x18 (ix3 b s col)
      = Towers.outRow (mkParams x3 x4 x7 x8 x9 x10 x11 x12) (mkParams x5 x6 x13 x14 x15 x16 x17 x18) (Towers.rowAt (padded x0 x1 x2) b s) 0 col := by
  unfold val_main_v133
  rw [sideBySide_apply]
  show (if h : col.val < 512 then rowOf3 (val_main_v86 (F := Ideal) x0 x1 x2 x3 x4 x7 x8 x9 x10 x11 x12) b s ⟨col.val, h⟩
      else rowOf3 (val_main_v132 (F := Ideal) x0 x1 x2 x5 x6 x13 x14 x15 x16 x17 x18) b s ⟨col.val - 512, by omega⟩) = _
  rw [row86, row132, row35, row40]
  rfl

/-- After block 1, both towers side by side. -/
theorem joined226 (x0 : FVec Ideal S16x2048x512 .f32) (x1 : FVec Ideal S4x512 .f32) (x2 : FVec Ideal S4x512 .f32) (x3 : FVec Ideal S2048x512 .f32) (x4 : FVec Ideal S512 .f32) (x5 : FVec Ideal S2048x512 .f32) (x6 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) (b : Fin 16) (s : Fin 2048) (col : Fin 1024) :
    val_main_v226 (F := Ideal) x0 x1 x2 x3 x4 x5 x6 x7 x8 x9 x10 x11 x12 x13 x14 x15 x16 x17 x18 (ix3 b s col)
      = Towers.outRow (mkParams x3 x4 x7 x8 x9 x10 x11 x12) (mkParams x5 x6 x13 x14 x15 x16 x17 x18) (Towers.rowAt (padded x0 x1 x2) b s) 1 col := by
  unfold val_main_v226
  rw [sideBySide_apply]
  show (if h : col.val < 512 then rowOf3 (val_main_v179 (F := Ideal) x0 x1 x2 x3 x4 x7 x8 x9 x10 x11 x12) b s ⟨col.val, h⟩
      else rowOf3 (val_main_v225 (F := Ideal) x0 x1 x2 x5 x6 x13 x14 x15 x16 x17 x18) b s ⟨col.val - 512, by omega⟩) = _
  rw [row179, row225, row86, row132, row35, row40]
  rfl

/-- The second result is the specification's last layer. -/
theorem lastLayer_eq (x0 : FVec Ideal S16x2048x512 .f32) (x1 : FVec Ideal S4x512 .f32) (x2 : FVec Ideal S4x512 .f32) (x3 : FVec Ideal S2048x512 .f32) (x4 : FVec Ideal S512 .f32) (x5 : FVec Ideal S2048x512 .f32) (x6 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) :
    val_main_v226 (F := Ideal) x0 x1 x2 x3 x4 x5 x6 x7 x8 x9 x10 x11 x12 x13 x14 x15 x16 x17 x18 = Towers.lastLayer (padded x0 x1 x2) (mkParams x3 x4 x7 x8 x9 x10 x11 x12) (mkParams x5 x6 x13 x14 x15 x16 x17 x18) := by
  funext i
  obtain ⟨b, s, col, rfl⟩ : ∃ (b : Fin 16) (s : Fin 2048) (col : Fin 1024), i = ix3 b s col := ⟨i 0, i 1, i 2, eq_ix3 i⟩
  rw [Towers.lastLayer_apply]
  exact joined226 x0 x1 x2 x3 x4 x5 x6 x7 x8 x9 x10 x11 x12 x13 x14 x15 x16 x17 x18 b s col

/-- The first result is the specification's stack of both layers. -/
theorem allLayers_eq (x0 : FVec Ideal S16x2048x512 .f32) (x1 : FVec Ideal S4x512 .f32) (x2 : FVec Ideal S4x512 .f32) (x3 : FVec Ideal S2048x512 .f32) (x4 : FVec Ideal S512 .f32) (x5 : FVec Ideal S2048x512 .f32) (x6 : FVec Ideal S512 .f32) (x7 : FVec Ideal S2x512x512 .f32) (x8 : FVec Ideal S2x512 .f32) (x9 : FVec Ideal S2x512x512 .f32) (x10 : FVec Ideal S2x512 .f32) (x11 : FVec Ideal S2x512 .f32) (x12 : FVec Ideal S2x512 .f32) (x13 : FVec Ideal S2x512x512 .f32) (x14 : FVec Ideal S2x512 .f32) (x15 : FVec Ideal S2x512x512 .f32) (x16 : FVec Ideal S2x512 .f32) (x17 : FVec Ideal S2x512 .f32) (x18 : FVec Ideal S2x512 .f32) :
    val_main_v230 (F := Ideal) x0 x1 x2 x3 x4 x5 x6 x7 x8 x9 x10 x11 x12 x13 x14 x15 x16 x17 x18 = Towers.allLayers (padded x0 x1 x2) (mkParams x3 x4 x7 x8 x9 x10 x11 x12) (mkParams x5 x6 x13 x14 x15 x16 x17 x18) := by
  funext i
  obtain ⟨l, s, b, col, rfl⟩ : ∃ (l : Fin 2) (s : Fin 2048) (b : Fin 16) (col : Fin 1024), i = ix4 l s b col :=
    ⟨i 0, i 1, i 2, i 3, eq_ix4 i⟩
  rw [Towers.allLayers_apply]
  revert l
  refine Fin.forall_fin_two.2 ⟨?_, ?_⟩
  · unfold val_main_v230 val_main_v229 val_main_v227 val_main_v228
    rw [stacked0_apply]
    exact joined133 x0 x1 x2 x3 x4 x5 x6 x7 x8 x9 x10 x11 x12 x13 x14 x15 x16 x17 x18 b s col
  · unfold val_main_v230 val_main_v229 val_main_v227 val_main_v228
    rw [stacked1_apply]
    exact joined226 x0 x1 x2 x3 x4 x5 x6 x7 x8 x9 x10 x11 x12 x13 x14 x15 x16 x17 x18 b s col

end Cert.ReferenceIdeal.RefValue

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibSingleAssignmentNary.lean ====
/-
  SINGLE ASSIGNMENT, the operation over a family of operands (a concatenation): in a straight line in which every
  buffer is written once and nothing is read before it is written, the result buffer of an operation over the
  operands `xs 0, …, xs (k-1)` holds, at the end, the operation's function of the FINAL contents of those operands —
  none of them is written again, and neither is the result. Same shape as the one-, two- and three-operand statements
  it sits beside; the side conditions are memberships in literal lists of references. Program-free.
-/
import proofs.«134143_j43731357007884_2_alg».proof.Proof.LibSingleAssignment

namespace Cert.Lib.SingleAssignment

open Idealize.ShloMosaic Idealize.ShloMosaic.StableHlo

variable {τ : Topo} {sig : RefSig} {Val : EltTy → Type}

section Read

variable {l t : List (HloOp τ sig Val)} {Wl Wt : List (Ref sig .tc)}

/-- An operation over a family of operands: its buffer holds its function of the operands' final contents. -/
theorem read_nary (hl : Writes l Wl) (ht : Writes t Wt) (n : Nat) {k : Nat} {xs : Fin k → Ref sig .tc} {y : Ref sig .tc}
    {f : ((i : Fin k) → (xs i).ty.Contents Val) → y.ty.Contents Val} {hxs hy}
    (hop : l[n]? = some (nary (τ := τ) xs y f hxs hy)) (nxs : ∀ i, xs i ∉ Wl.drop n ++ Wt)
    (ny : y ∉ Wl.drop (n + 1) ++ Wt) (U : Valuation τ sig Val) :
    after t (after l U) (Proc.devRef .tc y) = f (fun i => after t (after l U) (Proc.devRef .tc (xs i))) := by
  rw [final_of_at hl ht n hop ny, nary_result]
  refine congrArg f ?_
  funext i
  exact (final_of_before hl ht n (nxs i) U).symm

end Read

/-- The whole line read at its end: nothing follows it. -/
theorem Writes.nil : Writes ([] : List (HloOp τ sig Val)) [] := List.Forall₂.nil

end Cert.Lib.SingleAssignment
-- ==== Proof.RefLine.lean ====
/-
  The reference's run, one operation at a time.  Its @main is a straight line of 268 host operations in which every
  buffer is written once and read only afterwards, so at the end every buffer holds its own operation's function of
  what its operands hold at the end.  Going down the line, each buffer therefore holds the stage that names its
  value as a function of the arguments (the stages compose the same functions in the same order), and the nineteen
  arguments, written by no operation, hold what they held.
-/
import proofs.«134143_j43731357007884_2_alg».proof.Proof.RefProgram
import proofs.«134143_j43731357007884_2_alg».proof.Proof.RefStagesP
import proofs.«134143_j43731357007884_2_alg».proof.Proof.LibSingleAssignment
import proofs.«134143_j43731357007884_2_alg».proof.Proof.LibSingleAssignmentNary

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.Lib.SingleAssignment

variable {F : FTy → Type} [FloatOps F]

/-- The buffers the 268 operations write, in order. -/
abbrev W : List (Ref sig .tc) :=
  [main_v0, main_v1, main_v2, main_v3, main_v4, main_v5, main_v6, main_v7, main_v8, main_v9, main_c, main_v10, main_v11, main_c_0, main_v12, main_v13, main_v14, main_v15, main_v16, main_v17, main_c_1, main_v18, main_v19, main_v20, main_v21, main_v22, main_c_2, main_v23, main_v24, main_c_3, main_v25, main_v26, main_v27, main_v28, main_v29, main_v30, main_v31, main_v32, main_v33, main_v34, main_call0_cst, main_call0_v0, main_v35, main_v36, main_v37, main_v38, main_v39, main_call1_cst, main_call1_v0, main_v40, main_v41, main_v42, main_v43, main_v44, main_cst, main_v45, main_v46, main_cst_4, main_v47, main_v48, main_v49, main_v50, main_v51, main_cst_5, main_v52, main_v53, main_cst_6, main_v54, main_v55, main_v56, main_v57, main_v58, main_v59, main_v60, main_cst_7, main_v61, main_v62, main_v63, main_v64, main_v65, main_v66, main_v67, main_v68, main_v69, main_v70, main_v71, main_v72, main_v73, main_v74, main_v75, main_v76, main_call2_cst, main_call2_v0, main_v77, main_v78, main_v79, main_v80, main_v81, main_v82, main_v83, main_v84, main_v85, main_v86, main_v87, main_v88, main_v89, main_v90, main_cst_8, main_v91, main_v92, main_cst_9, main_v93, main_v94, main_v95, main_v96, main_v97, main_cst_10, main_v98, main_v99, main_cst_11, main_v100, main_v101, main_v102, main_v103, main_v104, main_v105, main_v106, main_cst_12, main_v107, main_v108, main_v109, main_v110, main_v111, main_v112, main_v113, main_v114, main_v115, main_v116, main_v117, main_v118, main_v119, main_v120, main_v121, main_v122, main_call3_cst, main_call3_v0, main_v123, main_v124, main_v125, main_v126, main_v127, main_v128, main_v129, main_v130, main_v131, main_v132, main_v133, main_v134, main_v135, main_v136, main_v137, main_cst_13, main_v138, main_v139, main_cst_14, main_v140, main_v141, main_v142, main_v143, main_v144, main_cst_15, main_v145, main_v146, main_cst_16, main_v147, main_v148, main_v149, main_v150, main_v151, main_v152, main_v153, main_cst_17, main_v154, main_v155, main_v156, main_v157, main_v158, main_v159, main_v160, main_v161, main_v162, main_v163, main_v164, main_v165, main_v166, main_v167, main_v168, main_v169, main_call4_cst, main_call4_v0, main_v170, main_v171, main_v172, main_v173, main_v174, main_v175, main_v176, main_v177, main_v178, main_v179, main_v180, main_v181, main_v182, main_v183, main_cst_18, main_v184, main_v185, main_cst_19, main_v186, main_v187, main_v188, main_v189, main_v190, main_cst_20, main_v191, main_v192, main_cst_21, main_v193, main_v194, main_v195, main_v196, main_v197, main_v198, main_v199, main_cst_22, main_v200, main_v201, main_v202, main_v203, main_v204, main_v205, main_v206, main_v207, main_v208, main_v209, main_v210, main_v211, main_v212, main_v213, main_v214, main_v215, main_call5_cst, main_call5_v0, main_v216, main_v217, main_v218, main_v219, main_v220, main_v221, main_v222, main_v223, main_v224, main_v225, main_v226, main_v227, main_v228, main_v229, main_v230]

set_option maxHeartbeats 4000000 in
/-- Operation k writes exactly buffer k. -/
theorem hW : Writes (ops (F := F)) W :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

theorem kept_main_arg0 (U : Valuation τ sig (Elt F)) :
    after ([] : List (HloOp τ sig (Elt F))) (after (ops (F := F)) U) (Proc.devRef .tc main_arg0) = U (Proc.devRef .tc main_arg0) :=
  after_of_not_mem hW (by decide +kernel) U
theorem kept_main_arg1 (U : Valuation τ sig (Elt F)) :
    after ([] : List (HloOp τ sig (Elt F))) (after (ops (F := F)) U) (Proc.devRef .tc main_arg1) = U (Proc.devRef .tc main_arg1) :=
  after_of_not_mem hW (by decide +kernel) U
theorem kept_main_arg2 (U : Valuation τ sig (Elt F)) :
    after ([] : List (HloOp τ sig (Elt F))) (after (ops (F := F)) U) (Proc.devRef .tc main_arg2) = U (Proc.devRef .tc main_arg2) :=
  after_of_not_mem hW (by decide +kernel) U
theorem kept_main_arg3 (U : Valuation τ sig (Elt F)) :
    after ([] : List (HloOp τ sig (Elt F))) (after (ops (F := F)) U) (Proc.devRef .tc main_arg3) = U (Proc.devRef .tc main_arg3) :=
  after_of_not_mem hW (by decide +kernel) U
theorem kept_main_arg4 (U : Valuation τ sig (Elt F)) :
    after ([] : List (HloOp τ sig (Elt F))) (after (ops (F := F)) U) (Proc.devRef .tc main_arg4) = U (Proc.devRef .tc main_arg4) :=
  after_of_not_mem hW (by decide +kernel) U
theorem kept_main_arg5 (U : Valuation τ sig (Elt F)) :
    after ([] : List (HloOp τ sig (Elt F))) (after (ops (F := F)) U) (Proc.devRef .tc main_arg5) = U (Proc.devRef .tc main_arg5) :=
  after_of_not_mem hW (by decide +kernel) U
theorem kept_main_arg6 (U : Valuation τ sig (Elt F)) :
    after ([] : List (HloOp τ sig (Elt F))) (after (ops (F := F)) U) (Proc.devRef .tc main_arg6) = U (Proc.devRef .tc main_arg6) :=
  after_of_not_mem hW (by decide +kernel) U
theorem kept_main_arg7 (U : Valuation τ sig (Elt F)) :
    after ([] : List (HloOp τ sig (Elt F))) (after (ops (F := F)) U) (Proc.devRef .tc main_arg7) = U (Proc.devRef .tc main_arg7) :=
  after_of_not_mem hW (by decide +kernel) U
theorem kept_main_arg8 (U : Valuation τ sig (Elt F)) :
    after ([] : List (HloOp τ sig (Elt F))) (after (ops (F := F)) U) (Proc.devRef .tc main_arg8) = U (Proc.devRef .tc main_arg8) :=
  after_of_not_mem hW (by decide +kernel) U
theorem kept_main_arg9 (U : Valuation τ sig (Elt F)) :
    after ([] : List (HloOp τ sig (Elt F))) (after (ops (F := F)) U) (Proc.devRef .tc main_arg9) = U (Proc.devRef .tc main_arg9) :=
  after_of_not_mem hW (by decide +kernel) U
theorem kept_main_arg10 (U : Valuation τ sig (Elt F)) :
    after ([] : List (HloOp τ sig (Elt F))) (after (ops (F := F)) U) (Proc.devRef .tc main_arg10) = U (Proc.devRef .tc main_arg10) :=
  after_of_not_mem hW (by decide +kernel) U
theorem kept_main_arg11 (U : Valuation τ sig (Elt F)) :
    after ([] : List (HloOp τ sig (Elt F))) (after (ops (F := F)) U) (Proc.devRef .tc main_arg11) = U (Proc.devRef .tc main_arg11) :=
  after_of_not_mem hW (by decide +kernel) U
theorem kept_main_arg12 (U : Valuation τ sig (Elt F)) :
    after ([] : List (HloOp τ sig (Elt F))) (after (ops (F := F)) U) (Proc.devRef .tc main_arg12) = U (Proc.devRef .tc main_arg12) :=
  after_of_not_mem hW (by decide +kernel) U
theorem kept_main_arg13 (U : Valuation τ sig (Elt F)) :
    after ([] : List (HloOp τ sig (Elt F))) (after (ops (F := F)) U) (Proc.devRef .tc main_arg13) = U (Proc.devRef .tc main_arg13) :=
  after_of_not_mem hW (by decide +kernel) U
theorem kept_main_arg14 (U : Valuation τ sig (Elt F)) :
    after ([] : List (HloOp τ sig (Elt F))) (after (ops (F := F)) U) (Proc.devRef .tc main_arg14) = U (Proc.devRef .tc main_arg14) :=
  after_of_not_mem hW (by decide +kernel) U
theorem kept_main_arg15 (U : Valuation τ sig (Elt F)) :
    after ([] : List (HloOp τ sig (Elt F))) (after (ops (F := F)) U) (Proc.devRef .tc main_arg15) = U (Proc.devRef .tc main_arg15) :=
  after_of_not_mem hW (by decide +kernel) U
theorem kept_main_arg16 (U : Valuation τ sig (Elt F)) :
    after ([] : List (HloOp τ sig (Elt F))) (after (ops (F := F)) U) (Proc.devRef .tc main_arg16) = U (Proc.devRef .tc main_arg16) :=
  after_of_not_mem hW (by decide +kernel) U
theorem kept_main_arg17 (U : Valuation τ sig (Elt F)) :
    after ([] : List (HloOp τ sig (Elt F))) (after (ops (F := F)) U) (Proc.devRef .tc main_arg17) = U (Proc.devRef .tc main_arg17) :=
  after_of_not_mem hW (by decide +kernel) U
theorem kept_main_arg18 (U : Valuation τ sig (Elt F)) :
    after ([] : List (HloOp τ sig (Elt F))) (after (ops (F := F)) U) (Proc.devRef .tc main_arg18) = U (Proc.devRef .tc main_arg18) :=
  after_of_not_mem hW (by decide +kernel) U

theorem s_main_v0 (U : Valuation τ sig (Elt F)) :
    after ([] : List (HloOp τ sig (Elt F))) (after (ops (F := F)) U) (Proc.devRef .tc main_v0) = val_main_v0 (F := F) (U (Proc.devRef .tc main_arg1)) := by
  rw [read_unary hW Writes.nil 0 (x := main_arg1) (y := main_v0) rfl (by decide +kernel) (by decide +kernel)]
  rw [kept_main_arg1 U]
  rfl
theorem s_main_v1 (U : Valuation τ sig (Elt F)) :
    after ([] : List (HloOp τ sig (Elt F))) (after (ops (F := F)) U) (Proc.devRef .tc main_v1) = val_main_v1 (F := F) (U (Proc.devRef .tc main_arg2)) := by
  rw [read_unary hW Writes.nil 1 (x := main_arg2) (y := main_v1) rfl (by decide +kernel) (by decide +kernel)]
  rw [kept_main_arg2 U]
  rfl
theorem s_main_v2 (U : Valuation τ sig (Elt F)) :
    after ([] : List (HloOp τ sig (Elt F))) (after (ops (F := F)) U) (Proc.devRef .tc main_v2) = val_main_v2 (F := F) (U (Proc.devRef .tc main_arg0)) (U (Proc.devRef .tc main_arg1)) (U (Proc.devRef .tc main_arg2)) := by
  rw [read_nary hW Writes.nil 2 (y := main_v2) rfl (by decide +kernel) (by decide +kernel)]
  show concatenate S16x2056x512 1 [⟨S16x4x512, after ([] : List (HloOp τ sig (Elt F))) (after (ops (F := F)) U) (Proc.devRef .tc main_v0)⟩, ⟨S16x2048x512, after ([] : List (HloOp τ sig (Elt F))) (after (ops (F := F)) U) (Proc.devRef .tc main_arg0)⟩, ⟨S16x4x512, after ([] : List (HloOp τ sig (Elt F))) (after (ops (F := F)) U) (Proc.devRef .tc main_v1)⟩] concatenates_S16x4x512_S16x2048x512_S16x4x512_S16x2056x512_d1 = _
  rw [s_main_v0 U, kept_main_arg0 U, s_main_v1 U]
  rfl
theorem s_main_v3 (U : Valuation τ sig (Elt F)) :
    after ([] : List (HloOp τ sig (Elt F))) (after (ops (F := F)) U) (Proc.devRef .tc main_v3) = val_main_v3 (F := F) := by
  rw [read_nullary hW Writes.nil 3 (y := main_v3) rfl (by decide +kernel)]
  rfl
theorem s_main_v4 (U : Valuation τ sig (Elt F)) :
    after ([] : List (HloOp τ sig (Elt F))) (after (ops (F := F)) U) (Proc.devRef .tc main_v4) = val_main_v4 (F := F) := by
  rw [read_unary hW Writes.nil 4 (x := main_v3) (y := main_v4) rfl (by decide +kernel) (by decide +kernel)]
  rw [s_main_v3 U]
  rfl
theorem s_main_v5 (U : Valuation τ sig (Elt F)) :
    after ([] : List (HloOp τ sig (Elt F))) (after (ops (F := F)) U) (Proc.devRef .tc main_v5) = val_main_v5 (F := F) := by
  rw [read_nullary hW Writes.nil 5 (y := main_v5) rfl (by decide +kernel)]
  rfl
theorem s_main_v6 (U : Valuation τ sig (Elt F)) :
    after ([] : List (HloOp τ sig (Elt F))) (after (ops (F := F)) U) (Proc.devRef .tc main_v6) = val_main_v6 (F := F) := by
  rw [read_unary hW Writes.nil 6 (x := main_v5) (y := main_v6) rfl (by decide +kernel) (by decide +kernel)]
  rw [s_main_v5 U]
  rfl
theorem s_main_v7 (U : Valuation τ sig (Elt F)) :
    after ([] : List (HloOp τ sig (Elt F))) (after (ops (F := F)) U) (Proc.devRef .tc main_v7) = val_main_v7 (F := F) := by
  rw [read_unary hW Writes.nil 7 (x := main_v4) (y := main_v7) rfl (by decide +kernel) (by decide +kernel)]
  rw [s_main_v4 U]
  rfl
theorem s_main_v8 (U : Valuation τ sig (Elt F)) :
    after ([] : List (HloOp τ sig (Elt F))) (after (ops (F := F)) U) (Proc.devRef .tc main_v8) = val_main_v8 (F := F) := by
  rw [read_unary hW Writes.nil 8 (x := main_v6) (y := main_v8) rfl (by decide +kernel) (by decide +kernel)]
  rw [s_main_v6 U]
  rfl
theorem s_main_v9 (U : Valuation τ sig (Elt F)) :
    after ([] : List (HloOp τ sig (Elt F))) (after (ops (F := F)) U) (Proc.devRef .tc main_v9) = val_main_v9 (F := F) := by
  rw [read_binary hW Writes.nil 9 (a := main_v7) (b := main_v8) (y := main_v9) rfl (by decide +kernel) (by decide +kernel) (by decide +kernel)]
  rw [s_main_v7 U, s_main_v8 U]
  rfl
theorem s_main_c (U : Valuation τ sig (Elt F)) :
    after ([] : List (HloOp τ sig (Elt F))) (after (ops (F := F)) U) (Proc.devRef .tc main_c) = val_main_c (F := F) := by
  rw [read_nullary hW Writes.nil 10 (y := main_c) rfl (by decide +kernel)]
  rfl
theorem s_main_v10 (U : Valuation τ sig (Elt F)) :
    after ([] : List (HloOp τ sig (Elt F))) (after (ops (F := F)) U) (Proc.devRef .tc main_v10) = val_main_v10 (F := F) := by
  rw [read_unary hW Writes.nil 11 (x := main_c) (y := main_v10) rfl (by decide +kernel) (by decide +kernel)]
  rw [s_main_c U]
  rfl
theorem s_main_v11 (U : Valuation τ sig (Elt F)) :
    after ([] : List (HloOp τ sig (Elt F))) (after (ops (F := F)) U) (Proc.devRef .tc main_v11) = val_main_v11 (F := F) := by
  rw [read_binary hW Writes.nil 12 (a := main_v9) (b := main_v10) (y := main_v11) rfl (by decide +kernel) (by decide +kernel) (by decide +kernel)]
  rw [s_main_v9 U, s_main_v10 U]
  rfl
theorem s_main_c_0 (U : Valuation τ sig (Elt F)) :
    after ([] : List (HloOp τ sig (Elt F))) (after (ops (F := F)) U) (Proc.devRef .tc main_c_0) = val_main_c_0 (F := F) := by
  rw [read_nullary hW Writes.nil 13 (y := main_c_0) rfl (by decide +kernel)]
  rfl
theorem s_main_v12 (U : Valuation τ sig (Elt F)) :
    after ([] : List (HloOp τ sig (Elt F))) (after (ops (F := F)) U) (Proc.devRef .tc main_v12) = val_main_v12 (F := F) := by
  rw [read_unary hW Writes.nil 14 (x := main_c_0) (y := main_v12) rfl (by decide +kernel) (by decide +kernel)]
  rw [s_main_c_0 U]
  rfl
theorem s_main_v13 (U : Valuation τ sig (Elt F)) :
    after ([] : List (HloOp τ sig (Elt F))) (after (ops (F := F)) U) (Proc.devRef .tc main_v13) = val_main_v13 (F := F) := by
  rw [read_binary hW Writes.nil 15 (a := main_v9) (b := main_v12) (y := main_v13) rfl (by decide +kernel) (by decide +kernel) (by decide +kernel)]
  rw [s_main_v9 U, s_main_v12 U]
  rfl
theorem s_main_v14 (U : Valuation τ sig (Elt F)) :
    after ([] : List (HloOp τ sig (Elt F))) (after (ops (F := F)) U) (Proc.devRef .tc main_v14) = val_main_v14 (F := F) := by
  rw [read_ternary hW Writes.nil 16 (c := main_v11) (a := main_v13) (b := main_v9) (y := main_v14) rfl (by decide +kernel) (by decide +kernel) (by decide +kernel) (by decide +kernel)]
  rw [s_main_v11 U, s_main_v13 U, s_main_v9 U]
  rfl
theorem s_main_v15 (U : Valuation τ sig (Elt F)) :
    after ([] : List (HloOp τ sig (Elt F))) (after (ops (F := F)) U) (Proc.devRef .tc main_v15) = val_main_v15 (F := F) := by
  rw [read_unary hW Writes.nil 17 (x := main_v14) (y := main_v15) rfl (by decide +kernel) (by decide +kernel)]
  rw [s_main_v14 U]
  rfl
theorem s_main_v16 (U : Valuation τ sig (Elt F)) :
    after ([] : List (HloOp τ sig (Elt F))) (after (ops (F := F)) U) (Proc.devRef .tc main_v16) = val_main_v16 (F := F) (U (Proc.devRef .tc main_arg0)) (U (Proc.devRef .tc main_arg1)) (U (Proc.devRef .tc main_arg2)) := by
  rw [read_binary hW Writes.nil 18 (a := main_v2) (b := main_v15) (y := main_v16) rfl (by decide +kernel) (by decide +kernel) (by decide +kernel)]
  rw [s_main_v2 U, s_main_v15 U]
  rfl
theorem s_main_v17 (U : Valuation τ sig (Elt F)) :
    after ([] : List (HloOp τ sig (Elt F))) (after (ops (F := F)) U) (Proc.devRef .tc main_v17) = val_main_v17 (F := F) (U (Proc.devRef .tc main_arg0)) (U (Proc.devRef .tc main_arg1)) (U (Proc.devRef .tc main_arg2)) := by
  rw [read_reshape hW Writes.nil 19 (x := main_v16) (y := main_v17) rfl (by decide +kernel) (by decide +kernel)]
  rw [s_main_v16 U]
  rfl
theorem s_main_c_1 (U : Valuation τ sig (Elt F)) :
    after ([] : List (HloOp τ sig (Elt F))) (after (ops (F := F)) U) (Proc.devRef .tc main_c_1) = val_main_c_1 (F := F) := by
  rw [read_nullary hW Writes.nil 20 (y := main_c_1) rfl (by decide +kernel)]
  rfl
theorem s_main_v18 (U : Valuation τ sig (Elt F)) :
    after ([] : List (HloOp τ sig (Elt F))) (after (ops (F := F)) U) (Proc.devRef .tc main_v18) = val_main_v18 (F := F) := by
  rw [read_unary hW Writes.nil 21 (x := main_c_1) (y := main_v18) rfl (by decide +kernel) (by decide +kernel)]
  rw [s_main_c_1 U]
  rfl
theorem s_main_v19 (U : Valuation τ sig (Elt F)) :
    after ([] : List (HloOp τ sig (Elt F))) (after (ops (F := F)) U) (Proc.devRef .tc main_v19) = val_main_v19 (F := F) := by
  rw [read_binary hW Writes.nil 22 (a := main_v4) (b := main_v18) (y := main_v19) rfl (by decide +kernel) (by decide +kernel) (by decide +kernel)]
  rw [s_main_v4 U, s_main_v18 U]
  rfl
theorem s_main_v20 (U : Valuation τ sig (Elt F)) :
    after ([] : List (HloOp τ sig (Elt F))) (after (ops (F := F)) U) (Proc.devRef .tc main_v20) = val_main_v20 (F := F) := by
  rw [read_unary hW Writes.nil 23 (x := main_v19) (y := main_v20) rfl (by decide +kernel) (by decide +kernel)]
  rw [s_main_v19 U]
  rfl
theorem s_main_v21 (U : Valuation τ sig (Elt F)) :
    after ([] : List (HloOp τ sig (Elt F))) (after (ops (F := F)) U) (Proc.devRef .tc main_v21) = val_main_v21 (F := F) := by
  rw [read_unary hW Writes.nil 24 (x := main_v6) (y := main_v21) rfl (by decide +kernel) (by decide +kernel)]
  rw [s_main_v6 U]
  rfl
theorem s_main_v22 (U : Valuation τ sig (Elt F)) :
    after ([] : List (HloOp τ sig (Elt F))) (after (ops (F := F)) U) (Proc.devRef .tc main_v22) = val_main_v22 (F := F) := by
  rw [read_binary hW Writes.nil 25 (a := main_v20) (b := main_v21) (y := main_v22) rfl (by decide +kernel) (by decide +kernel) (by decide +kernel)]
  rw [s_main_v20 U, s_main_v21 U]
  rfl
theorem s_main_c_2 (U : Valuation τ sig (Elt F)) :
    after ([] : List (HloOp τ sig (Elt F))) (after (ops (F := F)) U) (Proc.devRef .tc main_c_2) = val_main_c_2 (F := F) := by
  rw [read_nullary hW Writes.nil 26 (y := main_c_2) rfl (by decide +kernel)]
  rfl
theorem s_main_v23 (U : Valuation τ sig (Elt F)) :
    after ([] : List (HloOp τ sig (Elt F))) (after (ops (F := F)) U) (Proc.devRef .tc main_v23) = val_main_v23 (F := F) := by
  rw [read_unary hW Writes.nil 27 (x := main_c_2) (y := main_v23) rfl (by decide +kernel) (by decide +kernel)]
  rw [s_main_c_2 U]
  rfl
theorem s_main_v24 (U : Valuation τ sig (Elt F)) :
    after ([] : List (HloOp τ sig (Elt F))) (after (ops (F := F)) U) (Proc.devRef .tc main_v24) = val_main_v24 (F := F) := by
  rw [read_binary hW Writes.nil 28 (a := main_v22) (b := main_v23) (y := main_v24) rfl (by decide +kernel) (by decide +kernel) (by decide +kernel)]
  rw [s_main_v22 U, s_main_v23 U]
  rfl
theorem s_main_c_3 (U : Valuation τ sig (Elt F)) :
    after ([] : List (HloOp τ sig (Elt F))) (after (ops (F := F)) U) (Proc.devRef .tc main_c_3) = val_main_c_3 (F := F) := by
  rw [read_nullary hW Writes.nil 29 (y := main_c_3) rfl (by decide +kernel)]
  rfl
theorem s_main_v25 (U : Valuation τ sig (Elt F)) :
    after ([] : List (HloOp τ sig (Elt F))) (after (ops (F := F)) U) (Proc.devRef .tc main_v25) = val_main_v25 (F := F) := by
  rw [read_unary hW Writes.nil 30 (x := main_c_3) (y := main_v25) rfl (by decide +kernel) (by decide +kernel)]
  rw [s_main_c_3 U]
  rfl
theorem s_main_v26 (U : Valuation τ sig (Elt F)) :
    after ([] : List (HloOp τ sig (Elt F))) (after (ops (F := F)) U) (Proc.devRef .tc main_v26) = val_main_v26 (F := F) := by
  rw [read_binary hW Writes.nil 31 (a := main_v22) (b := main_v25) (y := main_v26) rfl (by decide +kernel) (by decide +kernel) (by decide +kernel)]
  rw [s_main_v22 U, s_main_v25 U]
  rfl
theorem s_main_v27 (U : Valuation τ sig (Elt F)) :
    after ([] : List (HloOp τ sig (Elt F))) (after (ops (F := F)) U) (Proc.devRef .tc main_v27) = val_main_v27 (F := F) := by
  rw [read_ternary hW Writes.nil 32 (c := main_v24) (a := main_v26) (b := main_v22) (y := main_v27) rfl (by decide +kernel) (by decide +kernel) (by decide +kernel) (by decide +kernel)]
  rw [s_main_v24 U, s_main_v26 U, s_main_v22 U]
  rfl
theorem s_main_v28 (U : Valuation τ sig (Elt F)) :
    after ([] : List (HloOp τ sig (Elt F))) (after (ops (F := F)) U) (Proc.devRef .tc main_v28) = val_main_v28 (F := F) := by
  rw [read_unary hW Writes.nil 33 (x := main_v27) (y := main_v28) rfl (by decide +kernel) (by decide +kernel)]
  rw [s_main_v27 U]
  rfl
theorem s_main_v29 (U : Valuation τ sig (Elt F)) :
    after ([] : List (HloOp τ sig (Elt F))) (after (ops (F := F)) U) (Proc.devRef .tc main_v29) = val_main_v29 (F := F) (U (Proc.devRef .tc main_arg0)) (U (Proc.devRef .tc main_arg1)) (U (Proc.devRef .tc main_arg2)) := by
  rw [read_binary hW Writes.nil 34 (a := main_v2) (b := main_v28) (y := main_v29) rfl (by decide +kernel) (by decide +kernel) (by decide +kernel)]
  rw [s_main_v2 U, s_main_v28 U]
  rfl
theorem s_main_v30 (U : Valuation τ sig (Elt F)) :
    after ([] : List (HloOp τ sig (Elt F))) (after (ops (F := F)) U) (Proc.devRef .tc main_v30) = val_main_v30 (F := F) (U (Proc.devRef .tc main_arg0)) (U (Proc.devRef .tc main_arg1)) (U (Proc.devRef .tc main_arg2)) := by
  rw [read_reshape hW Writes.nil 35 (x := main_v29) (y := main_v30) rfl (by decide +kernel) (by decide +kernel)]
  rw [s_main_v29 U]
  rfl
theorem s_main_v31 (U : Valuation τ sig (Elt F)) :
    after ([] : List (HloOp τ sig (Elt F))) (after (ops (F := F)) U) (Proc.devRef .tc main_v31) = val_main_v31 (F := F) (U (Proc.devRef .tc main_arg0)) (U (Proc.devRef .tc main_arg1)) (U (Proc.devRef .tc main_arg2)) (U (Proc.devRef .tc main_arg3)) := by
  rw [read_binary hW Writes.nil 36 (a := main_v17) (b := main_arg3) (y := main_v31) rfl (by decide +kernel) (by decide +kernel) (by decide +kernel)]
  rw [s_main_v17 U, kept_main_arg3 U]
  rfl
theorem s_main_v32 (U : Valuation τ sig (Elt F)) :
    after ([] : List (HloOp τ sig (Elt F))) (after (ops (F := F)) U) (Proc.devRef .tc main_v32) = val_main_v32 (F := F) (U (Proc.devRef .tc main_arg4)) := by
  rw [read_unary hW Writes.nil 37 (x := main_arg4) (y := main_v32) rfl (by decide +kernel) (by decide +kernel)]
  rw [kept_main_arg4 U]
  rfl
theorem s_main_v33 (U : Valuation τ sig (Elt F)) :
    after ([] : List (HloOp τ sig (Elt F))) (after (ops (F := F)) U) (Proc.devRef .tc main_v33) = val_main_v33 (F := F) (U (Proc.devRef .tc main_arg4)) := by
  rw [read_unary hW Writes.nil 38 (x := main_v32) (y := main_v33) rfl (by decide +kernel) (by decide +kernel)]
  rw [s_main_v32 U]
  rfl
theorem s_main_v34 (U : Valuation τ sig (Elt F)) :
    after ([] : List (HloOp τ sig (Elt F))) (after (ops (F := F)) U) (Proc.devRef .tc main_v34) = val_main_v34 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 39 (a := main_v31) (b := main_v33) (y := main_v34) rfl (by decide +kernel) (by decide +kernel) (by decide +kernel)]
  rw [s_main_v31 U, s_main_v33 U]
  rfl
theorem s_main_call0_cst (U : Valuation τ sig (Elt F)) :
    after ([] : List (HloOp τ sig (Elt F))) (after (ops (F := F)) U) (Proc.devRef .tc main_call0_cst) = val_main_call0_cst (F := F) := by
  rw [read_nullary hW Writes.nil 40 (y := main_call0_cst) rfl (by decide +kernel)]
  rfl
theorem s_main_call0_v0 (U : Valuation τ sig (Elt F)) :
    after ([] : List (HloOp τ sig (Elt F))) (after (ops (F := F)) U) (Proc.devRef .tc main_call0_v0) = val_main_call0_v0 (F := F) := by
  rw [read_unary hW Writes.nil 41 (x := main_call0_cst) (y := main_call0_v0) rfl (by decide +kernel) (by decide +kernel)]
  rw [s_main_call0_cst U]
  rfl
theorem s_main_v35 (U : Valuation τ sig (Elt F)) :
    after ([] : List (HloOp τ sig (Elt F))) (after (ops (F := F)) U) (Proc.devRef .tc main_v35) = val_main_v35 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 42 (a := main_v34) (b := main_call0_v0) (y := main_v35) rfl (by decide +kernel) (by decide +kernel) (by decide +kernel)]
  rw [s_main_v34 U, s_main_call0_v0 U]
  rfl
theorem s_main_v36 (U : Valuation τ sig (Elt F)) :
    after ([] : List (HloOp τ sig (Elt F))) (after (ops (F := F)) U) (Proc.devRef .tc main_v36) = val_main_v36 (F := F) (U (Proc.devRef .tc main_arg0)) (U (Proc.devRef .tc main_arg1)) (U (Proc.devRef .tc main_arg2)) (U (Proc.devRef .tc main_arg5)) := by
  rw [read_binary hW Writes.nil 43 (a := main_v30) (b := main_arg5) (y := main_v36) rfl (by decide +kernel) (by decide +kernel) (by decide +kernel)]
  rw [s_main_v30 U, kept_main_arg5 U]
  rfl
theorem s_main_v37 (U : Valuation τ sig (Elt F)) :
    after ([] : List (HloOp τ sig (Elt F))) (after (ops (F := F)) U) (Proc.devRef .tc main_v37) = val_main_v37 (F := F) (U (Proc.devRef .tc main_arg6)) := by
  rw [read_unary hW Writes.nil 44 (x := main_arg6) (y := main_v37) rfl (by decide +kernel) (by decide +kernel)]
  rw [kept_main_arg6 U]
  rfl
theorem s_main_v38 (U : Valuation τ sig (Elt F)) :
    after ([] : List (HloOp τ sig (Elt F))) (after (ops (F := F)) U) (Proc.devRef .tc main_v38) = val_main_v38 (F := F) (U (Proc.devRef .tc main_arg6)) := by
  rw [read_unary hW Writes.nil 45 (x := main_v37) (y := main_v38) rfl (by decide +kernel) (by decide +kernel)]
  rw [s_main_v37 U]
  rfl
theorem s_main_v39 (U : Valuation τ sig (Elt F)) :
    after ([] : List (HloOp τ sig (Elt F))) (after (ops (F := F)) U) (Proc.devRef .tc main_v39) = val_main_v39 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 46 (a := main_v36) (b := main_v38) (y := main_v39) rfl (by decide +kernel) (by decide +kernel) (by decide +kernel)]
  rw [s_main_v36 U, s_main_v38 U]
  rfl
theorem s_main_call1_cst (U : Valuation τ sig (Elt F)) :
    after ([] : List (HloOp τ sig (Elt F))) (after (ops (F := F)) U) (Proc.devRef .tc main_call1_cst) = val_main_call1_cst (F := F) := by
  rw [read_nullary hW Writes.nil 47 (y := main_call1_cst) rfl (by decide +kernel)]
  rfl
theorem s_main_call1_v0 (U : Valuation τ sig (Elt F)) :
    after ([] : List (HloOp τ sig (Elt F))) (after (ops (F := F)) U) (Proc.devRef .tc main_call1_v0) = val_main_call1_v0 (F := F) := by
  rw [read_unary hW Writes.nil 48 (x := main_call1_cst) (y := main_call1_v0) rfl (by decide +kernel) (by decide +kernel)]
  rw [s_main_call1_cst U]
  rfl
theorem s_main_v40 (U : Valuation τ sig (Elt F)) :
    after ([] : List (HloOp τ sig (Elt F))) (after (ops (F := F)) U) (Proc.devRef .tc main_v40) = val_main_v40 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 49 (a := main_v39) (b := main_call1_v0) (y := main_v40) rfl (by decide +kernel) (by decide +kernel) (by decide +kernel)]
  rw [s_main_v39 U, s_main_call1_v0 U]
  rfl
theorem s_main_v41 (U : Valuation τ sig (Elt F)) :
    after ([] : List (HloOp τ sig (Elt F))) (after (ops (F := F)) U) (Proc.devRef .tc main_v41) = val_main_v41 (F := F) (U (Proc.devRef .tc main_arg11)) := by
  rw [read_unary hW Writes.nil 50 (x := main_arg11) (y := main_v41) rfl (by decide +kernel) (by decide +kernel)]
  rw [kept_main_arg11 U]
  rfl
theorem s_main_v42 (U : Valuation τ sig (Elt F)) :
    after ([] : List (HloOp τ sig (Elt F))) (after (ops (F := F)) U) (Proc.devRef .tc main_v42) = val_main_v42 (F := F) (U (Proc.devRef .tc main_arg11)) := by
  rw [read_reshape hW Writes.nil 51 (x := main_v41) (y := main_v42) rfl (by decide +kernel) (by decide +kernel)]
  rw [s_main_v41 U]
  rfl
theorem s_main_v43 (U : Valuation τ sig (Elt F)) :
    after ([] : List (HloOp τ sig (Elt F))) (after (ops (F := F)) U) (Proc.devRef .tc main_v43) = val_main_v43 (F := F) (U (Proc.devRef .tc main_arg12)) := by
  rw [read_unary hW Writes.nil 52 (x := main_arg12) (y := main_v43) rfl (by decide +kernel) (by decide +kernel)]
  rw [kept_main_arg12 U]
  rfl
theorem s_main_v44 (U : Valuation τ sig (Elt F)) :
    after ([] : List (HloOp τ sig (Elt F))) (after (ops (F := F)) U) (Proc.devRef .tc main_v44) = val_main_v44 (F := F) (U (Proc.devRef .tc main_arg12)) := by
  rw [read_reshape hW Writes.nil 53 (x := main_v43) (y := main_v44) rfl (by decide +kernel) (by decide +kernel)]
  rw [s_main_v43 U]
  rfl
theorem s_main_cst (U : Valuation τ sig (Elt F)) :
    after ([] : List (HloOp τ sig (Elt F))) (after (ops (F := F)) U) (Proc.devRef .tc main_cst) = val_main_cst (F := F) := by
  rw [read_nullary hW Writes.nil 54 (y := main_cst) rfl (by decide +kernel)]
  rfl
theorem s_main_v45 (U : Valuation τ sig (Elt F)) :
    after ([] : List (HloOp τ sig (Elt F))) (after (ops (F := F)) U) (Proc.devRef .tc main_v45) = val_main_v45 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 55 (a := main_v35) (b := main_cst) (y := main_v45) rfl (by decide +kernel) (by decide +kernel) (by decide +kernel)]
  rw [s_main_v35 U, s_main_cst U]
  rfl
theorem s_main_v46 (U : Valuation τ sig (Elt F)) :
    after ([] : List (HloOp τ sig (Elt F))) (after (ops (F := F)) U) (Proc.devRef .tc main_v46) = val_main_v46 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 56 (x := main_v45) (y := main_v46) rfl (by decide +kernel) (by decide +kernel)]
  rw [s_main_v45 U]
  rfl
theorem s_main_cst_4 (U : Valuation τ sig (Elt F)) :
    after ([] : List (HloOp τ sig (Elt F))) (after (ops (F := F)) U) (Proc.devRef .tc main_cst_4) = val_main_cst_4 (F := F) := by
  rw [read_nullary hW Writes.nil 57 (y := main_cst_4) rfl (by decide +kernel)]
  rfl
theorem s_main_v47 (U : Valuation τ sig (Elt F)) :
    after ([] : List (HloOp τ sig (Elt F))) (after (ops (F := F)) U) (Proc.devRef .tc main_v47) = val_main_v47 (F := F) := by
  rw [read_unary hW Writes.nil 58 (x := main_cst_4) (y := main_v47) rfl (by decide +kernel) (by decide +kernel)]
  rw [s_main_cst_4 U]
  rfl
theorem s_main_v48 (U : Valuation τ sig (Elt F)) :
    after ([] : List (HloOp τ sig (Elt F))) (after (ops (F := F)) U) (Proc.devRef .tc main_v48) = val_main_v48 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 59 (a := main_v46) (b := main_v47) (y := main_v48) rfl (by decide +kernel) (by decide +kernel) (by decide +kernel)]
  rw [s_main_v46 U, s_main_v47 U]
  rfl
theorem s_main_v49 (U : Valuation τ sig (Elt F)) :
    after ([] : List (HloOp τ sig (Elt F))) (after (ops (F := F)) U) (Proc.devRef .tc main_v49) = val_main_v49 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 60 (x := main_v48) (y := main_v49) rfl (by decide +kernel) (by decide +kernel)]
  rw [s_main_v48 U]
  rfl
theorem s_main_v50 (U : Valuation τ sig (Elt F)) :
    after ([] : List (HloOp τ sig (Elt F))) (after (ops (F := F)) U) (Proc.devRef .tc main_v50) = val_main_v50 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 61 (a := main_v35) (b := main_v49) (y := main_v50) rfl (by decide +kernel) (by decide +kernel) (by decide +kernel)]
  rw [s_main_v35 U, s_main_v49 U]
  rfl
theorem s_main_v51 (U : Valuation τ sig (Elt F)) :
    after ([] : List (HloOp τ sig (Elt F))) (after (ops (F := F)) U) (Proc.devRef .tc main_v51) = val_main_v51 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 62 (a := main_v50) (b := main_v50) (y := main_v51) rfl (by decide +kernel) (by decide +kernel) (by decide +kernel)]
  rw [s_main_v50 U]
  rfl
theorem s_main_cst_5 (U : Valuation τ sig (Elt F)) :
    after ([] : List (HloOp τ sig (Elt F))) (after (ops (F := F)) U) (Proc.devRef .tc main_cst_5) = val_main_cst_5 (F := F) := by
  rw [read_nullary hW Writes.nil 63 (y := main_cst_5) rfl (by decide +kernel)]
  rfl
theorem s_main_v52 (U : Valuation τ sig (Elt F)) :
    after ([] : List (HloOp τ sig (Elt F))) (after (ops (F := F)) U) (Proc.devRef .tc main_v52) = val_main_v52 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 64 (a := main_v51) (b := main_cst_5) (y := main_v52) rfl (by decide +kernel) (by decide +kernel) (by decide +kernel)]
  rw [s_main_v51 U, s_main_cst_5 U]
  rfl
theorem s_main_v53 (U : Valuation τ sig (Elt F)) :
    after ([] : List (HloOp τ sig (Elt F))) (after (ops (F := F)) U) (Proc.devRef .tc main_v53) = val_main_v53 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 65 (x := main_v52) (y := main_v53) rfl (by decide +kernel) (by decide +kernel)]
  rw [s_main_v52 U]
  rfl
theorem s_main_cst_6 (U : Valuation τ sig (Elt F)) :
    after ([] : List (HloOp τ sig (Elt F))) (after (ops (F := F)) U) (Proc.devRef .tc main_cst_6) = val_main_cst_6 (F := F) := by
  rw [read_nullary hW Writes.nil 66 (y := main_cst_6) rfl (by decide +kernel)]
  rfl
theorem s_main_v54 (U : Valuation τ sig (Elt F)) :
    after ([] : List (HloOp τ sig (Elt F))) (after (ops (F := F)) U) (Proc.devRef .tc main_v54) = val_main_v54 (F := F) := by
  rw [read_unary hW Writes.nil 67 (x := main_cst_6) (y := main_v54) rfl (by decide +kernel) (by decide +kernel)]
  rw [s_main_cst_6 U]
  rfl
theorem s_main_v55 (U : Valuation τ sig (Elt F)) :
    after ([] : List (HloOp τ sig (Elt F))) (after (ops (F := F)) U) (Proc.devRef .tc main_v55) = val_main_v55 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 68 (a := main_v53) (b := main_v54) (y := main_v55) rfl (by decide +kernel) (by decide +kernel) (by decide +kernel)]
  rw [s_main_v53 U, s_main_v54 U]
  rfl
theorem s_main_v56 (U : Valuation τ sig (Elt F)) :
    after ([] : List (HloOp τ sig (Elt F))) (after (ops (F := F)) U) (Proc.devRef .tc main_v56) = val_main_v56 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 69 (x := main_v48) (y := main_v56) rfl (by decide +kernel) (by decide +kernel)]
  rw [s_main_v48 U]
  rfl
theorem s_main_v57 (U : Valuation τ sig (Elt F)) :
    after ([] : List (HloOp τ sig (Elt F))) (after (ops (F := F)) U) (Proc.devRef .tc main_v57) = val_main_v57 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 70 (a := main_v35) (b := main_v56) (y := main_v57) rfl (by decide +kernel) (by decide +kernel) (by decide +kernel)]
  rw [s_main_v35 U, s_main_v56 U]
  rfl
theorem s_main_v58 (U : Valuation τ sig (Elt F)) :
    after ([] : List (HloOp τ sig (Elt F))) (after (ops (F := F)) U) (Proc.devRef .tc main_v58) = val_main_v58 (F := F) (U (Proc.devRef .tc main_arg11)) := by
  rw [read_unary hW Writes.nil 71 (x := main_v42) (y := main_v58) rfl (by decide +kernel) (by decide +kernel)]
  rw [s_main_v42 U]
  rfl
theorem s_main_v59 (U : Valuation τ sig (Elt F)) :
    after ([] : List (HloOp τ sig (Elt F))) (after (ops (F := F)) U) (Proc.devRef .tc main_v59) = val_main_v59 (F := F) (U (Proc.devRef .tc main_arg11)) := by
  rw [read_unary hW Writes.nil 72 (x := main_v58) (y := main_v59) rfl (by decide +kernel) (by decide +kernel)]
  rw [s_main_v58 U]
  rfl
theorem s_main_v60 (U : Valuation τ sig (Elt F)) :
    after ([] : List (HloOp τ sig (Elt F))) (after (ops (F := F)) U) (Proc.devRef .tc main_v60) = val_main_v60 (F := F) (U (Proc.devRef .tc main_arg0)) (U (Proc.devRef .tc main_arg1)) (U (Proc.devRef .tc main_arg2)) (U (Proc.devRef .tc main_arg3)) (U (Proc.devRef .tc main_arg4)) (U (Proc.devRef .tc main_arg11)) := by
  rw [read_binary hW Writes.nil 73 (a := main_v59) (b := main_v57) (y := main_v60) rfl (by decide +kernel) (by decide +kernel) (by decide +kernel)]
  rw [s_main_v59 U, s_main_v57 U]
  rfl
theorem s_main_cst_7 (U : Valuation τ sig (Elt F)) :
    after ([] : List (HloOp τ sig (Elt F))) (after (ops (F := F)) U) (Proc.devRef .tc main_cst_7) = val_main_cst_7 (F := F) := by
  rw [read_nullary hW Writes.nil 74 (y := main_cst_7) rfl (by decide +kernel)]
  rfl
theorem s_main_v61 (U : Valuation τ sig (Elt F)) :
    after ([] : List (HloOp τ sig (Elt F))) (after (ops (F := F)) U) (Proc.devRef .tc main_v61) = val_main_v61 (F := F) := by
  rw [read_unary hW Writes.nil 75 (x := main_cst_7) (y := main_v61) rfl (by decide +kernel) (by decide +kernel)]
  rw [s_main_cst_7 U]
  rfl
theorem s_main_v62 (U : Valuation τ sig (Elt F)) :
    after ([] : List (HloOp τ sig (Elt F))) (after (ops (F := F)) U) (Proc.devRef .tc main_v62) = val_main_v62 (F := F) (U (Proc.devRef .tc main_arg0)) (U (Proc.devRef .tc main_arg1)) (U (Proc.devRef .tc main_arg2)) (U (Proc.devRef .tc main_arg3)) (U (Proc.devRef .tc main_arg4)) := by
  rw [read_binary hW Writes.nil 76 (a := main_v55) (b := main_v61) (y := main_v62) rfl (by decide +kernel) (by decide +kernel) (by decide +kernel)]
  rw [s_main_v55 U, s_main_v61 U]
  rfl
theorem s_main_v63 (U : Valuation τ sig (Elt F)) :
    after ([] : List (HloOp τ sig (Elt F))) (after (ops (F := F)) U) (Proc.devRef .tc main_v63) = val_main_v63 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 77 (x := main_v62) (y := main_v63) rfl (by decide +kernel) (by decide +kernel)]
  rw [s_main_v62 U]
  rfl
theorem s_main_v64 (U : Valuation τ sig (Elt F)) :
    after ([] : List (HloOp τ sig (Elt F))) (after (ops (F := F)) U) (Proc.devRef .tc main_v64) = val_main_v64 (F := F) (U (Proc.devRef .tc main_arg0)) (U (Proc.devRef .tc main_arg1)) (U (Proc.devRef .tc main_arg2)) (U (Proc.devRef .tc main_arg3)) (U (Proc.devRef .tc main_arg4)) := by
  rw [read_unary hW Writes.nil 78 (x := main_v63) (y := main_v64) rfl (by decide +kernel) (by decide +kernel)]
  rw [s_main_v63 U]
  rfl
theorem s_main_v65 (U : Valuation τ sig (Elt F)) :
    after ([] : List (HloOp τ sig (Elt F))) (after (ops (F := F)) U) (Proc.devRef .tc main_v65) = val_main_v65 (F := F) (U (Proc.devRef .tc main_arg0)) (U (Proc.devRef .tc main_arg1)) (U (Proc.devRef .tc main_arg2)) (U (Proc.devRef .tc main_arg3)) (U (Proc.devRef .tc main_arg4)) (U (Proc.devRef .tc main_arg11)) := by
  rw [read_binary hW Writes.nil 79 (a := main_v60) (b := main_v64) (y := main_v65) rfl (by decide +kernel) (by decide +kernel) (by decide +kernel)]
  rw [s_main_v60 U, s_main_v64 U]
  rfl
theorem s_main_v66 (U : Valuation τ sig (Elt F)) :
    after ([] : List (HloOp τ sig (Elt F))) (after (ops (F := F)) U) (Proc.devRef .tc main_v66) = val_main_v66 (F := F) (U (Proc.devRef .tc main_arg12)) := by
  rw [read_unary hW Writes.nil 80 (x := main_v44) (y := main_v66) rfl (by decide +kernel) (by decide +kernel)]
  rw [s_main_v44 U]
  rfl
theorem s_main_v67 (U : Valuation τ sig (Elt F)) :
    after ([] : List (HloOp τ sig (Elt F))) (after (ops (F := F)) U) (Proc.devRef .tc main_v67) = val_main_v67 (F := F) (U (Proc.devRef .tc main_arg12)) := by
  rw [read_unary hW Writes.nil 81 (x := main_v66) (y := main_v67) rfl (by decide +kernel) (by decide +kernel)]
  rw [s_main_v66 U]
  rfl
theorem s_main_v68 (U : Valuation τ sig (Elt F)) :
    after ([] : List (HloOp τ sig (Elt F))) (after (ops (F := F)) U) (Proc.devRef .tc main_v68) = val_main_v68 (F := F) (U (Proc.devRef .tc main_arg0)) (U (Proc.devRef .tc main_arg1)) (U (Proc.devRef .tc main_arg2)) (U (Proc.devRef .tc main_arg3)) (U (Proc.devRef .tc main_arg4)) (U (Proc.devRef .tc main_arg11)) (U (Proc.devRef .tc main_arg12)) := by
  rw [read_binary hW Writes.nil 82 (a := main_v65) (b := main_v67) (y := main_v68) rfl (by decide +kernel) (by decide +kernel) (by decide +kernel)]
  rw [s_main_v65 U, s_main_v67 U]
  rfl
theorem s_main_v69 (U : Valuation τ sig (Elt F)) :
    after ([] : List (HloOp τ sig (Elt F))) (after (ops (F := F)) U) (Proc.devRef .tc main_v69) = val_main_v69 (F := F) (U (Proc.devRef .tc main_arg7)) := by
  rw [read_unary hW Writes.nil 83 (x := main_arg7) (y := main_v69) rfl (by decide +kernel) (by decide +kernel)]
  rw [kept_main_arg7 U]
  rfl
theorem s_main_v70 (U : Valuation τ sig (Elt F)) :
    after ([] : List (HloOp τ sig (Elt F))) (after (ops (F := F)) U) (Proc.devRef .tc main_v70) = val_main_v70 (F := F) (U (Proc.devRef .tc main_arg7)) := by
  rw [read_reshape hW Writes.nil 84 (x := main_v69) (y := main_v70) rfl (by decide +kernel) (by decide +kernel)]
  rw [s_main_v69 U]
  rfl
theorem s_main_v71 (U : Valuation τ sig (Elt F)) :
    after ([] : List (HloOp τ sig (Elt F))) (after (ops (F := F)) U) (Proc.devRef .tc main_v71) = val_main_v71 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg11)) (U (Proc.devRef .tc main_arg12)) := by
  rw [read_binary hW Writes.nil 85 (a := main_v68) (b := main_v70) (y := main_v71) rfl (by decide +kernel) (by decide +kernel) (by decide +kernel)]
  rw [s_main_v68 U, s_main_v70 U]
  rfl
theorem s_main_v72 (U : Valuation τ sig (Elt F)) :
    after ([] : List (HloOp τ sig (Elt F))) (after (ops (F := F)) U) (Proc.devRef .tc main_v72) = val_main_v72 (F := F) (U (Proc.devRef .tc main_arg8)) := by
  rw [read_unary hW Writes.nil 86 (x := main_arg8) (y := main_v72) rfl (by decide +kernel) (by decide +kernel)]
  rw [kept_main_arg8 U]
  rfl
theorem s_main_v73 (U : Valuation τ sig (Elt F)) :
    after ([] : List (HloOp τ sig (Elt F))) (after (ops (F := F)) U) (Proc.devRef .tc main_v73) = val_main_v73 (F := F) (U (Proc.devRef .tc main_arg8)) := by
  rw [read_reshape hW Writes.nil 87 (x := main_v72) (y := main_v73) rfl (by decide +kernel) (by decide +kernel)]
  rw [s_main_v72 U]
  rfl
theorem s_main_v74 (U : Valuation τ sig (Elt F)) :
    after ([] : List (HloOp τ sig (Elt F))) (after (ops (F := F)) U) (Proc.devRef .tc main_v74) = val_main_v74 (F := F) (U (Proc.devRef .tc main_arg8)) := by
  rw [read_unary hW Writes.nil 88 (x := main_v73) (y := main_v74) rfl (by decide +kernel) (by decide +kernel)]
  rw [s_main_v73 U]
  rfl
theorem s_main_v75 (U : Valuation τ sig (Elt F)) :
    after ([] : List (HloOp τ sig (Elt F))) (after (ops (F := F)) U) (Proc.devRef .tc main_v75) = val_main_v75 (F := F) (U (Proc.devRef .tc main_arg8)) := by
  rw [read_unary hW Writes.nil 89 (x := main_v74) (y := main_v75) rfl (by decide +kernel) (by decide +kernel)]
  rw [s_main_v74 U]
  rfl
theorem s_main_v76 (U : Valuation τ sig (Elt F)) :
    after ([] : List (HloOp τ sig (Elt F))) (after (ops (F := F)) U) (Proc.devRef .tc main_v76) = val_main_v76 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg11)) (U (Proc.devRef .tc main_arg12)) := by
  rw [read_binary hW Writes.nil 90 (a := main_v71) (b := main_v75) (y := main_v76) rfl (by decide +kernel) (by decide +kernel) (by decide +kernel)]
  rw [s_main_v71 U, s_main_v75 U]
  rfl
theorem s_main_call2_cst (U : Valuation τ sig (Elt F)) :
    after ([] : List (HloOp τ sig (Elt F))) (after (ops (F := F)) U) (Proc.devRef .tc main_call2_cst) = val_main_call2_cst (F := F) := by
  rw [read_nullary hW Writes.nil 91 (y := main_call2_cst) rfl (by decide +kernel)]
  rfl
theorem s_main_call2_v0 (U : Valuation τ sig (Elt F)) :
    after ([] : List (HloOp τ sig (Elt F))) (after (ops (F := F)) U) (Proc.devRef .tc main_call2_v0) = val_main_call2_v0 (F := F) := by
  rw [read_unary hW Writes.nil 92 (x := main_call2_cst) (y := main_call2_v0) rfl (by decide +kernel) (by decide +kernel)]
  rw [s_main_call2_cst U]
  rfl
theorem s_main_v77 (U : Valuation τ sig (Elt F)) :
    after ([] : List (HloOp τ sig (Elt F))) (after (ops (F := F)) U) (Proc.devRef .tc main_v77) = val_main_v77 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg11)) (U (Proc.devRef .tc main_arg12)) := by
  rw [read_binary hW Writes.nil 93 (a := main_v76) (b := main_call2_v0) (y := main_v77) rfl (by decide +kernel) (by decide +kernel) (by decide +kernel)]
  rw [s_main_v76 U, s_main_call2_v0 U]
  rfl
theorem s_main_v78 (U : Valuation τ sig (Elt F)) :
    after ([] : List (HloOp τ sig (Elt F))) (after (ops (F := F)) U) (Proc.devRef .tc main_v78) = val_main_v78 (F := F) (U (Proc.devRef .tc main_arg9)) := by
  rw [read_unary hW Writes.nil 94 (x := main_arg9) (y := main_v78) rfl (by decide +kernel) (by decide +kernel)]
  rw [kept_main_arg9 U]
  rfl
theorem s_main_v79 (U : Valuation τ sig (Elt F)) :
    after ([] : List (HloOp τ sig (Elt F))) (after (ops (F := F)) U) (Proc.devRef .tc main_v79) = val_main_v79 (F := F) (U (Proc.devRef .tc main_arg9)) := by
  rw [read_reshape hW Writes.nil 95 (x := main_v78) (y := main_v79) rfl (by decide +kernel) (by decide +kernel)]
  rw [s_main_v78 U]
  rfl
theorem s_main_v80 (U : Valuation τ sig (Elt F)) :
    after ([] : List (HloOp τ sig (Elt F))) (after (ops (F := F)) U) (Proc.devRef .tc main_v80) = val_main_v80 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg11)) (U (Proc.devRef .tc main_arg12)) := by
  rw [read_binary hW Writes.nil 96 (a := main_v77) (b := main_v79) (y := main_v80) rfl (by decide +kernel) (by decide +kernel) (by decide +kernel)]
  rw [s_main_v77 U, s_main_v79 U]
  rfl
theorem s_main_v81 (U : Valuation τ sig (Elt F)) :
    after ([] : List (HloOp τ sig (Elt F))) (after (ops (F := F)) U) (Proc.devRef .tc main_v81) = val_main_v81 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg11)) (U (Proc.devRef .tc main_arg12)) := by
  rw [read_binary hW Writes.nil 97 (a := main_v35) (b := main_v80) (y := main_v81) rfl (by decide +kernel) (by decide +kernel) (by decide +kernel)]
  rw [s_main_v35 U, s_main_v80 U]
  rfl
theorem s_main_v82 (U : Valuation τ sig (Elt F)) :
    after ([] : List (HloOp τ sig (Elt F))) (after (ops (F := F)) U) (Proc.devRef .tc main_v82) = val_main_v82 (F := F) (U (Proc.devRef .tc main_arg10)) := by
  rw [read_unary hW Writes.nil 98 (x := main_arg10) (y := main_v82) rfl (by decide +kernel) (by decide +kernel)]
  rw [kept_main_arg10 U]
  rfl
theorem s_main_v83 (U : Valuation τ sig (Elt F)) :
    after ([] : List (HloOp τ sig (Elt F))) (after (ops (F := F)) U) (Proc.devRef .tc main_v83) = val_main_v83 (F := F) (U (Proc.devRef .tc main_arg10)) := by
  rw [read_reshape hW Writes.nil 99 (x := main_v82) (y := main_v83) rfl (by decide +kernel) (by decide +kernel)]
  rw [s_main_v82 U]
  rfl
theorem s_main_v84 (U : Valuation τ sig (Elt F)) :
    after ([] : List (HloOp τ sig (Elt F))) (after (ops (F := F)) U) (Proc.devRef .tc main_v84) = val_main_v84 (F := F) (U (Proc.devRef .tc main_arg10)) := by
  rw [read_unary hW Writes.nil 100 (x := main_v83) (y := main_v84) rfl (by decide +kernel) (by decide +kernel)]
  rw [s_main_v83 U]
  rfl
theorem s_main_v85 (U : Valuation τ sig (Elt F)) :
    after ([] : List (HloOp τ sig (Elt F))) (after (ops (F := F)) U) (Proc.devRef .tc main_v85) = val_main_v85 (F := F) (U (Proc.devRef .tc main_arg10)) := by
  rw [read_unary hW Writes.nil 101 (x := main_v84) (y := main_v85) rfl (by decide +kernel) (by decide +kernel)]
  rw [s_main_v84 U]
  rfl
theorem s_main_v86 (U : Valuation τ sig (Elt F)) :
    after ([] : List (HloOp τ sig (Elt F))) (after (ops (F := F)) U) (Proc.devRef .tc main_v86) = val_main_v86 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 102 (a := main_v81) (b := main_v85) (y := main_v86) rfl (by decide +kernel) (by decide +kernel) (by decide +kernel)]
  rw [s_main_v81 U, s_main_v85 U]
  rfl
theorem s_main_v87 (U : Valuation τ sig (Elt F)) :
    after ([] : List (HloOp τ sig (Elt F))) (after (ops (F := F)) U) (Proc.devRef .tc main_v87) = val_main_v87 (F := F) (U (Proc.devRef .tc main_arg17)) := by
  rw [read_unary hW Writes.nil 103 (x := main_arg17) (y := main_v87) rfl (by decide +kernel) (by decide +kernel)]
  rw [kept_main_arg17 U]
  rfl
theorem s_main_v88 (U : Valuation τ sig (Elt F)) :
    after ([] : List (HloOp τ sig (Elt F))) (after (ops (F := F)) U) (Proc.devRef .tc main_v88) = val_main_v88 (F := F) (U (Proc.devRef .tc main_arg17)) := by
  rw [read_reshape hW Writes.nil 104 (x := main_v87) (y := main_v88) rfl (by decide +kernel) (by decide +kernel)]
  rw [s_main_v87 U]
  rfl
theorem s_main_v89 (U : Valuation τ sig (Elt F)) :
    after ([] : List (HloOp τ sig (Elt F))) (after (ops (F := F)) U) (Proc.devRef .tc main_v89) = val_main_v89 (F := F) (U (Proc.devRef .tc main_arg18)) := by
  rw [read_unary hW Writes.nil 105 (x := main_arg18) (y := main_v89) rfl (by decide +kernel) (by decide +kernel)]
  rw [kept_main_arg18 U]
  rfl
theorem s_main_v90 (U : Valuation τ sig (Elt F)) :
    after ([] : List (HloOp τ sig (Elt F))) (after (ops (F := F)) U) (Proc.devRef .tc main_v90) = val_main_v90 (F := F) (U (Proc.devRef .tc main_arg18)) := by
  rw [read_reshape hW Writes.nil 106 (x := main_v89) (y := main_v90) rfl (by decide +kernel) (by decide +kernel)]
  rw [s_main_v89 U]
  rfl
theorem s_main_cst_8 (U : Valuation τ sig (Elt F)) :
    after ([] : List (HloOp τ sig (Elt F))) (after (ops (F := F)) U) (Proc.devRef .tc main_cst_8) = val_main_cst_8 (F := F) := by
  rw [read_nullary hW Writes.nil 107 (y := main_cst_8) rfl (by decide +kernel)]
  rfl
theorem s_main_v91 (U : Valuation τ sig (Elt F)) :
    after ([] : List (HloOp τ sig (Elt F))) (after (ops (F := F)) U) (Proc.devRef .tc main_v91) = val_main_v91 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 108 (a := main_v40) (b := main_cst_8) (y := main_v91) rfl (by decide +kernel) (by decide +kernel) (by decide +kernel)]
  rw [s_main_v40 U, s_main_cst_8 U]
  rfl
theorem s_main_v92 (U : Valuation τ sig (Elt F)) :
    after ([] : List (HloOp τ sig (Elt F))) (after (ops (F := F)) U) (Proc.devRef .tc main_v92) = val_main_v92 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 109 (x := main_v91) (y := main_v92) rfl (by decide +kernel) (by decide +kernel)]
  rw [s_main_v91 U]
  rfl
theorem s_main_cst_9 (U : Valuation τ sig (Elt F)) :
    after ([] : List (HloOp τ sig (Elt F))) (after (ops (F := F)) U) (Proc.devRef .tc main_cst_9) = val_main_cst_9 (F := F) := by
  rw [read_nullary hW Writes.nil 110 (y := main_cst_9) rfl (by decide +kernel)]
  rfl
theorem s_main_v93 (U : Valuation τ sig (Elt F)) :
    after ([] : List (HloOp τ sig (Elt F))) (after (ops (F := F)) U) (Proc.devRef .tc main_v93) = val_main_v93 (F := F) := by
  rw [read_unary hW Writes.nil 111 (x := main_cst_9) (y := main_v93) rfl (by decide +kernel) (by decide +kernel)]
  rw [s_main_cst_9 U]
  rfl
theorem s_main_v94 (U : Valuation τ sig (Elt F)) :
    after ([] : List (HloOp τ sig (Elt F))) (after (ops (F := F)) U) (Proc.devRef .tc main_v94) = val_main_v94 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 112 (a := main_v92) (b := main_v93) (y := main_v94) rfl (by decide +kernel) (by decide +kernel) (by decide +kernel)]
  rw [s_main_v92 U, s_main_v93 U]
  rfl
theorem s_main_v95 (U : Valuation τ sig (Elt F)) :
    after ([] : List (HloOp τ sig (Elt F))) (after (ops (F := F)) U) (Proc.devRef .tc main_v95) = val_main_v95 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 113 (x := main_v94) (y := main_v95) rfl (by decide +kernel) (by decide +kernel)]
  rw [s_main_v94 U]
  rfl
theorem s_main_v96 (U : Valuation τ sig (Elt F)) :
    after ([] : List (HloOp τ sig (Elt F))) (after (ops (F := F)) U) (Proc.devRef .tc main_v96) = val_main_v96 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 114 (a := main_v40) (b := main_v95) (y := main_v96) rfl (by decide +kernel) (by decide +kernel) (by decide +kernel)]
  rw [s_main_v40 U, s_main_v95 U]
  rfl
theorem s_main_v97 (U : Valuation τ sig (Elt F)) :
    after ([] : List (HloOp τ sig (Elt F))) (after (ops (F := F)) U) (Proc.devRef .tc main_v97) = val_main_v97 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 115 (a := main_v96) (b := main_v96) (y := main_v97) rfl (by decide +kernel) (by decide +kernel) (by decide +kernel)]
  rw [s_main_v96 U]
  rfl
theorem s_main_cst_10 (U : Valuation τ sig (Elt F)) :
    after ([] : List (HloOp τ sig (Elt F))) (after (ops (F := F)) U) (Proc.devRef .tc main_cst_10) = val_main_cst_10 (F := F) := by
  rw [read_nullary hW Writes.nil 116 (y := main_cst_10) rfl (by decide +kernel)]
  rfl
theorem s_main_v98 (U : Valuation τ sig (Elt F)) :
    after ([] : List (HloOp τ sig (Elt F))) (after (ops (F := F)) U) (Proc.devRef .tc main_v98) = val_main_v98 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 117 (a := main_v97) (b := main_cst_10) (y := main_v98) rfl (by decide +kernel) (by decide +kernel) (by decide +kernel)]
  rw [s_main_v97 U, s_main_cst_10 U]
  rfl
theorem s_main_v99 (U : Valuation τ sig (Elt F)) :
    after ([] : List (HloOp τ sig (Elt F))) (after (ops (F := F)) U) (Proc.devRef .tc main_v99) = val_main_v99 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 118 (x := main_v98) (y := main_v99) rfl (by decide +kernel) (by decide +kernel)]
  rw [s_main_v98 U]
  rfl
theorem s_main_cst_11 (U : Valuation τ sig (Elt F)) :
    after ([] : List (HloOp τ sig (Elt F))) (after (ops (F := F)) U) (Proc.devRef .tc main_cst_11) = val_main_cst_11 (F := F) := by
  rw [read_nullary hW Writes.nil 119 (y := main_cst_11) rfl (by decide +kernel)]
  rfl
theorem s_main_v100 (U : Valuation τ sig (Elt F)) :
    after ([] : List (HloOp τ sig (Elt F))) (after (ops (F := F)) U) (Proc.devRef .tc main_v100) = val_main_v100 (F := F) := by
  rw [read_unary hW Writes.nil 120 (x := main_cst_11) (y := main_v100) rfl (by decide +kernel) (by decide +kernel)]
  rw [s_main_cst_11 U]
  rfl
theorem s_main_v101 (U : Valuation τ sig (Elt F)) :
    after ([] : List (HloOp τ sig (Elt F))) (after (ops (F := F)) U) (Proc.devRef .tc main_v101) = val_main_v101 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 121 (a := main_v99) (b := main_v100) (y := main_v101) rfl (by decide +kernel) (by decide +kernel) (by decide +kernel)]
  rw [s_main_v99 U, s_main_v100 U]
  rfl
theorem s_main_v102 (U : Valuation τ sig (Elt F)) :
    after ([] : List (HloOp τ sig (Elt F))) (after (ops (F := F)) U) (Proc.devRef .tc main_v102) = val_main_v102 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 122 (x := main_v94) (y := main_v102) rfl (by decide +kernel) (by decide +kernel)]
  rw [s_main_v94 U]
  rfl
theorem s_main_v103 (U : Valuation τ sig (Elt F)) :
    after ([] : List (HloOp τ sig (Elt F))) (after (ops (F := F)) U) (Proc.devRef .tc main_v103) = val_main_v103 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 123 (a := main_v40) (b := main_v102) (y := main_v103) rfl (by decide +kernel) (by decide +kernel) (by decide +kernel)]
  rw [s_main_v40 U, s_main_v102 U]
  rfl
theorem s_main_v104 (U : Valuation τ sig (Elt F)) :
    after ([] : List (HloOp τ sig (Elt F))) (after (ops (F := F)) U) (Proc.devRef .tc main_v104) = val_main_v104 (F := F) (U (Proc.devRef .tc main_arg17)) := by
  rw [read_unary hW Writes.nil 124 (x := main_v88) (y := main_v104) rfl (by decide +kernel) (by decide +kernel)]
  rw [s_main_v88 U]
  rfl
theorem s_main_v105 (U : Valuation τ sig (Elt F)) :
    after ([] : List (HloOp τ sig (Elt F))) (after (ops (F := F)) U) (Proc.devRef .tc main_v105) = val_main_v105 (F := F) (U (Proc.devRef .tc main_arg17)) := by
  rw [read_unary hW Writes.nil 125 (x := main_v104) (y := main_v105) rfl (by decide +kernel) (by decide +kernel)]
  rw [s_main_v104 U]
  rfl
theorem s_main_v106 (U : Valuation τ sig (Elt F)) :
    after ([] : List (HloOp τ sig (Elt F))) (after (ops (F := F)) U) (Proc.devRef .tc main_v106) = val_main_v106 (F := F) (U (Proc.devRef .tc main_arg0)) (U (Proc.devRef .tc main_arg1)) (U (Proc.devRef .tc main_arg2)) (U (Proc.devRef .tc main_arg5)) (U (Proc.devRef .tc main_arg6)) (U (Proc.devRef .tc main_arg17)) := by
  rw [read_binary hW Writes.nil 126 (a := main_v105) (b := main_v103) (y := main_v106) rfl (by decide +kernel) (by decide +kernel) (by decide +kernel)]
  rw [s_main_v105 U, s_main_v103 U]
  rfl
theorem s_main_cst_12 (U : Valuation τ sig (Elt F)) :
    after ([] : List (HloOp τ sig (Elt F))) (after (ops (F := F)) U) (Proc.devRef .tc main_cst_12) = val_main_cst_12 (F := F) := by
  rw [read_nullary hW Writes.nil 127 (y := main_cst_12) rfl (by decide +kernel)]
  rfl
theorem s_main_v107 (U : Valuation τ sig (Elt F)) :
    after ([] : List (HloOp τ sig (Elt F))) (after (ops (F := F)) U) (Proc.devRef .tc main_v107) = val_main_v107 (F := F) := by
  rw [read_unary hW Writes.nil 128 (x := main_cst_12) (y := main_v107) rfl (by decide +kernel) (by decide +kernel)]
  rw [s_main_cst_12 U]
  rfl
theorem s_main_v108 (U : Valuation τ sig (Elt F)) :
    after ([] : List (HloOp τ sig (Elt F))) (after (ops (F := F)) U) (Proc.devRef .tc main_v108) = val_main_v108 (F := F) (U (Proc.devRef .tc main_arg0)) (U (Proc.devRef .tc main_arg1)) (U (Proc.devRef .tc main_arg2)) (U (Proc.devRef .tc main_arg5)) (U (Proc.devRef .tc main_arg6)) := by
  rw [read_binary hW Writes.nil 129 (a := main_v101) (b := main_v107) (y := main_v108) rfl (by decide +kernel) (by decide +kernel) (by decide +kernel)]
  rw [s_main_v101 U, s_main_v107 U]
  rfl
theorem s_main_v109 (U : Valuation τ sig (Elt F)) :
    after ([] : List (HloOp τ sig (Elt F))) (after (ops (F := F)) U) (Proc.devRef .tc main_v109) = val_main_v109 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 130 (x := main_v108) (y := main_v109) rfl (by decide +kernel) (by decide +kernel)]
  rw [s_main_v108 U]
  rfl
theorem s_main_v110 (U : Valuation τ sig (Elt F)) :
    after ([] : List (HloOp τ sig (Elt F))) (after (ops (F := F)) U) (Proc.devRef .tc main_v110) = val_main_v110 (F := F) (U (Proc.devRef .tc main_arg0)) (U (Proc.devRef .tc main_arg1)) (U (Proc.devRef .tc main_arg2)) (U (Proc.devRef .tc main_arg5)) (U (Proc.devRef .tc main_arg6)) := by
  rw [read_unary hW Writes.nil 131 (x := main_v109) (y := main_v110) rfl (by decide +kernel) (by decide +kernel)]
  rw [s_main_v109 U]
  rfl
theorem s_main_v111 (U : Valuation τ sig (Elt F)) :
    after ([] : List (HloOp τ sig (Elt F))) (after (ops (F := F)) U) (Proc.devRef .tc main_v111) = val_main_v111 (F := F) (U (Proc.devRef .tc main_arg0)) (U (Proc.devRef .tc main_arg1)) (U (Proc.devRef .tc main_arg2)) (U (Proc.devRef .tc main_arg5)) (U (Proc.devRef .tc main_arg6)) (U (Proc.devRef .tc main_arg17)) := by
  rw [read_binary hW Writes.nil 132 (a := main_v106) (b := main_v110) (y := main_v111) rfl (by decide +kernel) (by decide +kernel) (by decide +kernel)]
  rw [s_main_v106 U, s_main_v110 U]
  rfl
theorem s_main_v112 (U : Valuation τ sig (Elt F)) :
    after ([] : List (HloOp τ sig (Elt F))) (after (ops (F := F)) U) (Proc.devRef .tc main_v112) = val_main_v112 (F := F) (U (Proc.devRef .tc main_arg18)) := by
  rw [read_unary hW Writes.nil 133 (x := main_v90) (y := main_v112) rfl (by decide +kernel) (by decide +kernel)]
  rw [s_main_v90 U]
  rfl
theorem s_main_v113 (U : Valuation τ sig (Elt F)) :
    after ([] : List (HloOp τ sig (Elt F))) (after (ops (F := F)) U) (Proc.devRef .tc main_v113) = val_main_v113 (F := F) (U (Proc.devRef .tc main_arg18)) := by
  rw [read_unary hW Writes.nil 134 (x := main_v112) (y := main_v113) rfl (by decide +kernel) (by decide +kernel)]
  rw [s_main_v112 U]
  rfl
theorem s_main_v114 (U : Valuation τ sig (Elt F)) :
    after ([] : List (HloOp τ sig (Elt F))) (after (ops (F := F)) U) (Proc.devRef .tc main_v114) = val_main_v114 (F := F) (U (Proc.devRef .tc main_arg0)) (U (Proc.devRef .tc main_arg1)) (U (Proc.devRef .tc main_arg2)) (U (Proc.devRef .tc main_arg5)) (U (Proc.devRef .tc main_arg6)) (U (Proc.devRef .tc main_arg17)) (U (Proc.devRef .tc main_arg18)) := by
  rw [read_binary hW Writes.nil 135 (a := main_v111) (b := main_v113) (y := main_v114) rfl (by decide +kernel) (by decide +kernel) (by decide +kernel)]
  rw [s_main_v111 U, s_main_v113 U]
  rfl
theorem s_main_v115 (U : Valuation τ sig (Elt F)) :
    after ([] : List (HloOp τ sig (Elt F))) (after (ops (F := F)) U) (Proc.devRef .tc main_v115) = val_main_v115 (F := F) (U (Proc.devRef .tc main_arg13)) := by
  rw [read_unary hW Writes.nil 136 (x := main_arg13) (y := main_v115) rfl (by decide +kernel) (by decide +kernel)]
  rw [kept_main_arg13 U]
  rfl
theorem s_main_v116 (U : Valuation τ sig (Elt F)) :
    after ([] : List (HloOp τ sig (Elt F))) (after (ops (F := F)) U) (Proc.devRef .tc main_v116) = val_main_v116 (F := F) (U (Proc.devRef .tc main_arg13)) := by
  rw [read_reshape hW Writes.nil 137 (x := main_v115) (y := main_v116) rfl (by decide +kernel) (by decide +kernel)]
  rw [s_main_v115 U]
  rfl
theorem s_main_v117 (U : Valuation τ sig (Elt F)) :
    after ([] : List (HloOp τ sig (Elt F))) (after (ops (F := F)) U) (Proc.devRef .tc main_v117) = val_main_v117 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg17)) (U (Proc.devRef .tc main_arg18)) := by
  rw [read_binary hW Writes.nil 138 (a := main_v114) (b := main_v116) (y := main_v117) rfl (by decide +kernel) (by decide +kernel) (by decide +kernel)]
  rw [s_main_v114 U, s_main_v116 U]
  rfl
theorem s_main_v118 (U : Valuation τ sig (Elt F)) :
    after ([] : List (HloOp τ sig (Elt F))) (after (ops (F := F)) U) (Proc.devRef .tc main_v118) = val_main_v118 (F := F) (U (Proc.devRef .tc main_arg14)) := by
  rw [read_unary hW Writes.nil 139 (x := main_arg14) (y := main_v118) rfl (by decide +kernel) (by decide +kernel)]
  rw [kept_main_arg14 U]
  rfl
theorem s_main_v119 (U : Valuation τ sig (Elt F)) :
    after ([] : List (HloOp τ sig (Elt F))) (after (ops (F := F)) U) (Proc.devRef .tc main_v119) = val_main_v119 (F := F) (U (Proc.devRef .tc main_arg14)) := by
  rw [read_reshape hW Writes.nil 140 (x := main_v118) (y := main_v119) rfl (by decide +kernel) (by decide +kernel)]
  rw [s_main_v118 U]
  rfl
theorem s_main_v120 (U : Valuation τ sig (Elt F)) :
    after ([] : List (HloOp τ sig (Elt F))) (after (ops (F := F)) U) (Proc.devRef .tc main_v120) = val_main_v120 (F := F) (U (Proc.devRef .tc main_arg14)) := by
  rw [read_unary hW Writes.nil 141 (x := main_v119) (y := main_v120) rfl (by decide +kernel) (by decide +kernel)]
  rw [s_main_v119 U]
  rfl
theorem s_main_v121 (U : Valuation τ sig (Elt F)) :
    after ([] : List (HloOp τ sig (Elt F))) (after (ops (F := F)) U) (Proc.devRef .tc main_v121) = val_main_v121 (F := F) (U (Proc.devRef .tc main_arg14)) := by
  rw [read_unary hW Writes.nil 142 (x := main_v120) (y := main_v121) rfl (by decide +kernel) (by decide +kernel)]
  rw [s_main_v120 U]
  rfl
theorem s_main_v122 (U : Valuation τ sig (Elt F)) :
    after ([] : List (HloOp τ sig (Elt F))) (after (ops (F := F)) U) (Proc.devRef .tc main_v122) = val_main_v122 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg17)) (U (Proc.devRef .tc main_arg18)) := by
  rw [read_binary hW Writes.nil 143 (a := main_v117) (b := main_v121) (y := main_v122) rfl (by decide +kernel) (by decide +kernel) (by decide +kernel)]
  rw [s_main_v117 U, s_main_v121 U]
  rfl
theorem s_main_call3_cst (U : Valuation τ sig (Elt F)) :
    after ([] : List (HloOp τ sig (Elt F))) (after (ops (F := F)) U) (Proc.devRef .tc main_call3_cst) = val_main_call3_cst (F := F) := by
  rw [read_nullary hW Writes.nil 144 (y := main_call3_cst) rfl (by decide +kernel)]
  rfl
theorem s_main_call3_v0 (U : Valuation τ sig (Elt F)) :
    after ([] : List (HloOp τ sig (Elt F))) (after (ops (F := F)) U) (Proc.devRef .tc main_call3_v0) = val_main_call3_v0 (F := F) := by
  rw [read_unary hW Writes.nil 145 (x := main_call3_cst) (y := main_call3_v0) rfl (by decide +kernel) (by decide +kernel)]
  rw [s_main_call3_cst U]
  rfl
theorem s_main_v123 (U : Valuation τ sig (Elt F)) :
    after ([] : List (HloOp τ sig (Elt F))) (after (ops (F := F)) U) (Proc.devRef .tc main_v123) = val_main_v123 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg17)) (U (Proc.devRef .tc main_arg18)) := by
  rw [read_binary hW Writes.nil 146 (a := main_v122) (b := main_call3_v0) (y := main_v123) rfl (by decide +kernel) (by decide +kernel) (by decide +kernel)]
  rw [s_main_v122 U, s_main_call3_v0 U]
  rfl
theorem s_main_v124 (U : Valuation τ sig (Elt F)) :
    after ([] : List (HloOp τ sig (Elt F))) (after (ops (F := F)) U) (Proc.devRef .tc main_v124) = val_main_v124 (F := F) (U (Proc.devRef .tc main_arg15)) := by
  rw [read_unary hW Writes.nil 147 (x := main_arg15) (y := main_v124) rfl (by decide +kernel) (by decide +kernel)]
  rw [kept_main_arg15 U]
  rfl
theorem s_main_v125 (U : Valuation τ sig (Elt F)) :
    after ([] : List (HloOp τ sig (Elt F))) (after (ops (F := F)) U) (Proc.devRef .tc main_v125) = val_main_v125 (F := F) (U (Proc.devRef .tc main_arg15)) := by
  rw [read_reshape hW Writes.nil 148 (x := main_v124) (y := main_v125) rfl (by decide +kernel) (by decide +kernel)]
  rw [s_main_v124 U]
  rfl
theorem s_main_v126 (U : Valuation τ sig (Elt F)) :
    after ([] : List (HloOp τ sig (Elt F))) (after (ops (F := F)) U) (Proc.devRef .tc main_v126) = val_main_v126 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg17)) (U (Proc.devRef .tc main_arg18)) := by
  rw [read_binary hW Writes.nil 149 (a := main_v123) (b := main_v125) (y := main_v126) rfl (by decide +kernel) (by decide +kernel) (by decide +kernel)]
  rw [s_main_v123 U, s_main_v125 U]
  rfl
theorem s_main_v127 (U : Valuation τ sig (Elt F)) :
    after ([] : List (HloOp τ sig (Elt F))) (after (ops (F := F)) U) (Proc.devRef .tc main_v127) = val_main_v127 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg17)) (U (Proc.devRef .tc main_arg18)) := by
  rw [read_binary hW Writes.nil 150 (a := main_v40) (b := main_v126) (y := main_v127) rfl (by decide +kernel) (by decide +kernel) (by decide +kernel)]
  rw [s_main_v40 U, s_main_v126 U]
  rfl
theorem s_main_v128 (U : Valuation τ sig (Elt F)) :
    after ([] : List (HloOp τ sig (Elt F))) (after (ops (F := F)) U) (Proc.devRef .tc main_v128) = val_main_v128 (F := F) (U (Proc.devRef .tc main_arg16)) := by
  rw [read_unary hW Writes.nil 151 (x := main_arg16) (y := main_v128) rfl (by decide +kernel) (by decide +kernel)]
  rw [kept_main_arg16 U]
  rfl
theorem s_main_v129 (U : Valuation τ sig (Elt F)) :
    after ([] : List (HloOp τ sig (Elt F))) (after (ops (F := F)) U) (Proc.devRef .tc main_v129) = val_main_v129 (F := F) (U (Proc.devRef .tc main_arg16)) := by
  rw [read_reshape hW Writes.nil 152 (x := main_v128) (y := main_v129) rfl (by decide +kernel) (by decide +kernel)]
  rw [s_main_v128 U]
  rfl
theorem s_main_v130 (U : Valuation τ sig (Elt F)) :
    after ([] : List (HloOp τ sig (Elt F))) (after (ops (F := F)) U) (Proc.devRef .tc main_v130) = val_main_v130 (F := F) (U (Proc.devRef .tc main_arg16)) := by
  rw [read_unary hW Writes.nil 153 (x := main_v129) (y := main_v130) rfl (by decide +kernel) (by decide +kernel)]
  rw [s_main_v129 U]
  rfl
theorem s_main_v131 (U : Valuation τ sig (Elt F)) :
    after ([] : List (HloOp τ sig (Elt F))) (after (ops (F := F)) U) (Proc.devRef .tc main_v131) = val_main_v131 (F := F) (U (Proc.devRef .tc main_arg16)) := by
  rw [read_unary hW Writes.nil 154 (x := main_v130) (y := main_v131) rfl (by decide +kernel) (by decide +kernel)]
  rw [s_main_v130 U]
  rfl
theorem s_main_v132 (U : Valuation τ sig (Elt F)) :
    after ([] : List (HloOp τ sig (Elt F))) (after (ops (F := F)) U) (Proc.devRef .tc main_v132) = val_main_v132 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 155 (a := main_v127) (b := main_v131) (y := main_v132) rfl (by decide +kernel) (by decide +kernel) (by decide +kernel)]
  rw [s_main_v127 U, s_main_v131 U]
  rfl
theorem s_main_v133 (U : Valuation τ sig (Elt F)) :
    after ([] : List (HloOp τ sig (Elt F))) (after (ops (F := F)) U) (Proc.devRef .tc main_v133) = val_main_v133 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 156 (a := main_v86) (b := main_v132) (y := main_v133) rfl (by decide +kernel) (by decide +kernel) (by decide +kernel)]
  rw [s_main_v86 U, s_main_v132 U]
  rfl
theorem s_main_v134 (U : Valuation τ sig (Elt F)) :
    after ([] : List (HloOp τ sig (Elt F))) (after (ops (F := F)) U) (Proc.devRef .tc main_v134) = val_main_v134 (F := F) (U (Proc.devRef .tc main_arg11)) := by
  rw [read_unary hW Writes.nil 157 (x := main_arg11) (y := main_v134) rfl (by decide +kernel) (by decide +kernel)]
  rw [kept_main_arg11 U]
  rfl
theorem s_main_v135 (U : Valuation τ sig (Elt F)) :
    after ([] : List (HloOp τ sig (Elt F))) (after (ops (F := F)) U) (Proc.devRef .tc main_v135) = val_main_v135 (F := F) (U (Proc.devRef .tc main_arg11)) := by
  rw [read_reshape hW Writes.nil 158 (x := main_v134) (y := main_v135) rfl (by decide +kernel) (by decide +kernel)]
  rw [s_main_v134 U]
  rfl
theorem s_main_v136 (U : Valuation τ sig (Elt F)) :
    after ([] : List (HloOp τ sig (Elt F))) (after (ops (F := F)) U) (Proc.devRef .tc main_v136) = val_main_v136 (F := F) (U (Proc.devRef .tc main_arg12)) := by
  rw [read_unary hW Writes.nil 159 (x := main_arg12) (y := main_v136) rfl (by decide +kernel) (by decide +kernel)]
  rw [kept_main_arg12 U]
  rfl
theorem s_main_v137 (U : Valuation τ sig (Elt F)) :
    after ([] : List (HloOp τ sig (Elt F))) (after (ops (F := F)) U) (Proc.devRef .tc main_v137) = val_main_v137 (F := F) (U (Proc.devRef .tc main_arg12)) := by
  rw [read_reshape hW Writes.nil 160 (x := main_v136) (y := main_v137) rfl (by decide +kernel) (by decide +kernel)]
  rw [s_main_v136 U]
  rfl
theorem s_main_cst_13 (U : Valuation τ sig (Elt F)) :
    after ([] : List (HloOp τ sig (Elt F))) (after (ops (F := F)) U) (Proc.devRef .tc main_cst_13) = val_main_cst_13 (F := F) := by
  rw [read_nullary hW Writes.nil 161 (y := main_cst_13) rfl (by decide +kernel)]
  rfl
theorem s_main_v138 (U : Valuation τ sig (Elt F)) :
    after ([] : List (HloOp τ sig (Elt F))) (after (ops (F := F)) U) (Proc.devRef .tc main_v138) = val_main_v138 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 162 (a := main_v86) (b := main_cst_13) (y := main_v138) rfl (by decide +kernel) (by decide +kernel) (by decide +kernel)]
  rw [s_main_v86 U, s_main_cst_13 U]
  rfl
theorem s_main_v139 (U : Valuation τ sig (Elt F)) :
    after ([] : List (HloOp τ sig (Elt F))) (after (ops (F := F)) U) (Proc.devRef .tc main_v139) = val_main_v139 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 163 (x := main_v138) (y := main_v139) rfl (by decide +kernel) (by decide +kernel)]
  rw [s_main_v138 U]
  rfl
theorem s_main_cst_14 (U : Valuation τ sig (Elt F)) :
    after ([] : List (HloOp τ sig (Elt F))) (after (ops (F := F)) U) (Proc.devRef .tc main_cst_14) = val_main_cst_14 (F := F) := by
  rw [read_nullary hW Writes.nil 164 (y := main_cst_14) rfl (by decide +kernel)]
  rfl
theorem s_main_v140 (U : Valuation τ sig (Elt F)) :
    after ([] : List (HloOp τ sig (Elt F))) (after (ops (F := F)) U) (Proc.devRef .tc main_v140) = val_main_v140 (F := F) := by
  rw [read_unary hW Writes.nil 165 (x := main_cst_14) (y := main_v140) rfl (by decide +kernel) (by decide +kernel)]
  rw [s_main_cst_14 U]
  rfl
theorem s_main_v141 (U : Valuation τ sig (Elt F)) :
    after ([] : List (HloOp τ sig (Elt F))) (after (ops (F := F)) U) (Proc.devRef .tc main_v141) = val_main_v141 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 166 (a := main_v139) (b := main_v140) (y := main_v141) rfl (by decide +kernel) (by decide +kernel) (by decide +kernel)]
  rw [s_main_v139 U, s_main_v140 U]
  rfl
theorem s_main_v142 (U : Valuation τ sig (Elt F)) :
    after ([] : List (HloOp τ sig (Elt F))) (after (ops (F := F)) U) (Proc.devRef .tc main_v142) = val_main_v142 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 167 (x := main_v141) (y := main_v142) rfl (by decide +kernel) (by decide +kernel)]
  rw [s_main_v141 U]
  rfl
theorem s_main_v143 (U : Valuation τ sig (Elt F)) :
    after ([] : List (HloOp τ sig (Elt F))) (after (ops (F := F)) U) (Proc.devRef .tc main_v143) = val_main_v143 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 168 (a := main_v86) (b := main_v142) (y := main_v143) rfl (by decide +kernel) (by decide +kernel) (by decide +kernel)]
  rw [s_main_v86 U, s_main_v142 U]
  rfl
theorem s_main_v144 (U : Valuation τ sig (Elt F)) :
    after ([] : List (HloOp τ sig (Elt F))) (after (ops (F := F)) U) (Proc.devRef .tc main_v144) = val_main_v144 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 169 (a := main_v143) (b := main_v143) (y := main_v144) rfl (by decide +kernel) (by decide +kernel) (by decide +kernel)]
  rw [s_main_v143 U]
  rfl
theorem s_main_cst_15 (U : Valuation τ sig (Elt F)) :
    after ([] : List (HloOp τ sig (Elt F))) (after (ops (F := F)) U) (Proc.devRef .tc main_cst_15) = val_main_cst_15 (F := F) := by
  rw [read_nullary hW Writes.nil 170 (y := main_cst_15) rfl (by decide +kernel)]
  rfl
theorem s_main_v145 (U : Valuation τ sig (Elt F)) :
    after ([] : List (HloOp τ sig (Elt F))) (after (ops (F := F)) U) (Proc.devRef .tc main_v145) = val_main_v145 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 171 (a := main_v144) (b := main_cst_15) (y := main_v145) rfl (by decide +kernel) (by decide +kernel) (by decide +kernel)]
  rw [s_main_v144 U, s_main_cst_15 U]
  rfl
theorem s_main_v146 (U : Valuation τ sig (Elt F)) :
    after ([] : List (HloOp τ sig (Elt F))) (after (ops (F := F)) U) (Proc.devRef .tc main_v146) = val_main_v146 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 172 (x := main_v145) (y := main_v146) rfl (by decide +kernel) (by decide +kernel)]
  rw [s_main_v145 U]
  rfl
theorem s_main_cst_16 (U : Valuation τ sig (Elt F)) :
    after ([] : List (HloOp τ sig (Elt F))) (after (ops (F := F)) U) (Proc.devRef .tc main_cst_16) = val_main_cst_16 (F := F) := by
  rw [read_nullary hW Writes.nil 173 (y := main_cst_16) rfl (by decide +kernel)]
  rfl
theorem s_main_v147 (U : Valuation τ sig (Elt F)) :
    after ([] : List (HloOp τ sig (Elt F))) (after (ops (F := F)) U) (Proc.devRef .tc main_v147) = val_main_v147 (F := F) := by
  rw [read_unary hW Writes.nil 174 (x := main_cst_16) (y := main_v147) rfl (by decide +kernel) (by decide +kernel)]
  rw [s_main_cst_16 U]
  rfl
theorem s_main_v148 (U : Valuation τ sig (Elt F)) :
    after ([] : List (HloOp τ sig (Elt F))) (after (ops (F := F)) U) (Proc.devRef .tc main_v148) = val_main_v148 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 175 (a := main_v146) (b := main_v147) (y := main_v148) rfl (by decide +kernel) (by decide +kernel) (by decide +kernel)]
  rw [s_main_v146 U, s_main_v147 U]
  rfl
theorem s_main_v149 (U : Valuation τ sig (Elt F)) :
    after ([] : List (HloOp τ sig (Elt F))) (after (ops (F := F)) U) (Proc.devRef .tc main_v149) = val_main_v149 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 176 (x := main_v141) (y := main_v149) rfl (by decide +kernel) (by decide +kernel)]
  rw [s_main_v141 U]
  rfl
theorem s_main_v150 (U : Valuation τ sig (Elt F)) :
    after ([] : List (HloOp τ sig (Elt F))) (after (ops (F := F)) U) (Proc.devRef .tc main_v150) = val_main_v150 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 177 (a := main_v86) (b := main_v149) (y := main_v150) rfl (by decide +kernel) (by decide +kernel) (by decide +kernel)]
  rw [s_main_v86 U, s_main_v149 U]
  rfl
theorem s_main_v151 (U : Valuation τ sig (Elt F)) :
    after ([] : List (HloOp τ sig (Elt F))) (after (ops (F := F)) U) (Proc.devRef .tc main_v151) = val_main_v151 (F := F) (U (Proc.devRef .tc main_arg11)) := by
  rw [read_unary hW Writes.nil 178 (x := main_v135) (y := main_v151) rfl (by decide +kernel) (by decide +kernel)]
  rw [s_main_v135 U]
  rfl
theorem s_main_v152 (U : Valuation τ sig (Elt F)) :
    after ([] : List (HloOp τ sig (Elt F))) (after (ops (F := F)) U) (Proc.devRef .tc main_v152) = val_main_v152 (F := F) (U (Proc.devRef .tc main_arg11)) := by
  rw [read_unary hW Writes.nil 179 (x := main_v151) (y := main_v152) rfl (by decide +kernel) (by decide +kernel)]
  rw [s_main_v151 U]
  rfl
theorem s_main_v153 (U : Valuation τ sig (Elt F)) :
    after ([] : List (HloOp τ sig (Elt F))) (after (ops (F := F)) U) (Proc.devRef .tc main_v153) = val_main_v153 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 180 (a := main_v152) (b := main_v150) (y := main_v153) rfl (by decide +kernel) (by decide +kernel) (by decide +kernel)]
  rw [s_main_v152 U, s_main_v150 U]
  rfl
theorem s_main_cst_17 (U : Valuation τ sig (Elt F)) :
    after ([] : List (HloOp τ sig (Elt F))) (after (ops (F := F)) U) (Proc.devRef .tc main_cst_17) = val_main_cst_17 (F := F) := by
  rw [read_nullary hW Writes.nil 181 (y := main_cst_17) rfl (by decide +kernel)]
  rfl
theorem s_main_v154 (U : Valuation τ sig (Elt F)) :
    after ([] : List (HloOp τ sig (Elt F))) (after (ops (F := F)) U) (Proc.devRef .tc main_v154) = val_main_v154 (F := F) := by
  rw [read_unary hW Writes.nil 182 (x := main_cst_17) (y := main_v154) rfl (by decide +kernel) (by decide +kernel)]
  rw [s_main_cst_17 U]
  rfl
theorem s_main_v155 (U : Valuation τ sig (Elt F)) :
    after ([] : List (HloOp τ sig (Elt F))) (after (ops (F := F)) U) (Proc.devRef .tc main_v155) = val_main_v155 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 183 (a := main_v148) (b := main_v154) (y := main_v155) rfl (by decide +kernel) (by decide +kernel) (by decide +kernel)]
  rw [s_main_v148 U, s_main_v154 U]
  rfl
theorem s_main_v156 (U : Valuation τ sig (Elt F)) :
    after ([] : List (HloOp τ sig (Elt F))) (after (ops (F := F)) U) (Proc.devRef .tc main_v156) = val_main_v156 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 184 (x := main_v155) (y := main_v156) rfl (by decide +kernel) (by decide +kernel)]
  rw [s_main_v155 U]
  rfl
theorem s_main_v157 (U : Valuation τ sig (Elt F)) :
    after ([] : List (HloOp τ sig (Elt F))) (after (ops (F := F)) U) (Proc.devRef .tc main_v157) = val_main_v157 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_unary hW Writes.nil 185 (x := main_v156) (y := main_v157) rfl (by decide +kernel) (by decide +kernel)]
  rw [s_main_v156 U]
  rfl
theorem s_main_v158 (U : Valuation τ sig (Elt F)) :
    after ([] : List (HloOp τ sig (Elt F))) (after (ops (F := F)) U) (Proc.devRef .tc main_v158) = val_main_v158 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 186 (a := main_v153) (b := main_v157) (y := main_v158) rfl (by decide +kernel) (by decide +kernel) (by decide +kernel)]
  rw [s_main_v153 U, s_main_v157 U]
  rfl
theorem s_main_v159 (U : Valuation τ sig (Elt F)) :
    after ([] : List (HloOp τ sig (Elt F))) (after (ops (F := F)) U) (Proc.devRef .tc main_v159) = val_main_v159 (F := F) (U (Proc.devRef .tc main_arg12)) := by
  rw [read_unary hW Writes.nil 187 (x := main_v137) (y := main_v159) rfl (by decide +kernel) (by decide +kernel)]
  rw [s_main_v137 U]
  rfl
theorem s_main_v160 (U : Valuation τ sig (Elt F)) :
    after ([] : List (HloOp τ sig (Elt F))) (after (ops (F := F)) U) (Proc.devRef .tc main_v160) = val_main_v160 (F := F) (U (Proc.devRef .tc main_arg12)) := by
  rw [read_unary hW Writes.nil 188 (x := main_v159) (y := main_v160) rfl (by decide +kernel) (by decide +kernel)]
  rw [s_main_v159 U]
  rfl
theorem s_main_v161 (U : Valuation τ sig (Elt F)) :
    after ([] : List (HloOp τ sig (Elt F))) (after (ops (F := F)) U) (Proc.devRef .tc main_v161) = val_main_v161 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 189 (a := main_v158) (b := main_v160) (y := main_v161) rfl (by decide +kernel) (by decide +kernel) (by decide +kernel)]
  rw [s_main_v158 U, s_main_v160 U]
  rfl
theorem s_main_v162 (U : Valuation τ sig (Elt F)) :
    after ([] : List (HloOp τ sig (Elt F))) (after (ops (F := F)) U) (Proc.devRef .tc main_v162) = val_main_v162 (F := F) (U (Proc.devRef .tc main_arg7)) := by
  rw [read_unary hW Writes.nil 190 (x := main_arg7) (y := main_v162) rfl (by decide +kernel) (by decide +kernel)]
  rw [kept_main_arg7 U]
  rfl
theorem s_main_v163 (U : Valuation τ sig (Elt F)) :
    after ([] : List (HloOp τ sig (Elt F))) (after (ops (F := F)) U) (Proc.devRef .tc main_v163) = val_main_v163 (F := F) (U (Proc.devRef .tc main_arg7)) := by
  rw [read_reshape hW Writes.nil 191 (x := main_v162) (y := main_v163) rfl (by decide +kernel) (by decide +kernel)]
  rw [s_main_v162 U]
  rfl
theorem s_main_v164 (U : Valuation τ sig (Elt F)) :
    after ([] : List (HloOp τ sig (Elt F))) (after (ops (F := F)) U) (Proc.devRef .tc main_v164) = val_main_v164 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 192 (a := main_v161) (b := main_v163) (y := main_v164) rfl (by decide +kernel) (by decide +kernel) (by decide +kernel)]
  rw [s_main_v161 U, s_main_v163 U]
  rfl
theorem s_main_v165 (U : Valuation τ sig (Elt F)) :
    after ([] : List (HloOp τ sig (Elt F))) (after (ops (F := F)) U) (Proc.devRef .tc main_v165) = val_main_v165 (F := F) (U (Proc.devRef .tc main_arg8)) := by
  rw [read_unary hW Writes.nil 193 (x := main_arg8) (y := main_v165) rfl (by decide +kernel) (by decide +kernel)]
  rw [kept_main_arg8 U]
  rfl
theorem s_main_v166 (U : Valuation τ sig (Elt F)) :
    after ([] : List (HloOp τ sig (Elt F))) (after (ops (F := F)) U) (Proc.devRef .tc main_v166) = val_main_v166 (F := F) (U (Proc.devRef .tc main_arg8)) := by
  rw [read_reshape hW Writes.nil 194 (x := main_v165) (y := main_v166) rfl (by decide +kernel) (by decide +kernel)]
  rw [s_main_v165 U]
  rfl
theorem s_main_v167 (U : Valuation τ sig (Elt F)) :
    after ([] : List (HloOp τ sig (Elt F))) (after (ops (F := F)) U) (Proc.devRef .tc main_v167) = val_main_v167 (F := F) (U (Proc.devRef .tc main_arg8)) := by
  rw [read_unary hW Writes.nil 195 (x := main_v166) (y := main_v167) rfl (by decide +kernel) (by decide +kernel)]
  rw [s_main_v166 U]
  rfl
theorem s_main_v168 (U : Valuation τ sig (Elt F)) :
    after ([] : List (HloOp τ sig (Elt F))) (after (ops (F := F)) U) (Proc.devRef .tc main_v168) = val_main_v168 (F := F) (U (Proc.devRef .tc main_arg8)) := by
  rw [read_unary hW Writes.nil 196 (x := main_v167) (y := main_v168) rfl (by decide +kernel) (by decide +kernel)]
  rw [s_main_v167 U]
  rfl
theorem s_main_v169 (U : Valuation τ sig (Elt F)) :
    after ([] : List (HloOp τ sig (Elt F))) (after (ops (F := F)) U) (Proc.devRef .tc main_v169) = val_main_v169 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 197 (a := main_v164) (b := main_v168) (y := main_v169) rfl (by decide +kernel) (by decide +kernel) (by decide +kernel)]
  rw [s_main_v164 U, s_main_v168 U]
  rfl
theorem s_main_call4_cst (U : Valuation τ sig (Elt F)) :
    after ([] : List (HloOp τ sig (Elt F))) (after (ops (F := F)) U) (Proc.devRef .tc main_call4_cst) = val_main_call4_cst (F := F) := by
  rw [read_nullary hW Writes.nil 198 (y := main_call4_cst) rfl (by decide +kernel)]
  rfl
theorem s_main_call4_v0 (U : Valuation τ sig (Elt F)) :
    after ([] : List (HloOp τ sig (Elt F))) (after (ops (F := F)) U) (Proc.devRef .tc main_call4_v0) = val_main_call4_v0 (F := F) := by
  rw [read_unary hW Writes.nil 199 (x := main_call4_cst) (y := main_call4_v0) rfl (by decide +kernel) (by decide +kernel)]
  rw [s_main_call4_cst U]
  rfl
theorem s_main_v170 (U : Valuation τ sig (Elt F)) :
    after ([] : List (HloOp τ sig (Elt F))) (after (ops (F := F)) U) (Proc.devRef .tc main_v170) = val_main_v170 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 200 (a := main_v169) (b := main_call4_v0) (y := main_v170) rfl (by decide +kernel) (by decide +kernel) (by decide +kernel)]
  rw [s_main_v169 U, s_main_call4_v0 U]
  rfl
theorem s_main_v171 (U : Valuation τ sig (Elt F)) :
    after ([] : List (HloOp τ sig (Elt F))) (after (ops (F := F)) U) (Proc.devRef .tc main_v171) = val_main_v171 (F := F) (U (Proc.devRef .tc main_arg9)) := by
  rw [read_unary hW Writes.nil 201 (x := main_arg9) (y := main_v171) rfl (by decide +kernel) (by decide +kernel)]
  rw [kept_main_arg9 U]
  rfl
theorem s_main_v172 (U : Valuation τ sig (Elt F)) :
    after ([] : List (HloOp τ sig (Elt F))) (after (ops (F := F)) U) (Proc.devRef .tc main_v172) = val_main_v172 (F := F) (U (Proc.devRef .tc main_arg9)) := by
  rw [read_reshape hW Writes.nil 202 (x := main_v171) (y := main_v172) rfl (by decide +kernel) (by decide +kernel)]
  rw [s_main_v171 U]
  rfl
theorem s_main_v173 (U : Valuation τ sig (Elt F)) :
    after ([] : List (HloOp τ sig (Elt F))) (after (ops (F := F)) U) (Proc.devRef .tc main_v173) = val_main_v173 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 203 (a := main_v170) (b := main_v172) (y := main_v173) rfl (by decide +kernel) (by decide +kernel) (by decide +kernel)]
  rw [s_main_v170 U, s_main_v172 U]
  rfl
theorem s_main_v174 (U : Valuation τ sig (Elt F)) :
    after ([] : List (HloOp τ sig (Elt F))) (after (ops (F := F)) U) (Proc.devRef .tc main_v174) = val_main_v174 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 204 (a := main_v86) (b := main_v173) (y := main_v174) rfl (by decide +kernel) (by decide +kernel) (by decide +kernel)]
  rw [s_main_v86 U, s_main_v173 U]
  rfl
theorem s_main_v175 (U : Valuation τ sig (Elt F)) :
    after ([] : List (HloOp τ sig (Elt F))) (after (ops (F := F)) U) (Proc.devRef .tc main_v175) = val_main_v175 (F := F) (U (Proc.devRef .tc main_arg10)) := by
  rw [read_unary hW Writes.nil 205 (x := main_arg10) (y := main_v175) rfl (by decide +kernel) (by decide +kernel)]
  rw [kept_main_arg10 U]
  rfl
theorem s_main_v176 (U : Valuation τ sig (Elt F)) :
    after ([] : List (HloOp τ sig (Elt F))) (after (ops (F := F)) U) (Proc.devRef .tc main_v176) = val_main_v176 (F := F) (U (Proc.devRef .tc main_arg10)) := by
  rw [read_reshape hW Writes.nil 206 (x := main_v175) (y := main_v176) rfl (by decide +kernel) (by decide +kernel)]
  rw [s_main_v175 U]
  rfl
theorem s_main_v177 (U : Valuation τ sig (Elt F)) :
    after ([] : List (HloOp τ sig (Elt F))) (after (ops (F := F)) U) (Proc.devRef .tc main_v177) = val_main_v177 (F := F) (U (Proc.devRef .tc main_arg10)) := by
  rw [read_unary hW Writes.nil 207 (x := main_v176) (y := main_v177) rfl (by decide +kernel) (by decide +kernel)]
  rw [s_main_v176 U]
  rfl
theorem s_main_v178 (U : Valuation τ sig (Elt F)) :
    after ([] : List (HloOp τ sig (Elt F))) (after (ops (F := F)) U) (Proc.devRef .tc main_v178) = val_main_v178 (F := F) (U (Proc.devRef .tc main_arg10)) := by
  rw [read_unary hW Writes.nil 208 (x := main_v177) (y := main_v178) rfl (by decide +kernel) (by decide +kernel)]
  rw [s_main_v177 U]
  rfl
theorem s_main_v179 (U : Valuation τ sig (Elt F)) :
    after ([] : List (HloOp τ sig (Elt F))) (after (ops (F := F)) U) (Proc.devRef .tc main_v179) = val_main_v179 (F := F) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) (U (Proc.devRef .tc main_arg11)) (U (Proc.devRef .tc main_arg12)) := by
  rw [read_binary hW Writes.nil 209 (a := main_v174) (b := main_v178) (y := main_v179) rfl (by decide +kernel) (by decide +kernel) (by decide +kernel)]
  rw [s_main_v174 U, s_main_v178 U]
  rfl
theorem s_main_v180 (U : Valuation τ sig (Elt F)) :
    after ([] : List (HloOp τ sig (Elt F))) (after (ops (F := F)) U) (Proc.devRef .tc main_v180) = val_main_v180 (F := F) (U (Proc.devRef .tc main_arg17)) := by
  rw [read_unary hW Writes.nil 210 (x := main_arg17) (y := main_v180) rfl (by decide +kernel) (by decide +kernel)]
  rw [kept_main_arg17 U]
  rfl
theorem s_main_v181 (U : Valuation τ sig (Elt F)) :
    after ([] : List (HloOp τ sig (Elt F))) (after (ops (F := F)) U) (Proc.devRef .tc main_v181) = val_main_v181 (F := F) (U (Proc.devRef .tc main_arg17)) := by
  rw [read_reshape hW Writes.nil 211 (x := main_v180) (y := main_v181) rfl (by decide +kernel) (by decide +kernel)]
  rw [s_main_v180 U]
  rfl
theorem s_main_v182 (U : Valuation τ sig (Elt F)) :
    after ([] : List (HloOp τ sig (Elt F))) (after (ops (F := F)) U) (Proc.devRef .tc main_v182) = val_main_v182 (F := F) (U (Proc.devRef .tc main_arg18)) := by
  rw [read_unary hW Writes.nil 212 (x := main_arg18) (y := main_v182) rfl (by decide +kernel) (by decide +kernel)]
  rw [kept_main_arg18 U]
  rfl
theorem s_main_v183 (U : Valuation τ sig (Elt F)) :
    after ([] : List (HloOp τ sig (Elt F))) (after (ops (F := F)) U) (Proc.devRef .tc main_v183) = val_main_v183 (F := F) (U (Proc.devRef .tc main_arg18)) := by
  rw [read_reshape hW Writes.nil 213 (x := main_v182) (y := main_v183) rfl (by decide +kernel) (by decide +kernel)]
  rw [s_main_v182 U]
  rfl
theorem s_main_cst_18 (U : Valuation τ sig (Elt F)) :
    after ([] : List (HloOp τ sig (Elt F))) (after (ops (F := F)) U) (Proc.devRef .tc main_cst_18) = val_main_cst_18 (F := F) := by
  rw [read_nullary hW Writes.nil 214 (y := main_cst_18) rfl (by decide +kernel)]
  rfl
theorem s_main_v184 (U : Valuation τ sig (Elt F)) :
    after ([] : List (HloOp τ sig (Elt F))) (after (ops (F := F)) U) (Proc.devRef .tc main_v184) = val_main_v184 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 215 (a := main_v132) (b := main_cst_18) (y := main_v184) rfl (by decide +kernel) (by decide +kernel) (by decide +kernel)]
  rw [s_main_v132 U, s_main_cst_18 U]
  rfl
theorem s_main_v185 (U : Valuation τ sig (Elt F)) :
    after ([] : List (HloOp τ sig (Elt F))) (after (ops (F := F)) U) (Proc.devRef .tc main_v185) = val_main_v185 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 216 (x := main_v184) (y := main_v185) rfl (by decide +kernel) (by decide +kernel)]
  rw [s_main_v184 U]
  rfl
theorem s_main_cst_19 (U : Valuation τ sig (Elt F)) :
    after ([] : List (HloOp τ sig (Elt F))) (after (ops (F := F)) U) (Proc.devRef .tc main_cst_19) = val_main_cst_19 (F := F) := by
  rw [read_nullary hW Writes.nil 217 (y := main_cst_19) rfl (by decide +kernel)]
  rfl
theorem s_main_v186 (U : Valuation τ sig (Elt F)) :
    after ([] : List (HloOp τ sig (Elt F))) (after (ops (F := F)) U) (Proc.devRef .tc main_v186) = val_main_v186 (F := F) := by
  rw [read_unary hW Writes.nil 218 (x := main_cst_19) (y := main_v186) rfl (by decide +kernel) (by decide +kernel)]
  rw [s_main_cst_19 U]
  rfl
theorem s_main_v187 (U : Valuation τ sig (Elt F)) :
    after ([] : List (HloOp τ sig (Elt F))) (after (ops (F := F)) U) (Proc.devRef .tc main_v187) = val_main_v187 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 219 (a := main_v185) (b := main_v186) (y := main_v187) rfl (by decide +kernel) (by decide +kernel) (by decide +kernel)]
  rw [s_main_v185 U, s_main_v186 U]
  rfl
theorem s_main_v188 (U : Valuation τ sig (Elt F)) :
    after ([] : List (HloOp τ sig (Elt F))) (after (ops (F := F)) U) (Proc.devRef .tc main_v188) = val_main_v188 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 220 (x := main_v187) (y := main_v188) rfl (by decide +kernel) (by decide +kernel)]
  rw [s_main_v187 U]
  rfl
theorem s_main_v189 (U : Valuation τ sig (Elt F)) :
    after ([] : List (HloOp τ sig (Elt F))) (after (ops (F := F)) U) (Proc.devRef .tc main_v189) = val_main_v189 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 221 (a := main_v132) (b := main_v188) (y := main_v189) rfl (by decide +kernel) (by decide +kernel) (by decide +kernel)]
  rw [s_main_v132 U, s_main_v188 U]
  rfl
theorem s_main_v190 (U : Valuation τ sig (Elt F)) :
    after ([] : List (HloOp τ sig (Elt F))) (after (ops (F := F)) U) (Proc.devRef .tc main_v190) = val_main_v190 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 222 (a := main_v189) (b := main_v189) (y := main_v190) rfl (by decide +kernel) (by decide +kernel) (by decide +kernel)]
  rw [s_main_v189 U]
  rfl
theorem s_main_cst_20 (U : Valuation τ sig (Elt F)) :
    after ([] : List (HloOp τ sig (Elt F))) (after (ops (F := F)) U) (Proc.devRef .tc main_cst_20) = val_main_cst_20 (F := F) := by
  rw [read_nullary hW Writes.nil 223 (y := main_cst_20) rfl (by decide +kernel)]
  rfl
theorem s_main_v191 (U : Valuation τ sig (Elt F)) :
    after ([] : List (HloOp τ sig (Elt F))) (after (ops (F := F)) U) (Proc.devRef .tc main_v191) = val_main_v191 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 224 (a := main_v190) (b := main_cst_20) (y := main_v191) rfl (by decide +kernel) (by decide +kernel) (by decide +kernel)]
  rw [s_main_v190 U, s_main_cst_20 U]
  rfl
theorem s_main_v192 (U : Valuation τ sig (Elt F)) :
    after ([] : List (HloOp τ sig (Elt F))) (after (ops (F := F)) U) (Proc.devRef .tc main_v192) = val_main_v192 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 225 (x := main_v191) (y := main_v192) rfl (by decide +kernel) (by decide +kernel)]
  rw [s_main_v191 U]
  rfl
theorem s_main_cst_21 (U : Valuation τ sig (Elt F)) :
    after ([] : List (HloOp τ sig (Elt F))) (after (ops (F := F)) U) (Proc.devRef .tc main_cst_21) = val_main_cst_21 (F := F) := by
  rw [read_nullary hW Writes.nil 226 (y := main_cst_21) rfl (by decide +kernel)]
  rfl
theorem s_main_v193 (U : Valuation τ sig (Elt F)) :
    after ([] : List (HloOp τ sig (Elt F))) (after (ops (F := F)) U) (Proc.devRef .tc main_v193) = val_main_v193 (F := F) := by
  rw [read_unary hW Writes.nil 227 (x := main_cst_21) (y := main_v193) rfl (by decide +kernel) (by decide +kernel)]
  rw [s_main_cst_21 U]
  rfl
theorem s_main_v194 (U : Valuation τ sig (Elt F)) :
    after ([] : List (HloOp τ sig (Elt F))) (after (ops (F := F)) U) (Proc.devRef .tc main_v194) = val_main_v194 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 228 (a := main_v192) (b := main_v193) (y := main_v194) rfl (by decide +kernel) (by decide +kernel) (by decide +kernel)]
  rw [s_main_v192 U, s_main_v193 U]
  rfl
theorem s_main_v195 (U : Valuation τ sig (Elt F)) :
    after ([] : List (HloOp τ sig (Elt F))) (after (ops (F := F)) U) (Proc.devRef .tc main_v195) = val_main_v195 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 229 (x := main_v187) (y := main_v195) rfl (by decide +kernel) (by decide +kernel)]
  rw [s_main_v187 U]
  rfl
theorem s_main_v196 (U : Valuation τ sig (Elt F)) :
    after ([] : List (HloOp τ sig (Elt F))) (after (ops (F := F)) U) (Proc.devRef .tc main_v196) = val_main_v196 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 230 (a := main_v132) (b := main_v195) (y := main_v196) rfl (by decide +kernel) (by decide +kernel) (by decide +kernel)]
  rw [s_main_v132 U, s_main_v195 U]
  rfl
theorem s_main_v197 (U : Valuation τ sig (Elt F)) :
    after ([] : List (HloOp τ sig (Elt F))) (after (ops (F := F)) U) (Proc.devRef .tc main_v197) = val_main_v197 (F := F) (U (Proc.devRef .tc main_arg17)) := by
  rw [read_unary hW Writes.nil 231 (x := main_v181) (y := main_v197) rfl (by decide +kernel) (by decide +kernel)]
  rw [s_main_v181 U]
  rfl
theorem s_main_v198 (U : Valuation τ sig (Elt F)) :
    after ([] : List (HloOp τ sig (Elt F))) (after (ops (F := F)) U) (Proc.devRef .tc main_v198) = val_main_v198 (F := F) (U (Proc.devRef .tc main_arg17)) := by
  rw [read_unary hW Writes.nil 232 (x := main_v197) (y := main_v198) rfl (by decide +kernel) (by decide +kernel)]
  rw [s_main_v197 U]
  rfl
theorem s_main_v199 (U : Valuation τ sig (Elt F)) :
    after ([] : List (HloOp τ sig (Elt F))) (after (ops (F := F)) U) (Proc.devRef .tc main_v199) = val_main_v199 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 233 (a := main_v198) (b := main_v196) (y := main_v199) rfl (by decide +kernel) (by decide +kernel) (by decide +kernel)]
  rw [s_main_v198 U, s_main_v196 U]
  rfl
theorem s_main_cst_22 (U : Valuation τ sig (Elt F)) :
    after ([] : List (HloOp τ sig (Elt F))) (after (ops (F := F)) U) (Proc.devRef .tc main_cst_22) = val_main_cst_22 (F := F) := by
  rw [read_nullary hW Writes.nil 234 (y := main_cst_22) rfl (by decide +kernel)]
  rfl
theorem s_main_v200 (U : Valuation τ sig (Elt F)) :
    after ([] : List (HloOp τ sig (Elt F))) (after (ops (F := F)) U) (Proc.devRef .tc main_v200) = val_main_v200 (F := F) := by
  rw [read_unary hW Writes.nil 235 (x := main_cst_22) (y := main_v200) rfl (by decide +kernel) (by decide +kernel)]
  rw [s_main_cst_22 U]
  rfl
theorem s_main_v201 (U : Valuation τ sig (Elt F)) :
    after ([] : List (HloOp τ sig (Elt F))) (after (ops (F := F)) U) (Proc.devRef .tc main_v201) = val_main_v201 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 236 (a := main_v194) (b := main_v200) (y := main_v201) rfl (by decide +kernel) (by decide +kernel) (by decide +kernel)]
  rw [s_main_v194 U, s_main_v200 U]
  rfl
theorem s_main_v202 (U : Valuation τ sig (Elt F)) :
    after ([] : List (HloOp τ sig (Elt F))) (after (ops (F := F)) U) (Proc.devRef .tc main_v202) = val_main_v202 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 237 (x := main_v201) (y := main_v202) rfl (by decide +kernel) (by decide +kernel)]
  rw [s_main_v201 U]
  rfl
theorem s_main_v203 (U : Valuation τ sig (Elt F)) :
    after ([] : List (HloOp τ sig (Elt F))) (after (ops (F := F)) U) (Proc.devRef .tc main_v203) = val_main_v203 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 238 (x := main_v202) (y := main_v203) rfl (by decide +kernel) (by decide +kernel)]
  rw [s_main_v202 U]
  rfl
theorem s_main_v204 (U : Valuation τ sig (Elt F)) :
    after ([] : List (HloOp τ sig (Elt F))) (after (ops (F := F)) U) (Proc.devRef .tc main_v204) = val_main_v204 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 239 (a := main_v199) (b := main_v203) (y := main_v204) rfl (by decide +kernel) (by decide +kernel) (by decide +kernel)]
  rw [s_main_v199 U, s_main_v203 U]
  rfl
theorem s_main_v205 (U : Valuation τ sig (Elt F)) :
    after ([] : List (HloOp τ sig (Elt F))) (after (ops (F := F)) U) (Proc.devRef .tc main_v205) = val_main_v205 (F := F) (U (Proc.devRef .tc main_arg18)) := by
  rw [read_unary hW Writes.nil 240 (x := main_v183) (y := main_v205) rfl (by decide +kernel) (by decide +kernel)]
  rw [s_main_v183 U]
  rfl
theorem s_main_v206 (U : Valuation τ sig (Elt F)) :
    after ([] : List (HloOp τ sig (Elt F))) (after (ops (F := F)) U) (Proc.devRef .tc main_v206) = val_main_v206 (F := F) (U (Proc.devRef .tc main_arg18)) := by
  rw [read_unary hW Writes.nil 241 (x := main_v205) (y := main_v206) rfl (by decide +kernel) (by decide +kernel)]
  rw [s_main_v205 U]
  rfl
theorem s_main_v207 (U : Valuation τ sig (Elt F)) :
    after ([] : List (HloOp τ sig (Elt F))) (after (ops (F := F)) U) (Proc.devRef .tc main_v207) = val_main_v207 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 242 (a := main_v204) (b := main_v206) (y := main_v207) rfl (by decide +kernel) (by decide +kernel) (by decide +kernel)]
  rw [s_main_v204 U, s_main_v206 U]
  rfl
theorem s_main_v208 (U : Valuation τ sig (Elt F)) :
    after ([] : List (HloOp τ sig (Elt F))) (after (ops (F := F)) U) (Proc.devRef .tc main_v208) = val_main_v208 (F := F) (U (Proc.devRef .tc main_arg13)) := by
  rw [read_unary hW Writes.nil 243 (x := main_arg13) (y := main_v208) rfl (by decide +kernel) (by decide +kernel)]
  rw [kept_main_arg13 U]
  rfl
theorem s_main_v209 (U : Valuation τ sig (Elt F)) :
    after ([] : List (HloOp τ sig (Elt F))) (after (ops (F := F)) U) (Proc.devRef .tc main_v209) = val_main_v209 (F := F) (U (Proc.devRef .tc main_arg13)) := by
  rw [read_reshape hW Writes.nil 244 (x := main_v208) (y := main_v209) rfl (by decide +kernel) (by decide +kernel)]
  rw [s_main_v208 U]
  rfl
theorem s_main_v210 (U : Valuation τ sig (Elt F)) :
    after ([] : List (HloOp τ sig (Elt F))) (after (ops (F := F)) U) (Proc.devRef .tc main_v210) = val_main_v210 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 245 (a := main_v207) (b := main_v209) (y := main_v210) rfl (by decide +kernel) (by decide +kernel) (by decide +kernel)]
  rw [s_main_v207 U, s_main_v209 U]
  rfl
theorem s_main_v211 (U : Valuation τ sig (Elt F)) :
    after ([] : List (HloOp τ sig (Elt F))) (after (ops (F := F)) U) (Proc.devRef .tc main_v211) = val_main_v211 (F := F) (U (Proc.devRef .tc main_arg14)) := by
  rw [read_unary hW Writes.nil 246 (x := main_arg14) (y := main_v211) rfl (by decide +kernel) (by decide +kernel)]
  rw [kept_main_arg14 U]
  rfl
theorem s_main_v212 (U : Valuation τ sig (Elt F)) :
    after ([] : List (HloOp τ sig (Elt F))) (after (ops (F := F)) U) (Proc.devRef .tc main_v212) = val_main_v212 (F := F) (U (Proc.devRef .tc main_arg14)) := by
  rw [read_reshape hW Writes.nil 247 (x := main_v211) (y := main_v212) rfl (by decide +kernel) (by decide +kernel)]
  rw [s_main_v211 U]
  rfl
theorem s_main_v213 (U : Valuation τ sig (Elt F)) :
    after ([] : List (HloOp τ sig (Elt F))) (after (ops (F := F)) U) (Proc.devRef .tc main_v213) = val_main_v213 (F := F) (U (Proc.devRef .tc main_arg14)) := by
  rw [read_unary hW Writes.nil 248 (x := main_v212) (y := main_v213) rfl (by decide +kernel) (by decide +kernel)]
  rw [s_main_v212 U]
  rfl
theorem s_main_v214 (U : Valuation τ sig (Elt F)) :
    after ([] : List (HloOp τ sig (Elt F))) (after (ops (F := F)) U) (Proc.devRef .tc main_v214) = val_main_v214 (F := F) (U (Proc.devRef .tc main_arg14)) := by
  rw [read_unary hW Writes.nil 249 (x := main_v213) (y := main_v214) rfl (by decide +kernel) (by decide +kernel)]
  rw [s_main_v213 U]
  rfl
theorem s_main_v215 (U : Valuation τ sig (Elt F)) :
    after ([] : List (HloOp τ sig (Elt F))) (after (ops (F := F)) U) (Proc.devRef .tc main_v215) = val_main_v215 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 250 (a := main_v210) (b := main_v214) (y := main_v215) rfl (by decide +kernel) (by decide +kernel) (by decide +kernel)]
  rw [s_main_v210 U, s_main_v214 U]
  rfl
theorem s_main_call5_cst (U : Valuation τ sig (Elt F)) :
    after ([] : List (HloOp τ sig (Elt F))) (after (ops (F := F)) U) (Proc.devRef .tc main_call5_cst) = val_main_call5_cst (F := F) := by
  rw [read_nullary hW Writes.nil 251 (y := main_call5_cst) rfl (by decide +kernel)]
  rfl
theorem s_main_call5_v0 (U : Valuation τ sig (Elt F)) :
    after ([] : List (HloOp τ sig (Elt F))) (after (ops (F := F)) U) (Proc.devRef .tc main_call5_v0) = val_main_call5_v0 (F := F) := by
  rw [read_unary hW Writes.nil 252 (x := main_call5_cst) (y := main_call5_v0) rfl (by decide +kernel) (by decide +kernel)]
  rw [s_main_call5_cst U]
  rfl
theorem s_main_v216 (U : Valuation τ sig (Elt F)) :
    after ([] : List (HloOp τ sig (Elt F))) (after (ops (F := F)) U) (Proc.devRef .tc main_v216) = val_main_v216 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 253 (a := main_v215) (b := main_call5_v0) (y := main_v216) rfl (by decide +kernel) (by decide +kernel) (by decide +kernel)]
  rw [s_main_v215 U, s_main_call5_v0 U]
  rfl
theorem s_main_v217 (U : Valuation τ sig (Elt F)) :
    after ([] : List (HloOp τ sig (Elt F))) (after (ops (F := F)) U) (Proc.devRef .tc main_v217) = val_main_v217 (F := F) (U (Proc.devRef .tc main_arg15)) := by
  rw [read_unary hW Writes.nil 254 (x := main_arg15) (y := main_v217) rfl (by decide +kernel) (by decide +kernel)]
  rw [kept_main_arg15 U]
  rfl
theorem s_main_v218 (U : Valuation τ sig (Elt F)) :
    after ([] : List (HloOp τ sig (Elt F))) (after (ops (F := F)) U) (Proc.devRef .tc main_v218) = val_main_v218 (F := F) (U (Proc.devRef .tc main_arg15)) := by
  rw [read_reshape hW Writes.nil 255 (x := main_v217) (y := main_v218) rfl (by decide +kernel) (by decide +kernel)]
  rw [s_main_v217 U]
  rfl
theorem s_main_v219 (U : Valuation τ sig (Elt F)) :
    after ([] : List (HloOp τ sig (Elt F))) (after (ops (F := F)) U) (Proc.devRef .tc main_v219) = val_main_v219 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 256 (a := main_v216) (b := main_v218) (y := main_v219) rfl (by decide +kernel) (by decide +kernel) (by decide +kernel)]
  rw [s_main_v216 U, s_main_v218 U]
  rfl
theorem s_main_v220 (U : Valuation τ sig (Elt F)) :
    after ([] : List (HloOp τ sig (Elt F))) (after (ops (F := F)) U) (Proc.devRef .tc main_v220) = val_main_v220 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 257 (a := main_v132) (b := main_v219) (y := main_v220) rfl (by decide +kernel) (by decide +kernel) (by decide +kernel)]
  rw [s_main_v132 U, s_main_v219 U]
  rfl
theorem s_main_v221 (U : Valuation τ sig (Elt F)) :
    after ([] : List (HloOp τ sig (Elt F))) (after (ops (F := F)) U) (Proc.devRef .tc main_v221) = val_main_v221 (F := F) (U (Proc.devRef .tc main_arg16)) := by
  rw [read_unary hW Writes.nil 258 (x := main_arg16) (y := main_v221) rfl (by decide +kernel) (by decide +kernel)]
  rw [kept_main_arg16 U]
  rfl
theorem s_main_v222 (U : Valuation τ sig (Elt F)) :
    after ([] : List (HloOp τ sig (Elt F))) (after (ops (F := F)) U) (Proc.devRef .tc main_v222) = val_main_v222 (F := F) (U (Proc.devRef .tc main_arg16)) := by
  rw [read_reshape hW Writes.nil 259 (x := main_v221) (y := main_v222) rfl (by decide +kernel) (by decide +kernel)]
  rw [s_main_v221 U]
  rfl
theorem s_main_v223 (U : Valuation τ sig (Elt F)) :
    after ([] : List (HloOp τ sig (Elt F))) (after (ops (F := F)) U) (Proc.devRef .tc main_v223) = val_main_v223 (F := F) (U (Proc.devRef .tc main_arg16)) := by
  rw [read_unary hW Writes.nil 260 (x := main_v222) (y := main_v223) rfl (by decide +kernel) (by decide +kernel)]
  rw [s_main_v222 U]
  rfl
theorem s_main_v224 (U : Valuation τ sig (Elt F)) :
    after ([] : List (HloOp τ sig (Elt F))) (after (ops (F := F)) U) (Proc.devRef .tc main_v224) = val_main_v224 (F := F) (U (Proc.devRef .tc main_arg16)) := by
  rw [read_unary hW Writes.nil 261 (x := main_v223) (y := main_v224) rfl (by decide +kernel) (by decide +kernel)]
  rw [s_main_v223 U]
  rfl
theorem s_main_v225 (U : Valuation τ sig (Elt F)) :
    after ([] : List (HloOp τ sig (Elt F))) (after (ops (F := F)) U) (Proc.devRef .tc main_v225) = val_main_v225 (F := F) (U (Proc.devRef .tc main_arg0)) (U (Proc.devRef .tc main_arg1)) (U (Proc.devRef .tc main_arg2)) (U (Proc.devRef .tc main_arg5)) (U (Proc.devRef .tc main_arg6)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 262 (a := main_v220) (b := main_v224) (y := main_v225) rfl (by decide +kernel) (by decide +kernel) (by decide +kernel)]
  rw [s_main_v220 U, s_main_v224 U]
  rfl
theorem s_main_v226 (U : Valuation τ sig (Elt F)) :
    after ([] : List (HloOp τ sig (Elt F))) (after (ops (F := F)) U) (Proc.devRef .tc main_v226) = val_main_v226 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 263 (a := main_v179) (b := main_v225) (y := main_v226) rfl (by decide +kernel) (by decide +kernel) (by decide +kernel)]
  rw [s_main_v179 U, s_main_v225 U]
  rfl
theorem s_main_v227 (U : Valuation τ sig (Elt F)) :
    after ([] : List (HloOp τ sig (Elt F))) (after (ops (F := F)) U) (Proc.devRef .tc main_v227) = val_main_v227 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 264 (x := main_v133) (y := main_v227) rfl (by decide +kernel) (by decide +kernel)]
  rw [s_main_v133 U]
  rfl
theorem s_main_v228 (U : Valuation τ sig (Elt F)) :
    after ([] : List (HloOp τ sig (Elt F))) (after (ops (F := F)) U) (Proc.devRef .tc main_v228) = val_main_v228 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 265 (x := main_v226) (y := main_v228) rfl (by decide +kernel) (by decide +kernel)]
  rw [s_main_v226 U]
  rfl
theorem s_main_v229 (U : Valuation τ sig (Elt F)) :
    after ([] : List (HloOp τ sig (Elt F))) (after (ops (F := F)) U) (Proc.devRef .tc main_v229) = val_main_v229 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_binary hW Writes.nil 266 (a := main_v227) (b := main_v228) (y := main_v229) rfl (by decide +kernel) (by decide +kernel) (by decide +kernel)]
  rw [s_main_v227 U, s_main_v228 U]
  rfl
theorem s_main_v230 (U : Valuation τ sig (Elt F)) :
    after ([] : List (HloOp τ sig (Elt F))) (after (ops (F := F)) U) (Proc.devRef .tc main_v230) = val_main_v230 (F := F) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) := by
  rw [read_unary hW Writes.nil 267 (x := main_v229) (y := main_v230) rfl (by decide +kernel) (by decide +kernel)]
  rw [s_main_v229 U]
  rfl

set_option maxHeartbeats 4000000 in
/-- No operation of the line leaves a buffer without contents. -/
theorem ops_fresh : (ops (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 4000000 in
theorem end_main_v230 (m : (ℓ : Loc nD τ sig) → Buf (Elt F) ℓ) (c : Dev nD) :
    after (ops (F := F)) (launchContents m c) (Proc.devRef .tc main_v230)
      = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  s_main_v230 (launchContents m c)
set_option maxHeartbeats 4000000 in
theorem end_main_v226 (m : (ℓ : Loc nD τ sig) → Buf (Elt F) ℓ) (c : Dev nD) :
    after (ops (F := F)) (launchContents m c) (Proc.devRef .tc main_v226)
      = val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  s_main_v226 (launchContents m c)
theorem end_main_arg0 (m : (ℓ : Loc nD τ sig) → Buf (Elt F) ℓ) (c : Dev nD) :
    after (ops (F := F)) (launchContents m c) (Proc.devRef .tc main_arg0) = m ((c.tc : Thread nD τ).loc main_arg0) :=
  kept_main_arg0 (launchContents m c)
theorem end_main_arg1 (m : (ℓ : Loc nD τ sig) → Buf (Elt F) ℓ) (c : Dev nD) :
    after (ops (F := F)) (launchContents m c) (Proc.devRef .tc main_arg1) = m ((c.tc : Thread nD τ).loc main_arg1) :=
  kept_main_arg1 (launchContents m c)
theorem end_main_arg2 (m : (ℓ : Loc nD τ sig) → Buf (Elt F) ℓ) (c : Dev nD) :
    after (ops (F := F)) (launchContents m c) (Proc.devRef .tc main_arg2) = m ((c.tc : Thread nD τ).loc main_arg2) :=
  kept_main_arg2 (launchContents m c)
theorem end_main_arg3 (m : (ℓ : Loc nD τ sig) → Buf (Elt F) ℓ) (c : Dev nD) :
    after (ops (F := F)) (launchContents m c) (Proc.devRef .tc main_arg3) = m ((c.tc : Thread nD τ).loc main_arg3) :=
  kept_main_arg3 (launchContents m c)
theorem end_main_arg4 (m : (ℓ : Loc nD τ sig) → Buf (Elt F) ℓ) (c : Dev nD) :
    after (ops (F := F)) (launchContents m c) (Proc.devRef .tc main_arg4) = m ((c.tc : Thread nD τ).loc main_arg4) :=
  kept_main_arg4 (launchContents m c)
theorem end_main_arg5 (m : (ℓ : Loc nD τ sig) → Buf (Elt F) ℓ) (c : Dev nD) :
    after (ops (F := F)) (launchContents m c) (Proc.devRef .tc main_arg5) = m ((c.tc : Thread nD τ).loc main_arg5) :=
  kept_main_arg5 (launchContents m c)
theorem end_main_arg6 (m : (ℓ : Loc nD τ sig) → Buf (Elt F) ℓ) (c : Dev nD) :
    after (ops (F := F)) (launchContents m c) (Proc.devRef .tc main_arg6) = m ((c.tc : Thread nD τ).loc main_arg6) :=
  kept_main_arg6 (launchContents m c)
theorem end_main_arg7 (m : (ℓ : Loc nD τ sig) → Buf (Elt F) ℓ) (c : Dev nD) :
    after (ops (F := F)) (launchContents m c) (Proc.devRef .tc main_arg7) = m ((c.tc : Thread nD τ).loc main_arg7) :=
  kept_main_arg7 (launchContents m c)
theorem end_main_arg8 (m : (ℓ : Loc nD τ sig) → Buf (Elt F) ℓ) (c : Dev nD) :
    after (ops (F := F)) (launchContents m c) (Proc.devRef .tc main_arg8) = m ((c.tc : Thread nD τ).loc main_arg8) :=
  kept_main_arg8 (launchContents m c)
theorem end_main_arg9 (m : (ℓ : Loc nD τ sig) → Buf (Elt F) ℓ) (c : Dev nD) :
    after (ops (F := F)) (launchContents m c) (Proc.devRef .tc main_arg9) = m ((c.tc : Thread nD τ).loc main_arg9) :=
  kept_main_arg9 (launchContents m c)
theorem end_main_arg10 (m : (ℓ : Loc nD τ sig) → Buf (Elt F) ℓ) (c : Dev nD) :
    after (ops (F := F)) (launchContents m c) (Proc.devRef .tc main_arg10) = m ((c.tc : Thread nD τ).loc main_arg10) :=
  kept_main_arg10 (launchContents m c)
theorem end_main_arg11 (m : (ℓ : Loc nD τ sig) → Buf (Elt F) ℓ) (c : Dev nD) :
    after (ops (F := F)) (launchContents m c) (Proc.devRef .tc main_arg11) = m ((c.tc : Thread nD τ).loc main_arg11) :=
  kept_main_arg11 (launchContents m c)
theorem end_main_arg12 (m : (ℓ : Loc nD τ sig) → Buf (Elt F) ℓ) (c : Dev nD) :
    after (ops (F := F)) (launchContents m c) (Proc.devRef .tc main_arg12) = m ((c.tc : Thread nD τ).loc main_arg12) :=
  kept_main_arg12 (launchContents m c)
theorem end_main_arg13 (m : (ℓ : Loc nD τ sig) → Buf (Elt F) ℓ) (c : Dev nD) :
    after (ops (F := F)) (launchContents m c) (Proc.devRef .tc main_arg13) = m ((c.tc : Thread nD τ).loc main_arg13) :=
  kept_main_arg13 (launchContents m c)
theorem end_main_arg14 (m : (ℓ : Loc nD τ sig) → Buf (Elt F) ℓ) (c : Dev nD) :
    after (ops (F := F)) (launchContents m c) (Proc.devRef .tc main_arg14) = m ((c.tc : Thread nD τ).loc main_arg14) :=
  kept_main_arg14 (launchContents m c)
theorem end_main_arg15 (m : (ℓ : Loc nD τ sig) → Buf (Elt F) ℓ) (c : Dev nD) :
    after (ops (F := F)) (launchContents m c) (Proc.devRef .tc main_arg15) = m ((c.tc : Thread nD τ).loc main_arg15) :=
  kept_main_arg15 (launchContents m c)
theorem end_main_arg16 (m : (ℓ : Loc nD τ sig) → Buf (Elt F) ℓ) (c : Dev nD) :
    after (ops (F := F)) (launchContents m c) (Proc.devRef .tc main_arg16) = m ((c.tc : Thread nD τ).loc main_arg16) :=
  kept_main_arg16 (launchContents m c)
theorem end_main_arg17 (m : (ℓ : Loc nD τ sig) → Buf (Elt F) ℓ) (c : Dev nD) :
    after (ops (F := F)) (launchContents m c) (Proc.devRef .tc main_arg17) = m ((c.tc : Thread nD τ).loc main_arg17) :=
  kept_main_arg17 (launchContents m c)
theorem end_main_arg18 (m : (ℓ : Loc nD τ sig) → Buf (Elt F) ℓ) (c : Dev nD) :
    after (ops (F := F)) (launchContents m c) (Proc.devRef .tc main_arg18) = m ((c.tc : Thread nD τ).loc main_arg18) :=
  kept_main_arg18 (launchContents m c)

set_option maxHeartbeats 4000000 in
/-- THE RUN: every weakly fair execution terminates with both results at their stages of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v230) = val_main_v230 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v226) = val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v230).trans (end_main_v230 m c), (h c main_v226).trans (end_main_v226 m c),
      (h c main_arg0).trans (end_main_arg0 m c),
      (h c main_arg1).trans (end_main_arg1 m c),
      (h c main_arg2).trans (end_main_arg2 m c),
      (h c main_arg3).trans (end_main_arg3 m c),
      (h c main_arg4).trans (end_main_arg4 m c),
      (h c main_arg5).trans (end_main_arg5 m c),
      (h c main_arg6).trans (end_main_arg6 m c),
      (h c main_arg7).trans (end_main_arg7 m c),
      (h c main_arg8).trans (end_main_arg8 m c),
      (h c main_arg9).trans (end_main_arg9 m c),
      (h c main_arg10).trans (end_main_arg10 m c),
      (h c main_arg11).trans (end_main_arg11 m c),
      (h c main_arg12).trans (end_main_arg12 m c),
      (h c main_arg13).trans (end_main_arg13 m c),
      (h c main_arg14).trans (end_main_arg14 m c),
      (h c main_arg15).trans (end_main_arg15 m c),
      (h c main_arg16).trans (end_main_arg16 m c),
      (h c main_arg17).trans (end_main_arg17 m c),
      (h c main_arg18).trans (end_main_arg18 m c)⟩)
    (run_seq scopedRefs_eq scopedSems_eq defs main (fun _ => ops) main_eq (fun _ => ops_sub) m ρ
      (fun _ => List.forall_iff_forall_mem.mp ops_fresh))

end Cert.ReferenceIdeal.Line

end
-- ==== Proof.RefRun.lean ====
/-
  The reference's run with both results named by the specification.
-/
import proofs.«134143_j43731357007884_2_alg».proof.Proof.RefValue
import proofs.«134143_j43731357007884_2_alg».proof.Proof.RefLine

noncomputable section

namespace Cert.ReferenceIdeal.RefValue

open Cert.ReferenceIdeal Cert.ReferenceIdeal.Gen Idealize.ShloMosaic Idealize.ShloMosaic.StableHlo
open Idealize.ShloMosaic.ValueIdx Cert.ReferenceIdeal.ReadP Idealize.ShloMosaic.TcCoe Idealize.SL.Sem
open scoped BigOperators

variable {α : Type}

/-- The left tower's parameters in a memory. -/
def leftParams (m : (ℓ : Loc nD τ sig) → Buf (Elt Ideal) ℓ) (c : Dev nD) : Towers.Params :=
  { Wm := m ((c.tc : Thread nD τ).loc main_arg3),
    bm := m ((c.tc : Thread nD τ).loc main_arg4),
    w1 := m ((c.tc : Thread nD τ).loc main_arg7),
    b1 := m ((c.tc : Thread nD τ).loc main_arg8),
    w2 := m ((c.tc : Thread nD τ).loc main_arg9),
    b2 := m ((c.tc : Thread nD τ).loc main_arg10),
    g := m ((c.tc : Thread nD τ).loc main_arg11),
    beta := m ((c.tc : Thread nD τ).loc main_arg12) }

/-- The right tower's parameters in a memory. -/
def rightParams (m : (ℓ : Loc nD τ sig) → Buf (Elt Ideal) ℓ) (c : Dev nD) : Towers.Params :=
  { Wm := m ((c.tc : Thread nD τ).loc main_arg5),
    bm := m ((c.tc : Thread nD τ).loc main_arg6),
    w1 := m ((c.tc : Thread nD τ).loc main_arg13),
    b1 := m ((c.tc : Thread nD τ).loc main_arg14),
    w2 := m ((c.tc : Thread nD τ).loc main_arg15),
    b2 := m ((c.tc : Thread nD τ).loc main_arg16),
    g := m ((c.tc : Thread nD τ).loc main_arg17),
    beta := m ((c.tc : Thread nD τ).loc main_arg18) }

/-- On every device, from any memory with zero counters: every weakly fair execution of the reference terminates
    with the first result the specification's stack of both layers, the second its last layer, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v230)
        = Towers.allLayers (padded (m ((c.tc : Thread nD τ).loc main_arg0)) (m ((c.tc : Thread nD τ).loc main_arg1)) (m ((c.tc : Thread nD τ).loc main_arg2))) (leftParams m c) (rightParams m c)
      ∧ r.2.mem ((c.tc : Thread nD τ).loc main_v226)
        = Towers.lastLayer (padded (m ((c.tc : Thread nD τ).loc main_arg0)) (m ((c.tc : Thread nD τ).loc main_arg1)) (m ((c.tc : Thread nD τ).loc main_arg2))) (leftParams m c) (rightParams m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    ⟨(h c).1.trans (allLayers_eq _ _ _ _ _ _ _ _ _ _ _ _ _ _ _ _ _ _ _),
      (h c).2.1.trans (lastLayer_eq _ _ _ _ _ _ _ _ _ _ _ _ _ _ _ _ _ _ _),
      (h c).2.2⟩)
    (Cert.ReferenceIdeal.Line.run m ρ)

end Cert.ReferenceIdeal.RefValue

end
-- ==== Proof.lean ====
/-
  The certificate: a sliding-window two-tower network (a 4-row window projection per tower, then two residual
  feed-forward blocks with layer normalisation), computed by a pipelined kernel over 64 tiles of 32 positions
  against a plain array program.

  Frames.  The kernel reads the padded sequence through two windows of one array (a 32-position block and the 8
  positions after it); that array's buffer is held by the two windows together at half shares, and the frame run
  follows: the body at a symbolic grid point (eighteen loads' worth of input blocks, three stores), the proof data,
  the body obligation, the launch.  The same text proves the frame of the program as printed (at the word level)
  and of its idealization; the reference's frame is its run with the results dropped.

  Values.  On the extended reals both programs compute, for every position (b, s) and layer l, the same row
  function of the nine padded rows s, …, s + 8: the window product is four banded products on the kernel's side and
  one product over the 2048 joined features on the reference's — the same sum, regrouped, which needs only that
  addition is commutative and associative —; every later operation is the same operation in the same association.
  So no input need be finite and the precondition is not used.  The ideal pass rewrote nothing: `preserves` is
  trivial.
-/
import proofs.«134143_j43731357007884_2_alg».proof.Defs
import proofs.«134143_j43731357007884_2_alg».proof.Proof.Gen.Kernel
import proofs.«134143_j43731357007884_2_alg».proof.Proof.Gen.KernelIdeal
import proofs.«134143_j43731357007884_2_alg».proof.Proof.Gen.ReferenceIdeal
import proofs.«134143_j43731357007884_2_alg».proof.Proof.Gen.Pre_finite_inputs
import proofs.«134143_j43731357007884_2_alg».proof.Proof.RunBits
import proofs.«134143_j43731357007884_2_alg».proof.Proof.KernelRunIdeal
import proofs.«134143_j43731357007884_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Region.frame (F := Bits) m ρ

theorem frame_ki : Cert.frame_KernelIdeal := fun m ρ _ => Cert.KernelIdeal.Region.frame (F := Ideal) m ρ

theorem frame_ri : Cert.frame_ReferenceIdeal := fun m ρ _ =>
  (θ_run Cert.ReferenceIdeal.defs _ _).mono (fun _ h c => (h c).2.2) (Cert.ReferenceIdeal.RefValue.run m ρ)

/-- From memories agreeing on the arguments both runs end with the specification's two arrays of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · unfold Cert.ReferenceIdeal.RefValue.leftParams Cert.ReferenceIdeal.RefValue.rightParams
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2.1, (hagree c).2.2.2.2.2.2.2.2.2.2.2.2.2.2.2.1,
      (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    rfl
  · unfold Cert.ReferenceIdeal.RefValue.leftParams Cert.ReferenceIdeal.RefValue.rightParams
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2.1, (hagree c).2.2.2.2.2.2.2.2.2.2.2.2.2.2.2.1,
      (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
